-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S8x64x64 : Shape := ⟨3, ![8, 64, 64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S8x64x64 .f32) (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg6
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000 .f32) (main_arg3 : IVec S100000 32) (main_arg4 : FVec F S64x64 .f32) (main_arg5 : FVec F S64 .f32) (main_arg6 : FVec F S8x64x64 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S8x64x64 : Shape := ⟨3, ![8, 64, 64]⟩
abbrev S64x32 : Shape := ⟨2, ![64, 32]⟩
abbrev S32 : Shape := ⟨1, ![32]⟩
abbrev S1x1600000 : Shape := ⟨2, ![1, 1600000]⟩
abbrev S1x64 : Shape := ⟨2, ![1, 64]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x32 : Shape := ⟨2, ![1, 32]⟩
abbrev S512x32 : Shape := ⟨2, ![512, 32]⟩

abbrev nBuf : Space → Nat
  | .hbm => 185
  | .vmem => 82
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S8x64x64, .f32⟩
  | 7 => ⟨S64x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S1x64, .f32⟩
  | 14 => ⟨S100000x64, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S1x64x64, .f32⟩
  | 32 => ⟨S64x64, .f32⟩
  | 33 => ⟨S100000x64, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x64, .f32⟩
  | 51 => ⟨S64x64, .f32⟩
  | 52 => ⟨S100000x64, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S1x64x64, .f32⟩
  | 70 => ⟨S64x64, .f32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1x64x64, .f32⟩
  | 89 => ⟨S64x64, .f32⟩
  | 90 => ⟨S100000x64, .f32⟩
  | 91 => ⟨S1600000x1, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S1x64x64, .f32⟩
  | 108 => ⟨S64x64, .f32⟩
  | 109 => ⟨S100000x64, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S1x64x64, .f32⟩
  | 18 => ⟨S64x64, .f32⟩
  | 19 => ⟨S100000x64, .f32⟩
  | 20 => ⟨S1600000x1, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S1600000x64, .f32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S1x64x64, .f32⟩
  | 37 => ⟨S64x64, .f32⟩
  | 38 => ⟨S100000x64, .f32⟩
  | 39 => ⟨S_, .f32⟩
  | 40 => ⟨S512x64, .f32⟩
  | 41 => ⟨S100000x1, .i32⟩
  | 42 => ⟨S512x64, .f32⟩
  | 43 => ⟨S_, .f32⟩
  | 44 => ⟨S100000, .f32⟩
  | 45 => ⟨S_, .f32⟩
  | 46 => ⟨S512, .f32⟩
  | 47 => ⟨S100000x1, .i32⟩
  | 48 => ⟨S512, .f32⟩
  | 49 => ⟨S_, .f32⟩
  | 50 => ⟨S512, .f32⟩
  | 51 => ⟨S512, .f32⟩
  | 52 => ⟨S512x1, .f32⟩
  | 53 => ⟨S512x64, .f32⟩
  | 54 => ⟨S512x64, .f32⟩
  | 55 => ⟨S1x32, .f32⟩
  | 56 => ⟨S512x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S64x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S64x64, .f32⟩
  | .local _ .vmem, ⟨76, _⟩ => ⟨S5000x64, .f32⟩
  | .local _ .vmem, ⟨77, _⟩ => ⟨S5000x64, .f32⟩
  | .local _ .vmem, ⟨78, _⟩ => ⟨S512x64, .f32⟩
  | .local _ .vmem, ⟨79, _⟩ => ⟨S64x32, .f32⟩
  | .local _ .vmem, ⟨80, _⟩ => ⟨S1x32, .f32⟩
  | .local _ .vmem, ⟨81, _⟩ => ⟨S512x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_10 : Ref sig .tc := ⟨.hbm, 92, rfl⟩
abbrev main_v71 : Ref sig .tc := ⟨.hbm, 93, rfl⟩
abbrev main_v72 : Ref sig .tc := ⟨.hbm, 94, rfl⟩
abbrev main_c_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_13 : Ref sig .tc := ⟨.hbm, 111, rfl⟩
abbrev main_v87 : Ref sig .tc := ⟨.hbm, 112, rfl⟩
abbrev main_v88 : Ref sig .tc := ⟨.hbm, 113, rfl⟩
abbrev main_c_14 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_15 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_16 : Ref sig .tc := ⟨.hbm, 130, rfl⟩
abbrev main_v103 : Ref sig .tc := ⟨.hbm, 131, rfl⟩
abbrev main_v104 : Ref sig .tc := ⟨.hbm, 132, rfl⟩
abbrev main_c_17 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_18 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_c_19 : Ref sig .tc := ⟨.hbm, 149, rfl⟩
abbrev main_v119 : Ref sig .tc := ⟨.hbm, 150, rfl⟩
abbrev main_v120 : Ref sig .tc := ⟨.hbm, 151, rfl⟩
abbrev main_c_20 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_21 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_22 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_cst_24 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_25 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg4_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg4_1 : Ref sig .tc := ⟨.vmem, 77, rfl⟩
abbrev cc9_stg0_0 : Ref sig .tc := ⟨.vmem, 78, rfl⟩
abbrev cc9_stg1_0 : Ref sig .tc := ⟨.vmem, 79, rfl⟩
abbrev cc9_stg2_0 : Ref sig .tc := ⟨.vmem, 80, rfl⟩
abbrev cc9_stg3_0 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem4_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65
abbrev cc7_sem3_0 : DmaSem sig := 66
abbrev cc7_sem4_0 : DmaSem sig := 67
abbrev cc7_sem4_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc8_sem3_0 : DmaSem sig := 75
abbrev cc8_sem4_0 : DmaSem sig := 76
abbrev cc8_sem4_1 : DmaSem sig := 77
abbrev cc9_sem0_0 : DmaSem sig := 78
abbrev cc9_sem1_0 : DmaSem sig := 79
abbrev cc9_sem2_0 : DmaSem sig := 80
abbrev cc9_sem3_0 : DmaSem sig := 81

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S8x64x64_S1x64x64_0_0_0 : S8x64x64.Slices ![0, 0, 0] S1x64x64
  shapeCasts_S1x64x64_S64x64 : S1x64x64.ShapeCasts S64x64
  shapeCasts_S5000x64_S5000x64 : S5000x64.ShapeCasts S5000x64
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .f32 = 32 ∨ (Rect.block (s := S100000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x64.size a ≤ S512x64.size a
  hwx9_0 : ∀ i : grid9.Coords, EltTy.bits .f32 = 32 ∨ (Rect.block (s := S512x64) S512x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S512x32.size a ≤ S512x32.size a
  hwx9_3 : ∀ i : grid9.Coords, EltTy.bits .f32 = 32 ∨ (Rect.block (s := S512x32) S512x32.size (cc9_transform_3 i) (hinb9_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v82) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v98) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v100) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v114) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v5) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v116) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v130) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v5) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v117) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v132) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v133) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v145) S512x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v146) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v147) S512x32.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S8x64x64 : Shape := ⟨3, ![8, 64, 64]⟩
abbrev S64x32 : Shape := ⟨2, ![64, 32]⟩
abbrev S32 : Shape := ⟨1, ![32]⟩
abbrev S1x1600000 : Shape := ⟨2, ![1, 1600000]⟩
abbrev S1x64 : Shape := ⟨2, ![1, 64]⟩
abbrev S1x64x64 : Shape := ⟨3, ![1, 64, 64]⟩
abbrev S1600000x1 : Shape := ⟨2, ![1600000, 1]⟩
abbrev S_ : Shape := ⟨0, ![]⟩
abbrev S1600000x64 : Shape := ⟨2, ![1600000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 333
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S8x64x64, .f32⟩
  | 7 => ⟨S64x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S1x64, .f32⟩
  | 15 => ⟨S100000x64, .f32⟩
  | 16 => ⟨S100000x64, .f32⟩
  | 17 => ⟨S1x64x64, .f32⟩
  | 18 => ⟨S64x64, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S_, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S1x64x64, .f32⟩
  | 55 => ⟨S64x64, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1x64x64, .f32⟩
  | 92 => ⟨S64x64, .f32⟩
  | 93 => ⟨S1600000x1, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S1600000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S_, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S1x64x64, .f32⟩
  | 38 => ⟨S64x64, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x64x64, .f32⟩
  | 75 => ⟨S64x64, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x64, .f32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S_, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S1x64x64, .f32⟩
  | 112 => ⟨S64x64, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S1x64x64, .f32⟩
  | 21 => ⟨S64x64, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S_, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .f32⟩
  | 58 => ⟨S512x64, .f32⟩
  | 59 => ⟨S100000x1, .i32⟩
  | 60 => ⟨S512x64, .f32⟩
  | 61 => ⟨S_, .f32⟩
  | 62 => ⟨S100000, .f32⟩
  | 63 => ⟨S_, .f32⟩
  | 64 => ⟨S512, .f32⟩
  | 65 => ⟨S100000x1, .i32⟩
  | 66 => ⟨S512, .f32⟩
  | 67 => ⟨S_, .f32⟩
  | 68 => ⟨S512, .f32⟩
  | 69 => ⟨S512, .f32⟩
  | 70 => ⟨S512x1, .f32⟩
  | 71 => ⟨S512x64, .f32⟩
  | 72 => ⟨S512x64, .f32⟩
  | 73 => ⟨S512x32, .f32⟩
  | 74 => ⟨S1x32, .f32⟩
  | 75 => ⟨S512x32, .f32⟩
  | 76 => ⟨S512x32, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_19 : Ref sig .tc := ⟨.hbm, 131, rfl⟩
abbrev main_v95 : Ref sig .tc := ⟨.hbm, 132, rfl⟩
abbrev main_v96 : Ref sig .tc := ⟨.hbm, 133, rfl⟩
abbrev main_c_20 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_cst_23 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_25 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_call3_cst : Ref sig .tc := ⟨.hbm, 162, rfl⟩
abbrev main_call3_v0 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_26 : Ref sig .tc := ⟨.hbm, 168, rfl⟩
abbrev main_v123 : Ref sig .tc := ⟨.hbm, 169, rfl⟩
abbrev main_v124 : Ref sig .tc := ⟨.hbm, 170, rfl⟩
abbrev main_c_27 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_28 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_29 : Ref sig .tc := ⟨.hbm, 183, rfl⟩
abbrev main_v135 : Ref sig .tc := ⟨.hbm, 184, rfl⟩
abbrev main_v136 : Ref sig .tc := ⟨.hbm, 185, rfl⟩
abbrev main_cst_30 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_31 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_32 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_call4_cst : Ref sig .tc := ⟨.hbm, 199, rfl⟩
abbrev main_call4_v0 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_c_33 : Ref sig .tc := ⟨.hbm, 205, rfl⟩
abbrev main_v151 : Ref sig .tc := ⟨.hbm, 206, rfl⟩
abbrev main_v152 : Ref sig .tc := ⟨.hbm, 207, rfl⟩
abbrev main_c_34 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_35 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_36 : Ref sig .tc := ⟨.hbm, 220, rfl⟩
abbrev main_v163 : Ref sig .tc := ⟨.hbm, 221, rfl⟩
abbrev main_v164 : Ref sig .tc := ⟨.hbm, 222, rfl⟩
abbrev main_cst_37 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_cst_38 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_39 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_call5_cst : Ref sig .tc := ⟨.hbm, 236, rfl⟩
abbrev main_call5_v0 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_c_40 : Ref sig .tc := ⟨.hbm, 242, rfl⟩
abbrev main_v179 : Ref sig .tc := ⟨.hbm, 243, rfl⟩
abbrev main_v180 : Ref sig .tc := ⟨.hbm, 244, rfl⟩
abbrev main_c_41 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_42 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_43 : Ref sig .tc := ⟨.hbm, 257, rfl⟩
abbrev main_v191 : Ref sig .tc := ⟨.hbm, 258, rfl⟩
abbrev main_v192 : Ref sig .tc := ⟨.hbm, 259, rfl⟩
abbrev main_cst_44 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_45 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_46 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_call6_cst : Ref sig .tc := ⟨.hbm, 273, rfl⟩
abbrev main_call6_v0 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_c_47 : Ref sig .tc := ⟨.hbm, 279, rfl⟩
abbrev main_v207 : Ref sig .tc := ⟨.hbm, 280, rfl⟩
abbrev main_v208 : Ref sig .tc := ⟨.hbm, 281, rfl⟩
abbrev main_c_48 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_cst_49 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_50 : Ref sig .tc := ⟨.hbm, 294, rfl⟩
abbrev main_v219 : Ref sig .tc := ⟨.hbm, 295, rfl⟩
abbrev main_v220 : Ref sig .tc := ⟨.hbm, 296, rfl⟩
abbrev main_cst_51 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_cst_52 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_cst_53 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_call7_cst : Ref sig .tc := ⟨.hbm, 310, rfl⟩
abbrev main_call7_v0 : Ref sig .tc := ⟨.hbm, 311, rfl⟩
abbrev main_v231 : Ref sig .tc := ⟨.hbm, 312, rfl⟩
abbrev main_cst_54 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_cst_55 : Ref sig .tc := ⟨.hbm, 317, rfl⟩
abbrev main_v235 : Ref sig .tc := ⟨.hbm, 318, rfl⟩
abbrev main_cst_56 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_cst_57 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S8x64x64_S1x64x64_0_0_0 : S8x64x64.Slices ![0, 0, 0] S1x64x64
  shapeCasts_S1x64x64_S64x64 : S1x64x64.ShapeCasts S64x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.FrameBits.Reg0.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the input projection of a block of 5000 nodes, at the entry contents `V`

The call reads a block of rows of the left factor, the whole weight and the bias laid out as one row; it writes the same
block of rows of the product plus the bias. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffers, as rectangles. -/
abbrev rLeft0 : Rect S5000x64 := Rect.unit (s := S5000x64) ![0, 0] S5000x64.size inb_S5000x64_S5000x64_0_0
abbrev rWeight0 : Rect S64x64 := Rect.unit (s := S64x64) ![0, 0] S64x64.size inb_S64x64_S64x64_0_0
abbrev rBias0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-- What the body leaves in the output's staging buffer: its one whole-buffer store of the product plus the bias. -/
def out0_3 (x0 : Vec F S5000x64 .f32) (x1 : Vec F S64x64 .f32) (x2 : Vec F S1x64 .f32) : Vec F S5000x64 .f32 :=
  View.canon [⟨rOut0, k0_pay1 (View.ld x0 rLeft0) (View.ld x1 rWeight0) (View.ld x2 rBias0)⟩]

/-- The one store covers the buffer. -/
theorem cover0_3 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

set_option maxHeartbeats 1000000 in
/-- The body on whole staging memrefs: the three inputs keep their contents, the output ends at `out0_3` of them. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end

section
variable (V : (c : Dev nD) → (b : Ref sig .tc) → Buf (Elt F) ((c : Thread nD τ).loc b))

/-- The proof data of region 0 on core `c`: the arrays as the region finds them; after the body at point `t` every input's
    buffer still at its block and the output's at the product plus the bias; nothing owed; every window alone on its array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t
    = out0_3 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the body's triple applies; the invariant and
    the core's dues pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end

end Cert.Kernel.Hand

end
-- ==== Proof.FrameBits.Reg1.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 5000x64 staging buffer and the whole 64x64 one, as rectangles. -/
abbrev rRows1 : Rect S5000x64 := Rect.unit (s := S5000x64) ![0, 0] S5000x64.size inb_S5000x64_S5000x64_0_0
abbrev rWeight1 : Rect S64x64 := Rect.unit (s := S64x64) ![0, 0] S64x64.size inb_S64x64_S64x64_0_0

/-- What the body leaves in the output's staging buffer: its one whole-buffer store of the layer's update of the four blocks. -/
def out1_4 (x0 x1 x2 : Vec F S5000x64 .f32) (x3 : Vec F S64x64 .f32) : Vec F S5000x64 .f32 :=
  View.canon [⟨rRows1, k1_pay1 (View.ld x0 rRows1) (View.ld x1 rRows1) (View.ld x2 rRows1) (View.ld x3 rWeight1)⟩]

/-- The one store covers the buffer. -/
theorem cover1_4 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs: the four inputs keep their contents, the output ends at `out1_4` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end

section
variable (V : (c : Dev nD) → (b : Ref sig .tc) → Buf (Elt F) ((c : Thread nD τ).loc b))

/-- The proof data of region 1 on core `c`: the arrays as the region finds them; after the body at point `t` every input's
    buffer still at its block and the output's at the layer's update of the four blocks; nothing owed. The shares `q` are a
    parameter: a window that is alone on its array holds it whole, windows that read one array split it. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t
    = out1_4 (iblk1 V c 0 t) (iblk1 V c 1 t) (iblk1 V c 2 t) (iblk1 V c 3 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t))

/-- The body at any point: the inputs' staging buffers hold their blocks, so the body's triple applies; the invariant and
    the core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).Φ t.succ = (dat1 V q c).Φ t.castSucc from rfl,
    show (dat1 V q c).owesAt () t.succ = (dat1 V q c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end

end Cert.Kernel.Hand

end
-- ==== Proof.FrameBits.Reg2.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not the point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000x64 staging buffer and the whole 64x64 one, as rectangles. -/
abbrev rRows2 : Rect S5000x64 := Rect.unit (s := S5000x64) ![0, 0] S5000x64.size inb_S5000x64_S5000x64_0_0
abbrev rWeight2 : Rect S64x64 := Rect.unit (s := S64x64) ![0, 0] S64x64.size inb_S64x64_S64x64_0_0

/-- What the body leaves in the output's staging buffer: its one whole-buffer store of the layer's update of the four blocks. -/
def out2_4 (x0 x1 x2 : Vec F S5000x64 .f32) (x3 : Vec F S64x64 .f32) : Vec F S5000x64 .f32 :=
  View.canon [⟨rRows2, k2_pay1 (View.ld x0 rRows2) (View.ld x1 rRows2) (View.ld x2 rRows2) (View.ld x3 rWeight2)⟩]

/-- The one store covers the buffer. -/
theorem cover2_4 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging memrefs: the four inputs keep their contents, the output ends at `out2_4` of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

end

section
variable (V : (c : Dev nD) → (b : Ref sig .tc) → Buf (Elt F) ((c : Thread nD τ).loc b))

/-- The proof data of region 2 on core `c`: the arrays as the region finds them; after the body at point `t` every input's
    buffer still at its block and the output's at the layer's update of the four blocks; nothing owed. The shares `q` are a
    parameter: a window that is alone on its array holds it whole, windows that read one array split it. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t
    = out2_4 (iblk2 V c 0 t) (iblk2 V c 1 t) (iblk2 V c 2 t) (iblk2 V c 3 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t))

/-- The body at any point: the inputs' staging buffers hold their blocks, so the body's triple applies; the invariant and
    the core's dues pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3]
  rw [show (dat2 V q c).Φ t.succ = (dat2 V q c).Φ t.castSucc from rfl,
    show (dat2 V q c).owesAt () t.succ = (dat2 V q c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end

end Cert.Kernel.Hand

end
-- ==== Proof.FrameBits.Reg3.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the point fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the point fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the point fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 5000x64 staging buffer and the whole 64x64 one, as rectangles. -/
abbrev rRows3 : Rect S5000x64 := Rect.unit (s := S5000x64) ![0, 0] S5000x64.size inb_S5000x64_S5000x64_0_0
abbrev rWeight3 : Rect S64x64 := Rect.unit (s := S64x64) ![0, 0] S64x64.size inb_S64x64_S64x64_0_0

/-- What the body leaves in the output's staging buffer: its one whole-buffer store of the layer's update of the four blocks. -/
def out3_4 (x0 x1 x2 : Vec F S5000x64 .f32) (x3 : Vec F S64x64 .f32) : Vec F S5000x64 .f32 :=
  View.canon [⟨rRows3, k3_pay1 (View.ld x0 rRows3) (View.ld x1 rRows3) (View.ld x2 rRows3) (View.ld x3 rWeight3)⟩]

/-- The one store covers the buffer. -/
theorem cover3_4 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body on whole staging memrefs: the four inputs keep their contents, the output ends at `out3_4` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__layer_kernel i arg1 harg1 arg2 harg2 arg3 harg3 arg4 harg4 arg5 harg5) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end

section
variable (V : (c : Dev nD) → (b : Ref sig .tc) → Buf (Elt F) ((c : Thread nD τ).loc b))

/-- The proof data of region 3 on core `c`: the arrays as the region finds them; after the body at point `t` every input's
    buffer still at its block and the output's at the layer's update of the four blocks; nothing owed. The shares `q` are a
    parameter: a window that is alone on its array holds it whole, windows that read one array split it. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := by
  dsimp only [dat3]

theorem after3_0 (c : Dev nD) (t : Fin cfg3.N) : (dat3 V q c).after 0 t = iblk3 V c 0 t := by dsimp only [dat3]
theorem after3_1 (c : Dev nD) (t : Fin cfg3.N) : (dat3 V q c).after 1 t = iblk3 V c 1 t := by dsimp only [dat3]
theorem after3_2 (c : Dev nD) (t : Fin cfg3.N) : (dat3 V q c).after 2 t = iblk3 V c 2 t := by dsimp only [dat3]
theorem after3_3 (c : Dev nD) (t : Fin cfg3.N) : (dat3 V q c).after 3 t = iblk3 V c 3 t := by dsimp only [dat3]
theorem after3_4 (c : Dev nD) (t : Fin cfg3.N) : (dat3 V q c).after 4 t
    = out3_4 (iblk3 V c 0 t) (iblk3 V c 1 t) (iblk3 V c 2 t) (iblk3 V c 3 t) := by dsimp only [dat3]

theorem before3_0 (c : Dev nD) (t : Fin cfg3.N) (d) : (dat3 V q c).before 0 t d = iblk3 V c 0 t :=
  before3_0_of V (dat3 V q c) (A_eq3 V q c 0) (after3_0 V q c) t d
theorem before3_1 (c : Dev nD) (t : Fin cfg3.N) (d) : (dat3 V q c).before 1 t d = iblk3 V c 1 t :=
  before3_1_of V (dat3 V q c) (A_eq3 V q c 1) (after3_1 V q c) t d
theorem before3_2 (c : Dev nD) (t : Fin cfg3.N) (d) : (dat3 V q c).before 2 t d = iblk3 V c 2 t :=
  before3_2_of V (dat3 V q c) (A_eq3 V q c 2) (after3_2 V q c) t d
theorem before3_3 (c : Dev nD) (t : Fin cfg3.N) (d) : (dat3 V q c).before 3 t d = iblk3 V c 3 t :=
  before3_3_of V (dat3 V q c) (A_eq3 V q c 3) (after3_3 V q c) t d

/-- What the body is called with at point `t`, the windows one by one, -/
def bodyPre3 (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d)))

/-- and what it returns. -/
def bodyPost3 (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t))

/-- The body at any point: the inputs' staging buffers hold their blocks, so the body's triple applies; the invariant and
    the core's dues pass through unread. -/
theorem sound_body3 (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).Φ t.succ = (dat3 V q c).Φ t.castSucc from rfl,
    show (dat3 V q c).owesAt () t.succ = (dat3 V q c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V q c) (defs₀ (F := F)) Variants.none () Set.univ := fun t => by
  rw [bigSep_W3, bigSep_W3]
  exact sound_body3 V q c t

end

end Cert.Kernel.Hand

end
-- ==== Proof.FrameBits.Reg4.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the point fetched it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the point fetched it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the point fetched it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 5000x64 staging buffer and the whole 64x64 one, as rectangles. -/
abbrev rRows4 : Rect S5000x64 := Rect.unit (s := S5000x64) ![0, 0] S5000x64.size inb_S5000x64_S5000x64_0_0
abbrev rWeight4 : Rect S64x64 := Rect.unit (s := S64x64) ![0, 0] S64x64.size inb_S64x64_S64x64_0_0

/-- What the body leaves in the output's staging buffer: its one whole-buffer store of the layer's update of the four blocks. -/
def out4_4 (x0 x1 x2 : Vec F S5000x64 .f32) (x3 : Vec F S64x64 .f32) : Vec F S5000x64 .f32 :=
  View.canon [⟨rRows4, k4_pay1 (View.ld x0 rRows4) (View.ld x1 rRows4) (View.ld x2 rRows4) (View.ld x3 rWeight4)⟩]

/-- The one store covers the buffer. -/
theorem cover4_4 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body on whole staging memrefs: the four inputs keep their contents, the output ends at `out4_4` of them. -/
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__layer_kernel i arg1 harg1 arg2 harg2 arg3 harg3 arg4 harg4 arg5 harg5) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

end

section
variable (V : (c : Dev nD) → (b : Ref sig .tc) → Buf (Elt F) ((c : Thread nD τ).loc b))

/-- The proof data of region 4 on core `c`: the arrays as the region finds them; after the body at point `t` every input's
    buffer still at its block and the output's at the layer's update of the four blocks; nothing owed. The shares `q` are a
    parameter: a window that is alone on its array holds it whole, windows that read one array split it. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t
    = out4_4 (iblk4 V c 0 t) (iblk4 V c 1 t) (iblk4 V c 2 t) (iblk4 V c 3 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d

/-- What the body is called with at point `t`, the windows one by one, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t))

/-- The body at any point: the inputs' staging buffers hold their blocks, so the body's triple applies; the invariant and
    the core's dues pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3]
  rw [show (dat4 V q c).Φ t.succ = (dat4 V q c).Φ t.castSucc from rfl,
    show (dat4 V q c).owesAt () t.succ = (dat4 V q c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V q c) (defs₀ (F := F)) Variants.none () Set.univ := fun t => by
  rw [bigSep_W4, bigSep_W4]
  exact sound_body4 V q c t

end

end Cert.Kernel.Hand

end
-- ==== Proof.FrameBits.Reg5.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the point fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the point fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the point fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 5000x64 staging buffer and the whole 64x64 one, as rectangles. -/
abbrev rRows5 : Rect S5000x64 := Rect.unit (s := S5000x64) ![0, 0] S5000x64.size inb_S5000x64_S5000x64_0_0
abbrev rWeight5 : Rect S64x64 := Rect.unit (s := S64x64) ![0, 0] S64x64.size inb_S64x64_S64x64_0_0

/-- What the body leaves in the output's staging buffer: its one whole-buffer store of the layer's update of the four blocks. -/
def out5_4 (x0 x1 x2 : Vec F S5000x64 .f32) (x3 : Vec F S64x64 .f32) : Vec F S5000x64 .f32 :=
  View.canon [⟨rRows5, k5_pay1 (View.ld x0 rRows5) (View.ld x1 rRows5) (View.ld x2 rRows5) (View.ld x3 rWeight5)⟩]

/-- The one store covers the buffer. -/
theorem cover5_4 (p0 : Vec F S5000x64 .f32) (y : S5000x64.Idx) :
    ∃ pc ∈ ([⟨rRows5, p0⟩] : List (View.Piece (Elt F) S5000x64 .f32)), y ∈ pc.1.set :=
  View.cover_of_tiled [⟨rRows5, p0⟩] S5000x64.size (by rfl) y

set_option maxHeartbeats 1000000 in
/-- The body on whole staging memrefs: the four inputs keep their contents, the output ends at `out5_4` of them. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__layer_kernel i arg1 harg1 arg2 harg2 arg3 harg3 arg4 harg4 arg5 harg5) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

end

section
variable (V : (c : Dev nD) → (b : Ref sig .tc) → Buf (Elt F) ((c : Thread nD τ).loc b))

/-- The proof data of region 5 on core `c`: the arrays as the region finds them; after the body at point `t` every input's
    buffer still at its block and the output's at the layer's update of the four blocks; nothing owed. The shares `q` are a
    parameter: a window that is alone on its array holds it whole, windows that read one array split it. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = iblk5 V c 2 t := by dsimp only [dat5]
theorem after5_3 (c : Dev nD) (t : Fin cfg5.N) : (dat5 V q c).after 3 t = iblk5 V c 3 t := by dsimp only [dat5]
theorem after5_4 (c : Dev nD) (t : Fin cfg5.N) : (dat5 V q c).after 4 t
    = out5_4 (iblk5 V c 0 t) (iblk5 V c 1 t) (iblk5 V c 2 t) (iblk5 V c 3 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d
theorem before5_2 (c : Dev nD) (t : Fin cfg5.N) (d) : (dat5 V q c).before 2 t d = iblk5 V c 2 t :=
  before5_2_of V (dat5 V q c) (A_eq5 V q c 2) (after5_2 V q c) t d
theorem before5_3 (c : Dev nD) (t : Fin cfg5.N) (d) : (dat5 V q c).before 3 t d = iblk5 V c 3 t :=
  before5_3_of V (dat5 V q c) (A_eq5 V q c 3) (after5_3 V q c) t d

/-- What the body is called with at point `t`, the windows one by one, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d))
    ∗ (∃ d, owns (c : Thread nD τ) (st5_3 t) fullShare ((dat5 V q c).before 3 t d))
    ∗ (∃ d, owns (c : Thread nD τ) (st5_4 t) fullShare ((dat5 V q c).before 4 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t)
    ∗ owns (c : Thread nD τ) (st5_3 t) fullShare ((dat5 V q c).after 3 t)
    ∗ owns (c : Thread nD τ) (st5_4 t) fullShare ((dat5 V q c).after 4 t))

/-- The body at any point: the inputs' staging buffers hold their blocks, so the body's triple applies; the invariant and
    the core's dues pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1, before5_2, before5_3]
  rw [show (dat5 V q c).Φ t.succ = (dat5 V q c).Φ t.castSucc from rfl,
    show (dat5 V q c).owesAt () t.succ = (dat5 V q c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V q c) (defs₀ (F := F)) Variants.none () Set.univ := fun t => by
  rw [bigSep_W5, bigSep_W5]
  exact sound_body5 V q c t

end

end Cert.Kernel.Hand

end
-- ==== Proof.FrameBits.Reg6.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not the point fetched it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not the point fetched it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not the point fetched it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole 5000x64 staging buffer and the whole 64x64 one, as rectangles. -/
abbrev rRows6 : Rect S5000x64 := Rect.unit (s := S5000x64) ![0, 0] S5000x64.size inb_S5000x64_S5000x64_0_0
abbrev rWeight6 : Rect S64x64 := Rect.unit (s := S64x64) ![0, 0] S64x64.size inb_S64x64_S64x64_0_0

/-- What the body leaves in the output's staging buffer: its one whole-buffer store of the layer's update of the four blocks. -/
def out6_4 (x0 x1 x2 : Vec F S5000x64 .f32) (x3 : Vec F S64x64 .f32) : Vec F S5000x64 .f32 :=
  View.canon [⟨rRows6, k6_pay1 (View.ld x0 rRows6) (View.ld x1 rRows6) (View.ld x2 rRows6) (View.ld x3 rWeight6)⟩]

/-- The one store covers the buffer. -/
theorem cover6_4 (p0 : Vec F S5000x64 .f32) (y : S5000x64.Idx) :
    ∃ pc ∈ ([⟨rRows6, p0⟩] : List (View.Piece (Elt F) S5000x64 .f32)), y ∈ pc.1.set :=
  View.cover_of_tiled [⟨rRows6, p0⟩] S5000x64.size (by rfl) y

set_option maxHeartbeats 1000000 in
/-- The body on whole staging memrefs: the four inputs keep their contents, the output ends at `out6_4` of them. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__layer_kernel i arg1 harg1 arg2 harg2 arg3 harg3 arg4 harg4 arg5 harg5) K := by
  simp only [cc6__layer_kernel_eq_skeleton]; unfold cc6__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

end

section
variable (V : (c : Dev nD) → (b : Ref sig .tc) → Buf (Elt F) ((c : Thread nD τ).loc b))

/-- The proof data of region 6 on core `c`: the arrays as the region finds them; after the body at point `t` every input's
    buffer still at its block and the output's at the layer's update of the four blocks; nothing owed. The shares `q` are a
    parameter: a window that is alone on its array holds it whole, windows that read one array split it. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := by
  dsimp only [dat6]

theorem after6_0 (c : Dev nD) (t : Fin cfg6.N) : (dat6 V q c).after 0 t = iblk6 V c 0 t := by dsimp only [dat6]
theorem after6_1 (c : Dev nD) (t : Fin cfg6.N) : (dat6 V q c).after 1 t = iblk6 V c 1 t := by dsimp only [dat6]
theorem after6_2 (c : Dev nD) (t : Fin cfg6.N) : (dat6 V q c).after 2 t = iblk6 V c 2 t := by dsimp only [dat6]
theorem after6_3 (c : Dev nD) (t : Fin cfg6.N) : (dat6 V q c).after 3 t = iblk6 V c 3 t := by dsimp only [dat6]
theorem after6_4 (c : Dev nD) (t : Fin cfg6.N) : (dat6 V q c).after 4 t
    = out6_4 (iblk6 V c 0 t) (iblk6 V c 1 t) (iblk6 V c 2 t) (iblk6 V c 3 t) := by dsimp only [dat6]

theorem before6_0 (c : Dev nD) (t : Fin cfg6.N) (d) : (dat6 V q c).before 0 t d = iblk6 V c 0 t :=
  before6_0_of V (dat6 V q c) (A_eq6 V q c 0) (after6_0 V q c) t d
theorem before6_1 (c : Dev nD) (t : Fin cfg6.N) (d) : (dat6 V q c).before 1 t d = iblk6 V c 1 t :=
  before6_1_of V (dat6 V q c) (A_eq6 V q c 1) (after6_1 V q c) t d
theorem before6_2 (c : Dev nD) (t : Fin cfg6.N) (d) : (dat6 V q c).before 2 t d = iblk6 V c 2 t :=
  before6_2_of V (dat6 V q c) (A_eq6 V q c 2) (after6_2 V q c) t d
theorem before6_3 (c : Dev nD) (t : Fin cfg6.N) (d) : (dat6 V q c).before 3 t d = iblk6 V c 3 t :=
  before6_3_of V (dat6 V q c) (A_eq6 V q c 3) (after6_3 V q c) t d

/-- What the body is called with at point `t`, the windows one by one, -/
def bodyPre6 (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d)))

/-- and what it returns. -/
def bodyPost6 (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t))

/-- The body at any point: the inputs' staging buffers hold their blocks, so the body's triple applies; the invariant and
    the core's dues pass through unread. -/
theorem sound_body6 (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3]
  rw [show (dat6 V q c).Φ t.succ = (dat6 V q c).Φ t.castSucc from rfl,
    show (dat6 V q c).owesAt () t.succ = (dat6 V q c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V q c) (defs₀ (F := F)) Variants.none () Set.univ := fun t => by
  rw [bigSep_W6, bigSep_W6]
  exact sound_body6 V q c t

end

end Cert.Kernel.Hand

end
-- ==== Proof.FrameBits.Reg7.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the point fetched it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the point fetched it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the point fetched it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the point fetched it. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole 5000x64 staging buffer and the whole 64x64 one, as rectangles. -/
abbrev rRows7 : Rect S5000x64 := Rect.unit (s := S5000x64) ![0, 0] S5000x64.size inb_S5000x64_S5000x64_0_0
abbrev rWeight7 : Rect S64x64 := Rect.unit (s := S64x64) ![0, 0] S64x64.size inb_S64x64_S64x64_0_0

/-- What the body leaves in the output's staging buffer: its one whole-buffer store of the layer's update of the four blocks. -/
def out7_4 (x0 x1 x2 : Vec F S5000x64 .f32) (x3 : Vec F S64x64 .f32) : Vec F S5000x64 .f32 :=
  View.canon [⟨rRows7, k7_pay1 (View.ld x0 rRows7) (View.ld x1 rRows7) (View.ld x2 rRows7) (View.ld x3 rWeight7)⟩]

/-- The one store covers the buffer. -/
theorem cover7_4 (p0 : Vec F S5000x64 .f32) (y : S5000x64.Idx) :
    ∃ pc ∈ ([⟨rRows7, p0⟩] : List (View.Piece (Elt F) S5000x64 .f32)), y ∈ pc.1.set :=
  View.cover_of_tiled [⟨rRows7, p0⟩] S5000x64.size (by rfl) y

set_option maxHeartbeats 1000000 in
/-- The body on whole staging memrefs: the four inputs keep their contents, the output ends at `out7_4` of them. -/
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__layer_kernel i arg1 harg1 arg2 harg2 arg3 harg3 arg4 harg4 arg5 harg5) K := by
  simp only [cc7__layer_kernel_eq_skeleton]; unfold cc7__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

end

section
variable (V : (c : Dev nD) → (b : Ref sig .tc) → Buf (Elt F) ((c : Thread nD τ).loc b))

/-- The proof data of region 7 on core `c`: the arrays as the region finds them; after the body at point `t` every input's
    buffer still at its block and the output's at the layer's update of the four blocks; nothing owed. The shares `q` are a
    parameter: a window that is alone on its array holds it whole, windows that read one array split it. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := by
  dsimp only [dat7]

theorem after7_0 (c : Dev nD) (t : Fin cfg7.N) : (dat7 V q c).after 0 t = iblk7 V c 0 t := by dsimp only [dat7]
theorem after7_1 (c : Dev nD) (t : Fin cfg7.N) : (dat7 V q c).after 1 t = iblk7 V c 1 t := by dsimp only [dat7]
theorem after7_2 (c : Dev nD) (t : Fin cfg7.N) : (dat7 V q c).after 2 t = iblk7 V c 2 t := by dsimp only [dat7]
theorem after7_3 (c : Dev nD) (t : Fin cfg7.N) : (dat7 V q c).after 3 t = iblk7 V c 3 t := by dsimp only [dat7]
theorem after7_4 (c : Dev nD) (t : Fin cfg7.N) : (dat7 V q c).after 4 t
    = out7_4 (iblk7 V c 0 t) (iblk7 V c 1 t) (iblk7 V c 2 t) (iblk7 V c 3 t) := by dsimp only [dat7]

theorem before7_0 (c : Dev nD) (t : Fin cfg7.N) (d) : (dat7 V q c).before 0 t d = iblk7 V c 0 t :=
  before7_0_of V (dat7 V q c) (A_eq7 V q c 0) (after7_0 V q c) t d
theorem before7_1 (c : Dev nD) (t : Fin cfg7.N) (d) : (dat7 V q c).before 1 t d = iblk7 V c 1 t :=
  before7_1_of V (dat7 V q c) (A_eq7 V q c 1) (after7_1 V q c) t d
theorem before7_2 (c : Dev nD) (t : Fin cfg7.N) (d) : (dat7 V q c).before 2 t d = iblk7 V c 2 t :=
  before7_2_of V (dat7 V q c) (A_eq7 V q c 2) (after7_2 V q c) t d
theorem before7_3 (c : Dev nD) (t : Fin cfg7.N) (d) : (dat7 V q c).before 3 t d = iblk7 V c 3 t :=
  before7_3_of V (dat7 V q c) (A_eq7 V q c 3) (after7_3 V q c) t d

/-- What the body is called with at point `t`, the windows one by one, -/
def bodyPre7 (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d))
    ∗ (∃ d, owns (c : Thread nD τ) (st7_3 t) fullShare ((dat7 V q c).before 3 t d))
    ∗ (∃ d, owns (c : Thread nD τ) (st7_4 t) fullShare ((dat7 V q c).before 4 t d)))

/-- and what it returns. -/
def bodyPost7 (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t)
    ∗ owns (c : Thread nD τ) (st7_3 t) fullShare ((dat7 V q c).after 3 t)
    ∗ owns (c : Thread nD τ) (st7_4 t) fullShare ((dat7 V q c).after 4 t))

/-- The body at any point: the inputs' staging buffers hold their blocks, so the body's triple applies; the invariant and
    the core's dues pass through unread. -/
theorem sound_body7 (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1, before7_2, before7_3]
  rw [show (dat7 V q c).Φ t.succ = (dat7 V q c).Φ t.castSucc from rfl,
    show (dat7 V q c).owesAt () t.succ = (dat7 V q c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V q c) (defs₀ (F := F)) Variants.none () Set.univ := fun t => by
  rw [bigSep_W7, bigSep_W7]
  exact sound_body7 V q c t

end

end Cert.Kernel.Hand

end
-- ==== Proof.FrameBits.Reg8.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether or not the point fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether or not the point fetched it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether or not the point fetched it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether or not the point fetched it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole 5000x64 staging buffer and the whole 64x64 one, as rectangles. -/
abbrev rRows8 : Rect S5000x64 := Rect.unit (s := S5000x64) ![0, 0] S5000x64.size inb_S5000x64_S5000x64_0_0
abbrev rWeight8 : Rect S64x64 := Rect.unit (s := S64x64) ![0, 0] S64x64.size inb_S64x64_S64x64_0_0

/-- What the body leaves in the output's staging buffer: its one whole-buffer store of the layer's update of the four blocks. -/
def out8_4 (x0 x1 x2 : Vec F S5000x64 .f32) (x3 : Vec F S64x64 .f32) : Vec F S5000x64 .f32 :=
  View.canon [⟨rRows8, k8_pay1 (View.ld x0 rRows8) (View.ld x1 rRows8) (View.ld x2 rRows8) (View.ld x3 rWeight8)⟩]

/-- The one store covers the buffer. -/
theorem cover8_4 (p0 : Vec F S5000x64 .f32) (y : S5000x64.Idx) :
    ∃ pc ∈ ([⟨rRows8, p0⟩] : List (View.Piece (Elt F) S5000x64 .f32)), y ∈ pc.1.set :=
  View.cover_of_tiled [⟨rRows8, p0⟩] S5000x64.size (by rfl) y

set_option maxHeartbeats 1000000 in
/-- The body on whole staging memrefs: the four inputs keep their contents, the output ends at `out8_4` of them. -/
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__layer_kernel i arg1 harg1 arg2 harg2 arg3 harg3 arg4 harg4 arg5 harg5) K := by
  simp only [cc8__layer_kernel_eq_skeleton]; unfold cc8__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

end

section
variable (V : (c : Dev nD) → (b : Ref sig .tc) → Buf (Elt F) ((c : Thread nD τ).loc b))

/-- The proof data of region 8 on core `c`: the arrays as the region finds them; after the body at point `t` every input's
    buffer still at its block and the output's at the layer's update of the four blocks; nothing owed. The shares `q` are a
    parameter: a window that is alone on its array holds it whole, windows that read one array split it. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q := q
  owed _ := 0

variable (q : Fin cfg8.W → PosShare TreeShare)

theorem A_eq8 (c : Dev nD) (w : Fin cfg8.W) : (dat8 V q c).A w = V c (Pipeline.arrRef spec8 w) := by
  dsimp only [dat8]

theorem after8_0 (c : Dev nD) (t : Fin cfg8.N) : (dat8 V q c).after 0 t = iblk8 V c 0 t := by dsimp only [dat8]
theorem after8_1 (c : Dev nD) (t : Fin cfg8.N) : (dat8 V q c).after 1 t = iblk8 V c 1 t := by dsimp only [dat8]
theorem after8_2 (c : Dev nD) (t : Fin cfg8.N) : (dat8 V q c).after 2 t = iblk8 V c 2 t := by dsimp only [dat8]
theorem after8_3 (c : Dev nD) (t : Fin cfg8.N) : (dat8 V q c).after 3 t = iblk8 V c 3 t := by dsimp only [dat8]
theorem after8_4 (c : Dev nD) (t : Fin cfg8.N) : (dat8 V q c).after 4 t
    = out8_4 (iblk8 V c 0 t) (iblk8 V c 1 t) (iblk8 V c 2 t) (iblk8 V c 3 t) := by dsimp only [dat8]

theorem before8_0 (c : Dev nD) (t : Fin cfg8.N) (d) : (dat8 V q c).before 0 t d = iblk8 V c 0 t :=
  before8_0_of V (dat8 V q c) (A_eq8 V q c 0) (after8_0 V q c) t d
theorem before8_1 (c : Dev nD) (t : Fin cfg8.N) (d) : (dat8 V q c).before 1 t d = iblk8 V c 1 t :=
  before8_1_of V (dat8 V q c) (A_eq8 V q c 1) (after8_1 V q c) t d
theorem before8_2 (c : Dev nD) (t : Fin cfg8.N) (d) : (dat8 V q c).before 2 t d = iblk8 V c 2 t :=
  before8_2_of V (dat8 V q c) (A_eq8 V q c 2) (after8_2 V q c) t d
theorem before8_3 (c : Dev nD) (t : Fin cfg8.N) (d) : (dat8 V q c).before 3 t d = iblk8 V c 3 t :=
  before8_3_of V (dat8 V q c) (A_eq8 V q c 3) (after8_3 V q c) t d

/-- What the body is called with at point `t`, the windows one by one, -/
def bodyPre8 (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d)))

/-- and what it returns. -/
def bodyPost8 (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t))

/-- The body at any point: the inputs' staging buffers hold their blocks, so the body's triple applies; the invariant and
    the core's dues pass through unread. -/
theorem sound_body8 (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3]
  rw [show (dat8 V q c).Φ t.succ = (dat8 V q c).Φ t.castSucc from rfl,
    show (dat8 V q c).owesAt () t.succ = (dat8 V q c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V q c) (defs₀ (F := F)) Variants.none () Set.univ := fun t => by
  rw [bigSep_W8, bigSep_W8]
  exact sound_body8 V q c t

end

end Cert.Kernel.Hand

end
-- ==== Proof.FrameBits.Reg9.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: the output projection of the 512 pooled rows, at the entry contents `V`

The call reads a block of rows of the left factor, the whole weight and the bias laid out as one row; it writes the same
block of rows of the product plus the bias. -/

section
variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not the point fetched it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not the point fetched it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not the point fetched it. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole staging buffers, as rectangles. -/
abbrev rLeft9 : Rect S512x64 := Rect.unit (s := S512x64) ![0, 0] S512x64.size inb_S512x64_S512x64_0_0
abbrev rWeight9 : Rect S64x32 := Rect.unit (s := S64x32) ![0, 0] S64x32.size inb_S64x32_S64x32_0_0
abbrev rBias9 : Rect S1x32 := Rect.unit (s := S1x32) ![0, 0] S1x32.size inb_S1x32_S1x32_0_0
abbrev rOut9 : Rect S512x32 := Rect.unit (s := S512x32) ![0, 0] S512x32.size inb_S512x32_S512x32_0_0

/-- What the body leaves in the output's staging buffer: its one whole-buffer store of the product plus the bias. -/
def out9_3 (x0 : Vec F S512x64 .f32) (x1 : Vec F S64x32 .f32) (x2 : Vec F S1x32 .f32) : Vec F S512x32 .f32 :=
  View.canon [⟨rOut9, k9_pay1 (View.ld x0 rLeft9) (View.ld x1 rWeight9) (View.ld x2 rBias9)⟩]

/-- The one store covers the buffer. -/
theorem cover9_3 (p0 : Vec F S512x32 .f32) (y : S512x32.Idx) :
    ∃ pc ∈ ([⟨rOut9, p0⟩] : List (View.Piece (Elt F) S512x32 .f32)), y ∈ pc.1.set :=
  View.cover_of_tiled [⟨rOut9, p0⟩] S512x32.size (by rfl) y

set_option maxHeartbeats 1000000 in
/-- The body on whole staging memrefs: the three inputs keep their contents, the output ends at `out9_3` of them. -/
theorem sound_kernel9 (c : Dev nD) (E : Set ℕ) (i : grid9.Coords)
    (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S512x32 .f32) (harg4 : arg4.IsWhole)
    (x0 : Vec F S512x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__affine_kernel i arg1 harg1 arg2 harg2 arg3 harg3 arg4 harg4) K := by
  simp only [cc9__affine_kernel_eq_skeleton]; unfold cc9__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

end

section
variable (V : (c : Dev nD) → (b : Ref sig .tc) → Buf (Elt F) ((c : Thread nD τ).loc b))

/-- The proof data of region 9 on core `c`: the arrays as the region finds them; after the body at point `t` every input's
    buffer still at its block and the output's at the product plus the bias; nothing owed; every window alone on its array. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q := q
  owed _ := 0

variable (q : Fin cfg9.W → PosShare TreeShare)

theorem A_eq9 (c : Dev nD) (w : Fin cfg9.W) : (dat9 V q c).A w = V c (Pipeline.arrRef spec9 w) := by
  dsimp only [dat9]

theorem after9_0 (c : Dev nD) (t : Fin cfg9.N) : (dat9 V q c).after 0 t = iblk9 V c 0 t := by dsimp only [dat9]
theorem after9_1 (c : Dev nD) (t : Fin cfg9.N) : (dat9 V q c).after 1 t = iblk9 V c 1 t := by dsimp only [dat9]
theorem after9_2 (c : Dev nD) (t : Fin cfg9.N) : (dat9 V q c).after 2 t = iblk9 V c 2 t := by dsimp only [dat9]
theorem after9_3 (c : Dev nD) (t : Fin cfg9.N) : (dat9 V q c).after 3 t
    = out9_3 (iblk9 V c 0 t) (iblk9 V c 1 t) (iblk9 V c 2 t) := by dsimp only [dat9]

theorem before9_0 (c : Dev nD) (t : Fin cfg9.N) (d) : (dat9 V q c).before 0 t d = iblk9 V c 0 t :=
  before9_0_of V (dat9 V q c) (A_eq9 V q c 0) (after9_0 V q c) t d
theorem before9_1 (c : Dev nD) (t : Fin cfg9.N) (d) : (dat9 V q c).before 1 t d = iblk9 V c 1 t :=
  before9_1_of V (dat9 V q c) (A_eq9 V q c 1) (after9_1 V q c) t d
theorem before9_2 (c : Dev nD) (t : Fin cfg9.N) (d) : (dat9 V q c).before 2 t d = iblk9 V c 2 t :=
  before9_2_of V (dat9 V q c) (A_eq9 V q c 2) (after9_2 V q c) t d

/-- What the body is called with at point `t`, the windows one by one, -/
def bodyPre9 (c : Dev nD) (t : Fin cfg9.N) : sProp 𝕄 :=
  iprop((dat9 V q c).Φ t.castSucc ∗ (dat9 V q c).owesAt () t.castSucc
    ∗ (∃ d, owns (c : Thread nD τ) (st9_0 t) fullShare ((dat9 V q c).before 0 t d))
    ∗ (∃ d, owns (c : Thread nD τ) (st9_1 t) fullShare ((dat9 V q c).before 1 t d))
    ∗ (∃ d, owns (c : Thread nD τ) (st9_2 t) fullShare ((dat9 V q c).before 2 t d))
    ∗ (∃ d, owns (c : Thread nD τ) (st9_3 t) fullShare ((dat9 V q c).before 3 t d)))

/-- and what it returns. -/
def bodyPost9 (c : Dev nD) (t : Fin cfg9.N) : sProp 𝕄 :=
  iprop((dat9 V q c).Φ t.succ ∗ (dat9 V q c).owesAt () t.succ
    ∗ owns (c : Thread nD τ) (st9_0 t) fullShare ((dat9 V q c).after 0 t)
    ∗ owns (c : Thread nD τ) (st9_1 t) fullShare ((dat9 V q c).after 1 t)
    ∗ owns (c : Thread nD τ) (st9_2 t) fullShare ((dat9 V q c).after 2 t)
    ∗ owns (c : Thread nD τ) (st9_3 t) fullShare ((dat9 V q c).after 3 t))

/-- The body at any point: the inputs' staging buffers hold their blocks, so the body's triple applies; the invariant and
    the core's dues pass through unread. -/
theorem sound_body9 (c : Dev nD) (t : Fin cfg9.N) :
    bodyPre9 V q c t ⊢ wp frame (wpE (defs₀ (F := F)) Variants.none c none) Set.univ (bodyAt9 t) (fun _ => bodyPost9 V q c t) := by
  unfold bodyPre9 bodyPost9 bodyAt9
  simp only [before9_0, before9_1, before9_2]
  rw [show (dat9 V q c).Φ t.succ = (dat9 V q c).Φ t.castSucc from rfl,
    show (dat9 V q c).owesAt () t.succ = (dat9 V q c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V q c) (defs₀ (F := F)) Variants.none () Set.univ := fun t => by
  rw [bigSep_W9, bigSep_W9]
  exact sound_body9 V q c t

end

end Cert.Kernel.Hand

end
-- ==== Proof.FrameBits.Chain.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Reg0
import proofs.«108571_j70514773065745_1_alg».proof.Proof.FrameBits.Reg1
import proofs.«108571_j70514773065745_1_alg».proof.Proof.FrameBits.Reg2
import proofs.«108571_j70514773065745_1_alg».proof.Proof.FrameBits.Reg3
import proofs.«108571_j70514773065745_1_alg».proof.Proof.FrameBits.Reg4
import proofs.«108571_j70514773065745_1_alg».proof.Proof.FrameBits.Reg5
import proofs.«108571_j70514773065745_1_alg».proof.Proof.FrameBits.Reg6
import proofs.«108571_j70514773065745_1_alg».proof.Proof.FrameBits.Reg7
import proofs.«108571_j70514773065745_1_alg».proof.Proof.FrameBits.Reg8
import proofs.«108571_j70514773065745_1_alg».proof.Proof.FrameBits.Reg9
import proofs.«108571_j70514773065745_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of @main, and the regions' proof data there

@main is ten kernel regions among stretches of host operations. Between two items every unscoped buffer of a core holds a
definite array: the launch contents, then each host stretch's operations applied in order, then — after a region — the
region's one output array at what its write-backs leave, every other buffer as it was. -/

variable (m : (ℓ : Loc nD τ sig) → Buf (Elt F) ℓ)

/-- Every window alone on its array holds it whole. -/
abbrev qWhole {n : ℕ} : Fin n → PosShare TreeShare := fun _ => fullShare

/-- Region 1 reads the initial features through two windows (they are also the current features of the first layer):
    the two windows hold one half of that array each. -/
def qFirst : Fin cfg1.W → PosShare TreeShare
  | ⟨1, _⟩ => fullShare.left
  | ⟨2, _⟩ => fullShare.right
  | _ => fullShare

/-- Core `c`'s buffers at launch. -/
abbrev W0 : Dev nD → Valuation τ sig (Elt F) := fun c b => m (c, b)
/-- After host stretch 0: region 0's entry. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- What region 0 leaves in its output array: the write-backs of all its grid points folded over the entry contents. -/
def X0 (c : Dev nD) : Buf (Elt F) ((c : Thread nD τ).loc main_v5) := (dat0 (U1 m) qWhole c).arrAt 3 cfg0.N
/-- After region 0: its output array at what the region leaves, every other buffer as at entry. -/
abbrev W2 : Dev nD → Valuation τ sig (Elt F) := fun c => Function.update (W1 m c) (Proc.devRef .tc main_v5) (X0 m c)
abbrev U2 : (c : Dev nD) → (b : Ref sig .tc) → Buf (Elt F) ((c : Thread nD τ).loc b) := fun c b => W2 m c b
/-- After host stretch 1: region 1's entry. -/
abbrev W3 : Dev nD → Valuation τ sig (Elt F) := fun c => StableHlo.after hostOps1 (W2 m c)
/-- The same, read at the TensorCore's references. -/
abbrev U3 : (c : Dev nD) → (b : Ref sig .tc) → Buf (Elt F) ((c : Thread nD τ).loc b) := fun c b => W3 m c b
/-- What region 1 leaves in its output array: the write-backs of all its grid points folded over the entry contents. -/
def X1 (c : Dev nD) : Buf (Elt F) ((c : Thread nD τ).loc main_v21) := (dat1 (U3 m) qFirst c).arrAt 4 cfg1.N
/-- After region 1: its output array at what the region leaves, every other buffer as at entry. -/
abbrev W4 : Dev nD → Valuation τ sig (Elt F) := fun c => Function.update (W3 m c) (Proc.devRef .tc main_v21) (X1 m c)
abbrev U4 : (c : Dev nD) → (b : Ref sig .tc) → Buf (Elt F) ((c : Thread nD τ).loc b) := fun c b => W4 m c b
/-- After host stretch 2: region 2's entry. -/
abbrev W5 : Dev nD → Valuation τ sig (Elt F) := fun c => StableHlo.after hostOps2 (W4 m c)
/-- The same, read at the TensorCore's references. -/
abbrev U5 : (c : Dev nD) → (b : Ref sig .tc) → Buf (Elt F) ((c : Thread nD τ).loc b) := fun c b => W5 m c b
/-- What region 2 leaves in its output array: the write-backs of all its grid points folded over the entry contents. -/
def X2 (c : Dev nD) : Buf (Elt F) ((c : Thread nD τ).loc main_v37) := (dat2 (U5 m) qWhole c).arrAt 4 cfg2.N
/-- After region 2: its output array at what the region leaves, every other buffer as at entry. -/
abbrev W6 : Dev nD → Valuation τ sig (Elt F) := fun c => Function.update (W5 m c) (Proc.devRef .tc main_v37) (X2 m c)
abbrev U6 : (c : Dev nD) → (b : Ref sig .tc) → Buf (Elt F) ((c : Thread nD τ).loc b) := fun c b => W6 m c b
/-- After host stretch 3: region 3's entry. -/
abbrev W7 : Dev nD → Valuation τ sig (Elt F) := fun c => StableHlo.after hostOps3 (W6 m c)
/-- The same, read at the TensorCore's references. -/
abbrev U7 : (c : Dev nD) → (b : Ref sig .tc) → Buf (Elt F) ((c : Thread nD τ).loc b) := fun c b => W7 m c b
/-- What region 3 leaves in its output array: the write-backs of all its grid points folded over the entry contents. -/
def X3 (c : Dev nD) : Buf (Elt F) ((c : Thread nD τ).loc main_v53) := (dat3 (U7 m) qWhole c).arrAt 4 cfg3.N
/-- After region 3: its output array at what the region leaves, every other buffer as at entry. -/
abbrev W8 : Dev nD → Valuation τ sig (Elt F) := fun c => Function.update (W7 m c) (Proc.devRef .tc main_v53) (X3 m c)
abbrev U8 : (c : Dev nD) → (b : Ref sig .tc) → Buf (Elt F) ((c : Thread nD τ).loc b) := fun c b => W8 m c b
/-- After host stretch 4: region 4's entry. -/
abbrev W9 : Dev nD → Valuation τ sig (Elt F) := fun c => StableHlo.after hostOps4 (W8 m c)
/-- The same, read at the TensorCore's references. -/
abbrev U9 : (c : Dev nD) → (b : Ref sig .tc) → Buf (Elt F) ((c : Thread nD τ).loc b) := fun c b => W9 m c b
/-- What region 4 leaves in its output array: the write-backs of all its grid points folded over the entry contents. -/
def X4 (c : Dev nD) : Buf (Elt F) ((c : Thread nD τ).loc main_v69) := (dat4 (U9 m) qWhole c).arrAt 4 cfg4.N
/-- After region 4: its output array at what the region leaves, every other buffer as at entry. -/
abbrev W10 : Dev nD → Valuation τ sig (Elt F) := fun c => Function.update (W9 m c) (Proc.devRef .tc main_v69) (X4 m c)
abbrev U10 : (c : Dev nD) → (b : Ref sig .tc) → Buf (Elt F) ((c : Thread nD τ).loc b) := fun c b => W10 m c b
/-- After host stretch 5: region 5's entry. -/
abbrev W11 : Dev nD → Valuation τ sig (Elt F) := fun c => StableHlo.after hostOps5 (W10 m c)
/-- The same, read at the TensorCore's references. -/
abbrev U11 : (c : Dev nD) → (b : Ref sig .tc) → Buf (Elt F) ((c : Thread nD τ).loc b) := fun c b => W11 m c b
/-- What region 5 leaves in its output array: the write-backs of all its grid points folded over the entry contents. -/
def X5 (c : Dev nD) : Buf (Elt F) ((c : Thread nD τ).loc main_v85) := (dat5 (U11 m) qWhole c).arrAt 4 cfg5.N
/-- After region 5: its output array at what the region leaves, every other buffer as at entry. -/
abbrev W12 : Dev nD → Valuation τ sig (Elt F) := fun c => Function.update (W11 m c) (Proc.devRef .tc main_v85) (X5 m c)
abbrev U12 : (c : Dev nD) → (b : Ref sig .tc) → Buf (Elt F) ((c : Thread nD τ).loc b) := fun c b => W12 m c b
/-- After host stretch 6: region 6's entry. -/
abbrev W13 : Dev nD → Valuation τ sig (Elt F) := fun c => StableHlo.after hostOps6 (W12 m c)
/-- The same, read at the TensorCore's references. -/
abbrev U13 : (c : Dev nD) → (b : Ref sig .tc) → Buf (Elt F) ((c : Thread nD τ).loc b) := fun c b => W13 m c b
/-- What region 6 leaves in its output array: the write-backs of all its grid points folded over the entry contents. -/
def X6 (c : Dev nD) : Buf (Elt F) ((c : Thread nD τ).loc main_v101) := (dat6 (U13 m) qWhole c).arrAt 4 cfg6.N
/-- After region 6: its output array at what the region leaves, every other buffer as at entry. -/
abbrev W14 : Dev nD → Valuation τ sig (Elt F) := fun c => Function.update (W13 m c) (Proc.devRef .tc main_v101) (X6 m c)
abbrev U14 : (c : Dev nD) → (b : Ref sig .tc) → Buf (Elt F) ((c : Thread nD τ).loc b) := fun c b => W14 m c b
/-- After host stretch 7: region 7's entry. -/
abbrev W15 : Dev nD → Valuation τ sig (Elt F) := fun c => StableHlo.after hostOps7 (W14 m c)
/-- The same, read at the TensorCore's references. -/
abbrev U15 : (c : Dev nD) → (b : Ref sig .tc) → Buf (Elt F) ((c : Thread nD τ).loc b) := fun c b => W15 m c b
/-- What region 7 leaves in its output array: the write-backs of all its grid points folded over the entry contents. -/
def X7 (c : Dev nD) : Buf (Elt F) ((c : Thread nD τ).loc main_v117) := (dat7 (U15 m) qWhole c).arrAt 4 cfg7.N
/-- After region 7: its output array at what the region leaves, every other buffer as at entry. -/
abbrev W16 : Dev nD → Valuation τ sig (Elt F) := fun c => Function.update (W15 m c) (Proc.devRef .tc main_v117) (X7 m c)
abbrev U16 : (c : Dev nD) → (b : Ref sig .tc) → Buf (Elt F) ((c : Thread nD τ).loc b) := fun c b => W16 m c b
/-- After host stretch 8: region 8's entry. -/
abbrev W17 : Dev nD → Valuation τ sig (Elt F) := fun c => StableHlo.after hostOps8 (W16 m c)
/-- The same, read at the TensorCore's references. -/
abbrev U17 : (c : Dev nD) → (b : Ref sig .tc) → Buf (Elt F) ((c : Thread nD τ).loc b) := fun c b => W17 m c b
/-- What region 8 leaves in its output array: the write-backs of all its grid points folded over the entry contents. -/
def X8 (c : Dev nD) : Buf (Elt F) ((c : Thread nD τ).loc main_v133) := (dat8 (U17 m) qWhole c).arrAt 4 cfg8.N
/-- After region 8: its output array at what the region leaves, every other buffer as at entry. -/
abbrev W18 : Dev nD → Valuation τ sig (Elt F) := fun c => Function.update (W17 m c) (Proc.devRef .tc main_v133) (X8 m c)
abbrev U18 : (c : Dev nD) → (b : Ref sig .tc) → Buf (Elt F) ((c : Thread nD τ).loc b) := fun c b => W18 m c b
/-- After host stretch 9: region 9's entry. -/
abbrev W19 : Dev nD → Valuation τ sig (Elt F) := fun c => StableHlo.after hostOps9 (W18 m c)
/-- The same, read at the TensorCore's references. -/
abbrev U19 : (c : Dev nD) → (b : Ref sig .tc) → Buf (Elt F) ((c : Thread nD τ).loc b) := fun c b => W19 m c b
/-- What region 9 leaves in its output array: the write-backs of all its grid points folded over the entry contents. -/
def X9 (c : Dev nD) : Buf (Elt F) ((c : Thread nD τ).loc main_v147) := (dat9 (U19 m) qWhole c).arrAt 3 cfg9.N
/-- After region 9: its output array at what the region leaves, every other buffer as at entry. -/
abbrev W20 : Dev nD → Valuation τ sig (Elt F) := fun c => Function.update (W19 m c) (Proc.devRef .tc main_v147) (X9 m c)
abbrev U20 : (c : Dev nD) → (b : Ref sig .tc) → Buf (Elt F) ((c : Thread nD τ).loc b) := fun c b => W20 m c b

/-- Every region's proof data, each at its region's entry contents. -/
def pdats : (p : Fin 10) → (c : Dev nD) → Dat τ (Elt F) Unit ℕ (UR sig nD τ) ℕ (cfgs p) c
  | ⟨0, _⟩ => fun c => dat0 (U1 m) qWhole c
  | ⟨1, _⟩ => fun c => dat1 (U3 m) qFirst c
  | ⟨2, _⟩ => fun c => dat2 (U5 m) qWhole c
  | ⟨3, _⟩ => fun c => dat3 (U7 m) qWhole c
  | ⟨4, _⟩ => fun c => dat4 (U9 m) qWhole c
  | ⟨5, _⟩ => fun c => dat5 (U11 m) qWhole c
  | ⟨6, _⟩ => fun c => dat6 (U13 m) qWhole c
  | ⟨7, _⟩ => fun c => dat7 (U15 m) qWhole c
  | ⟨8, _⟩ => fun c => dat8 (U17 m) qWhole c
  | ⟨9, _⟩ => fun c => dat9 (U19 m) qWhole c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Host stretch 0 writes only its own results; region 0 only its output array. -/
theorem W1_of (c : Dev nD) (r : Ref sig .tc) (h : r ∉ (hostOps0_W : List (Ref sig .tc))) : W1 m c r = W0 m c r :=
  StableHlo.after_of_writes_sub hostOps0 _ hostOps0_writes h
theorem W2_of (c : Dev nD) (r : Ref sig .tc) (h : r ≠ main_v5) : W2 m c r = W1 m c r := by
  simp only [W2, Function.update_of_ne (StableHlo.devRef_ne_of_ne h : (Proc.devRef .tc r : DevRef τ sig) ≠ Proc.devRef .tc main_v5)]
theorem W2_out (c : Dev nD) : W2 m c main_v5 = X0 m c := by
  simp only [W2, Function.update_self]

/-- Host stretch 1 writes only its own results; region 1 only its output array. -/
theorem W3_of (c : Dev nD) (r : Ref sig .tc) (h : r ∉ (hostOps1_W : List (Ref sig .tc))) : W3 m c r = W2 m c r :=
  StableHlo.after_of_writes_sub hostOps1 _ hostOps1_writes h
theorem W4_of (c : Dev nD) (r : Ref sig .tc) (h : r ≠ main_v21) : W4 m c r = W3 m c r := by
  simp only [W4, Function.update_of_ne (StableHlo.devRef_ne_of_ne h : (Proc.devRef .tc r : DevRef τ sig) ≠ Proc.devRef .tc main_v21)]
theorem W4_out (c : Dev nD) : W4 m c main_v21 = X1 m c := by
  simp only [W4, Function.update_self]

/-- Host stretch 2 writes only its own results; region 2 only its output array. -/
theorem W5_of (c : Dev nD) (r : Ref sig .tc) (h : r ∉ (hostOps2_W : List (Ref sig .tc))) : W5 m c r = W4 m c r :=
  StableHlo.after_of_writes_sub hostOps2 _ hostOps2_writes h
theorem W6_of (c : Dev nD) (r : Ref sig .tc) (h : r ≠ main_v37) : W6 m c r = W5 m c r := by
  simp only [W6, Function.update_of_ne (StableHlo.devRef_ne_of_ne h : (Proc.devRef .tc r : DevRef τ sig) ≠ Proc.devRef .tc main_v37)]
theorem W6_out (c : Dev nD) : W6 m c main_v37 = X2 m c := by
  simp only [W6, Function.update_self]

/-- Host stretch 3 writes only its own results; region 3 only its output array. -/
theorem W7_of (c : Dev nD) (r : Ref sig .tc) (h : r ∉ (hostOps3_W : List (Ref sig .tc))) : W7 m c r = W6 m c r :=
  StableHlo.after_of_writes_sub hostOps3 _ hostOps3_writes h
theorem W8_of (c : Dev nD) (r : Ref sig .tc) (h : r ≠ main_v53) : W8 m c r = W7 m c r := by
  simp only [W8, Function.update_of_ne (StableHlo.devRef_ne_of_ne h : (Proc.devRef .tc r : DevRef τ sig) ≠ Proc.devRef .tc main_v53)]
theorem W8_out (c : Dev nD) : W8 m c main_v53 = X3 m c := by
  simp only [W8, Function.update_self]

/-- Host stretch 4 writes only its own results; region 4 only its output array. -/
theorem W9_of (c : Dev nD) (r : Ref sig .tc) (h : r ∉ (hostOps4_W : List (Ref sig .tc))) : W9 m c r = W8 m c r :=
  StableHlo.after_of_writes_sub hostOps4 _ hostOps4_writes h
theorem W10_of (c : Dev nD) (r : Ref sig .tc) (h : r ≠ main_v69) : W10 m c r = W9 m c r := by
  simp only [W10, Function.update_of_ne (StableHlo.devRef_ne_of_ne h : (Proc.devRef .tc r : DevRef τ sig) ≠ Proc.devRef .tc main_v69)]
theorem W10_out (c : Dev nD) : W10 m c main_v69 = X4 m c := by
  simp only [W10, Function.update_self]

/-- Host stretch 5 writes only its own results; region 5 only its output array. -/
theorem W11_of (c : Dev nD) (r : Ref sig .tc) (h : r ∉ (hostOps5_W : List (Ref sig .tc))) : W11 m c r = W10 m c r :=
  StableHlo.after_of_writes_sub hostOps5 _ hostOps5_writes h
theorem W12_of (c : Dev nD) (r : Ref sig .tc) (h : r ≠ main_v85) : W12 m c r = W11 m c r := by
  simp only [W12, Function.update_of_ne (StableHlo.devRef_ne_of_ne h : (Proc.devRef .tc r : DevRef τ sig) ≠ Proc.devRef .tc main_v85)]
theorem W12_out (c : Dev nD) : W12 m c main_v85 = X5 m c := by
  simp only [W12, Function.update_self]

/-- Host stretch 6 writes only its own results; region 6 only its output array. -/
theorem W13_of (c : Dev nD) (r : Ref sig .tc) (h : r ∉ (hostOps6_W : List (Ref sig .tc))) : W13 m c r = W12 m c r :=
  StableHlo.after_of_writes_sub hostOps6 _ hostOps6_writes h
theorem W14_of (c : Dev nD) (r : Ref sig .tc) (h : r ≠ main_v101) : W14 m c r = W13 m c r := by
  simp only [W14, Function.update_of_ne (StableHlo.devRef_ne_of_ne h : (Proc.devRef .tc r : DevRef τ sig) ≠ Proc.devRef .tc main_v101)]
theorem W14_out (c : Dev nD) : W14 m c main_v101 = X6 m c := by
  simp only [W14, Function.update_self]

/-- Host stretch 7 writes only its own results; region 7 only its output array. -/
theorem W15_of (c : Dev nD) (r : Ref sig .tc) (h : r ∉ (hostOps7_W : List (Ref sig .tc))) : W15 m c r = W14 m c r :=
  StableHlo.after_of_writes_sub hostOps7 _ hostOps7_writes h
theorem W16_of (c : Dev nD) (r : Ref sig .tc) (h : r ≠ main_v117) : W16 m c r = W15 m c r := by
  simp only [W16, Function.update_of_ne (StableHlo.devRef_ne_of_ne h : (Proc.devRef .tc r : DevRef τ sig) ≠ Proc.devRef .tc main_v117)]
theorem W16_out (c : Dev nD) : W16 m c main_v117 = X7 m c := by
  simp only [W16, Function.update_self]

/-- Host stretch 8 writes only its own results; region 8 only its output array. -/
theorem W17_of (c : Dev nD) (r : Ref sig .tc) (h : r ∉ (hostOps8_W : List (Ref sig .tc))) : W17 m c r = W16 m c r :=
  StableHlo.after_of_writes_sub hostOps8 _ hostOps8_writes h
theorem W18_of (c : Dev nD) (r : Ref sig .tc) (h : r ≠ main_v133) : W18 m c r = W17 m c r := by
  simp only [W18, Function.update_of_ne (StableHlo.devRef_ne_of_ne h : (Proc.devRef .tc r : DevRef τ sig) ≠ Proc.devRef .tc main_v133)]
theorem W18_out (c : Dev nD) : W18 m c main_v133 = X8 m c := by
  simp only [W18, Function.update_self]

/-- Host stretch 9 writes only its own results; region 9 only its output array. -/
theorem W19_of (c : Dev nD) (r : Ref sig .tc) (h : r ∉ (hostOps9_W : List (Ref sig .tc))) : W19 m c r = W18 m c r :=
  StableHlo.after_of_writes_sub hostOps9 _ hostOps9_writes h
theorem W20_of (c : Dev nD) (r : Ref sig .tc) (h : r ≠ main_v147) : W20 m c r = W19 m c r := by
  simp only [W20, Function.update_of_ne (StableHlo.devRef_ne_of_ne h : (Proc.devRef .tc r : DevRef τ sig) ≠ Proc.devRef .tc main_v147)]
theorem W20_out (c : Dev nD) : W20 m c main_v147 = X9 m c := by
  simp only [W20, Function.update_self]

/-- No host stretch and no region writes argument 0: it reaches the end as launched. -/
theorem W20_main_arg0 (c : Dev nD) : W20 m c main_arg0 = m ((c : Thread nD τ).loc main_arg0) :=
  (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl

/-- No host stretch and no region writes argument 1: it reaches the end as launched. -/
theorem W20_main_arg1 (c : Dev nD) : W20 m c main_arg1 = m ((c : Thread nD τ).loc main_arg1) :=
  (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl

/-- No host stretch and no region writes argument 2: it reaches the end as launched. -/
theorem W20_main_arg2 (c : Dev nD) : W20 m c main_arg2 = m ((c : Thread nD τ).loc main_arg2) :=
  (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl

/-- No host stretch and no region writes argument 3: it reaches the end as launched. -/
theorem W20_main_arg3 (c : Dev nD) : W20 m c main_arg3 = m ((c : Thread nD τ).loc main_arg3) :=
  (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl

/-- No host stretch and no region writes argument 4: it reaches the end as launched. -/
theorem W20_main_arg4 (c : Dev nD) : W20 m c main_arg4 = m ((c : Thread nD τ).loc main_arg4) :=
  (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl

/-- No host stretch and no region writes argument 5: it reaches the end as launched. -/
theorem W20_main_arg5 (c : Dev nD) : W20 m c main_arg5 = m ((c : Thread nD τ).loc main_arg5) :=
  (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl

/-- No host stretch and no region writes argument 6: it reaches the end as launched. -/
theorem W20_main_arg6 (c : Dev nD) : W20 m c main_arg6 = m ((c : Thread nD τ).loc main_arg6) :=
  (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl

/-- No host stretch and no region writes argument 7: it reaches the end as launched. -/
theorem W20_main_arg7 (c : Dev nD) : W20 m c main_arg7 = m ((c : Thread nD τ).loc main_arg7) :=
  (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl

/-- No host stretch and no region writes argument 8: it reaches the end as launched. -/
theorem W20_main_arg8 (c : Dev nD) : W20 m c main_arg8 = m ((c : Thread nD τ).loc main_arg8) :=
  (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl

end Cert.Kernel.Hand

end
-- ==== Proof.FrameBits.Seg0.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays0 (V V' : (c : Dev nD) → (b : Ref sig .tc) → Buf (Elt F) ((c : Thread nD τ).loc b))
    (q : Fin cfg0.W → PosShare TreeShare) (c : Dev nD)
    (hout : V' c main_v5 = (dat0 V q c).arrAt 3 cfg0.N)
    (hne : ∀ r : Ref sig .tc, r ≠ main_v5 → V' c r = V c r) :
    ∀ w : Fin cfg0.W, (dat0 V q c).arrAt w cfg0.N = V' c (Pipeline.arrRef spec0 w)
  | ⟨0, _⟩ => (((dat0 V q c).arrAt_in 0 rfl _).trans (A_eq0 V q c 0)).trans (hne main_arg0 (by decide)).symm
  | ⟨1, _⟩ => (((dat0 V q c).arrAt_in 1 rfl _).trans (A_eq0 V q c 1)).trans (hne main_arg4 (by decide)).symm
  | ⟨2, _⟩ => (((dat0 V q c).arrAt_in 2 rfl _).trans (A_eq0 V q c 2)).trans (hne main_v4 (by decide)).symm
  | ⟨3, _⟩ => hout.symm

variable (m : (ℓ : Loc nD τ sig) → Buf (Elt F) ℓ)

theorem hF0 (c : Dev nD) : ∀ w : Fin cfg0.W, (dat0 (U1 m) qWhole c).arrAt w cfg0.N = U2 m c (Pipeline.arrRef spec0 w) :=
  exit_arrays0 (U1 m) (U2 m) qWhole c (W2_out m c) (fun r h => W2_of m c r h)

/-- Every buffer that is no array of the region is as at entry. -/
theorem hrest0 (c : Dev nD) : ∀ b, b ∉ Finset.univ.image (Pipeline.arrRef spec0) → U2 m c b = U1 m c b :=
  fun b hb => W2_of m c b fun e => hb (Finset.mem_image.mpr ⟨(3 : Fin cfg0.W), Finset.mem_univ _, e.symm⟩)

set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) qWhole c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg2.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays2 (V V' : (c : Dev nD) → (b : Ref sig .tc) → Buf (Elt F) ((c : Thread nD τ).loc b))
    (q : Fin cfg2.W → PosShare TreeShare) (c : Dev nD)
    (hout : V' c main_v37 = (dat2 V q c).arrAt 4 cfg2.N)
    (hne : ∀ r : Ref sig .tc, r ≠ main_v37 → V' c r = V c r) :
    ∀ w : Fin cfg2.W, (dat2 V q c).arrAt w cfg2.N = V' c (Pipeline.arrRef spec2 w)
  | ⟨0, _⟩ => (((dat2 V q c).arrAt_in 0 rfl _).trans (A_eq2 V q c 0)).trans (hne main_v34 (by decide)).symm
  | ⟨1, _⟩ => (((dat2 V q c).arrAt_in 1 rfl _).trans (A_eq2 V q c 1)).trans (hne main_v5 (by decide)).symm
  | ⟨2, _⟩ => (((dat2 V q c).arrAt_in 2 rfl _).trans (A_eq2 V q c 2)).trans (hne main_v21 (by decide)).symm
  | ⟨3, _⟩ => (((dat2 V q c).arrAt_in 3 rfl _).trans (A_eq2 V q c 3)).trans (hne main_v36 (by decide)).symm
  | ⟨4, _⟩ => hout.symm

variable (m : (ℓ : Loc nD τ sig) → Buf (Elt F) ℓ)

theorem hF2 (c : Dev nD) : ∀ w : Fin cfg2.W, (dat2 (U5 m) qWhole c).arrAt w cfg2.N = U6 m c (Pipeline.arrRef spec2 w) :=
  exit_arrays2 (U5 m) (U6 m) qWhole c (W6_out m c) (fun r h => W6_of m c r h)

/-- Every buffer that is no array of the region is as at entry. -/
theorem hrest2 (c : Dev nD) : ∀ b, b ∉ Finset.univ.image (Pipeline.arrRef spec2) → U6 m c b = U5 m c b :=
  fun b hb => W6_of m c b fun e => hb (Finset.mem_image.mpr ⟨(4 : Fin cfg2.W), Finset.mem_univ _, e.symm⟩)

set_option backward.isDefEq.respectTransparency.types false in
/-- Region 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) qWhole c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg3.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays3 (V V' : (c : Dev nD) → (b : Ref sig .tc) → Buf (Elt F) ((c : Thread nD τ).loc b))
    (q : Fin cfg3.W → PosShare TreeShare) (c : Dev nD)
    (hout : V' c main_v53 = (dat3 V q c).arrAt 4 cfg3.N)
    (hne : ∀ r : Ref sig .tc, r ≠ main_v53 → V' c r = V c r) :
    ∀ w : Fin cfg3.W, (dat3 V q c).arrAt w cfg3.N = V' c (Pipeline.arrRef spec3 w)
  | ⟨0, _⟩ => (((dat3 V q c).arrAt_in 0 rfl _).trans (A_eq3 V q c 0)).trans (hne main_v50 (by decide)).symm
  | ⟨1, _⟩ => (((dat3 V q c).arrAt_in 1 rfl _).trans (A_eq3 V q c 1)).trans (hne main_v5 (by decide)).symm
  | ⟨2, _⟩ => (((dat3 V q c).arrAt_in 2 rfl _).trans (A_eq3 V q c 2)).trans (hne main_v37 (by decide)).symm
  | ⟨3, _⟩ => (((dat3 V q c).arrAt_in 3 rfl _).trans (A_eq3 V q c 3)).trans (hne main_v52 (by decide)).symm
  | ⟨4, _⟩ => hout.symm

variable (m : (ℓ : Loc nD τ sig) → Buf (Elt F) ℓ)

theorem hF3 (c : Dev nD) : ∀ w : Fin cfg3.W, (dat3 (U7 m) qWhole c).arrAt w cfg3.N = U8 m c (Pipeline.arrRef spec3 w) :=
  exit_arrays3 (U7 m) (U8 m) qWhole c (W8_out m c) (fun r h => W8_of m c r h)

/-- Every buffer that is no array of the region is as at entry. -/
theorem hrest3 (c : Dev nD) : ∀ b, b ∉ Finset.univ.image (Pipeline.arrRef spec3) → U8 m c b = U7 m c b :=
  fun b hb => W8_of m c b fun e => hb (Finset.mem_image.mpr ⟨(4 : Fin cfg3.W), Finset.mem_univ _, e.symm⟩)

set_option backward.isDefEq.respectTransparency.types false in
/-- Region 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) qWhole c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg4.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays4 (V V' : (c : Dev nD) → (b : Ref sig .tc) → Buf (Elt F) ((c : Thread nD τ).loc b))
    (q : Fin cfg4.W → PosShare TreeShare) (c : Dev nD)
    (hout : V' c main_v69 = (dat4 V q c).arrAt 4 cfg4.N)
    (hne : ∀ r : Ref sig .tc, r ≠ main_v69 → V' c r = V c r) :
    ∀ w : Fin cfg4.W, (dat4 V q c).arrAt w cfg4.N = V' c (Pipeline.arrRef spec4 w)
  | ⟨0, _⟩ => (((dat4 V q c).arrAt_in 0 rfl _).trans (A_eq4 V q c 0)).trans (hne main_v66 (by decide)).symm
  | ⟨1, _⟩ => (((dat4 V q c).arrAt_in 1 rfl _).trans (A_eq4 V q c 1)).trans (hne main_v5 (by decide)).symm
  | ⟨2, _⟩ => (((dat4 V q c).arrAt_in 2 rfl _).trans (A_eq4 V q c 2)).trans (hne main_v53 (by decide)).symm
  | ⟨3, _⟩ => (((dat4 V q c).arrAt_in 3 rfl _).trans (A_eq4 V q c 3)).trans (hne main_v68 (by decide)).symm
  | ⟨4, _⟩ => hout.symm

variable (m : (ℓ : Loc nD τ sig) → Buf (Elt F) ℓ)

theorem hF4 (c : Dev nD) : ∀ w : Fin cfg4.W, (dat4 (U9 m) qWhole c).arrAt w cfg4.N = U10 m c (Pipeline.arrRef spec4 w) :=
  exit_arrays4 (U9 m) (U10 m) qWhole c (W10_out m c) (fun r h => W10_of m c r h)

/-- Every buffer that is no array of the region is as at entry. -/
theorem hrest4 (c : Dev nD) : ∀ b, b ∉ Finset.univ.image (Pipeline.arrRef spec4) → U10 m c b = U9 m c b :=
  fun b hb => W10_of m c b fun e => hb (Finset.mem_image.mpr ⟨(4 : Fin cfg4.W), Finset.mem_univ _, e.symm⟩)

set_option backward.isDefEq.respectTransparency.types false in
/-- Region 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) qWhole c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg5.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays5 (V V' : (c : Dev nD) → (b : Ref sig .tc) → Buf (Elt F) ((c : Thread nD τ).loc b))
    (q : Fin cfg5.W → PosShare TreeShare) (c : Dev nD)
    (hout : V' c main_v85 = (dat5 V q c).arrAt 4 cfg5.N)
    (hne : ∀ r : Ref sig .tc, r ≠ main_v85 → V' c r = V c r) :
    ∀ w : Fin cfg5.W, (dat5 V q c).arrAt w cfg5.N = V' c (Pipeline.arrRef spec5 w)
  | ⟨0, _⟩ => (((dat5 V q c).arrAt_in 0 rfl _).trans (A_eq5 V q c 0)).trans (hne main_v82 (by decide)).symm
  | ⟨1, _⟩ => (((dat5 V q c).arrAt_in 1 rfl _).trans (A_eq5 V q c 1)).trans (hne main_v5 (by decide)).symm
  | ⟨2, _⟩ => (((dat5 V q c).arrAt_in 2 rfl _).trans (A_eq5 V q c 2)).trans (hne main_v69 (by decide)).symm
  | ⟨3, _⟩ => (((dat5 V q c).arrAt_in 3 rfl _).trans (A_eq5 V q c 3)).trans (hne main_v84 (by decide)).symm
  | ⟨4, _⟩ => hout.symm

variable (m : (ℓ : Loc nD τ sig) → Buf (Elt F) ℓ)

theorem hF5 (c : Dev nD) : ∀ w : Fin cfg5.W, (dat5 (U11 m) qWhole c).arrAt w cfg5.N = U12 m c (Pipeline.arrRef spec5 w) :=
  exit_arrays5 (U11 m) (U12 m) qWhole c (W12_out m c) (fun r h => W12_of m c r h)

/-- Every buffer that is no array of the region is as at entry. -/
theorem hrest5 (c : Dev nD) : ∀ b, b ∉ Finset.univ.image (Pipeline.arrRef spec5) → U12 m c b = U11 m c b :=
  fun b hb => W12_of m c b fun e => hb (Finset.mem_image.mpr ⟨(4 : Fin cfg5.W), Finset.mem_univ _, e.symm⟩)

set_option backward.isDefEq.respectTransparency.types false in
/-- Region 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) qWhole c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg6.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays6 (V V' : (c : Dev nD) → (b : Ref sig .tc) → Buf (Elt F) ((c : Thread nD τ).loc b))
    (q : Fin cfg6.W → PosShare TreeShare) (c : Dev nD)
    (hout : V' c main_v101 = (dat6 V q c).arrAt 4 cfg6.N)
    (hne : ∀ r : Ref sig .tc, r ≠ main_v101 → V' c r = V c r) :
    ∀ w : Fin cfg6.W, (dat6 V q c).arrAt w cfg6.N = V' c (Pipeline.arrRef spec6 w)
  | ⟨0, _⟩ => (((dat6 V q c).arrAt_in 0 rfl _).trans (A_eq6 V q c 0)).trans (hne main_v98 (by decide)).symm
  | ⟨1, _⟩ => (((dat6 V q c).arrAt_in 1 rfl _).trans (A_eq6 V q c 1)).trans (hne main_v5 (by decide)).symm
  | ⟨2, _⟩ => (((dat6 V q c).arrAt_in 2 rfl _).trans (A_eq6 V q c 2)).trans (hne main_v85 (by decide)).symm
  | ⟨3, _⟩ => (((dat6 V q c).arrAt_in 3 rfl _).trans (A_eq6 V q c 3)).trans (hne main_v100 (by decide)).symm
  | ⟨4, _⟩ => hout.symm

variable (m : (ℓ : Loc nD τ sig) → Buf (Elt F) ℓ)

theorem hF6 (c : Dev nD) : ∀ w : Fin cfg6.W, (dat6 (U13 m) qWhole c).arrAt w cfg6.N = U14 m c (Pipeline.arrRef spec6 w) :=
  exit_arrays6 (U13 m) (U14 m) qWhole c (W14_out m c) (fun r h => W14_of m c r h)

/-- Every buffer that is no array of the region is as at entry. -/
theorem hrest6 (c : Dev nD) : ∀ b, b ∉ Finset.univ.image (Pipeline.arrRef spec6) → U14 m c b = U13 m c b :=
  fun b hb => W14_of m c b fun e => hb (Finset.mem_image.mpr ⟨(4 : Fin cfg6.W), Finset.mem_univ _, e.symm⟩)

set_option backward.isDefEq.respectTransparency.types false in
/-- Region 6 over the thread state. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) qWhole c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg7.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays7 (V V' : (c : Dev nD) → (b : Ref sig .tc) → Buf (Elt F) ((c : Thread nD τ).loc b))
    (q : Fin cfg7.W → PosShare TreeShare) (c : Dev nD)
    (hout : V' c main_v117 = (dat7 V q c).arrAt 4 cfg7.N)
    (hne : ∀ r : Ref sig .tc, r ≠ main_v117 → V' c r = V c r) :
    ∀ w : Fin cfg7.W, (dat7 V q c).arrAt w cfg7.N = V' c (Pipeline.arrRef spec7 w)
  | ⟨0, _⟩ => (((dat7 V q c).arrAt_in 0 rfl _).trans (A_eq7 V q c 0)).trans (hne main_v114 (by decide)).symm
  | ⟨1, _⟩ => (((dat7 V q c).arrAt_in 1 rfl _).trans (A_eq7 V q c 1)).trans (hne main_v5 (by decide)).symm
  | ⟨2, _⟩ => (((dat7 V q c).arrAt_in 2 rfl _).trans (A_eq7 V q c 2)).trans (hne main_v101 (by decide)).symm
  | ⟨3, _⟩ => (((dat7 V q c).arrAt_in 3 rfl _).trans (A_eq7 V q c 3)).trans (hne main_v116 (by decide)).symm
  | ⟨4, _⟩ => hout.symm

variable (m : (ℓ : Loc nD τ sig) → Buf (Elt F) ℓ)

theorem hF7 (c : Dev nD) : ∀ w : Fin cfg7.W, (dat7 (U15 m) qWhole c).arrAt w cfg7.N = U16 m c (Pipeline.arrRef spec7 w) :=
  exit_arrays7 (U15 m) (U16 m) qWhole c (W16_out m c) (fun r h => W16_of m c r h)

/-- Every buffer that is no array of the region is as at entry. -/
theorem hrest7 (c : Dev nD) : ∀ b, b ∉ Finset.univ.image (Pipeline.arrRef spec7) → U16 m c b = U15 m c b :=
  fun b hb => W16_of m c b fun e => hb (Finset.mem_image.mpr ⟨(4 : Fin cfg7.W), Finset.mem_univ _, e.symm⟩)

set_option backward.isDefEq.respectTransparency.types false in
/-- Region 7 over the thread state. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U15 m) qWhole c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (U15 m c) (U16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg8.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays8 (V V' : (c : Dev nD) → (b : Ref sig .tc) → Buf (Elt F) ((c : Thread nD τ).loc b))
    (q : Fin cfg8.W → PosShare TreeShare) (c : Dev nD)
    (hout : V' c main_v133 = (dat8 V q c).arrAt 4 cfg8.N)
    (hne : ∀ r : Ref sig .tc, r ≠ main_v133 → V' c r = V c r) :
    ∀ w : Fin cfg8.W, (dat8 V q c).arrAt w cfg8.N = V' c (Pipeline.arrRef spec8 w)
  | ⟨0, _⟩ => (((dat8 V q c).arrAt_in 0 rfl _).trans (A_eq8 V q c 0)).trans (hne main_v130 (by decide)).symm
  | ⟨1, _⟩ => (((dat8 V q c).arrAt_in 1 rfl _).trans (A_eq8 V q c 1)).trans (hne main_v5 (by decide)).symm
  | ⟨2, _⟩ => (((dat8 V q c).arrAt_in 2 rfl _).trans (A_eq8 V q c 2)).trans (hne main_v117 (by decide)).symm
  | ⟨3, _⟩ => (((dat8 V q c).arrAt_in 3 rfl _).trans (A_eq8 V q c 3)).trans (hne main_v132 (by decide)).symm
  | ⟨4, _⟩ => hout.symm

variable (m : (ℓ : Loc nD τ sig) → Buf (Elt F) ℓ)

theorem hF8 (c : Dev nD) : ∀ w : Fin cfg8.W, (dat8 (U17 m) qWhole c).arrAt w cfg8.N = U18 m c (Pipeline.arrRef spec8 w) :=
  exit_arrays8 (U17 m) (U18 m) qWhole c (W18_out m c) (fun r h => W18_of m c r h)

/-- Every buffer that is no array of the region is as at entry. -/
theorem hrest8 (c : Dev nD) : ∀ b, b ∉ Finset.univ.image (Pipeline.arrRef spec8) → U18 m c b = U17 m c b :=
  fun b hb => W18_of m c b fun e => hb (Finset.mem_image.mpr ⟨(4 : Fin cfg8.W), Finset.mem_univ _, e.symm⟩)

set_option backward.isDefEq.respectTransparency.types false in
/-- Region 8 over the thread state. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U17 m) qWhole c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (U17 m c) (U18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameBits.Seg9.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays9 (V V' : (c : Dev nD) → (b : Ref sig .tc) → Buf (Elt F) ((c : Thread nD τ).loc b))
    (q : Fin cfg9.W → PosShare TreeShare) (c : Dev nD)
    (hout : V' c main_v147 = (dat9 V q c).arrAt 3 cfg9.N)
    (hne : ∀ r : Ref sig .tc, r ≠ main_v147 → V' c r = V c r) :
    ∀ w : Fin cfg9.W, (dat9 V q c).arrAt w cfg9.N = V' c (Pipeline.arrRef spec9 w)
  | ⟨0, _⟩ => (((dat9 V q c).arrAt_in 0 rfl _).trans (A_eq9 V q c 0)).trans (hne main_v145 (by decide)).symm
  | ⟨1, _⟩ => (((dat9 V q c).arrAt_in 1 rfl _).trans (A_eq9 V q c 1)).trans (hne main_arg7 (by decide)).symm
  | ⟨2, _⟩ => (((dat9 V q c).arrAt_in 2 rfl _).trans (A_eq9 V q c 2)).trans (hne main_v146 (by decide)).symm
  | ⟨3, _⟩ => hout.symm

variable (m : (ℓ : Loc nD τ sig) → Buf (Elt F) ℓ)

theorem hF9 (c : Dev nD) : ∀ w : Fin cfg9.W, (dat9 (U19 m) qWhole c).arrAt w cfg9.N = U20 m c (Pipeline.arrRef spec9 w) :=
  exit_arrays9 (U19 m) (U20 m) qWhole c (W20_out m c) (fun r h => W20_of m c r h)

/-- Every buffer that is no array of the region is as at entry. -/
theorem hrest9 (c : Dev nD) : ∀ b, b ∉ Finset.univ.image (Pipeline.arrRef spec9) → U20 m c b = U19 m c b :=
  fun b hb => W20_of m c b fun e => hb (Finset.mem_image.mpr ⟨(3 : Fin cfg9.W), Finset.mem_univ _, e.symm⟩)

set_option backward.isDefEq.respectTransparency.types false in
/-- Region 9 over the thread state. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U19 m) qWhole c).loose
  hwaits := Pipeline.hwaits_of_owed_zero _ _ _ _ L lv 9 fun _ _ => rfl
  pre c := iprop(StableHlo.held (c : Thread nD τ) (Pipeline.ucRefs τ sig) (W19 m c) ∗ R c)
  post c := iprop((StableHlo.held (c : Thread nD τ) (Pipeline.ucRefs τ sig) (W20 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (U19 m c) (U20 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.FrameBits.Run.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Seg0
import proofs.«108571_j70514773065745_1_alg».proof.Proof.FrameBits.Seg2
import proofs.«108571_j70514773065745_1_alg».proof.Proof.FrameBits.Seg3
import proofs.«108571_j70514773065745_1_alg».proof.Proof.FrameBits.Seg4
import proofs.«108571_j70514773065745_1_alg».proof.Proof.FrameBits.Seg5
import proofs.«108571_j70514773065745_1_alg».proof.Proof.FrameBits.Seg6
import proofs.«108571_j70514773065745_1_alg».proof.Proof.FrameBits.Seg7
import proofs.«108571_j70514773065745_1_alg».proof.Proof.FrameBits.Seg8
import proofs.«108571_j70514773065745_1_alg».proof.Proof.FrameBits.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: twenty items from the launch to the return

Every weakly fair execution of @main terminates without a fault, and at the end every unscoped buffer of every core holds the
last boundary's contents: the arguments as launched, the result at what the last region leaves. -/

variable (m : (ℓ : Loc nD τ sig) → Buf (Elt F) ℓ) (ρ : Dev nD → PrngReg)

/-- A host stretch as an item: its operations over the unscoped references from the contents `W`, the generator register and
    the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last contents, the generator register at some state. -/
abbrev Tₙ (c : Dev nD) : sProp 𝕄 := iprop(StableHlo.held (c : Thread nD τ) (Pipeline.ucRefs τ sig) (W20 m c) ∗ ∃ r, prngReg c r)

/-- @main's twenty items in order, region 1's record a parameter. -/
abbrev segs (R1 : Pipeline.RegionSeg (pcfgs (F := F)) adm (pdats m) () defs₀ 𝒱₀ L lv 1) :
    List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region R1,
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m) ]

set_option backward.isDefEq.respectTransparency.types false in
/-- The run, given region 1's record entered from the contents before it and left at the contents after it. -/
theorem run_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W20 m c b) :=
  Pipeline.θ_run_regions_kit (pcfgs (F := F)) adm (pdats m) () cellOf_inj emb₁ defs₀ 𝒱₀ L lv m ρ main (segs m R1)
    (fun c Q => by
      rewrite [main_chain c, Pipeline.Seg.run_eq_chain,
        show (segs m R1).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, hpre1, hpost1, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h c b hb => h c _ (mem_uc b hb))

end Cert.Kernel.Hand

end
-- ==== Proof.FrameBits.Frame.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame, and the result, read off the run

No host operation and no region writes an argument, so each ends as launched; the result buffer ends at what the last
region leaves. -/

variable (m : (ℓ : Loc nD τ sig) → Buf (Elt F) ℓ) (ρ : Dev nD → PrngReg)

/-- Every weakly fair execution of @main terminates without a fault, the arguments end as launched, and the result buffer
    ends at the last boundary's contents. -/
theorem result_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD,
      r.2.mem ((c.tc : Thread nD τ).loc main_v147) = W20 m c main_v147
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c main_v147 (by decide),
      (h c main_arg0 (by decide)).trans (W20_main_arg0 m c),
      (h c main_arg1 (by decide)).trans (W20_main_arg1 m c),
      (h c main_arg2 (by decide)).trans (W20_main_arg2 m c),
      (h c main_arg3 (by decide)).trans (W20_main_arg3 m c),
      (h c main_arg4 (by decide)).trans (W20_main_arg4 m c),
      (h c main_arg5 (by decide)).trans (W20_main_arg5 m c),
      (h c main_arg6 (by decide)).trans (W20_main_arg6 m c),
      (h c main_arg7 (by decide)).trans (W20_main_arg7 m c),
      (h c main_arg8 (by decide)).trans (W20_main_arg8 m c)⟩) (run_of m ρ R1 hpre1 hpost1)

/-- The frame: termination, no fault, the arguments unchanged. -/
theorem frame_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (result_of m ρ R1 hpre1 hpost1)

end Cert.Kernel.Hand

end
-- ==== Proof.FrameBits.Seg1.lean ====
import proofs.«108571_j70514773065745_1_alg».proof.Proof.Gen.Kernel.Launch
import proofs.«108571_j70514773065745_1_alg».proof.Proof.Gen.Kernel.Skeleton
import proofs.«108571_j70514773065745_1_alg».proof.Proof.Gen.Kernel.Points
import proofs.«108571_j70514773065745_1_alg».proof.Proof.FrameBits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # Region 1 as an item of @main

Region 1 reads the features' array through two windows, so its arrays are five windows on four buffers. At entry the
four buffers are taken out of the core's unscoped buffers, each whole at the full share, and the features' buffer is
split into its two halves, one per window; at exit both windows still hold the entry contents (neither is written), the
halves are joined and the four buffers are put back, the output array at what the write-backs leave. -/

namespace Shared

/-- The buffers behind region 1's arrays, listed once each. -/
theorem arrImage1 : (Finset.univ.image (Pipeline.arrRef spec1) : Finset (Ref sig .tc)) = [main_v18, main_v5, main_v20, main_v21].toFinset := by
  decide

/-- They, each whole at the full share at contents `V`, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v18) ↦{fullShare} V main_v18) ∗ (((c : Thread nD τ).loc main_v5) ↦{fullShare} V main_v5)
          ∗ (((c : Thread nD τ).loc main_v20) ↦{fullShare} V main_v20) ∗ (((c : Thread nD τ).loc main_v21) ↦{fullShare} V main_v21)) := by
  unfold Pipeline.arrBufs
  rw [bigSep_eq_bigSepL_of_eq _ arrImage1 (by decide)]
  rfl

/-- A window's array is a whole buffer: its points-to is the buffer's. -/
theorem arr_pt1 (c : Dev nD) (w : Fin cfg1.W) (q : PosShare TreeShare) (f : Buf (Elt F) ((cfg1.win w).arr.view.loc (c : Thread nD τ))) :
    (((cfg1.win w).arr.view.loc (c : Thread nD τ)) ↦[(cfg1.win w).arr.view.set]{q} f : sProp 𝕄)
      = (((c : Thread nD τ).loc (Pipeline.arrRef spec1 w)) ↦{q} f) := by
  rw [(arr_whole1 w).set_eq_univ]

/-- Region 1's arrays at contents `G`, window by window: the two windows on the features' array hold one half each. -/
theorem arrays1 (c : Dev nD) (G : (w : Fin cfg1.W) → Buf (Elt F) ((cfg1.win w).arr.view.loc (c : Thread nD τ))) :
    ((pdats m 1 c).arrays G : sProp 𝕄)
      = iprop((((c : Thread nD τ).loc main_v18) ↦{fullShare} G 0) ∗ (((c : Thread nD τ).loc main_v5) ↦{fullShare.left} G 1)
          ∗ (((c : Thread nD τ).loc main_v5) ↦{fullShare.right} G 2) ∗ (((c : Thread nD τ).loc main_v20) ↦{fullShare} G 3)
          ∗ (((c : Thread nD τ).loc main_v21) ↦{fullShare} G 4)) := by
  unfold Dat.arrays
  refine (bigSep_congr fun w _ => arr_pt1 c w _ _).trans ?_
  refine (bigSep_W1 _).trans ?_
  rfl

/-- Four buffers, the second split in two, are five windows' holdings; -/
theorem split_chain {A B Bl Br C D : sProp 𝕄} (hB : B ⊢ iprop(Bl ∗ Br)) : iprop(A ∗ B ∗ C ∗ D) ⊢ iprop(A ∗ Bl ∗ Br ∗ C ∗ D) := by
  iintro ⟨HA, HB, HC, HD⟩
  ihave HB := hB $$ HB
  icases HB with ⟨HBl, HBr⟩
  isplitl [HA]; · iexact HA
  isplitl [HBl]; · iexact HBl
  isplitl [HBr]; · iexact HBr
  isplitl [HC]; · iexact HC
  iexact HD

/-- and back. -/
theorem join_chain {A B Bl Br C D : sProp 𝕄} (hB : iprop(Bl ∗ Br) ⊢ B) : iprop(A ∗ Bl ∗ Br ∗ C ∗ D) ⊢ iprop(A ∗ B ∗ C ∗ D) := by
  iintro ⟨HA, HBl, HBr, HC, HD⟩
  isplitl [HA]; · iexact HA
  isplitl [HBl HBr]
  · iapply hB; isplitl [HBl]; · iexact HBl
    iexact HBr
  isplitl [HC]; · iexact HC
  iexact HD

/-- The core's unscoped buffers at contents `V` are the four buffers behind region 1's arrays and the rest. -/
theorem unscopedBufs1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ cfgs 1 winFacts₀1.arr_unscoped c V

/-- The four buffers at contents `V`, the features' buffer split in two, are region 1's arrays at contents `G` read off `V`. -/
theorem arrays_of_arrBufs1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ (pdats m 1 c).arrays G := by
  rw [arrBufs1, arrays1, hG 0, hG 1, hG 2, hG 3, hG 4]
  exact split_chain (pointsTo_share (PosShare.mem_left_op_right fullShare)).1

/-- Region 1's arrays at contents `G` read off `V`, the two halves of the features' buffer joined, are the four buffers at `V`. -/
theorem arrBufs_of_arrays1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (pdats m 1 c).arrays G ⊢ (Pipeline.arrBufs (Ix := Unit) (Name := ℕ) (U := UR sig nD τ) (Lvl := ℕ) spec1 c V : sProp 𝕄) := by
  rw [arrBufs1, arrays1, hG 0, hG 1, hG 2, hG 3, hG 4]
  exact join_chain (pointsTo_share (PosShare.mem_left_op_right fullShare)).2

/-- ENTRY, the arrays' part: the core's unscoped buffers at the entry contents are region 1's arrays at the proof data's
    entry contents, the features' buffer split between its two windows, and the unscoped rest. -/
theorem arrays_of_unscopedBufs1 (c : Dev nD) :
    (unscopedBufs (Ix := Unit) (Name := ℕ) (U := UR sig nD τ) (Lvl := ℕ) c (U3 m c) : sProp 𝕄)
      ⊢ iprop((pdats m 1 c).arrays ((pdats m 1 c).arrAt · 0)
          ∗ Pipeline.unscopedRest (Ix := Unit) (Name := ℕ) (U := UR sig nD τ) (Lvl := ℕ) spec1 c (U3 m c)) :=
  (Entails.of_eq (unscopedBufs1 c (U3 m c))).trans
    (BI.sep_mono (arrays_of_arrBufs1 m c (U3 m c) ((pdats m 1 c).arrAt · 0) fun _ => rfl) (.refl _))

/-- At the region's exit each of its arrays holds what the next boundary's contents say: an input array is never written,
    the output array is the one buffer the boundary updates. -/
theorem hF1 (c : Dev nD) : ∀ w : Fin cfg1.W, (pdats m 1 c).arrAt w cfg1.N = U4 m c (Pipeline.arrRef spec1 w)
  | ⟨0, _⟩ => (((dat1 (U3 m) qFirst c).arrAt_in 0 rfl _).trans (A_eq1 (U3 m) qFirst c 0)).trans (W4_of m c main_v18 (by decide)).symm
  | ⟨1, _⟩ => (((dat1 (U3 m) qFirst c).arrAt_in 1 rfl _).trans (A_eq1 (U3 m) qFirst c 1)).trans (W4_of m c main_v5 (by decide)).symm
  | ⟨2, _⟩ => (((dat1 (U3 m) qFirst c).arrAt_in 2 rfl _).trans (A_eq1 (U3 m) qFirst c 2)).trans (W4_of m c main_v5 (by decide)).symm
  | ⟨3, _⟩ => (((dat1 (U3 m) qFirst c).arrAt_in 3 rfl _).trans (A_eq1 (U3 m) qFirst c 3)).trans (W4_of m c main_v20 (by decide)).symm
  | ⟨4, _⟩ => (W4_out m c).symm

/-- Every buffer that is no array of the region is as at entry. -/
theorem hrest1 (c : Dev nD) : ∀ b, b ∉ Finset.univ.image (Pipeline.arrRef spec1) → U4 m c b = U3 m c b :=
  fun b hb => W4_of m c b fun e => hb (Finset.mem_image.mpr ⟨(4 : Fin cfg1.W), Finset.mem_univ _, e.symm⟩)

/-- The unscoped rest is the same at the contents before and after the region. -/
theorem unscopedRest1 (c : Dev nD) :
    (Pipeline.unscopedRest (Ix := Unit) (Name := ℕ) (U := UR sig nD τ) (Lvl := ℕ) spec1 c (U3 m c) : sProp 𝕄)
      = Pipeline.unscopedRest (Ix := Unit) (Name := ℕ) (U := UR sig nD τ) (Lvl := ℕ) spec1 c (U4 m c) := by
  unfold Pipeline.unscopedRest
  exact bigSep_congr fun b hb => by rw [hrest1 m c b (Finset.mem_sdiff.mp hb).2]

/-- EXIT, the arrays' part: region 1's arrays at their final contents — the two halves of the features' buffer at the same,
    joined — and the unscoped rest are the core's unscoped buffers at the contents after the region. -/
theorem unscopedBufs_of_arrays1 (c : Dev nD) :
    iprop((pdats m 1 c).arrays ((pdats m 1 c).arrAt · cfg1.N)
        ∗ Pipeline.unscopedRest (Ix := Unit) (Name := ℕ) (U := UR sig nD τ) (Lvl := ℕ) spec1 c (U3 m c))
      ⊢ (unscopedBufs (Ix := Unit) (Name := ℕ) (U := UR sig nD τ) (Lvl := ℕ) c (U4 m c) : sProp 𝕄) :=
  (BI.sep_mono (arrBufs_of_arrays1 m c (U4 m c) ((pdats m 1 c).arrAt · cfg1.N) (hF1 m c)) (Entails.of_eq (unscopedRest1 m c))).trans
    (Entails.of_eq (unscopedBufs1 c (U4 m c)).symm)

end Shared

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) qFirst c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Shared.arrays_of_unscopedBufs1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.unscopedBufs_of_arrays1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameIdeal.Reg0.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the input projection of a block of 5000 nodes, at the entry contents `V`

The call reads a block of rows of the left factor, the whole weight and the bias laid out as one row; it writes the same
block of rows of the product plus the bias. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffers, as rectangles. -/
abbrev rLeft0 : Rect S5000x64 := Rect.unit (s := S5000x64) ![0, 0] S5000x64.size inb_S5000x64_S5000x64_0_0
abbrev rWeight0 : Rect S64x64 := Rect.unit (s := S64x64) ![0, 0] S64x64.size inb_S64x64_S64x64_0_0
abbrev rBias0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-- What the body leaves in the output's staging buffer: its one whole-buffer store of the product plus the bias. -/
def out0_3 (x0 : Vec F S5000x64 .f32) (x1 : Vec F S64x64 .f32) (x2 : Vec F S1x64 .f32) : Vec F S5000x64 .f32 :=
  View.canon [⟨rOut0, k0_pay1 (View.ld x0 rLeft0) (View.ld x1 rWeight0) (View.ld x2 rBias0)⟩]

/-- The one store covers the buffer. -/
theorem cover0_3 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

set_option maxHeartbeats 1000000 in
/-- The body on whole staging memrefs: the three inputs keep their contents, the output ends at `out0_3` of them. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end

section
variable (V : (c : Dev nD) → (b : Ref sig .tc) → Buf (Elt F) ((c : Thread nD τ).loc b))

/-- The proof data of region 0 on core `c`: the arrays as the region finds them; after the body at point `t` every input's
    buffer still at its block and the output's at the product plus the bias; nothing owed; every window alone on its array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t
    = out0_3 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the body's triple applies; the invariant and
    the core's dues pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end

end Cert.KernelIdeal.Hand

end
-- ==== Proof.FrameIdeal.Reg1.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 5000x64 staging buffer and the whole 64x64 one, as rectangles. -/
abbrev rRows1 : Rect S5000x64 := Rect.unit (s := S5000x64) ![0, 0] S5000x64.size inb_S5000x64_S5000x64_0_0
abbrev rWeight1 : Rect S64x64 := Rect.unit (s := S64x64) ![0, 0] S64x64.size inb_S64x64_S64x64_0_0

/-- What the body leaves in the output's staging buffer: its one whole-buffer store of the layer's update of the four blocks. -/
def out1_4 (x0 x1 x2 : Vec F S5000x64 .f32) (x3 : Vec F S64x64 .f32) : Vec F S5000x64 .f32 :=
  View.canon [⟨rRows1, k1_pay1 (View.ld x0 rRows1) (View.ld x1 rRows1) (View.ld x2 rRows1) (View.ld x3 rWeight1)⟩]

/-- The one store covers the buffer. -/
theorem cover1_4 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs: the four inputs keep their contents, the output ends at `out1_4` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end

section
variable (V : (c : Dev nD) → (b : Ref sig .tc) → Buf (Elt F) ((c : Thread nD τ).loc b))

/-- The proof data of region 1 on core `c`: the arrays as the region finds them; after the body at point `t` every input's
    buffer still at its block and the output's at the layer's update of the four blocks; nothing owed. The shares `q` are a
    parameter: a window that is alone on its array holds it whole, windows that read one array split it. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t
    = out1_4 (iblk1 V c 0 t) (iblk1 V c 1 t) (iblk1 V c 2 t) (iblk1 V c 3 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t))

/-- The body at any point: the inputs' staging buffers hold their blocks, so the body's triple applies; the invariant and
    the core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).Φ t.succ = (dat1 V q c).Φ t.castSucc from rfl,
    show (dat1 V q c).owesAt () t.succ = (dat1 V q c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end

end Cert.KernelIdeal.Hand

end
-- ==== Proof.FrameIdeal.Reg2.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not the point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000x64 staging buffer and the whole 64x64 one, as rectangles. -/
abbrev rRows2 : Rect S5000x64 := Rect.unit (s := S5000x64) ![0, 0] S5000x64.size inb_S5000x64_S5000x64_0_0
abbrev rWeight2 : Rect S64x64 := Rect.unit (s := S64x64) ![0, 0] S64x64.size inb_S64x64_S64x64_0_0

/-- What the body leaves in the output's staging buffer: its one whole-buffer store of the layer's update of the four blocks. -/
def out2_4 (x0 x1 x2 : Vec F S5000x64 .f32) (x3 : Vec F S64x64 .f32) : Vec F S5000x64 .f32 :=
  View.canon [⟨rRows2, k2_pay1 (View.ld x0 rRows2) (View.ld x1 rRows2) (View.ld x2 rRows2) (View.ld x3 rWeight2)⟩]

/-- The one store covers the buffer. -/
theorem cover2_4 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging memrefs: the four inputs keep their contents, the output ends at `out2_4` of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

end

section
variable (V : (c : Dev nD) → (b : Ref sig .tc) → Buf (Elt F) ((c : Thread nD τ).loc b))

/-- The proof data of region 2 on core `c`: the arrays as the region finds them; after the body at point `t` every input's
    buffer still at its block and the output's at the layer's update of the four blocks; nothing owed. The shares `q` are a
    parameter: a window that is alone on its array holds it whole, windows that read one array split it. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t
    = out2_4 (iblk2 V c 0 t) (iblk2 V c 1 t) (iblk2 V c 2 t) (iblk2 V c 3 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t))

/-- The body at any point: the inputs' staging buffers hold their blocks, so the body's triple applies; the invariant and
    the core's dues pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3]
  rw [show (dat2 V q c).Φ t.succ = (dat2 V q c).Φ t.castSucc from rfl,
    show (dat2 V q c).owesAt () t.succ = (dat2 V q c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end

end Cert.KernelIdeal.Hand

end
-- ==== Proof.FrameIdeal.Reg3.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the point fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the point fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the point fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 5000x64 staging buffer and the whole 64x64 one, as rectangles. -/
abbrev rRows3 : Rect S5000x64 := Rect.unit (s := S5000x64) ![0, 0] S5000x64.size inb_S5000x64_S5000x64_0_0
abbrev rWeight3 : Rect S64x64 := Rect.unit (s := S64x64) ![0, 0] S64x64.size inb_S64x64_S64x64_0_0

/-- What the body leaves in the output's staging buffer: its one whole-buffer store of the layer's update of the four blocks. -/
def out3_4 (x0 x1 x2 : Vec F S5000x64 .f32) (x3 : Vec F S64x64 .f32) : Vec F S5000x64 .f32 :=
  View.canon [⟨rRows3, k3_pay1 (View.ld x0 rRows3) (View.ld x1 rRows3) (View.ld x2 rRows3) (View.ld x3 rWeight3)⟩]

/-- The one store covers the buffer. -/
theorem cover3_4 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body on whole staging memrefs: the four inputs keep their contents, the output ends at `out3_4` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__layer_kernel i arg1 harg1 arg2 harg2 arg3 harg3 arg4 harg4 arg5 harg5) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end

section
variable (V : (c : Dev nD) → (b : Ref sig .tc) → Buf (Elt F) ((c : Thread nD τ).loc b))

/-- The proof data of region 3 on core `c`: the arrays as the region finds them; after the body at point `t` every input's
    buffer still at its block and the output's at the layer's update of the four blocks; nothing owed. The shares `q` are a
    parameter: a window that is alone on its array holds it whole, windows that read one array split it. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := by
  dsimp only [dat3]

theorem after3_0 (c : Dev nD) (t : Fin cfg3.N) : (dat3 V q c).after 0 t = iblk3 V c 0 t := by dsimp only [dat3]
theorem after3_1 (c : Dev nD) (t : Fin cfg3.N) : (dat3 V q c).after 1 t = iblk3 V c 1 t := by dsimp only [dat3]
theorem after3_2 (c : Dev nD) (t : Fin cfg3.N) : (dat3 V q c).after 2 t = iblk3 V c 2 t := by dsimp only [dat3]
theorem after3_3 (c : Dev nD) (t : Fin cfg3.N) : (dat3 V q c).after 3 t = iblk3 V c 3 t := by dsimp only [dat3]
theorem after3_4 (c : Dev nD) (t : Fin cfg3.N) : (dat3 V q c).after 4 t
    = out3_4 (iblk3 V c 0 t) (iblk3 V c 1 t) (iblk3 V c 2 t) (iblk3 V c 3 t) := by dsimp only [dat3]

theorem before3_0 (c : Dev nD) (t : Fin cfg3.N) (d) : (dat3 V q c).before 0 t d = iblk3 V c 0 t :=
  before3_0_of V (dat3 V q c) (A_eq3 V q c 0) (after3_0 V q c) t d
theorem before3_1 (c : Dev nD) (t : Fin cfg3.N) (d) : (dat3 V q c).before 1 t d = iblk3 V c 1 t :=
  before3_1_of V (dat3 V q c) (A_eq3 V q c 1) (after3_1 V q c) t d
theorem before3_2 (c : Dev nD) (t : Fin cfg3.N) (d) : (dat3 V q c).before 2 t d = iblk3 V c 2 t :=
  before3_2_of V (dat3 V q c) (A_eq3 V q c 2) (after3_2 V q c) t d
theorem before3_3 (c : Dev nD) (t : Fin cfg3.N) (d) : (dat3 V q c).before 3 t d = iblk3 V c 3 t :=
  before3_3_of V (dat3 V q c) (A_eq3 V q c 3) (after3_3 V q c) t d

/-- What the body is called with at point `t`, the windows one by one, -/
def bodyPre3 (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d)))

/-- and what it returns. -/
def bodyPost3 (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t))

/-- The body at any point: the inputs' staging buffers hold their blocks, so the body's triple applies; the invariant and
    the core's dues pass through unread. -/
theorem sound_body3 (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).Φ t.succ = (dat3 V q c).Φ t.castSucc from rfl,
    show (dat3 V q c).owesAt () t.succ = (dat3 V q c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V q c) (defs₀ (F := F)) Variants.none () Set.univ := fun t => by
  rw [bigSep_W3, bigSep_W3]
  exact sound_body3 V q c t

end

end Cert.KernelIdeal.Hand

end
-- ==== Proof.FrameIdeal.Reg4.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the point fetched it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the point fetched it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the point fetched it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 5000x64 staging buffer and the whole 64x64 one, as rectangles. -/
abbrev rRows4 : Rect S5000x64 := Rect.unit (s := S5000x64) ![0, 0] S5000x64.size inb_S5000x64_S5000x64_0_0
abbrev rWeight4 : Rect S64x64 := Rect.unit (s := S64x64) ![0, 0] S64x64.size inb_S64x64_S64x64_0_0

/-- What the body leaves in the output's staging buffer: its one whole-buffer store of the layer's update of the four blocks. -/
def out4_4 (x0 x1 x2 : Vec F S5000x64 .f32) (x3 : Vec F S64x64 .f32) : Vec F S5000x64 .f32 :=
  View.canon [⟨rRows4, k4_pay1 (View.ld x0 rRows4) (View.ld x1 rRows4) (View.ld x2 rRows4) (View.ld x3 rWeight4)⟩]

/-- The one store covers the buffer. -/
theorem cover4_4 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body on whole staging memrefs: the four inputs keep their contents, the output ends at `out4_4` of them. -/
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__layer_kernel i arg1 harg1 arg2 harg2 arg3 harg3 arg4 harg4 arg5 harg5) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

end

section
variable (V : (c : Dev nD) → (b : Ref sig .tc) → Buf (Elt F) ((c : Thread nD τ).loc b))

/-- The proof data of region 4 on core `c`: the arrays as the region finds them; after the body at point `t` every input's
    buffer still at its block and the output's at the layer's update of the four blocks; nothing owed. The shares `q` are a
    parameter: a window that is alone on its array holds it whole, windows that read one array split it. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t
    = out4_4 (iblk4 V c 0 t) (iblk4 V c 1 t) (iblk4 V c 2 t) (iblk4 V c 3 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d

/-- What the body is called with at point `t`, the windows one by one, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t))

/-- The body at any point: the inputs' staging buffers hold their blocks, so the body's triple applies; the invariant and
    the core's dues pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3]
  rw [show (dat4 V q c).Φ t.succ = (dat4 V q c).Φ t.castSucc from rfl,
    show (dat4 V q c).owesAt () t.succ = (dat4 V q c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V q c) (defs₀ (F := F)) Variants.none () Set.univ := fun t => by
  rw [bigSep_W4, bigSep_W4]
  exact sound_body4 V q c t

end

end Cert.KernelIdeal.Hand

end
-- ==== Proof.FrameIdeal.Reg5.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the point fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the point fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the point fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 5000x64 staging buffer and the whole 64x64 one, as rectangles. -/
abbrev rRows5 : Rect S5000x64 := Rect.unit (s := S5000x64) ![0, 0] S5000x64.size inb_S5000x64_S5000x64_0_0
abbrev rWeight5 : Rect S64x64 := Rect.unit (s := S64x64) ![0, 0] S64x64.size inb_S64x64_S64x64_0_0

/-- What the body leaves in the output's staging buffer: its one whole-buffer store of the layer's update of the four blocks. -/
def out5_4 (x0 x1 x2 : Vec F S5000x64 .f32) (x3 : Vec F S64x64 .f32) : Vec F S5000x64 .f32 :=
  View.canon [⟨rRows5, k5_pay1 (View.ld x0 rRows5) (View.ld x1 rRows5) (View.ld x2 rRows5) (View.ld x3 rWeight5)⟩]

/-- The one store covers the buffer. -/
theorem cover5_4 (p0 : Vec F S5000x64 .f32) (y : S5000x64.Idx) :
    ∃ pc ∈ ([⟨rRows5, p0⟩] : List (View.Piece (Elt F) S5000x64 .f32)), y ∈ pc.1.set :=
  View.cover_of_tiled [⟨rRows5, p0⟩] S5000x64.size (by rfl) y

set_option maxHeartbeats 1000000 in
/-- The body on whole staging memrefs: the four inputs keep their contents, the output ends at `out5_4` of them. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__layer_kernel i arg1 harg1 arg2 harg2 arg3 harg3 arg4 harg4 arg5 harg5) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

end

section
variable (V : (c : Dev nD) → (b : Ref sig .tc) → Buf (Elt F) ((c : Thread nD τ).loc b))

/-- The proof data of region 5 on core `c`: the arrays as the region finds them; after the body at point `t` every input's
    buffer still at its block and the output's at the layer's update of the four blocks; nothing owed. The shares `q` are a
    parameter: a window that is alone on its array holds it whole, windows that read one array split it. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = iblk5 V c 2 t := by dsimp only [dat5]
theorem after5_3 (c : Dev nD) (t : Fin cfg5.N) : (dat5 V q c).after 3 t = iblk5 V c 3 t := by dsimp only [dat5]
theorem after5_4 (c : Dev nD) (t : Fin cfg5.N) : (dat5 V q c).after 4 t
    = out5_4 (iblk5 V c 0 t) (iblk5 V c 1 t) (iblk5 V c 2 t) (iblk5 V c 3 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d
theorem before5_2 (c : Dev nD) (t : Fin cfg5.N) (d) : (dat5 V q c).before 2 t d = iblk5 V c 2 t :=
  before5_2_of V (dat5 V q c) (A_eq5 V q c 2) (after5_2 V q c) t d
theorem before5_3 (c : Dev nD) (t : Fin cfg5.N) (d) : (dat5 V q c).before 3 t d = iblk5 V c 3 t :=
  before5_3_of V (dat5 V q c) (A_eq5 V q c 3) (after5_3 V q c) t d

/-- What the body is called with at point `t`, the windows one by one, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d))
    ∗ (∃ d, owns (c : Thread nD τ) (st5_3 t) fullShare ((dat5 V q c).before 3 t d))
    ∗ (∃ d, owns (c : Thread nD τ) (st5_4 t) fullShare ((dat5 V q c).before 4 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t)
    ∗ owns (c : Thread nD τ) (st5_3 t) fullShare ((dat5 V q c).after 3 t)
    ∗ owns (c : Thread nD τ) (st5_4 t) fullShare ((dat5 V q c).after 4 t))

/-- The body at any point: the inputs' staging buffers hold their blocks, so the body's triple applies; the invariant and
    the core's dues pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1, before5_2, before5_3]
  rw [show (dat5 V q c).Φ t.succ = (dat5 V q c).Φ t.castSucc from rfl,
    show (dat5 V q c).owesAt () t.succ = (dat5 V q c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V q c) (defs₀ (F := F)) Variants.none () Set.univ := fun t => by
  rw [bigSep_W5, bigSep_W5]
  exact sound_body5 V q c t

end

end Cert.KernelIdeal.Hand

end
-- ==== Proof.FrameIdeal.Reg6.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not the point fetched it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not the point fetched it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not the point fetched it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole 5000x64 staging buffer and the whole 64x64 one, as rectangles. -/
abbrev rRows6 : Rect S5000x64 := Rect.unit (s := S5000x64) ![0, 0] S5000x64.size inb_S5000x64_S5000x64_0_0
abbrev rWeight6 : Rect S64x64 := Rect.unit (s := S64x64) ![0, 0] S64x64.size inb_S64x64_S64x64_0_0

/-- What the body leaves in the output's staging buffer: its one whole-buffer store of the layer's update of the four blocks. -/
def out6_4 (x0 x1 x2 : Vec F S5000x64 .f32) (x3 : Vec F S64x64 .f32) : Vec F S5000x64 .f32 :=
  View.canon [⟨rRows6, k6_pay1 (View.ld x0 rRows6) (View.ld x1 rRows6) (View.ld x2 rRows6) (View.ld x3 rWeight6)⟩]

/-- The one store covers the buffer. -/
theorem cover6_4 (p0 : Vec F S5000x64 .f32) (y : S5000x64.Idx) :
    ∃ pc ∈ ([⟨rRows6, p0⟩] : List (View.Piece (Elt F) S5000x64 .f32)), y ∈ pc.1.set :=
  View.cover_of_tiled [⟨rRows6, p0⟩] S5000x64.size (by rfl) y

set_option maxHeartbeats 1000000 in
/-- The body on whole staging memrefs: the four inputs keep their contents, the output ends at `out6_4` of them. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__layer_kernel i arg1 harg1 arg2 harg2 arg3 harg3 arg4 harg4 arg5 harg5) K := by
  simp only [cc6__layer_kernel_eq_skeleton]; unfold cc6__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

end

section
variable (V : (c : Dev nD) → (b : Ref sig .tc) → Buf (Elt F) ((c : Thread nD τ).loc b))

/-- The proof data of region 6 on core `c`: the arrays as the region finds them; after the body at point `t` every input's
    buffer still at its block and the output's at the layer's update of the four blocks; nothing owed. The shares `q` are a
    parameter: a window that is alone on its array holds it whole, windows that read one array split it. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := by
  dsimp only [dat6]

theorem after6_0 (c : Dev nD) (t : Fin cfg6.N) : (dat6 V q c).after 0 t = iblk6 V c 0 t := by dsimp only [dat6]
theorem after6_1 (c : Dev nD) (t : Fin cfg6.N) : (dat6 V q c).after 1 t = iblk6 V c 1 t := by dsimp only [dat6]
theorem after6_2 (c : Dev nD) (t : Fin cfg6.N) : (dat6 V q c).after 2 t = iblk6 V c 2 t := by dsimp only [dat6]
theorem after6_3 (c : Dev nD) (t : Fin cfg6.N) : (dat6 V q c).after 3 t = iblk6 V c 3 t := by dsimp only [dat6]
theorem after6_4 (c : Dev nD) (t : Fin cfg6.N) : (dat6 V q c).after 4 t
    = out6_4 (iblk6 V c 0 t) (iblk6 V c 1 t) (iblk6 V c 2 t) (iblk6 V c 3 t) := by dsimp only [dat6]

theorem before6_0 (c : Dev nD) (t : Fin cfg6.N) (d) : (dat6 V q c).before 0 t d = iblk6 V c 0 t :=
  before6_0_of V (dat6 V q c) (A_eq6 V q c 0) (after6_0 V q c) t d
theorem before6_1 (c : Dev nD) (t : Fin cfg6.N) (d) : (dat6 V q c).before 1 t d = iblk6 V c 1 t :=
  before6_1_of V (dat6 V q c) (A_eq6 V q c 1) (after6_1 V q c) t d
theorem before6_2 (c : Dev nD) (t : Fin cfg6.N) (d) : (dat6 V q c).before 2 t d = iblk6 V c 2 t :=
  before6_2_of V (dat6 V q c) (A_eq6 V q c 2) (after6_2 V q c) t d
theorem before6_3 (c : Dev nD) (t : Fin cfg6.N) (d) : (dat6 V q c).before 3 t d = iblk6 V c 3 t :=
  before6_3_of V (dat6 V q c) (A_eq6 V q c 3) (after6_3 V q c) t d

/-- What the body is called with at point `t`, the windows one by one, -/
def bodyPre6 (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d)))

/-- and what it returns. -/
def bodyPost6 (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t))

/-- The body at any point: the inputs' staging buffers hold their blocks, so the body's triple applies; the invariant and
    the core's dues pass through unread. -/
theorem sound_body6 (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3]
  rw [show (dat6 V q c).Φ t.succ = (dat6 V q c).Φ t.castSucc from rfl,
    show (dat6 V q c).owesAt () t.succ = (dat6 V q c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V q c) (defs₀ (F := F)) Variants.none () Set.univ := fun t => by
  rw [bigSep_W6, bigSep_W6]
  exact sound_body6 V q c t

end

end Cert.KernelIdeal.Hand

end
-- ==== Proof.FrameIdeal.Reg7.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the point fetched it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the point fetched it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the point fetched it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the point fetched it. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole 5000x64 staging buffer and the whole 64x64 one, as rectangles. -/
abbrev rRows7 : Rect S5000x64 := Rect.unit (s := S5000x64) ![0, 0] S5000x64.size inb_S5000x64_S5000x64_0_0
abbrev rWeight7 : Rect S64x64 := Rect.unit (s := S64x64) ![0, 0] S64x64.size inb_S64x64_S64x64_0_0

/-- What the body leaves in the output's staging buffer: its one whole-buffer store of the layer's update of the four blocks. -/
def out7_4 (x0 x1 x2 : Vec F S5000x64 .f32) (x3 : Vec F S64x64 .f32) : Vec F S5000x64 .f32 :=
  View.canon [⟨rRows7, k7_pay1 (View.ld x0 rRows7) (View.ld x1 rRows7) (View.ld x2 rRows7) (View.ld x3 rWeight7)⟩]

/-- The one store covers the buffer. -/
theorem cover7_4 (p0 : Vec F S5000x64 .f32) (y : S5000x64.Idx) :
    ∃ pc ∈ ([⟨rRows7, p0⟩] : List (View.Piece (Elt F) S5000x64 .f32)), y ∈ pc.1.set :=
  View.cover_of_tiled [⟨rRows7, p0⟩] S5000x64.size (by rfl) y

set_option maxHeartbeats 1000000 in
/-- The body on whole staging memrefs: the four inputs keep their contents, the output ends at `out7_4` of them. -/
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__layer_kernel i arg1 harg1 arg2 harg2 arg3 harg3 arg4 harg4 arg5 harg5) K := by
  simp only [cc7__layer_kernel_eq_skeleton]; unfold cc7__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

end

section
variable (V : (c : Dev nD) → (b : Ref sig .tc) → Buf (Elt F) ((c : Thread nD τ).loc b))

/-- The proof data of region 7 on core `c`: the arrays as the region finds them; after the body at point `t` every input's
    buffer still at its block and the output's at the layer's update of the four blocks; nothing owed. The shares `q` are a
    parameter: a window that is alone on its array holds it whole, windows that read one array split it. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := by
  dsimp only [dat7]

theorem after7_0 (c : Dev nD) (t : Fin cfg7.N) : (dat7 V q c).after 0 t = iblk7 V c 0 t := by dsimp only [dat7]
theorem after7_1 (c : Dev nD) (t : Fin cfg7.N) : (dat7 V q c).after 1 t = iblk7 V c 1 t := by dsimp only [dat7]
theorem after7_2 (c : Dev nD) (t : Fin cfg7.N) : (dat7 V q c).after 2 t = iblk7 V c 2 t := by dsimp only [dat7]
theorem after7_3 (c : Dev nD) (t : Fin cfg7.N) : (dat7 V q c).after 3 t = iblk7 V c 3 t := by dsimp only [dat7]
theorem after7_4 (c : Dev nD) (t : Fin cfg7.N) : (dat7 V q c).after 4 t
    = out7_4 (iblk7 V c 0 t) (iblk7 V c 1 t) (iblk7 V c 2 t) (iblk7 V c 3 t) := by dsimp only [dat7]

theorem before7_0 (c : Dev nD) (t : Fin cfg7.N) (d) : (dat7 V q c).before 0 t d = iblk7 V c 0 t :=
  before7_0_of V (dat7 V q c) (A_eq7 V q c 0) (after7_0 V q c) t d
theorem before7_1 (c : Dev nD) (t : Fin cfg7.N) (d) : (dat7 V q c).before 1 t d = iblk7 V c 1 t :=
  before7_1_of V (dat7 V q c) (A_eq7 V q c 1) (after7_1 V q c) t d
theorem before7_2 (c : Dev nD) (t : Fin cfg7.N) (d) : (dat7 V q c).before 2 t d = iblk7 V c 2 t :=
  before7_2_of V (dat7 V q c) (A_eq7 V q c 2) (after7_2 V q c) t d
theorem before7_3 (c : Dev nD) (t : Fin cfg7.N) (d) : (dat7 V q c).before 3 t d = iblk7 V c 3 t :=
  before7_3_of V (dat7 V q c) (A_eq7 V q c 3) (after7_3 V q c) t d

/-- What the body is called with at point `t`, the windows one by one, -/
def bodyPre7 (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d))
    ∗ (∃ d, owns (c : Thread nD τ) (st7_3 t) fullShare ((dat7 V q c).before 3 t d))
    ∗ (∃ d, owns (c : Thread nD τ) (st7_4 t) fullShare ((dat7 V q c).before 4 t d)))

/-- and what it returns. -/
def bodyPost7 (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t)
    ∗ owns (c : Thread nD τ) (st7_3 t) fullShare ((dat7 V q c).after 3 t)
    ∗ owns (c : Thread nD τ) (st7_4 t) fullShare ((dat7 V q c).after 4 t))

/-- The body at any point: the inputs' staging buffers hold their blocks, so the body's triple applies; the invariant and
    the core's dues pass through unread. -/
theorem sound_body7 (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1, before7_2, before7_3]
  rw [show (dat7 V q c).Φ t.succ = (dat7 V q c).Φ t.castSucc from rfl,
    show (dat7 V q c).owesAt () t.succ = (dat7 V q c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V q c) (defs₀ (F := F)) Variants.none () Set.univ := fun t => by
  rw [bigSep_W7, bigSep_W7]
  exact sound_body7 V q c t

end

end Cert.KernelIdeal.Hand

end
-- ==== Proof.FrameIdeal.Reg8.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: one layer's dense update over a block of 5000 nodes, at the entry contents `V`

The call reads a block of rows of the aggregated messages, of the initial features and of the current features, and the
whole 64x64 weight; it writes the same block of rows of the next features. -/

section
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether or not the point fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether or not the point fetched it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether or not the point fetched it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether or not the point fetched it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole 5000x64 staging buffer and the whole 64x64 one, as rectangles. -/
abbrev rRows8 : Rect S5000x64 := Rect.unit (s := S5000x64) ![0, 0] S5000x64.size inb_S5000x64_S5000x64_0_0
abbrev rWeight8 : Rect S64x64 := Rect.unit (s := S64x64) ![0, 0] S64x64.size inb_S64x64_S64x64_0_0

/-- What the body leaves in the output's staging buffer: its one whole-buffer store of the layer's update of the four blocks. -/
def out8_4 (x0 x1 x2 : Vec F S5000x64 .f32) (x3 : Vec F S64x64 .f32) : Vec F S5000x64 .f32 :=
  View.canon [⟨rRows8, k8_pay1 (View.ld x0 rRows8) (View.ld x1 rRows8) (View.ld x2 rRows8) (View.ld x3 rWeight8)⟩]

/-- The one store covers the buffer. -/
theorem cover8_4 (p0 : Vec F S5000x64 .f32) (y : S5000x64.Idx) :
    ∃ pc ∈ ([⟨rRows8, p0⟩] : List (View.Piece (Elt F) S5000x64 .f32)), y ∈ pc.1.set :=
  View.cover_of_tiled [⟨rRows8, p0⟩] S5000x64.size (by rfl) y

set_option maxHeartbeats 1000000 in
/-- The body on whole staging memrefs: the four inputs keep their contents, the output ends at `out8_4` of them. -/
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S5000x64 .f32) (harg5 : arg5.IsWhole)
    (x0 x1 x2 : Vec F S5000x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__layer_kernel i arg1 harg1 arg2 harg2 arg3 harg3 arg4 harg4 arg5 harg5) K := by
  simp only [cc8__layer_kernel_eq_skeleton]; unfold cc8__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

end

section
variable (V : (c : Dev nD) → (b : Ref sig .tc) → Buf (Elt F) ((c : Thread nD τ).loc b))

/-- The proof data of region 8 on core `c`: the arrays as the region finds them; after the body at point `t` every input's
    buffer still at its block and the output's at the layer's update of the four blocks; nothing owed. The shares `q` are a
    parameter: a window that is alone on its array holds it whole, windows that read one array split it. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q := q
  owed _ := 0

variable (q : Fin cfg8.W → PosShare TreeShare)

theorem A_eq8 (c : Dev nD) (w : Fin cfg8.W) : (dat8 V q c).A w = V c (Pipeline.arrRef spec8 w) := by
  dsimp only [dat8]

theorem after8_0 (c : Dev nD) (t : Fin cfg8.N) : (dat8 V q c).after 0 t = iblk8 V c 0 t := by dsimp only [dat8]
theorem after8_1 (c : Dev nD) (t : Fin cfg8.N) : (dat8 V q c).after 1 t = iblk8 V c 1 t := by dsimp only [dat8]
theorem after8_2 (c : Dev nD) (t : Fin cfg8.N) : (dat8 V q c).after 2 t = iblk8 V c 2 t := by dsimp only [dat8]
theorem after8_3 (c : Dev nD) (t : Fin cfg8.N) : (dat8 V q c).after 3 t = iblk8 V c 3 t := by dsimp only [dat8]
theorem after8_4 (c : Dev nD) (t : Fin cfg8.N) : (dat8 V q c).after 4 t
    = out8_4 (iblk8 V c 0 t) (iblk8 V c 1 t) (iblk8 V c 2 t) (iblk8 V c 3 t) := by dsimp only [dat8]

theorem before8_0 (c : Dev nD) (t : Fin cfg8.N) (d) : (dat8 V q c).before 0 t d = iblk8 V c 0 t :=
  before8_0_of V (dat8 V q c) (A_eq8 V q c 0) (after8_0 V q c) t d
theorem before8_1 (c : Dev nD) (t : Fin cfg8.N) (d) : (dat8 V q c).before 1 t d = iblk8 V c 1 t :=
  before8_1_of V (dat8 V q c) (A_eq8 V q c 1) (after8_1 V q c) t d
theorem before8_2 (c : Dev nD) (t : Fin cfg8.N) (d) : (dat8 V q c).before 2 t d = iblk8 V c 2 t :=
  before8_2_of V (dat8 V q c) (A_eq8 V q c 2) (after8_2 V q c) t d
theorem before8_3 (c : Dev nD) (t : Fin cfg8.N) (d) : (dat8 V q c).before 3 t d = iblk8 V c 3 t :=
  before8_3_of V (dat8 V q c) (A_eq8 V q c 3) (after8_3 V q c) t d

/-- What the body is called with at point `t`, the windows one by one, -/
def bodyPre8 (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d)))

/-- and what it returns. -/
def bodyPost8 (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t))

/-- The body at any point: the inputs' staging buffers hold their blocks, so the body's triple applies; the invariant and
    the core's dues pass through unread. -/
theorem sound_body8 (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3]
  rw [show (dat8 V q c).Φ t.succ = (dat8 V q c).Φ t.castSucc from rfl,
    show (dat8 V q c).owesAt () t.succ = (dat8 V q c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V q c) (defs₀ (F := F)) Variants.none () Set.univ := fun t => by
  rw [bigSep_W8, bigSep_W8]
  exact sound_body8 V q c t

end

end Cert.KernelIdeal.Hand

end
-- ==== Proof.FrameIdeal.Reg9.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: the output projection of the 512 pooled rows, at the entry contents `V`

The call reads a block of rows of the left factor, the whole weight and the bias laid out as one row; it writes the same
block of rows of the product plus the bias. -/

section
variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not the point fetched it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not the point fetched it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not the point fetched it. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole staging buffers, as rectangles. -/
abbrev rLeft9 : Rect S512x64 := Rect.unit (s := S512x64) ![0, 0] S512x64.size inb_S512x64_S512x64_0_0
abbrev rWeight9 : Rect S64x32 := Rect.unit (s := S64x32) ![0, 0] S64x32.size inb_S64x32_S64x32_0_0
abbrev rBias9 : Rect S1x32 := Rect.unit (s := S1x32) ![0, 0] S1x32.size inb_S1x32_S1x32_0_0
abbrev rOut9 : Rect S512x32 := Rect.unit (s := S512x32) ![0, 0] S512x32.size inb_S512x32_S512x32_0_0

/-- What the body leaves in the output's staging buffer: its one whole-buffer store of the product plus the bias. -/
def out9_3 (x0 : Vec F S512x64 .f32) (x1 : Vec F S64x32 .f32) (x2 : Vec F S1x32 .f32) : Vec F S512x32 .f32 :=
  View.canon [⟨rOut9, k9_pay1 (View.ld x0 rLeft9) (View.ld x1 rWeight9) (View.ld x2 rBias9)⟩]

/-- The one store covers the buffer. -/
theorem cover9_3 (p0 : Vec F S512x32 .f32) (y : S512x32.Idx) :
    ∃ pc ∈ ([⟨rOut9, p0⟩] : List (View.Piece (Elt F) S512x32 .f32)), y ∈ pc.1.set :=
  View.cover_of_tiled [⟨rOut9, p0⟩] S512x32.size (by rfl) y

set_option maxHeartbeats 1000000 in
/-- The body on whole staging memrefs: the three inputs keep their contents, the output ends at `out9_3` of them. -/
theorem sound_kernel9 (c : Dev nD) (E : Set ℕ) (i : grid9.Coords)
    (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S512x32 .f32) (harg4 : arg4.IsWhole)
    (x0 : Vec F S512x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__affine_kernel i arg1 harg1 arg2 harg2 arg3 harg3 arg4 harg4) K := by
  simp only [cc9__affine_kernel_eq_skeleton]; unfold cc9__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

end

section
variable (V : (c : Dev nD) → (b : Ref sig .tc) → Buf (Elt F) ((c : Thread nD τ).loc b))

/-- The proof data of region 9 on core `c`: the arrays as the region finds them; after the body at point `t` every input's
    buffer still at its block and the output's at the product plus the bias; nothing owed; every window alone on its array. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q := q
  owed _ := 0

variable (q : Fin cfg9.W → PosShare TreeShare)

theorem A_eq9 (c : Dev nD) (w : Fin cfg9.W) : (dat9 V q c).A w = V c (Pipeline.arrRef spec9 w) := by
  dsimp only [dat9]

theorem after9_0 (c : Dev nD) (t : Fin cfg9.N) : (dat9 V q c).after 0 t = iblk9 V c 0 t := by dsimp only [dat9]
theorem after9_1 (c : Dev nD) (t : Fin cfg9.N) : (dat9 V q c).after 1 t = iblk9 V c 1 t := by dsimp only [dat9]
theorem after9_2 (c : Dev nD) (t : Fin cfg9.N) : (dat9 V q c).after 2 t = iblk9 V c 2 t := by dsimp only [dat9]
theorem after9_3 (c : Dev nD) (t : Fin cfg9.N) : (dat9 V q c).after 3 t
    = out9_3 (iblk9 V c 0 t) (iblk9 V c 1 t) (iblk9 V c 2 t) := by dsimp only [dat9]

theorem before9_0 (c : Dev nD) (t : Fin cfg9.N) (d) : (dat9 V q c).before 0 t d = iblk9 V c 0 t :=
  before9_0_of V (dat9 V q c) (A_eq9 V q c 0) (after9_0 V q c) t d
theorem before9_1 (c : Dev nD) (t : Fin cfg9.N) (d) : (dat9 V q c).before 1 t d = iblk9 V c 1 t :=
  before9_1_of V (dat9 V q c) (A_eq9 V q c 1) (after9_1 V q c) t d
theorem before9_2 (c : Dev nD) (t : Fin cfg9.N) (d) : (dat9 V q c).before 2 t d = iblk9 V c 2 t :=
  before9_2_of V (dat9 V q c) (A_eq9 V q c 2) (after9_2 V q c) t d

/-- What the body is called with at point `t`, the windows one by one, -/
def bodyPre9 (c : Dev nD) (t : Fin cfg9.N) : sProp 𝕄 :=
  iprop((dat9 V q c).Φ t.castSucc ∗ (dat9 V q c).owesAt () t.castSucc
    ∗ (∃ d, owns (c : Thread nD τ) (st9_0 t) fullShare ((dat9 V q c).before 0 t d))
    ∗ (∃ d, owns (c : Thread nD τ) (st9_1 t) fullShare ((dat9 V q c).before 1 t d))
    ∗ (∃ d, owns (c : Thread nD τ) (st9_2 t) fullShare ((dat9 V q c).before 2 t d))
    ∗ (∃ d, owns (c : Thread nD τ) (st9_3 t) fullShare ((dat9 V q c).before 3 t d)))

/-- and what it returns. -/
def bodyPost9 (c : Dev nD) (t : Fin cfg9.N) : sProp 𝕄 :=
  iprop((dat9 V q c).Φ t.succ ∗ (dat9 V q c).owesAt () t.succ
    ∗ owns (c : Thread nD τ) (st9_0 t) fullShare ((dat9 V q c).after 0 t)
    ∗ owns (c : Thread nD τ) (st9_1 t) fullShare ((dat9 V q c).after 1 t)
    ∗ owns (c : Thread nD τ) (st9_2 t) fullShare ((dat9 V q c).after 2 t)
    ∗ owns (c : Thread nD τ) (st9_3 t) fullShare ((dat9 V q c).after 3 t))

/-- The body at any point: the inputs' staging buffers hold their blocks, so the body's triple applies; the invariant and
    the core's dues pass through unread. -/
theorem sound_body9 (c : Dev nD) (t : Fin cfg9.N) :
    bodyPre9 V q c t ⊢ wp frame (wpE (defs₀ (F := F)) Variants.none c none) Set.univ (bodyAt9 t) (fun _ => bodyPost9 V q c t) := by
  unfold bodyPre9 bodyPost9 bodyAt9
  simp only [before9_0, before9_1, before9_2]
  rw [show (dat9 V q c).Φ t.succ = (dat9 V q c).Φ t.castSucc from rfl,
    show (dat9 V q c).owesAt () t.succ = (dat9 V q c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V q c) (defs₀ (F := F)) Variants.none () Set.univ := fun t => by
  rw [bigSep_W9, bigSep_W9]
  exact sound_body9 V q c t

end

end Cert.KernelIdeal.Hand

end
-- ==== Proof.FrameIdeal.Chain.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Reg0
import proofs.«108571_j70514773065745_1_alg».proof.Proof.FrameIdeal.Reg1
import proofs.«108571_j70514773065745_1_alg».proof.Proof.FrameIdeal.Reg2
import proofs.«108571_j70514773065745_1_alg».proof.Proof.FrameIdeal.Reg3
import proofs.«108571_j70514773065745_1_alg».proof.Proof.FrameIdeal.Reg4
import proofs.«108571_j70514773065745_1_alg».proof.Proof.FrameIdeal.Reg5
import proofs.«108571_j70514773065745_1_alg».proof.Proof.FrameIdeal.Reg6
import proofs.«108571_j70514773065745_1_alg».proof.Proof.FrameIdeal.Reg7
import proofs.«108571_j70514773065745_1_alg».proof.Proof.FrameIdeal.Reg8
import proofs.«108571_j70514773065745_1_alg».proof.Proof.FrameIdeal.Reg9
import proofs.«108571_j70514773065745_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of @main, and the regions' proof data there

@main is ten kernel regions among stretches of host operations. Between two items every unscoped buffer of a core holds a
definite array: the launch contents, then each host stretch's operations applied in order, then — after a region — the
region's one output array at what its write-backs leave, every other buffer as it was. -/

variable (m : (ℓ : Loc nD τ sig) → Buf (Elt F) ℓ)

/-- Every window alone on its array holds it whole. -/
abbrev qWhole {n : ℕ} : Fin n → PosShare TreeShare := fun _ => fullShare

/-- Region 1 reads the initial features through two windows (they are also the current features of the first layer):
    the two windows hold one half of that array each. -/
def qFirst : Fin cfg1.W → PosShare TreeShare
  | ⟨1, _⟩ => fullShare.left
  | ⟨2, _⟩ => fullShare.right
  | _ => fullShare

/-- Core `c`'s buffers at launch. -/
abbrev W0 : Dev nD → Valuation τ sig (Elt F) := fun c b => m (c, b)
/-- After host stretch 0: region 0's entry. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- What region 0 leaves in its output array: the write-backs of all its grid points folded over the entry contents. -/
def X0 (c : Dev nD) : Buf (Elt F) ((c : Thread nD τ).loc main_v5) := (dat0 (U1 m) qWhole c).arrAt 3 cfg0.N
/-- After region 0: its output array at what the region leaves, every other buffer as at entry. -/
abbrev W2 : Dev nD → Valuation τ sig (Elt F) := fun c => Function.update (W1 m c) (Proc.devRef .tc main_v5) (X0 m c)
abbrev U2 : (c : Dev nD) → (b : Ref sig .tc) → Buf (Elt F) ((c : Thread nD τ).loc b) := fun c b => W2 m c b
/-- After host stretch 1: region 1's entry. -/
abbrev W3 : Dev nD → Valuation τ sig (Elt F) := fun c => StableHlo.after hostOps1 (W2 m c)
/-- The same, read at the TensorCore's references. -/
abbrev U3 : (c : Dev nD) → (b : Ref sig .tc) → Buf (Elt F) ((c : Thread nD τ).loc b) := fun c b => W3 m c b
/-- What region 1 leaves in its output array: the write-backs of all its grid points folded over the entry contents. -/
def X1 (c : Dev nD) : Buf (Elt F) ((c : Thread nD τ).loc main_v21) := (dat1 (U3 m) qFirst c).arrAt 4 cfg1.N
/-- After region 1: its output array at what the region leaves, every other buffer as at entry. -/
abbrev W4 : Dev nD → Valuation τ sig (Elt F) := fun c => Function.update (W3 m c) (Proc.devRef .tc main_v21) (X1 m c)
abbrev U4 : (c : Dev nD) → (b : Ref sig .tc) → Buf (Elt F) ((c : Thread nD τ).loc b) := fun c b => W4 m c b
/-- After host stretch 2: region 2's entry. -/
abbrev W5 : Dev nD → Valuation τ sig (Elt F) := fun c => StableHlo.after hostOps2 (W4 m c)
/-- The same, read at the TensorCore's references. -/
abbrev U5 : (c : Dev nD) → (b : Ref sig .tc) → Buf (Elt F) ((c : Thread nD τ).loc b) := fun c b => W5 m c b
/-- What region 2 leaves in its output array: the write-backs of all its grid points folded over the entry contents. -/
def X2 (c : Dev nD) : Buf (Elt F) ((c : Thread nD τ).loc main_v37) := (dat2 (U5 m) qWhole c).arrAt 4 cfg2.N
/-- After region 2: its output array at what the region leaves, every other buffer as at entry. -/
abbrev W6 : Dev nD → Valuation τ sig (Elt F) := fun c => Function.update (W5 m c) (Proc.devRef .tc main_v37) (X2 m c)
abbrev U6 : (c : Dev nD) → (b : Ref sig .tc) → Buf (Elt F) ((c : Thread nD τ).loc b) := fun c b => W6 m c b
/-- After host stretch 3: region 3's entry. -/
abbrev W7 : Dev nD → Valuation τ sig (Elt F) := fun c => StableHlo.after hostOps3 (W6 m c)
/-- The same, read at the TensorCore's references. -/
abbrev U7 : (c : Dev nD) → (b : Ref sig .tc) → Buf (Elt F) ((c : Thread nD τ).loc b) := fun c b => W7 m c b
/-- What region 3 leaves in its output array: the write-backs of all its grid points folded over the entry contents. -/
def X3 (c : Dev nD) : Buf (Elt F) ((c : Thread nD τ).loc main_v53) := (dat3 (U7 m) qWhole c).arrAt 4 cfg3.N
/-- After region 3: its output array at what the region leaves, every other buffer as at entry. -/
abbrev W8 : Dev nD → Valuation τ sig (Elt F) := fun c => Function.update (W7 m c) (Proc.devRef .tc main_v53) (X3 m c)
abbrev U8 : (c : Dev nD) → (b : Ref sig .tc) → Buf (Elt F) ((c : Thread nD τ).loc b) := fun c b => W8 m c b
/-- After host stretch 4: region 4's entry. -/
abbrev W9 : Dev nD → Valuation τ sig (Elt F) := fun c => StableHlo.after hostOps4 (W8 m c)
/-- The same, read at the TensorCore's references. -/
abbrev U9 : (c : Dev nD) → (b : Ref sig .tc) → Buf (Elt F) ((c : Thread nD τ).loc b) := fun c b => W9 m c b
/-- What region 4 leaves in its output array: the write-backs of all its grid points folded over the entry contents. -/
def X4 (c : Dev nD) : Buf (Elt F) ((c : Thread nD τ).loc main_v69) := (dat4 (U9 m) qWhole c).arrAt 4 cfg4.N
/-- After region 4: its output array at what the region leaves, every other buffer as at entry. -/
abbrev W10 : Dev nD → Valuation τ sig (Elt F) := fun c => Function.update (W9 m c) (Proc.devRef .tc main_v69) (X4 m c)
abbrev U10 : (c : Dev nD) → (b : Ref sig .tc) → Buf (Elt F) ((c : Thread nD τ).loc b) := fun c b => W10 m c b
/-- After host stretch 5: region 5's entry. -/
abbrev W11 : Dev nD → Valuation τ sig (Elt F) := fun c => StableHlo.after hostOps5 (W10 m c)
/-- The same, read at the TensorCore's references. -/
abbrev U11 : (c : Dev nD) → (b : Ref sig .tc) → Buf (Elt F) ((c : Thread nD τ).loc b) := fun c b => W11 m c b
/-- What region 5 leaves in its output array: the write-backs of all its grid points folded over the entry contents. -/
def X5 (c : Dev nD) : Buf (Elt F) ((c : Thread nD τ).loc main_v85) := (dat5 (U11 m) qWhole c).arrAt 4 cfg5.N
/-- After region 5: its output array at what the region leaves, every other buffer as at entry. -/
abbrev W12 : Dev nD → Valuation τ sig (Elt F) := fun c => Function.update (W11 m c) (Proc.devRef .tc main_v85) (X5 m c)
abbrev U12 : (c : Dev nD) → (b : Ref sig .tc) → Buf (Elt F) ((c : Thread nD τ).loc b) := fun c b => W12 m c b
/-- After host stretch 6: region 6's entry. -/
abbrev W13 : Dev nD → Valuation τ sig (Elt F) := fun c => StableHlo.after hostOps6 (W12 m c)
/-- The same, read at the TensorCore's references. -/
abbrev U13 : (c : Dev nD) → (b : Ref sig .tc) → Buf (Elt F) ((c : Thread nD τ).loc b) := fun c b => W13 m c b
/-- What region 6 leaves in its output array: the write-backs of all its grid points folded over the entry contents. -/
def X6 (c : Dev nD) : Buf (Elt F) ((c : Thread nD τ).loc main_v101) := (dat6 (U13 m) qWhole c).arrAt 4 cfg6.N
/-- After region 6: its output array at what the region leaves, every other buffer as at entry. -/
abbrev W14 : Dev nD → Valuation τ sig (Elt F) := fun c => Function.update (W13 m c) (Proc.devRef .tc main_v101) (X6 m c)
abbrev U14 : (c : Dev nD) → (b : Ref sig .tc) → Buf (Elt F) ((c : Thread nD τ).loc b) := fun c b => W14 m c b
/-- After host stretch 7: region 7's entry. -/
abbrev W15 : Dev nD → Valuation τ sig (Elt F) := fun c => StableHlo.after hostOps7 (W14 m c)
/-- The same, read at the TensorCore's references. -/
abbrev U15 : (c : Dev nD) → (b : Ref sig .tc) → Buf (Elt F) ((c : Thread nD τ).loc b) := fun c b => W15 m c b
/-- What region 7 leaves in its output array: the write-backs of all its grid points folded over the entry contents. -/
def X7 (c : Dev nD) : Buf (Elt F) ((c : Thread nD τ).loc main_v117) := (dat7 (U15 m) qWhole c).arrAt 4 cfg7.N
/-- After region 7: its output array at what the region leaves, every other buffer as at entry. -/
abbrev W16 : Dev nD → Valuation τ sig (Elt F) := fun c => Function.update (W15 m c) (Proc.devRef .tc main_v117) (X7 m c)
abbrev U16 : (c : Dev nD) → (b : Ref sig .tc) → Buf (Elt F) ((c : Thread nD τ).loc b) := fun c b => W16 m c b
/-- After host stretch 8: region 8's entry. -/
abbrev W17 : Dev nD → Valuation τ sig (Elt F) := fun c => StableHlo.after hostOps8 (W16 m c)
/-- The same, read at the TensorCore's references. -/
abbrev U17 : (c : Dev nD) → (b : Ref sig .tc) → Buf (Elt F) ((c : Thread nD τ).loc b) := fun c b => W17 m c b
/-- What region 8 leaves in its output array: the write-backs of all its grid points folded over the entry contents. -/
def X8 (c : Dev nD) : Buf (Elt F) ((c : Thread nD τ).loc main_v133) := (dat8 (U17 m) qWhole c).arrAt 4 cfg8.N
/-- After region 8: its output array at what the region leaves, every other buffer as at entry. -/
abbrev W18 : Dev nD → Valuation τ sig (Elt F) := fun c => Function.update (W17 m c) (Proc.devRef .tc main_v133) (X8 m c)
abbrev U18 : (c : Dev nD) → (b : Ref sig .tc) → Buf (Elt F) ((c : Thread nD τ).loc b) := fun c b => W18 m c b
/-- After host stretch 9: region 9's entry. -/
abbrev W19 : Dev nD → Valuation τ sig (Elt F) := fun c => StableHlo.after hostOps9 (W18 m c)
/-- The same, read at the TensorCore's references. -/
abbrev U19 : (c : Dev nD) → (b : Ref sig .tc) → Buf (Elt F) ((c : Thread nD τ).loc b) := fun c b => W19 m c b
/-- What region 9 leaves in its output array: the write-backs of all its grid points folded over the entry contents. -/
def X9 (c : Dev nD) : Buf (Elt F) ((c : Thread nD τ).loc main_v147) := (dat9 (U19 m) qWhole c).arrAt 3 cfg9.N
/-- After region 9: its output array at what the region leaves, every other buffer as at entry. -/
abbrev W20 : Dev nD → Valuation τ sig (Elt F) := fun c => Function.update (W19 m c) (Proc.devRef .tc main_v147) (X9 m c)
abbrev U20 : (c : Dev nD) → (b : Ref sig .tc) → Buf (Elt F) ((c : Thread nD τ).loc b) := fun c b => W20 m c b

/-- Every region's proof data, each at its region's entry contents. -/
def pdats : (p : Fin 10) → (c : Dev nD) → Dat τ (Elt F) Unit ℕ (UR sig nD τ) ℕ (cfgs p) c
  | ⟨0, _⟩ => fun c => dat0 (U1 m) qWhole c
  | ⟨1, _⟩ => fun c => dat1 (U3 m) qFirst c
  | ⟨2, _⟩ => fun c => dat2 (U5 m) qWhole c
  | ⟨3, _⟩ => fun c => dat3 (U7 m) qWhole c
  | ⟨4, _⟩ => fun c => dat4 (U9 m) qWhole c
  | ⟨5, _⟩ => fun c => dat5 (U11 m) qWhole c
  | ⟨6, _⟩ => fun c => dat6 (U13 m) qWhole c
  | ⟨7, _⟩ => fun c => dat7 (U15 m) qWhole c
  | ⟨8, _⟩ => fun c => dat8 (U17 m) qWhole c
  | ⟨9, _⟩ => fun c => dat9 (U19 m) qWhole c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Host stretch 0 writes only its own results; region 0 only its output array. -/
theorem W1_of (c : Dev nD) (r : Ref sig .tc) (h : r ∉ (hostOps0_W : List (Ref sig .tc))) : W1 m c r = W0 m c r :=
  StableHlo.after_of_writes_sub hostOps0 _ hostOps0_writes h
theorem W2_of (c : Dev nD) (r : Ref sig .tc) (h : r ≠ main_v5) : W2 m c r = W1 m c r := by
  simp only [W2, Function.update_of_ne (StableHlo.devRef_ne_of_ne h : (Proc.devRef .tc r : DevRef τ sig) ≠ Proc.devRef .tc main_v5)]
theorem W2_out (c : Dev nD) : W2 m c main_v5 = X0 m c := by
  simp only [W2, Function.update_self]

/-- Host stretch 1 writes only its own results; region 1 only its output array. -/
theorem W3_of (c : Dev nD) (r : Ref sig .tc) (h : r ∉ (hostOps1_W : List (Ref sig .tc))) : W3 m c r = W2 m c r :=
  StableHlo.after_of_writes_sub hostOps1 _ hostOps1_writes h
theorem W4_of (c : Dev nD) (r : Ref sig .tc) (h : r ≠ main_v21) : W4 m c r = W3 m c r := by
  simp only [W4, Function.update_of_ne (StableHlo.devRef_ne_of_ne h : (Proc.devRef .tc r : DevRef τ sig) ≠ Proc.devRef .tc main_v21)]
theorem W4_out (c : Dev nD) : W4 m c main_v21 = X1 m c := by
  simp only [W4, Function.update_self]

/-- Host stretch 2 writes only its own results; region 2 only its output array. -/
theorem W5_of (c : Dev nD) (r : Ref sig .tc) (h : r ∉ (hostOps2_W : List (Ref sig .tc))) : W5 m c r = W4 m c r :=
  StableHlo.after_of_writes_sub hostOps2 _ hostOps2_writes h
theorem W6_of (c : Dev nD) (r : Ref sig .tc) (h : r ≠ main_v37) : W6 m c r = W5 m c r := by
  simp only [W6, Function.update_of_ne (StableHlo.devRef_ne_of_ne h : (Proc.devRef .tc r : DevRef τ sig) ≠ Proc.devRef .tc main_v37)]
theorem W6_out (c : Dev nD) : W6 m c main_v37 = X2 m c := by
  simp only [W6, Function.update_self]

/-- Host stretch 3 writes only its own results; region 3 only its output array. -/
theorem W7_of (c : Dev nD) (r : Ref sig .tc) (h : r ∉ (hostOps3_W : List (Ref sig .tc))) : W7 m c r = W6 m c r :=
  StableHlo.after_of_writes_sub hostOps3 _ hostOps3_writes h
theorem W8_of (c : Dev nD) (r : Ref sig .tc) (h : r ≠ main_v53) : W8 m c r = W7 m c r := by
  simp only [W8, Function.update_of_ne (StableHlo.devRef_ne_of_ne h : (Proc.devRef .tc r : DevRef τ sig) ≠ Proc.devRef .tc main_v53)]
theorem W8_out (c : Dev nD) : W8 m c main_v53 = X3 m c := by
  simp only [W8, Function.update_self]

/-- Host stretch 4 writes only its own results; region 4 only its output array. -/
theorem W9_of (c : Dev nD) (r : Ref sig .tc) (h : r ∉ (hostOps4_W : List (Ref sig .tc))) : W9 m c r = W8 m c r :=
  StableHlo.after_of_writes_sub hostOps4 _ hostOps4_writes h
theorem W10_of (c : Dev nD) (r : Ref sig .tc) (h : r ≠ main_v69) : W10 m c r = W9 m c r := by
  simp only [W10, Function.update_of_ne (StableHlo.devRef_ne_of_ne h : (Proc.devRef .tc r : DevRef τ sig) ≠ Proc.devRef .tc main_v69)]
theorem W10_out (c : Dev nD) : W10 m c main_v69 = X4 m c := by
  simp only [W10, Function.update_self]

/-- Host stretch 5 writes only its own results; region 5 only its output array. -/
theorem W11_of (c : Dev nD) (r : Ref sig .tc) (h : r ∉ (hostOps5_W : List (Ref sig .tc))) : W11 m c r = W10 m c r :=
  StableHlo.after_of_writes_sub hostOps5 _ hostOps5_writes h
theorem W12_of (c : Dev nD) (r : Ref sig .tc) (h : r ≠ main_v85) : W12 m c r = W11 m c r := by
  simp only [W12, Function.update_of_ne (StableHlo.devRef_ne_of_ne h : (Proc.devRef .tc r : DevRef τ sig) ≠ Proc.devRef .tc main_v85)]
theorem W12_out (c : Dev nD) : W12 m c main_v85 = X5 m c := by
  simp only [W12, Function.update_self]

/-- Host stretch 6 writes only its own results; region 6 only its output array. -/
theorem W13_of (c : Dev nD) (r : Ref sig .tc) (h : r ∉ (hostOps6_W : List (Ref sig .tc))) : W13 m c r = W12 m c r :=
  StableHlo.after_of_writes_sub hostOps6 _ hostOps6_writes h
theorem W14_of (c : Dev nD) (r : Ref sig .tc) (h : r ≠ main_v101) : W14 m c r = W13 m c r := by
  simp only [W14, Function.update_of_ne (StableHlo.devRef_ne_of_ne h : (Proc.devRef .tc r : DevRef τ sig) ≠ Proc.devRef .tc main_v101)]
theorem W14_out (c : Dev nD) : W14 m c main_v101 = X6 m c := by
  simp only [W14, Function.update_self]

/-- Host stretch 7 writes only its own results; region 7 only its output array. -/
theorem W15_of (c : Dev nD) (r : Ref sig .tc) (h : r ∉ (hostOps7_W : List (Ref sig .tc))) : W15 m c r = W14 m c r :=
  StableHlo.after_of_writes_sub hostOps7 _ hostOps7_writes h
theorem W16_of (c : Dev nD) (r : Ref sig .tc) (h : r ≠ main_v117) : W16 m c r = W15 m c r := by
  simp only [W16, Function.update_of_ne (StableHlo.devRef_ne_of_ne h : (Proc.devRef .tc r : DevRef τ sig) ≠ Proc.devRef .tc main_v117)]
theorem W16_out (c : Dev nD) : W16 m c main_v117 = X7 m c := by
  simp only [W16, Function.update_self]

/-- Host stretch 8 writes only its own results; region 8 only its output array. -/
theorem W17_of (c : Dev nD) (r : Ref sig .tc) (h : r ∉ (hostOps8_W : List (Ref sig .tc))) : W17 m c r = W16 m c r :=
  StableHlo.after_of_writes_sub hostOps8 _ hostOps8_writes h
theorem W18_of (c : Dev nD) (r : Ref sig .tc) (h : r ≠ main_v133) : W18 m c r = W17 m c r := by
  simp only [W18, Function.update_of_ne (StableHlo.devRef_ne_of_ne h : (Proc.devRef .tc r : DevRef τ sig) ≠ Proc.devRef .tc main_v133)]
theorem W18_out (c : Dev nD) : W18 m c main_v133 = X8 m c := by
  simp only [W18, Function.update_self]

/-- Host stretch 9 writes only its own results; region 9 only its output array. -/
theorem W19_of (c : Dev nD) (r : Ref sig .tc) (h : r ∉ (hostOps9_W : List (Ref sig .tc))) : W19 m c r = W18 m c r :=
  StableHlo.after_of_writes_sub hostOps9 _ hostOps9_writes h
theorem W20_of (c : Dev nD) (r : Ref sig .tc) (h : r ≠ main_v147) : W20 m c r = W19 m c r := by
  simp only [W20, Function.update_of_ne (StableHlo.devRef_ne_of_ne h : (Proc.devRef .tc r : DevRef τ sig) ≠ Proc.devRef .tc main_v147)]
theorem W20_out (c : Dev nD) : W20 m c main_v147 = X9 m c := by
  simp only [W20, Function.update_self]

/-- No host stretch and no region writes argument 0: it reaches the end as launched. -/
theorem W20_main_arg0 (c : Dev nD) : W20 m c main_arg0 = m ((c : Thread nD τ).loc main_arg0) :=
  (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl

/-- No host stretch and no region writes argument 1: it reaches the end as launched. -/
theorem W20_main_arg1 (c : Dev nD) : W20 m c main_arg1 = m ((c : Thread nD τ).loc main_arg1) :=
  (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl

/-- No host stretch and no region writes argument 2: it reaches the end as launched. -/
theorem W20_main_arg2 (c : Dev nD) : W20 m c main_arg2 = m ((c : Thread nD τ).loc main_arg2) :=
  (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl

/-- No host stretch and no region writes argument 3: it reaches the end as launched. -/
theorem W20_main_arg3 (c : Dev nD) : W20 m c main_arg3 = m ((c : Thread nD τ).loc main_arg3) :=
  (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl

/-- No host stretch and no region writes argument 4: it reaches the end as launched. -/
theorem W20_main_arg4 (c : Dev nD) : W20 m c main_arg4 = m ((c : Thread nD τ).loc main_arg4) :=
  (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl

/-- No host stretch and no region writes argument 5: it reaches the end as launched. -/
theorem W20_main_arg5 (c : Dev nD) : W20 m c main_arg5 = m ((c : Thread nD τ).loc main_arg5) :=
  (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl

/-- No host stretch and no region writes argument 6: it reaches the end as launched. -/
theorem W20_main_arg6 (c : Dev nD) : W20 m c main_arg6 = m ((c : Thread nD τ).loc main_arg6) :=
  (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl

/-- No host stretch and no region writes argument 7: it reaches the end as launched. -/
theorem W20_main_arg7 (c : Dev nD) : W20 m c main_arg7 = m ((c : Thread nD τ).loc main_arg7) :=
  (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl

/-- No host stretch and no region writes argument 8: it reaches the end as launched. -/
theorem W20_main_arg8 (c : Dev nD) : W20 m c main_arg8 = m ((c : Thread nD τ).loc main_arg8) :=
  (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl

end Cert.KernelIdeal.Hand

end
-- ==== Proof.FrameIdeal.Seg0.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays0 (V V' : (c : Dev nD) → (b : Ref sig .tc) → Buf (Elt F) ((c : Thread nD τ).loc b))
    (q : Fin cfg0.W → PosShare TreeShare) (c : Dev nD)
    (hout : V' c main_v5 = (dat0 V q c).arrAt 3 cfg0.N)
    (hne : ∀ r : Ref sig .tc, r ≠ main_v5 → V' c r = V c r) :
    ∀ w : Fin cfg0.W, (dat0 V q c).arrAt w cfg0.N = V' c (Pipeline.arrRef spec0 w)
  | ⟨0, _⟩ => (((dat0 V q c).arrAt_in 0 rfl _).trans (A_eq0 V q c 0)).trans (hne main_arg0 (by decide)).symm
  | ⟨1, _⟩ => (((dat0 V q c).arrAt_in 1 rfl _).trans (A_eq0 V q c 1)).trans (hne main_arg4 (by decide)).symm
  | ⟨2, _⟩ => (((dat0 V q c).arrAt_in 2 rfl _).trans (A_eq0 V q c 2)).trans (hne main_v4 (by decide)).symm
  | ⟨3, _⟩ => hout.symm

variable (m : (ℓ : Loc nD τ sig) → Buf (Elt F) ℓ)

theorem hF0 (c : Dev nD) : ∀ w : Fin cfg0.W, (dat0 (U1 m) qWhole c).arrAt w cfg0.N = U2 m c (Pipeline.arrRef spec0 w) :=
  exit_arrays0 (U1 m) (U2 m) qWhole c (W2_out m c) (fun r h => W2_of m c r h)

/-- Every buffer that is no array of the region is as at entry. -/
theorem hrest0 (c : Dev nD) : ∀ b, b ∉ Finset.univ.image (Pipeline.arrRef spec0) → U2 m c b = U1 m c b :=
  fun b hb => W2_of m c b fun e => hb (Finset.mem_image.mpr ⟨(3 : Fin cfg0.W), Finset.mem_univ _, e.symm⟩)

set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) qWhole c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg2.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays2 (V V' : (c : Dev nD) → (b : Ref sig .tc) → Buf (Elt F) ((c : Thread nD τ).loc b))
    (q : Fin cfg2.W → PosShare TreeShare) (c : Dev nD)
    (hout : V' c main_v37 = (dat2 V q c).arrAt 4 cfg2.N)
    (hne : ∀ r : Ref sig .tc, r ≠ main_v37 → V' c r = V c r) :
    ∀ w : Fin cfg2.W, (dat2 V q c).arrAt w cfg2.N = V' c (Pipeline.arrRef spec2 w)
  | ⟨0, _⟩ => (((dat2 V q c).arrAt_in 0 rfl _).trans (A_eq2 V q c 0)).trans (hne main_v34 (by decide)).symm
  | ⟨1, _⟩ => (((dat2 V q c).arrAt_in 1 rfl _).trans (A_eq2 V q c 1)).trans (hne main_v5 (by decide)).symm
  | ⟨2, _⟩ => (((dat2 V q c).arrAt_in 2 rfl _).trans (A_eq2 V q c 2)).trans (hne main_v21 (by decide)).symm
  | ⟨3, _⟩ => (((dat2 V q c).arrAt_in 3 rfl _).trans (A_eq2 V q c 3)).trans (hne main_v36 (by decide)).symm
  | ⟨4, _⟩ => hout.symm

variable (m : (ℓ : Loc nD τ sig) → Buf (Elt F) ℓ)

theorem hF2 (c : Dev nD) : ∀ w : Fin cfg2.W, (dat2 (U5 m) qWhole c).arrAt w cfg2.N = U6 m c (Pipeline.arrRef spec2 w) :=
  exit_arrays2 (U5 m) (U6 m) qWhole c (W6_out m c) (fun r h => W6_of m c r h)

/-- Every buffer that is no array of the region is as at entry. -/
theorem hrest2 (c : Dev nD) : ∀ b, b ∉ Finset.univ.image (Pipeline.arrRef spec2) → U6 m c b = U5 m c b :=
  fun b hb => W6_of m c b fun e => hb (Finset.mem_image.mpr ⟨(4 : Fin cfg2.W), Finset.mem_univ _, e.symm⟩)

set_option backward.isDefEq.respectTransparency.types false in
/-- Region 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) qWhole c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg3.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays3 (V V' : (c : Dev nD) → (b : Ref sig .tc) → Buf (Elt F) ((c : Thread nD τ).loc b))
    (q : Fin cfg3.W → PosShare TreeShare) (c : Dev nD)
    (hout : V' c main_v53 = (dat3 V q c).arrAt 4 cfg3.N)
    (hne : ∀ r : Ref sig .tc, r ≠ main_v53 → V' c r = V c r) :
    ∀ w : Fin cfg3.W, (dat3 V q c).arrAt w cfg3.N = V' c (Pipeline.arrRef spec3 w)
  | ⟨0, _⟩ => (((dat3 V q c).arrAt_in 0 rfl _).trans (A_eq3 V q c 0)).trans (hne main_v50 (by decide)).symm
  | ⟨1, _⟩ => (((dat3 V q c).arrAt_in 1 rfl _).trans (A_eq3 V q c 1)).trans (hne main_v5 (by decide)).symm
  | ⟨2, _⟩ => (((dat3 V q c).arrAt_in 2 rfl _).trans (A_eq3 V q c 2)).trans (hne main_v37 (by decide)).symm
  | ⟨3, _⟩ => (((dat3 V q c).arrAt_in 3 rfl _).trans (A_eq3 V q c 3)).trans (hne main_v52 (by decide)).symm
  | ⟨4, _⟩ => hout.symm

variable (m : (ℓ : Loc nD τ sig) → Buf (Elt F) ℓ)

theorem hF3 (c : Dev nD) : ∀ w : Fin cfg3.W, (dat3 (U7 m) qWhole c).arrAt w cfg3.N = U8 m c (Pipeline.arrRef spec3 w) :=
  exit_arrays3 (U7 m) (U8 m) qWhole c (W8_out m c) (fun r h => W8_of m c r h)

/-- Every buffer that is no array of the region is as at entry. -/
theorem hrest3 (c : Dev nD) : ∀ b, b ∉ Finset.univ.image (Pipeline.arrRef spec3) → U8 m c b = U7 m c b :=
  fun b hb => W8_of m c b fun e => hb (Finset.mem_image.mpr ⟨(4 : Fin cfg3.W), Finset.mem_univ _, e.symm⟩)

set_option backward.isDefEq.respectTransparency.types false in
/-- Region 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) qWhole c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg4.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays4 (V V' : (c : Dev nD) → (b : Ref sig .tc) → Buf (Elt F) ((c : Thread nD τ).loc b))
    (q : Fin cfg4.W → PosShare TreeShare) (c : Dev nD)
    (hout : V' c main_v69 = (dat4 V q c).arrAt 4 cfg4.N)
    (hne : ∀ r : Ref sig .tc, r ≠ main_v69 → V' c r = V c r) :
    ∀ w : Fin cfg4.W, (dat4 V q c).arrAt w cfg4.N = V' c (Pipeline.arrRef spec4 w)
  | ⟨0, _⟩ => (((dat4 V q c).arrAt_in 0 rfl _).trans (A_eq4 V q c 0)).trans (hne main_v66 (by decide)).symm
  | ⟨1, _⟩ => (((dat4 V q c).arrAt_in 1 rfl _).trans (A_eq4 V q c 1)).trans (hne main_v5 (by decide)).symm
  | ⟨2, _⟩ => (((dat4 V q c).arrAt_in 2 rfl _).trans (A_eq4 V q c 2)).trans (hne main_v53 (by decide)).symm
  | ⟨3, _⟩ => (((dat4 V q c).arrAt_in 3 rfl _).trans (A_eq4 V q c 3)).trans (hne main_v68 (by decide)).symm
  | ⟨4, _⟩ => hout.symm

variable (m : (ℓ : Loc nD τ sig) → Buf (Elt F) ℓ)

theorem hF4 (c : Dev nD) : ∀ w : Fin cfg4.W, (dat4 (U9 m) qWhole c).arrAt w cfg4.N = U10 m c (Pipeline.arrRef spec4 w) :=
  exit_arrays4 (U9 m) (U10 m) qWhole c (W10_out m c) (fun r h => W10_of m c r h)

/-- Every buffer that is no array of the region is as at entry. -/
theorem hrest4 (c : Dev nD) : ∀ b, b ∉ Finset.univ.image (Pipeline.arrRef spec4) → U10 m c b = U9 m c b :=
  fun b hb => W10_of m c b fun e => hb (Finset.mem_image.mpr ⟨(4 : Fin cfg4.W), Finset.mem_univ _, e.symm⟩)

set_option backward.isDefEq.respectTransparency.types false in
/-- Region 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) qWhole c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg5.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays5 (V V' : (c : Dev nD) → (b : Ref sig .tc) → Buf (Elt F) ((c : Thread nD τ).loc b))
    (q : Fin cfg5.W → PosShare TreeShare) (c : Dev nD)
    (hout : V' c main_v85 = (dat5 V q c).arrAt 4 cfg5.N)
    (hne : ∀ r : Ref sig .tc, r ≠ main_v85 → V' c r = V c r) :
    ∀ w : Fin cfg5.W, (dat5 V q c).arrAt w cfg5.N = V' c (Pipeline.arrRef spec5 w)
  | ⟨0, _⟩ => (((dat5 V q c).arrAt_in 0 rfl _).trans (A_eq5 V q c 0)).trans (hne main_v82 (by decide)).symm
  | ⟨1, _⟩ => (((dat5 V q c).arrAt_in 1 rfl _).trans (A_eq5 V q c 1)).trans (hne main_v5 (by decide)).symm
  | ⟨2, _⟩ => (((dat5 V q c).arrAt_in 2 rfl _).trans (A_eq5 V q c 2)).trans (hne main_v69 (by decide)).symm
  | ⟨3, _⟩ => (((dat5 V q c).arrAt_in 3 rfl _).trans (A_eq5 V q c 3)).trans (hne main_v84 (by decide)).symm
  | ⟨4, _⟩ => hout.symm

variable (m : (ℓ : Loc nD τ sig) → Buf (Elt F) ℓ)

theorem hF5 (c : Dev nD) : ∀ w : Fin cfg5.W, (dat5 (U11 m) qWhole c).arrAt w cfg5.N = U12 m c (Pipeline.arrRef spec5 w) :=
  exit_arrays5 (U11 m) (U12 m) qWhole c (W12_out m c) (fun r h => W12_of m c r h)

/-- Every buffer that is no array of the region is as at entry. -/
theorem hrest5 (c : Dev nD) : ∀ b, b ∉ Finset.univ.image (Pipeline.arrRef spec5) → U12 m c b = U11 m c b :=
  fun b hb => W12_of m c b fun e => hb (Finset.mem_image.mpr ⟨(4 : Fin cfg5.W), Finset.mem_univ _, e.symm⟩)

set_option backward.isDefEq.respectTransparency.types false in
/-- Region 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) qWhole c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg6.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays6 (V V' : (c : Dev nD) → (b : Ref sig .tc) → Buf (Elt F) ((c : Thread nD τ).loc b))
    (q : Fin cfg6.W → PosShare TreeShare) (c : Dev nD)
    (hout : V' c main_v101 = (dat6 V q c).arrAt 4 cfg6.N)
    (hne : ∀ r : Ref sig .tc, r ≠ main_v101 → V' c r = V c r) :
    ∀ w : Fin cfg6.W, (dat6 V q c).arrAt w cfg6.N = V' c (Pipeline.arrRef spec6 w)
  | ⟨0, _⟩ => (((dat6 V q c).arrAt_in 0 rfl _).trans (A_eq6 V q c 0)).trans (hne main_v98 (by decide)).symm
  | ⟨1, _⟩ => (((dat6 V q c).arrAt_in 1 rfl _).trans (A_eq6 V q c 1)).trans (hne main_v5 (by decide)).symm
  | ⟨2, _⟩ => (((dat6 V q c).arrAt_in 2 rfl _).trans (A_eq6 V q c 2)).trans (hne main_v85 (by decide)).symm
  | ⟨3, _⟩ => (((dat6 V q c).arrAt_in 3 rfl _).trans (A_eq6 V q c 3)).trans (hne main_v100 (by decide)).symm
  | ⟨4, _⟩ => hout.symm

variable (m : (ℓ : Loc nD τ sig) → Buf (Elt F) ℓ)

theorem hF6 (c : Dev nD) : ∀ w : Fin cfg6.W, (dat6 (U13 m) qWhole c).arrAt w cfg6.N = U14 m c (Pipeline.arrRef spec6 w) :=
  exit_arrays6 (U13 m) (U14 m) qWhole c (W14_out m c) (fun r h => W14_of m c r h)

/-- Every buffer that is no array of the region is as at entry. -/
theorem hrest6 (c : Dev nD) : ∀ b, b ∉ Finset.univ.image (Pipeline.arrRef spec6) → U14 m c b = U13 m c b :=
  fun b hb => W14_of m c b fun e => hb (Finset.mem_image.mpr ⟨(4 : Fin cfg6.W), Finset.mem_univ _, e.symm⟩)

set_option backward.isDefEq.respectTransparency.types false in
/-- Region 6 over the thread state. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) qWhole c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg7.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays7 (V V' : (c : Dev nD) → (b : Ref sig .tc) → Buf (Elt F) ((c : Thread nD τ).loc b))
    (q : Fin cfg7.W → PosShare TreeShare) (c : Dev nD)
    (hout : V' c main_v117 = (dat7 V q c).arrAt 4 cfg7.N)
    (hne : ∀ r : Ref sig .tc, r ≠ main_v117 → V' c r = V c r) :
    ∀ w : Fin cfg7.W, (dat7 V q c).arrAt w cfg7.N = V' c (Pipeline.arrRef spec7 w)
  | ⟨0, _⟩ => (((dat7 V q c).arrAt_in 0 rfl _).trans (A_eq7 V q c 0)).trans (hne main_v114 (by decide)).symm
  | ⟨1, _⟩ => (((dat7 V q c).arrAt_in 1 rfl _).trans (A_eq7 V q c 1)).trans (hne main_v5 (by decide)).symm
  | ⟨2, _⟩ => (((dat7 V q c).arrAt_in 2 rfl _).trans (A_eq7 V q c 2)).trans (hne main_v101 (by decide)).symm
  | ⟨3, _⟩ => (((dat7 V q c).arrAt_in 3 rfl _).trans (A_eq7 V q c 3)).trans (hne main_v116 (by decide)).symm
  | ⟨4, _⟩ => hout.symm

variable (m : (ℓ : Loc nD τ sig) → Buf (Elt F) ℓ)

theorem hF7 (c : Dev nD) : ∀ w : Fin cfg7.W, (dat7 (U15 m) qWhole c).arrAt w cfg7.N = U16 m c (Pipeline.arrRef spec7 w) :=
  exit_arrays7 (U15 m) (U16 m) qWhole c (W16_out m c) (fun r h => W16_of m c r h)

/-- Every buffer that is no array of the region is as at entry. -/
theorem hrest7 (c : Dev nD) : ∀ b, b ∉ Finset.univ.image (Pipeline.arrRef spec7) → U16 m c b = U15 m c b :=
  fun b hb => W16_of m c b fun e => hb (Finset.mem_image.mpr ⟨(4 : Fin cfg7.W), Finset.mem_univ _, e.symm⟩)

set_option backward.isDefEq.respectTransparency.types false in
/-- Region 7 over the thread state. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U15 m) qWhole c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (U15 m c) (U16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg8.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays8 (V V' : (c : Dev nD) → (b : Ref sig .tc) → Buf (Elt F) ((c : Thread nD τ).loc b))
    (q : Fin cfg8.W → PosShare TreeShare) (c : Dev nD)
    (hout : V' c main_v133 = (dat8 V q c).arrAt 4 cfg8.N)
    (hne : ∀ r : Ref sig .tc, r ≠ main_v133 → V' c r = V c r) :
    ∀ w : Fin cfg8.W, (dat8 V q c).arrAt w cfg8.N = V' c (Pipeline.arrRef spec8 w)
  | ⟨0, _⟩ => (((dat8 V q c).arrAt_in 0 rfl _).trans (A_eq8 V q c 0)).trans (hne main_v130 (by decide)).symm
  | ⟨1, _⟩ => (((dat8 V q c).arrAt_in 1 rfl _).trans (A_eq8 V q c 1)).trans (hne main_v5 (by decide)).symm
  | ⟨2, _⟩ => (((dat8 V q c).arrAt_in 2 rfl _).trans (A_eq8 V q c 2)).trans (hne main_v117 (by decide)).symm
  | ⟨3, _⟩ => (((dat8 V q c).arrAt_in 3 rfl _).trans (A_eq8 V q c 3)).trans (hne main_v132 (by decide)).symm
  | ⟨4, _⟩ => hout.symm

variable (m : (ℓ : Loc nD τ sig) → Buf (Elt F) ℓ)

theorem hF8 (c : Dev nD) : ∀ w : Fin cfg8.W, (dat8 (U17 m) qWhole c).arrAt w cfg8.N = U18 m c (Pipeline.arrRef spec8 w) :=
  exit_arrays8 (U17 m) (U18 m) qWhole c (W18_out m c) (fun r h => W18_of m c r h)

/-- Every buffer that is no array of the region is as at entry. -/
theorem hrest8 (c : Dev nD) : ∀ b, b ∉ Finset.univ.image (Pipeline.arrRef spec8) → U18 m c b = U17 m c b :=
  fun b hb => W18_of m c b fun e => hb (Finset.mem_image.mpr ⟨(4 : Fin cfg8.W), Finset.mem_univ _, e.symm⟩)

set_option backward.isDefEq.respectTransparency.types false in
/-- Region 8 over the thread state. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U17 m) qWhole c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (U17 m c) (U18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameIdeal.Seg9.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9 as an item of @main

Entered with every unscoped buffer at the contents before it, left with them at the contents after it: the region's arrays
are taken out of the unscoped buffers and put back, its output array at what the write-backs leave. -/

set_option maxHeartbeats 1000000 in
/-- At the region's exit each of its arrays holds what the next contents say, for ANY entry contents `V` and exit contents
    `V'` that agree except at the output array, which `V'` holds at what the write-backs leave: an input array is never
    written. -/
theorem exit_arrays9 (V V' : (c : Dev nD) → (b : Ref sig .tc) → Buf (Elt F) ((c : Thread nD τ).loc b))
    (q : Fin cfg9.W → PosShare TreeShare) (c : Dev nD)
    (hout : V' c main_v147 = (dat9 V q c).arrAt 3 cfg9.N)
    (hne : ∀ r : Ref sig .tc, r ≠ main_v147 → V' c r = V c r) :
    ∀ w : Fin cfg9.W, (dat9 V q c).arrAt w cfg9.N = V' c (Pipeline.arrRef spec9 w)
  | ⟨0, _⟩ => (((dat9 V q c).arrAt_in 0 rfl _).trans (A_eq9 V q c 0)).trans (hne main_v145 (by decide)).symm
  | ⟨1, _⟩ => (((dat9 V q c).arrAt_in 1 rfl _).trans (A_eq9 V q c 1)).trans (hne main_arg7 (by decide)).symm
  | ⟨2, _⟩ => (((dat9 V q c).arrAt_in 2 rfl _).trans (A_eq9 V q c 2)).trans (hne main_v146 (by decide)).symm
  | ⟨3, _⟩ => hout.symm

variable (m : (ℓ : Loc nD τ sig) → Buf (Elt F) ℓ)

theorem hF9 (c : Dev nD) : ∀ w : Fin cfg9.W, (dat9 (U19 m) qWhole c).arrAt w cfg9.N = U20 m c (Pipeline.arrRef spec9 w) :=
  exit_arrays9 (U19 m) (U20 m) qWhole c (W20_out m c) (fun r h => W20_of m c r h)

/-- Every buffer that is no array of the region is as at entry. -/
theorem hrest9 (c : Dev nD) : ∀ b, b ∉ Finset.univ.image (Pipeline.arrRef spec9) → U20 m c b = U19 m c b :=
  fun b hb => W20_of m c b fun e => hb (Finset.mem_image.mpr ⟨(3 : Fin cfg9.W), Finset.mem_univ _, e.symm⟩)

set_option backward.isDefEq.respectTransparency.types false in
/-- Region 9 over the thread state. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U19 m) qWhole c).loose
  hwaits := Pipeline.hwaits_of_owed_zero _ _ _ _ L lv 9 fun _ _ => rfl
  pre c := iprop(StableHlo.held (c : Thread nD τ) (Pipeline.ucRefs τ sig) (W19 m c) ∗ R c)
  post c := iprop((StableHlo.held (c : Thread nD τ) (Pipeline.ucRefs τ sig) (W20 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (U19 m c) (U20 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.FrameIdeal.Run.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Seg0
import proofs.«108571_j70514773065745_1_alg».proof.Proof.FrameIdeal.Seg2
import proofs.«108571_j70514773065745_1_alg».proof.Proof.FrameIdeal.Seg3
import proofs.«108571_j70514773065745_1_alg».proof.Proof.FrameIdeal.Seg4
import proofs.«108571_j70514773065745_1_alg».proof.Proof.FrameIdeal.Seg5
import proofs.«108571_j70514773065745_1_alg».proof.Proof.FrameIdeal.Seg6
import proofs.«108571_j70514773065745_1_alg».proof.Proof.FrameIdeal.Seg7
import proofs.«108571_j70514773065745_1_alg».proof.Proof.FrameIdeal.Seg8
import proofs.«108571_j70514773065745_1_alg».proof.Proof.FrameIdeal.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: twenty items from the launch to the return

Every weakly fair execution of @main terminates without a fault, and at the end every unscoped buffer of every core holds the
last boundary's contents: the arguments as launched, the result at what the last region leaves. -/

variable (m : (ℓ : Loc nD τ sig) → Buf (Elt F) ℓ) (ρ : Dev nD → PrngReg)

/-- A host stretch as an item: its operations over the unscoped references from the contents `W`, the generator register and
    the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last contents, the generator register at some state. -/
abbrev Tₙ (c : Dev nD) : sProp 𝕄 := iprop(StableHlo.held (c : Thread nD τ) (Pipeline.ucRefs τ sig) (W20 m c) ∗ ∃ r, prngReg c r)

/-- @main's twenty items in order, region 1's record a parameter. -/
abbrev segs (R1 : Pipeline.RegionSeg (pcfgs (F := F)) adm (pdats m) () defs₀ 𝒱₀ L lv 1) :
    List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region R1,
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m) ]

set_option backward.isDefEq.respectTransparency.types false in
/-- The run, given region 1's record entered from the contents before it and left at the contents after it. -/
theorem run_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W20 m c b) :=
  Pipeline.θ_run_regions_kit (pcfgs (F := F)) adm (pdats m) () cellOf_inj emb₁ defs₀ 𝒱₀ L lv m ρ main (segs m R1)
    (fun c Q => by
      rewrite [main_chain c, Pipeline.Seg.run_eq_chain,
        show (segs m R1).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, hpre1, hpost1, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h c b hb => h c _ (mem_uc b hb))

end Cert.KernelIdeal.Hand

end
-- ==== Proof.FrameIdeal.Frame.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame, and the result, read off the run

No host operation and no region writes an argument, so each ends as launched; the result buffer ends at what the last
region leaves. -/

variable (m : (ℓ : Loc nD τ sig) → Buf (Elt F) ℓ) (ρ : Dev nD → PrngReg)

/-- Every weakly fair execution of @main terminates without a fault, the arguments end as launched, and the result buffer
    ends at the last boundary's contents. -/
theorem result_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD,
      r.2.mem ((c.tc : Thread nD τ).loc main_v147) = W20 m c main_v147
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c main_v147 (by decide),
      (h c main_arg0 (by decide)).trans (W20_main_arg0 m c),
      (h c main_arg1 (by decide)).trans (W20_main_arg1 m c),
      (h c main_arg2 (by decide)).trans (W20_main_arg2 m c),
      (h c main_arg3 (by decide)).trans (W20_main_arg3 m c),
      (h c main_arg4 (by decide)).trans (W20_main_arg4 m c),
      (h c main_arg5 (by decide)).trans (W20_main_arg5 m c),
      (h c main_arg6 (by decide)).trans (W20_main_arg6 m c),
      (h c main_arg7 (by decide)).trans (W20_main_arg7 m c),
      (h c main_arg8 (by decide)).trans (W20_main_arg8 m c)⟩) (run_of m ρ R1 hpre1 hpost1)

/-- The frame: termination, no fault, the arguments unchanged. -/
theorem frame_of (R1 : Pipeline.RegionSeg (pcfgs (F := F)) adm (pdats m) () defs₀ 𝒱₀ L lv 1)
    (hpre1 : ∀ c : Dev nD, iprop(StableHlo.held (c : Thread nD τ) (Pipeline.ucRefs τ sig) (W3 m c) ∗ R c) ⊢ R1.pre c)
    (hpost1 : ∀ c : Dev nD, R1.post c ⊢ iprop(StableHlo.held (c : Thread nD τ) (Pipeline.ucRefs τ sig) (W4 m c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (result_of m ρ R1 hpre1 hpost1)

end Cert.KernelIdeal.Hand

end
-- ==== Proof.FrameIdeal.Seg1.lean ====
import proofs.«108571_j70514773065745_1_alg».proof.Proof.Gen.KernelIdeal.Launch
import proofs.«108571_j70514773065745_1_alg».proof.Proof.Gen.KernelIdeal.Skeleton
import proofs.«108571_j70514773065745_1_alg».proof.Proof.Gen.KernelIdeal.Points
import proofs.«108571_j70514773065745_1_alg».proof.Proof.FrameIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # Region 1 as an item of @main

Region 1 reads the features' array through two windows, so its arrays are five windows on four buffers. At entry the
four buffers are taken out of the core's unscoped buffers, each whole at the full share, and the features' buffer is
split into its two halves, one per window; at exit both windows still hold the entry contents (neither is written), the
halves are joined and the four buffers are put back, the output array at what the write-backs leave. -/

namespace Shared

/-- The buffers behind region 1's arrays, listed once each. -/
theorem arrImage1 : (Finset.univ.image (Pipeline.arrRef spec1) : Finset (Ref sig .tc)) = [main_v18, main_v5, main_v20, main_v21].toFinset := by
  decide

/-- They, each whole at the full share at contents `V`, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v18) ↦{fullShare} V main_v18) ∗ (((c : Thread nD τ).loc main_v5) ↦{fullShare} V main_v5)
          ∗ (((c : Thread nD τ).loc main_v20) ↦{fullShare} V main_v20) ∗ (((c : Thread nD τ).loc main_v21) ↦{fullShare} V main_v21)) := by
  unfold Pipeline.arrBufs
  rw [bigSep_eq_bigSepL_of_eq _ arrImage1 (by decide)]
  rfl

/-- A window's array is a whole buffer: its points-to is the buffer's. -/
theorem arr_pt1 (c : Dev nD) (w : Fin cfg1.W) (q : PosShare TreeShare) (f : Buf (Elt F) ((cfg1.win w).arr.view.loc (c : Thread nD τ))) :
    (((cfg1.win w).arr.view.loc (c : Thread nD τ)) ↦[(cfg1.win w).arr.view.set]{q} f : sProp 𝕄)
      = (((c : Thread nD τ).loc (Pipeline.arrRef spec1 w)) ↦{q} f) := by
  rw [(arr_whole1 w).set_eq_univ]

/-- Region 1's arrays at contents `G`, window by window: the two windows on the features' array hold one half each. -/
theorem arrays1 (c : Dev nD) (G : (w : Fin cfg1.W) → Buf (Elt F) ((cfg1.win w).arr.view.loc (c : Thread nD τ))) :
    ((pdats m 1 c).arrays G : sProp 𝕄)
      = iprop((((c : Thread nD τ).loc main_v18) ↦{fullShare} G 0) ∗ (((c : Thread nD τ).loc main_v5) ↦{fullShare.left} G 1)
          ∗ (((c : Thread nD τ).loc main_v5) ↦{fullShare.right} G 2) ∗ (((c : Thread nD τ).loc main_v20) ↦{fullShare} G 3)
          ∗ (((c : Thread nD τ).loc main_v21) ↦{fullShare} G 4)) := by
  unfold Dat.arrays
  refine (bigSep_congr fun w _ => arr_pt1 c w _ _).trans ?_
  refine (bigSep_W1 _).trans ?_
  rfl

/-- Four buffers, the second split in two, are five windows' holdings; -/
theorem split_chain {A B Bl Br C D : sProp 𝕄} (hB : B ⊢ iprop(Bl ∗ Br)) : iprop(A ∗ B ∗ C ∗ D) ⊢ iprop(A ∗ Bl ∗ Br ∗ C ∗ D) := by
  iintro ⟨HA, HB, HC, HD⟩
  ihave HB := hB $$ HB
  icases HB with ⟨HBl, HBr⟩
  isplitl [HA]; · iexact HA
  isplitl [HBl]; · iexact HBl
  isplitl [HBr]; · iexact HBr
  isplitl [HC]; · iexact HC
  iexact HD

/-- and back. -/
theorem join_chain {A B Bl Br C D : sProp 𝕄} (hB : iprop(Bl ∗ Br) ⊢ B) : iprop(A ∗ Bl ∗ Br ∗ C ∗ D) ⊢ iprop(A ∗ B ∗ C ∗ D) := by
  iintro ⟨HA, HBl, HBr, HC, HD⟩
  isplitl [HA]; · iexact HA
  isplitl [HBl HBr]
  · iapply hB; isplitl [HBl]; · iexact HBl
    iexact HBr
  isplitl [HC]; · iexact HC
  iexact HD

/-- The core's unscoped buffers at contents `V` are the four buffers behind region 1's arrays and the rest. -/
theorem unscopedBufs1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ cfgs 1 winFacts₀1.arr_unscoped c V

/-- The four buffers at contents `V`, the features' buffer split in two, are region 1's arrays at contents `G` read off `V`. -/
theorem arrays_of_arrBufs1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ (pdats m 1 c).arrays G := by
  rw [arrBufs1, arrays1, hG 0, hG 1, hG 2, hG 3, hG 4]
  exact split_chain (pointsTo_share (PosShare.mem_left_op_right fullShare)).1

/-- Region 1's arrays at contents `G` read off `V`, the two halves of the features' buffer joined, are the four buffers at `V`. -/
theorem arrBufs_of_arrays1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (pdats m 1 c).arrays G ⊢ (Pipeline.arrBufs (Ix := Unit) (Name := ℕ) (U := UR sig nD τ) (Lvl := ℕ) spec1 c V : sProp 𝕄) := by
  rw [arrBufs1, arrays1, hG 0, hG 1, hG 2, hG 3, hG 4]
  exact join_chain (pointsTo_share (PosShare.mem_left_op_right fullShare)).2

/-- ENTRY, the arrays' part: the core's unscoped buffers at the entry contents are region 1's arrays at the proof data's
    entry contents, the features' buffer split between its two windows, and the unscoped rest. -/
theorem arrays_of_unscopedBufs1 (c : Dev nD) :
    (unscopedBufs (Ix := Unit) (Name := ℕ) (U := UR sig nD τ) (Lvl := ℕ) c (U3 m c) : sProp 𝕄)
      ⊢ iprop((pdats m 1 c).arrays ((pdats m 1 c).arrAt · 0)
          ∗ Pipeline.unscopedRest (Ix := Unit) (Name := ℕ) (U := UR sig nD τ) (Lvl := ℕ) spec1 c (U3 m c)) :=
  (Entails.of_eq (unscopedBufs1 c (U3 m c))).trans
    (BI.sep_mono (arrays_of_arrBufs1 m c (U3 m c) ((pdats m 1 c).arrAt · 0) fun _ => rfl) (.refl _))

/-- At the region's exit each of its arrays holds what the next boundary's contents say: an input array is never written,
    the output array is the one buffer the boundary updates. -/
theorem hF1 (c : Dev nD) : ∀ w : Fin cfg1.W, (pdats m 1 c).arrAt w cfg1.N = U4 m c (Pipeline.arrRef spec1 w)
  | ⟨0, _⟩ => (((dat1 (U3 m) qFirst c).arrAt_in 0 rfl _).trans (A_eq1 (U3 m) qFirst c 0)).trans (W4_of m c main_v18 (by decide)).symm
  | ⟨1, _⟩ => (((dat1 (U3 m) qFirst c).arrAt_in 1 rfl _).trans (A_eq1 (U3 m) qFirst c 1)).trans (W4_of m c main_v5 (by decide)).symm
  | ⟨2, _⟩ => (((dat1 (U3 m) qFirst c).arrAt_in 2 rfl _).trans (A_eq1 (U3 m) qFirst c 2)).trans (W4_of m c main_v5 (by decide)).symm
  | ⟨3, _⟩ => (((dat1 (U3 m) qFirst c).arrAt_in 3 rfl _).trans (A_eq1 (U3 m) qFirst c 3)).trans (W4_of m c main_v20 (by decide)).symm
  | ⟨4, _⟩ => (W4_out m c).symm

/-- Every buffer that is no array of the region is as at entry. -/
theorem hrest1 (c : Dev nD) : ∀ b, b ∉ Finset.univ.image (Pipeline.arrRef spec1) → U4 m c b = U3 m c b :=
  fun b hb => W4_of m c b fun e => hb (Finset.mem_image.mpr ⟨(4 : Fin cfg1.W), Finset.mem_univ _, e.symm⟩)

/-- The unscoped rest is the same at the contents before and after the region. -/
theorem unscopedRest1 (c : Dev nD) :
    (Pipeline.unscopedRest (Ix := Unit) (Name := ℕ) (U := UR sig nD τ) (Lvl := ℕ) spec1 c (U3 m c) : sProp 𝕄)
      = Pipeline.unscopedRest (Ix := Unit) (Name := ℕ) (U := UR sig nD τ) (Lvl := ℕ) spec1 c (U4 m c) := by
  unfold Pipeline.unscopedRest
  exact bigSep_congr fun b hb => by rw [hrest1 m c b (Finset.mem_sdiff.mp hb).2]

/-- EXIT, the arrays' part: region 1's arrays at their final contents — the two halves of the features' buffer at the same,
    joined — and the unscoped rest are the core's unscoped buffers at the contents after the region. -/
theorem unscopedBufs_of_arrays1 (c : Dev nD) :
    iprop((pdats m 1 c).arrays ((pdats m 1 c).arrAt · cfg1.N)
        ∗ Pipeline.unscopedRest (Ix := Unit) (Name := ℕ) (U := UR sig nD τ) (Lvl := ℕ) spec1 c (U3 m c))
      ⊢ (unscopedBufs (Ix := Unit) (Name := ℕ) (U := UR sig nD τ) (Lvl := ℕ) c (U4 m c) : sProp 𝕄) :=
  (BI.sep_mono (arrBufs_of_arrays1 m c (U4 m c) ((pdats m 1 c).arrAt · cfg1.N) (hF1 m c)) (Entails.of_eq (unscopedRest1 m c))).trans
    (Entails.of_eq (unscopedBufs1 c (U4 m c)).symm)

end Shared

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) qFirst c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Shared.arrays_of_unscopedBufs1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.unscopedBufs_of_arrays1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RefRun.W0.lean ====
import proofs.«108571_j70514773065745_1_alg».proof.Proof.Gen.ReferenceIdeal
import Idealize.ShloMosaic.Lib.StableHlo.Run

noncomputable section

/-! # The reference's statements 1 … 60 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge list's two rows and the input projection. -/
abbrev pre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg4 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)) ]

/-- The buffers `pre` writes. -/
abbrev pre_W : List (Ref sig .tc) := [main_v0, main_v1, main_v2, main_v3, main_v4, main_v5, main_v6, main_v7]

/-- Layer 0: its weight, the message passing, the dense update. -/
abbrev lay0 : List (HloOp τ sig (Elt F)) :=
  [ StableHlo.unary main_arg6 main_v8 ((extractStridedSlice S1x64x64 ![0, 0, 0] · slices_S8x64x64_S1x64x64_0_0_0) : (⟨S8x64x64, .f32⟩ : BufTy).Contents (Elt F) → (⟨S1x64x64, .f32⟩ : BufTy).Contents (Elt F)),
    StableHlo.reshape main_v8 main_v9 rfl shapeCasts_S1x64x64_S64x64,
    StableHlo.unary main_arg2 main_v10 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v11 (broadcastInDim S1600000 ![] bcast_S_S1600000 : (⟨S_, .i32⟩ : BufTy).Contents (Elt F) → (⟨S1600000, .i32⟩ : BufTy).Contents (Elt F)),
    StableHlo.binary main_v1 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v13 (broadcastInDim S1600000 ![] bcast_S_S1600000 : (⟨S_, .i32⟩ : BufTy).Contents (Elt F) → (⟨S1600000, .i32⟩ : BufTy).Contents (Elt F)),
    StableHlo.binary main_v1 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_v7 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v10 main_v18 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v18 main_v17 main_v19 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v20 (broadcastInDim S100000x64 ![] bcast_S_S100000x64 : (⟨S_, .f32⟩ : BufTy).Contents (Elt F) → (⟨S100000x64, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F000000#32),
    StableHlo.unary main_cst_1 main_v23 (broadcastInDim S100000x64 ![] bcast_S_S100000x64 : (⟨S_, .f32⟩ : BufTy).Contents (Elt F) → (⟨S100000x64, .f32⟩ : BufTy).Contents (Elt F)),
    StableHlo.binary main_v23 main_v22 main_v24 (mulf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x3F000000#32),
    StableHlo.unary main_cst_2 main_v25 (broadcastInDim S100000x64 ![] bcast_S_S100000x64 : (⟨S_, .f32⟩ : BufTy).Contents (Elt F) → (⟨S100000x64, .f32⟩ : BufTy).Contents (Elt F)),
    StableHlo.binary main_v25 main_v7 main_v26 (mulf : (⟨S100000x64, .f32⟩ : BufTy).Contents (Elt F) → (⟨S100000x64, .f32⟩ : BufTy).Contents (Elt F) → (⟨S100000x64, .f32⟩ : BufTy).Contents (Elt F)),
    StableHlo.binary main_v24 main_v26 main_v27 (addf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x3E9D1BD0#32),
    StableHlo.unary main_cst_3 main_v28 (broadcastInDim S100000x64 ![] bcast_S_S100000x64 : (⟨S_, .f32⟩ : BufTy).Contents (Elt F) → (⟨S100000x64, .f32⟩ : BufTy).Contents (Elt F)),
    StableHlo.binary main_v28 main_v27 main_v29 (mulf : (⟨S100000x64, .f32⟩ : BufTy).Contents (Elt F) → (⟨S100000x64, .f32⟩ : BufTy).Contents (Elt F) → (⟨S100000x64, .f32⟩ : BufTy).Contents (Elt F)),
    StableHlo.binary main_v27 main_v9 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_4 (constant S_ .f32 0x3F317218#32),
    StableHlo.unary main_cst_4 main_v31 (broadcastInDim S100000x64 ![] bcast_S_S100000x64 : (⟨S_, .f32⟩ : BufTy).Contents (Elt F) → (⟨S100000x64, .f32⟩ : BufTy).Contents (Elt F)),
    StableHlo.binary main_v31 main_v30 main_v32 (mulf : (⟨S100000x64, .f32⟩ : BufTy).Contents (Elt F) → (⟨S100000x64, .f32⟩ : BufTy).Contents (Elt F) → (⟨S100000x64, .f32⟩ : BufTy).Contents (Elt F)),
    StableHlo.binary main_v29 main_v32 main_v33 (addf : (⟨S100000x64, .f32⟩ : BufTy).Contents (Elt F) → (⟨S100000x64, .f32⟩ : BufTy).Contents (Elt F) → (⟨S100000x64, .f32⟩ : BufTy).Contents (Elt F)),
    StableHlo.binary main_v33 main_v7 main_v34 (addf : (⟨S100000x64, .f32⟩ : BufTy).Contents (Elt F) → (⟨S100000x64, .f32⟩ : BufTy).Contents (Elt F) → (⟨S100000x64, .f32⟩ : BufTy).Contents (Elt F)),
    StableHlo.nullary main_call0_cst (constant S_ .f32 0x00000000#32),
    StableHlo.unary main_call0_cst main_call0_v0 (broadcastInDim S100000x64 ![] bcast_S_S100000x64 : (⟨S_, .f32⟩ : BufTy).Contents (Elt F) → (⟨S100000x64, .f32⟩ : BufTy).Contents (Elt F)),
    StableHlo.binary main_v34 main_call0_v0 main_v35 (maximumf : (⟨S100000x64, .f32⟩ : BufTy).Contents (Elt F) → (⟨S100000x64, .f32⟩ : BufTy).Contents (Elt F) → (⟨S100000x64, .f32⟩ : BufTy).Contents (Elt F)) ]

/-- The buffers `lay0` writes. -/
abbrev lay0_W : List (Ref sig .tc) := [main_v8, main_v9, main_v10, main_c, main_v11, main_v12, main_c_0, main_v13, main_v14, main_v15, main_v16, main_v17, main_v18, main_v19, main_cst, main_v20, main_v21, main_v22, main_cst_1, main_v23, main_v24, main_cst_2, main_v25, main_v26, main_v27, main_cst_3, main_v28, main_v29, main_v30, main_cst_4, main_v31, main_v32, main_v33, main_v34, main_call0_cst, main_call0_v0, main_v35]

/-- Layer 1, first stretch: its weight and the gathered, weighted messages. -/
abbrev lay1a : List (HloOp τ sig (Elt F)) :=
  [ StableHlo.unary main_arg6 main_v36 ((extractStridedSlice S1x64x64 ![1, 0, 0] · slices_S8x64x64_S1x64x64_1_0_0) : (⟨S8x64x64, .f32⟩ : BufTy).Contents (Elt F) → (⟨S1x64x64, .f32⟩ : BufTy).Contents (Elt F)),
    StableHlo.reshape main_v36 main_v37 rfl shapeCasts_S1x64x64_S64x64,
    StableHlo.unary main_arg2 main_v38 (broadcastInDim S1600000x1 ![0] bcast_S1600000_S1600000x1_0 : (⟨S1600000, .f32⟩ : BufTy).Contents (Elt F) → (⟨S1600000x1, .f32⟩ : BufTy).Contents (Elt F)),
    StableHlo.nullary main_c_5 (constantI S_ 32 0#32),
    StableHlo.unary main_c_5 main_v39 (broadcastInDim S1600000 ![] bcast_S_S1600000 : (⟨S_, .i32⟩ : BufTy).Contents (Elt F) → (⟨S1600000, .i32⟩ : BufTy).Contents (Elt F)),
    StableHlo.binary main_v1 main_v39 main_v40 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v41 (broadcastInDim S1600000 ![] bcast_S_S1600000 : (⟨S_, .i32⟩ : BufTy).Contents (Elt F) → (⟨S1600000, .i32⟩ : BufTy).Contents (Elt F)),
    StableHlo.binary main_v1 main_v41 main_v42 (addi : (⟨S1600000, .i32⟩ : BufTy).Contents (Elt F) → (⟨S1600000, .i32⟩ : BufTy).Contents (Elt F) → (⟨S1600000, .i32⟩ : BufTy).Contents (Elt F)),
    StableHlo.ternary main_v40 main_v42 main_v1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v43 main_v44 (broadcastInDim S1600000x1 ![0] bcast_S1600000_S1600000x1_0 : (⟨S1600000, .i32⟩ : BufTy).Contents (Elt F) → (⟨S1600000x1, .i32⟩ : BufTy).Contents (Elt F)),
    StableHlo.binary main_v35 main_v44 main_v45 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v38 main_v46 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v46 main_v45 main_v47 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v48 (broadcastInDim S100000x64 ![] bcast_S_S100000x64 : (⟨S_, .f32⟩ : BufTy).Contents (Elt F) → (⟨S100000x64, .f32⟩ : BufTy).Contents (Elt F)),
    StableHlo.unary main_v3 main_v49 (broadcastInDim S1600000x1 ![0] bcast_S1600000_S1600000x1_0 : (⟨S1600000, .i32⟩ : BufTy).Contents (Elt F) → (⟨S1600000x1, .i32⟩ : BufTy).Contents (Elt F)) ]

/-- The buffers `lay1a` writes. -/
abbrev lay1a_W : List (Ref sig .tc) := [main_v36, main_v37, main_v38, main_c_5, main_v39, main_v40, main_c_6, main_v41, main_v42, main_v43, main_v44, main_v45, main_v46, main_v47, main_cst_7, main_v48, main_v49]

/-- The window's operations. -/
abbrev ops0 : List (HloOp τ sig (Elt F)) := pre ++ lay0 ++ lay1a

set_option maxRecDepth 8192 in
/-- The window is that straight line: the called function's body unfolds at its call, sequencing reassociates by computation. -/
theorem main_part0_eq (c : Dev nD) : main_part0 (F := F) c = seq ops0 := rfl

set_option maxRecDepth 8192 in
theorem pre_writes : (pre : List (HloOp τ sig (Elt F))).Forall fun op => op.writes ⊆ (pre_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `pre` does not write keeps its contents through it. -/
theorem pre_keep (V : Valuation τ sig (Elt F)) (r : Ref sig .tc) (h : r ∉ pre_W) :
    after pre V (Proc.devRef .tc r) = V (Proc.devRef .tc r) :=
  after_of_writes_sub pre V pre_writes h

set_option maxRecDepth 8192 in
theorem lay0_writes : (lay0 : List (HloOp τ sig (Elt F))).Forall fun op => op.writes ⊆ (lay0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay0` does not write keeps its contents through it. -/
theorem lay0_keep (V : Valuation τ sig (Elt F)) (r : Ref sig .tc) (h : r ∉ lay0_W) :
    after lay0 V (Proc.devRef .tc r) = V (Proc.devRef .tc r) :=
  after_of_writes_sub lay0 V lay0_writes h

set_option maxRecDepth 8192 in
theorem lay1a_writes : (lay1a : List (HloOp τ sig (Elt F))).Forall fun op => op.writes ⊆ (lay1a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay1a` does not write keeps its contents through it. -/
theorem lay1a_keep (V : Valuation τ sig (Elt F)) (r : Ref sig .tc) (h : r ∉ lay1a_W) :
    after lay1a V (Proc.devRef .tc r) = V (Proc.devRef .tc r) :=
  after_of_writes_sub lay1a V lay1a_writes h

set_option maxRecDepth 8192 in
/-- Every operation of the window names TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

set_option maxRecDepth 8192 in
/-- Every operation of the window determines what it writes. -/
theorem ops0_fresh : ∀ op ∈ (ops0 : List (HloOp τ sig (Elt F))), op.fresh = ∅ := by
  intro _ h; (repeat (cases h with | head => rfl | tail _ h => ?_)); exact nomatch h

end Cert.ReferenceIdeal.Hand

end
-- ==== Proof.RefRun.W1.lean ====
import proofs.«108571_j70514773065745_1_alg».proof.Proof.Gen.ReferenceIdeal
import Idealize.ShloMosaic.Lib.StableHlo.Run

noncomputable section

/-! # The reference's statements 61 … 120 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 1, second stretch: the sum into the destinations and the dense update. -/
abbrev lay1b : List (HloOp τ sig (Elt F)) :=
  [ StableHlo.ternary main_v48 main_v49 main_v47 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_8 (constant S_ .f32 0x3F000000#32),
    StableHlo.unary main_cst_8 main_v51 (broadcastInDim S100000x64 ![] bcast_S_S100000x64 : (⟨S_, .f32⟩ : BufTy).Contents (Elt F) → (⟨S100000x64, .f32⟩ : BufTy).Contents (Elt F)),
    StableHlo.binary main_v51 main_v50 main_v52 (mulf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3F000000#32),
    StableHlo.unary main_cst_9 main_v53 (broadcastInDim S100000x64 ![] bcast_S_S100000x64 : (⟨S_, .f32⟩ : BufTy).Contents (Elt F) → (⟨S100000x64, .f32⟩ : BufTy).Contents (Elt F)),
    StableHlo.binary main_v53 main_v7 main_v54 (mulf : (⟨S100000x64, .f32⟩ : BufTy).Contents (Elt F) → (⟨S100000x64, .f32⟩ : BufTy).Contents (Elt F) → (⟨S100000x64, .f32⟩ : BufTy).Contents (Elt F)),
    StableHlo.binary main_v52 main_v54 main_v55 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3F183370#32),
    StableHlo.unary main_cst_10 main_v56 (broadcastInDim S100000x64 ![] bcast_S_S100000x64 : (⟨S_, .f32⟩ : BufTy).Contents (Elt F) → (⟨S100000x64, .f32⟩ : BufTy).Contents (Elt F)),
    StableHlo.binary main_v56 main_v55 main_v57 (mulf : (⟨S100000x64, .f32⟩ : BufTy).Contents (Elt F) → (⟨S100000x64, .f32⟩ : BufTy).Contents (Elt F) → (⟨S100000x64, .f32⟩ : BufTy).Contents (Elt F)),
    StableHlo.binary main_v55 main_v37 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_11 (constant S_ .f32 0x3ECF991F#32),
    StableHlo.unary main_cst_11 main_v59 (broadcastInDim S100000x64 ![] bcast_S_S100000x64 : (⟨S_, .f32⟩ : BufTy).Contents (Elt F) → (⟨S100000x64, .f32⟩ : BufTy).Contents (Elt F)),
    StableHlo.binary main_v59 main_v58 main_v60 (mulf : (⟨S100000x64, .f32⟩ : BufTy).Contents (Elt F) → (⟨S100000x64, .f32⟩ : BufTy).Contents (Elt F) → (⟨S100000x64, .f32⟩ : BufTy).Contents (Elt F)),
    StableHlo.binary main_v57 main_v60 main_v61 (addf : (⟨S100000x64, .f32⟩ : BufTy).Contents (Elt F) → (⟨S100000x64, .f32⟩ : BufTy).Contents (Elt F) → (⟨S100000x64, .f32⟩ : BufTy).Contents (Elt F)),
    StableHlo.binary main_v61 main_v35 main_v62 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32),
    StableHlo.unary main_call1_cst main_call1_v0 (broadcastInDim S100000x64 ![] bcast_S_S100000x64 : (⟨S_, .f32⟩ : BufTy).Contents (Elt F) → (⟨S100000x64, .f32⟩ : BufTy).Contents (Elt F)),
    StableHlo.binary main_v62 main_call1_v0 main_v63 (maximumf : (⟨S100000x64, .f32⟩ : BufTy).Contents (Elt F) → (⟨S100000x64, .f32⟩ : BufTy).Contents (Elt F) → (⟨S100000x64, .f32⟩ : BufTy).Contents (Elt F)) ]

/-- The buffers `lay1b` writes. -/
abbrev lay1b_W : List (Ref sig .tc) := [main_v50, main_cst_8, main_v51, main_v52, main_cst_9, main_v53, main_v54, main_v55, main_cst_10, main_v56, main_v57, main_v58, main_cst_11, main_v59, main_v60, main_v61, main_v62, main_call1_cst, main_call1_v0, main_v63]

/-- Layer 2. -/
abbrev lay2 : List (HloOp τ sig (Elt F)) :=
  [ StableHlo.unary main_arg6 main_v64 ((extractStridedSlice S1x64x64 ![2, 0, 0] · slices_S8x64x64_S1x64x64_2_0_0) : (⟨S8x64x64, .f32⟩ : BufTy).Contents (Elt F) → (⟨S1x64x64, .f32⟩ : BufTy).Contents (Elt F)),
    StableHlo.reshape main_v64 main_v65 rfl shapeCasts_S1x64x64_S64x64,
    StableHlo.unary main_arg2 main_v66 (broadcastInDim S1600000x1 ![0] bcast_S1600000_S1600000x1_0 : (⟨S1600000, .f32⟩ : BufTy).Contents (Elt F) → (⟨S1600000x1, .f32⟩ : BufTy).Contents (Elt F)),
    StableHlo.nullary main_c_12 (constantI S_ 32 0#32),
    StableHlo.unary main_c_12 main_v67 (broadcastInDim S1600000 ![] bcast_S_S1600000 : (⟨S_, .i32⟩ : BufTy).Contents (Elt F) → (⟨S1600000, .i32⟩ : BufTy).Contents (Elt F)),
    StableHlo.binary main_v1 main_v67 main_v68 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v1 main_v69 main_v70 (addi : (⟨S1600000, .i32⟩ : BufTy).Contents (Elt F) → (⟨S1600000, .i32⟩ : BufTy).Contents (Elt F) → (⟨S1600000, .i32⟩ : BufTy).Contents (Elt F)),
    StableHlo.ternary main_v68 main_v70 main_v1 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v71 main_v72 (broadcastInDim S1600000x1 ![0] bcast_S1600000_S1600000x1_0 : (⟨S1600000, .i32⟩ : BufTy).Contents (Elt F) → (⟨S1600000x1, .i32⟩ : BufTy).Contents (Elt F)),
    StableHlo.binary main_v63 main_v72 main_v73 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v66 main_v74 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v74 main_v73 main_v75 (mulf : (⟨S1600000x64, .f32⟩ : BufTy).Contents (Elt F) → (⟨S1600000x64, .f32⟩ : BufTy).Contents (Elt F) → (⟨S1600000x64, .f32⟩ : BufTy).Contents (Elt F)),
    StableHlo.nullary main_cst_14 (constant S_ .f32 0x00000000#32),
    StableHlo.unary main_cst_14 main_v76 (broadcastInDim S100000x64 ![] bcast_S_S100000x64 : (⟨S_, .f32⟩ : BufTy).Contents (Elt F) → (⟨S100000x64, .f32⟩ : BufTy).Contents (Elt F)),
    StableHlo.unary main_v3 main_v77 (broadcastInDim S1600000x1 ![0] bcast_S1600000_S1600000x1_0 : (⟨S1600000, .i32⟩ : BufTy).Contents (Elt F) → (⟨S1600000x1, .i32⟩ : BufTy).Contents (Elt F)),
    StableHlo.ternary main_v76 main_v77 main_v75 main_v78 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_15 (constant S_ .f32 0x3F000000#32),
    StableHlo.unary main_cst_15 main_v79 (broadcastInDim S100000x64 ![] bcast_S_S100000x64 : (⟨S_, .f32⟩ : BufTy).Contents (Elt F) → (⟨S100000x64, .f32⟩ : BufTy).Contents (Elt F)),
    StableHlo.binary main_v79 main_v78 main_v80 (mulf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3F000000#32),
    StableHlo.unary main_cst_16 main_v81 (broadcastInDim S100000x64 ![] bcast_S_S100000x64 : (⟨S_, .f32⟩ : BufTy).Contents (Elt F) → (⟨S100000x64, .f32⟩ : BufTy).Contents (Elt F)),
    StableHlo.binary main_v81 main_v7 main_v82 (mulf : (⟨S100000x64, .f32⟩ : BufTy).Contents (Elt F) → (⟨S100000x64, .f32⟩ : BufTy).Contents (Elt F) → (⟨S100000x64, .f32⟩ : BufTy).Contents (Elt F)),
    StableHlo.binary main_v80 main_v82 main_v83 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3F365A78#32),
    StableHlo.unary main_cst_17 main_v84 (broadcastInDim S100000x64 ![] bcast_S_S100000x64 : (⟨S_, .f32⟩ : BufTy).Contents (Elt F) → (⟨S100000x64, .f32⟩ : BufTy).Contents (Elt F)),
    StableHlo.binary main_v84 main_v83 main_v85 (mulf : (⟨S100000x64, .f32⟩ : BufTy).Contents (Elt F) → (⟨S100000x64, .f32⟩ : BufTy).Contents (Elt F) → (⟨S100000x64, .f32⟩ : BufTy).Contents (Elt F)),
    StableHlo.binary main_v83 main_v65 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_18 (constant S_ .f32 0x3E934B11#32),
    StableHlo.unary main_cst_18 main_v87 (broadcastInDim S100000x64 ![] bcast_S_S100000x64 : (⟨S_, .f32⟩ : BufTy).Contents (Elt F) → (⟨S100000x64, .f32⟩ : BufTy).Contents (Elt F)),
    StableHlo.binary main_v87 main_v86 main_v88 (mulf : (⟨S100000x64, .f32⟩ : BufTy).Contents (Elt F) → (⟨S100000x64, .f32⟩ : BufTy).Contents (Elt F) → (⟨S100000x64, .f32⟩ : BufTy).Contents (Elt F)),
    StableHlo.binary main_v85 main_v88 main_v89 (addf : (⟨S100000x64, .f32⟩ : BufTy).Contents (Elt F) → (⟨S100000x64, .f32⟩ : BufTy).Contents (Elt F) → (⟨S100000x64, .f32⟩ : BufTy).Contents (Elt F)),
    StableHlo.binary main_v89 main_v63 main_v90 (addf : (⟨S100000x64, .f32⟩ : BufTy).Contents (Elt F) → (⟨S100000x64, .f32⟩ : BufTy).Contents (Elt F) → (⟨S100000x64, .f32⟩ : BufTy).Contents (Elt F)),
    StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v90 main_call2_v0 main_v91 (maximumf : (⟨S100000x64, .f32⟩ : BufTy).Contents (Elt F) → (⟨S100000x64, .f32⟩ : BufTy).Contents (Elt F) → (⟨S100000x64, .f32⟩ : BufTy).Contents (Elt F)) ]

/-- The buffers `lay2` writes. -/
abbrev lay2_W : List (Ref sig .tc) := [main_v64, main_v65, main_v66, main_c_12, main_v67, main_v68, main_c_13, main_v69, main_v70, main_v71, main_v72, main_v73, main_v74, main_v75, main_cst_14, main_v76, main_v77, main_v78, main_cst_15, main_v79, main_v80, main_cst_16, main_v81, main_v82, main_v83, main_cst_17, main_v84, main_v85, main_v86, main_cst_18, main_v87, main_v88, main_v89, main_v90, main_call2_cst, main_call2_v0, main_v91]

/-- Layer 3, first stretch: its weight and the start of the source indices. -/
abbrev lay3a : List (HloOp τ sig (Elt F)) :=
  [ StableHlo.unary main_arg6 main_v92 ((extractStridedSlice S1x64x64 ![3, 0, 0] · slices_S8x64x64_S1x64x64_3_0_0) : (⟨S8x64x64, .f32⟩ : BufTy).Contents (Elt F) → (⟨S1x64x64, .f32⟩ : BufTy).Contents (Elt F)),
    StableHlo.reshape main_v92 main_v93 rfl shapeCasts_S1x64x64_S64x64,
    StableHlo.unary main_arg2 main_v94 (broadcastInDim S1600000x1 ![0] bcast_S1600000_S1600000x1_0 : (⟨S1600000, .f32⟩ : BufTy).Contents (Elt F) → (⟨S1600000x1, .f32⟩ : BufTy).Contents (Elt F)),
    StableHlo.nullary main_c_19 (constantI S_ 32 0#32),
    StableHlo.unary main_c_19 main_v95 (broadcastInDim S1600000 ![] bcast_S_S1600000 : (⟨S_, .i32⟩ : BufTy).Contents (Elt F) → (⟨S1600000, .i32⟩ : BufTy).Contents (Elt F)),
    StableHlo.binary main_v1 main_v95 main_v96 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32) ]

/-- The buffers `lay3a` writes. -/
abbrev lay3a_W : List (Ref sig .tc) := [main_v92, main_v93, main_v94, main_c_19, main_v95, main_v96, main_c_20]

/-- The window's operations. -/
abbrev ops1 : List (HloOp τ sig (Elt F)) := lay1b ++ lay2 ++ lay3a

set_option maxRecDepth 8192 in
/-- The window is that straight line: the called function's body unfolds at its call, sequencing reassociates by computation. -/
theorem main_part1_eq (c : Dev nD) : main_part1 (F := F) c = seq ops1 := rfl

set_option maxRecDepth 8192 in
theorem lay1b_writes : (lay1b : List (HloOp τ sig (Elt F))).Forall fun op => op.writes ⊆ (lay1b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay1b` does not write keeps its contents through it. -/
theorem lay1b_keep (V : Valuation τ sig (Elt F)) (r : Ref sig .tc) (h : r ∉ lay1b_W) :
    after lay1b V (Proc.devRef .tc r) = V (Proc.devRef .tc r) :=
  after_of_writes_sub lay1b V lay1b_writes h

set_option maxRecDepth 8192 in
theorem lay2_writes : (lay2 : List (HloOp τ sig (Elt F))).Forall fun op => op.writes ⊆ (lay2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay2` does not write keeps its contents through it. -/
theorem lay2_keep (V : Valuation τ sig (Elt F)) (r : Ref sig .tc) (h : r ∉ lay2_W) :
    after lay2 V (Proc.devRef .tc r) = V (Proc.devRef .tc r) :=
  after_of_writes_sub lay2 V lay2_writes h

set_option maxRecDepth 8192 in
theorem lay3a_writes : (lay3a : List (HloOp τ sig (Elt F))).Forall fun op => op.writes ⊆ (lay3a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay3a` does not write keeps its contents through it. -/
theorem lay3a_keep (V : Valuation τ sig (Elt F)) (r : Ref sig .tc) (h : r ∉ lay3a_W) :
    after lay3a V (Proc.devRef .tc r) = V (Proc.devRef .tc r) :=
  after_of_writes_sub lay3a V lay3a_writes h

set_option maxRecDepth 8192 in
/-- Every operation of the window names TensorCore buffers only. -/
theorem ops1_sub : (ops1 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub ..⟩

set_option maxRecDepth 8192 in
/-- Every operation of the window determines what it writes. -/
theorem ops1_fresh : ∀ op ∈ (ops1 : List (HloOp τ sig (Elt F))), op.fresh = ∅ := by
  intro _ h; (repeat (cases h with | head => rfl | tail _ h => ?_)); exact nomatch h

end Cert.ReferenceIdeal.Hand

end
-- ==== Proof.RefRun.W2.lean ====
import proofs.«108571_j70514773065745_1_alg».proof.Proof.Gen.ReferenceIdeal
import Idealize.ShloMosaic.Lib.StableHlo.Run

noncomputable section

/-! # The reference's statements 121 … 180 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 3, second stretch. -/
abbrev lay3b : List (HloOp τ sig (Elt F)) :=
  [ StableHlo.unary main_c_20 main_v97 (broadcastInDim S1600000 ![] bcast_S_S1600000 : (⟨S_, .i32⟩ : BufTy).Contents (Elt F) → (⟨S1600000, .i32⟩ : BufTy).Contents (Elt F)),
    StableHlo.binary main_v1 main_v97 main_v98 (addi : (⟨S1600000, .i32⟩ : BufTy).Contents (Elt F) → (⟨S1600000, .i32⟩ : BufTy).Contents (Elt F) → (⟨S1600000, .i32⟩ : BufTy).Contents (Elt F)),
    StableHlo.ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v99 main_v100 (broadcastInDim S1600000x1 ![0] bcast_S1600000_S1600000x1_0 : (⟨S1600000, .i32⟩ : BufTy).Contents (Elt F) → (⟨S1600000x1, .i32⟩ : BufTy).Contents (Elt F)),
    StableHlo.binary main_v91 main_v100 main_v101 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v94 main_v102 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v102 main_v101 main_v103 (mulf : (⟨S1600000x64, .f32⟩ : BufTy).Contents (Elt F) → (⟨S1600000x64, .f32⟩ : BufTy).Contents (Elt F) → (⟨S1600000x64, .f32⟩ : BufTy).Contents (Elt F)),
    StableHlo.nullary main_cst_21 (constant S_ .f32 0x00000000#32),
    StableHlo.unary main_cst_21 main_v104 (broadcastInDim S100000x64 ![] bcast_S_S100000x64 : (⟨S_, .f32⟩ : BufTy).Contents (Elt F) → (⟨S100000x64, .f32⟩ : BufTy).Contents (Elt F)),
    StableHlo.unary main_v3 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_22 (constant S_ .f32 0x3F000000#32),
    StableHlo.unary main_cst_22 main_v107 (broadcastInDim S100000x64 ![] bcast_S_S100000x64 : (⟨S_, .f32⟩ : BufTy).Contents (Elt F) → (⟨S100000x64, .f32⟩ : BufTy).Contents (Elt F)),
    StableHlo.binary main_v107 main_v106 main_v108 (mulf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3F000000#32),
    StableHlo.unary main_cst_23 main_v109 (broadcastInDim S100000x64 ![] bcast_S_S100000x64 : (⟨S_, .f32⟩ : BufTy).Contents (Elt F) → (⟨S100000x64, .f32⟩ : BufTy).Contents (Elt F)),
    StableHlo.binary main_v109 main_v7 main_v110 (mulf : (⟨S100000x64, .f32⟩ : BufTy).Contents (Elt F) → (⟨S100000x64, .f32⟩ : BufTy).Contents (Elt F) → (⟨S100000x64, .f32⟩ : BufTy).Contents (Elt F)),
    StableHlo.binary main_v108 main_v110 main_v111 (addf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3F46E010#32),
    StableHlo.unary main_cst_24 main_v112 (broadcastInDim S100000x64 ![] bcast_S_S100000x64 : (⟨S_, .f32⟩ : BufTy).Contents (Elt F) → (⟨S100000x64, .f32⟩ : BufTy).Contents (Elt F)),
    StableHlo.binary main_v112 main_v111 main_v113 (mulf : (⟨S100000x64, .f32⟩ : BufTy).Contents (Elt F) → (⟨S100000x64, .f32⟩ : BufTy).Contents (Elt F) → (⟨S100000x64, .f32⟩ : BufTy).Contents (Elt F)),
    StableHlo.binary main_v111 main_v93 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_25 (constant S_ .f32 0x3E647FBE#32),
    StableHlo.unary main_cst_25 main_v115 (broadcastInDim S100000x64 ![] bcast_S_S100000x64 : (⟨S_, .f32⟩ : BufTy).Contents (Elt F) → (⟨S100000x64, .f32⟩ : BufTy).Contents (Elt F)),
    StableHlo.binary main_v115 main_v114 main_v116 (mulf : (⟨S100000x64, .f32⟩ : BufTy).Contents (Elt F) → (⟨S100000x64, .f32⟩ : BufTy).Contents (Elt F) → (⟨S100000x64, .f32⟩ : BufTy).Contents (Elt F)),
    StableHlo.binary main_v113 main_v116 main_v117 (addf : (⟨S100000x64, .f32⟩ : BufTy).Contents (Elt F) → (⟨S100000x64, .f32⟩ : BufTy).Contents (Elt F) → (⟨S100000x64, .f32⟩ : BufTy).Contents (Elt F)),
    StableHlo.binary main_v117 main_v91 main_v118 (addf : (⟨S100000x64, .f32⟩ : BufTy).Contents (Elt F) → (⟨S100000x64, .f32⟩ : BufTy).Contents (Elt F) → (⟨S100000x64, .f32⟩ : BufTy).Contents (Elt F)),
    StableHlo.nullary main_call3_cst (constant S_ .f32 0x00000000#32),
    StableHlo.unary main_call3_cst main_call3_v0 (broadcastInDim S100000x64 ![] bcast_S_S100000x64 : (⟨S_, .f32⟩ : BufTy).Contents (Elt F) → (⟨S100000x64, .f32⟩ : BufTy).Contents (Elt F)),
    StableHlo.binary main_v118 main_call3_v0 main_v119 (maximumf : (⟨S100000x64, .f32⟩ : BufTy).Contents (Elt F) → (⟨S100000x64, .f32⟩ : BufTy).Contents (Elt F) → (⟨S100000x64, .f32⟩ : BufTy).Contents (Elt F)) ]

/-- The buffers `lay3b` writes. -/
abbrev lay3b_W : List (Ref sig .tc) := [main_v97, main_v98, main_v99, main_v100, main_v101, main_v102, main_v103, main_cst_21, main_v104, main_v105, main_v106, main_cst_22, main_v107, main_v108, main_cst_23, main_v109, main_v110, main_v111, main_cst_24, main_v112, main_v113, main_v114, main_cst_25, main_v115, main_v116, main_v117, main_v118, main_call3_cst, main_call3_v0, main_v119]

/-- Layer 4, first stretch: up to the first product of the dense update. -/
abbrev lay4a : List (HloOp τ sig (Elt F)) :=
  [ StableHlo.unary main_arg6 main_v120 ((extractStridedSlice S1x64x64 ![4, 0, 0] · slices_S8x64x64_S1x64x64_4_0_0) : (⟨S8x64x64, .f32⟩ : BufTy).Contents (Elt F) → (⟨S1x64x64, .f32⟩ : BufTy).Contents (Elt F)),
    StableHlo.reshape main_v120 main_v121 rfl shapeCasts_S1x64x64_S64x64,
    StableHlo.unary main_arg2 main_v122 (broadcastInDim S1600000x1 ![0] bcast_S1600000_S1600000x1_0 : (⟨S1600000, .f32⟩ : BufTy).Contents (Elt F) → (⟨S1600000x1, .f32⟩ : BufTy).Contents (Elt F)),
    StableHlo.nullary main_c_26 (constantI S_ 32 0#32),
    StableHlo.unary main_c_26 main_v123 (broadcastInDim S1600000 ![] bcast_S_S1600000 : (⟨S_, .i32⟩ : BufTy).Contents (Elt F) → (⟨S1600000, .i32⟩ : BufTy).Contents (Elt F)),
    StableHlo.binary main_v1 main_v123 main_v124 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v125 (broadcastInDim S1600000 ![] bcast_S_S1600000 : (⟨S_, .i32⟩ : BufTy).Contents (Elt F) → (⟨S1600000, .i32⟩ : BufTy).Contents (Elt F)),
    StableHlo.binary main_v1 main_v125 main_v126 (addi : (⟨S1600000, .i32⟩ : BufTy).Contents (Elt F) → (⟨S1600000, .i32⟩ : BufTy).Contents (Elt F) → (⟨S1600000, .i32⟩ : BufTy).Contents (Elt F)),
    StableHlo.ternary main_v124 main_v126 main_v1 main_v127 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v127 main_v128 (broadcastInDim S1600000x1 ![0] bcast_S1600000_S1600000x1_0 : (⟨S1600000, .i32⟩ : BufTy).Contents (Elt F) → (⟨S1600000x1, .i32⟩ : BufTy).Contents (Elt F)),
    StableHlo.binary main_v119 main_v128 main_v129 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v122 main_v130 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v130 main_v129 main_v131 (mulf : (⟨S1600000x64, .f32⟩ : BufTy).Contents (Elt F) → (⟨S1600000x64, .f32⟩ : BufTy).Contents (Elt F) → (⟨S1600000x64, .f32⟩ : BufTy).Contents (Elt F)),
    StableHlo.nullary main_cst_28 (constant S_ .f32 0x00000000#32),
    StableHlo.unary main_cst_28 main_v132 (broadcastInDim S100000x64 ![] bcast_S_S100000x64 : (⟨S_, .f32⟩ : BufTy).Contents (Elt F) → (⟨S100000x64, .f32⟩ : BufTy).Contents (Elt F)),
    StableHlo.unary main_v3 main_v133 (broadcastInDim S1600000x1 ![0] bcast_S1600000_S1600000x1_0 : (⟨S1600000, .i32⟩ : BufTy).Contents (Elt F) → (⟨S1600000x1, .i32⟩ : BufTy).Contents (Elt F)),
    StableHlo.ternary main_v132 main_v133 main_v131 main_v134 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_29 (constant S_ .f32 0x3F000000#32),
    StableHlo.unary main_cst_29 main_v135 (broadcastInDim S100000x64 ![] bcast_S_S100000x64 : (⟨S_, .f32⟩ : BufTy).Contents (Elt F) → (⟨S100000x64, .f32⟩ : BufTy).Contents (Elt F)),
    StableHlo.binary main_v135 main_v134 main_v136 (mulf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3F000000#32),
    StableHlo.unary main_cst_30 main_v137 (broadcastInDim S100000x64 ![] bcast_S_S100000x64 : (⟨S_, .f32⟩ : BufTy).Contents (Elt F) → (⟨S100000x64, .f32⟩ : BufTy).Contents (Elt F)),
    StableHlo.binary main_v137 main_v7 main_v138 (mulf : (⟨S100000x64, .f32⟩ : BufTy).Contents (Elt F) → (⟨S100000x64, .f32⟩ : BufTy).Contents (Elt F) → (⟨S100000x64, .f32⟩ : BufTy).Contents (Elt F)),
    StableHlo.binary main_v136 main_v138 main_v139 (addf : (⟨S100000x64, .f32⟩ : BufTy).Contents (Elt F) → (⟨S100000x64, .f32⟩ : BufTy).Contents (Elt F) → (⟨S100000x64, .f32⟩ : BufTy).Contents (Elt F)),
    StableHlo.nullary main_cst_31 (constant S_ .f32 0x3F515360#32),
    StableHlo.unary main_cst_31 main_v140 (broadcastInDim S100000x64 ![] bcast_S_S100000x64 : (⟨S_, .f32⟩ : BufTy).Contents (Elt F) → (⟨S100000x64, .f32⟩ : BufTy).Contents (Elt F)),
    StableHlo.binary main_v140 main_v139 main_v141 (mulf : (⟨S100000x64, .f32⟩ : BufTy).Contents (Elt F) → (⟨S100000x64, .f32⟩ : BufTy).Contents (Elt F) → (⟨S100000x64, .f32⟩ : BufTy).Contents (Elt F)),
    StableHlo.binary main_v139 main_v121 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_32 (constant S_ .f32 0x3E3AB281#32),
    StableHlo.unary main_cst_32 main_v143 (broadcastInDim S100000x64 ![] bcast_S_S100000x64 : (⟨S_, .f32⟩ : BufTy).Contents (Elt F) → (⟨S100000x64, .f32⟩ : BufTy).Contents (Elt F)),
    StableHlo.binary main_v143 main_v142 main_v144 (mulf : (⟨S100000x64, .f32⟩ : BufTy).Contents (Elt F) → (⟨S100000x64, .f32⟩ : BufTy).Contents (Elt F) → (⟨S100000x64, .f32⟩ : BufTy).Contents (Elt F)) ]

/-- The buffers `lay4a` writes. -/
abbrev lay4a_W : List (Ref sig .tc) := [main_v120, main_v121, main_v122, main_c_26, main_v123, main_v124, main_c_27, main_v125, main_v126, main_v127, main_v128, main_v129, main_v130, main_v131, main_cst_28, main_v132, main_v133, main_v134, main_cst_29, main_v135, main_v136, main_cst_30, main_v137, main_v138, main_v139, main_cst_31, main_v140, main_v141, main_v142, main_cst_32, main_v143, main_v144]

/-- The window's operations. -/
abbrev ops2 : List (HloOp τ sig (Elt F)) := lay3b ++ lay4a

set_option maxRecDepth 8192 in
/-- The window is that straight line: the called function's body unfolds at its call, sequencing reassociates by computation. -/
theorem main_part2_eq (c : Dev nD) : main_part2 (F := F) c = seq ops2 := rfl

set_option maxRecDepth 8192 in
theorem lay3b_writes : (lay3b : List (HloOp τ sig (Elt F))).Forall fun op => op.writes ⊆ (lay3b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay3b` does not write keeps its contents through it. -/
theorem lay3b_keep (V : Valuation τ sig (Elt F)) (r : Ref sig .tc) (h : r ∉ lay3b_W) :
    after lay3b V (Proc.devRef .tc r) = V (Proc.devRef .tc r) :=
  after_of_writes_sub lay3b V lay3b_writes h

set_option maxRecDepth 8192 in
theorem lay4a_writes : (lay4a : List (HloOp τ sig (Elt F))).Forall fun op => op.writes ⊆ (lay4a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay4a` does not write keeps its contents through it. -/
theorem lay4a_keep (V : Valuation τ sig (Elt F)) (r : Ref sig .tc) (h : r ∉ lay4a_W) :
    after lay4a V (Proc.devRef .tc r) = V (Proc.devRef .tc r) :=
  after_of_writes_sub lay4a V lay4a_writes h

set_option maxRecDepth 8192 in
/-- Every operation of the window names TensorCore buffers only. -/
theorem ops2_sub : (ops2 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
/-- Every operation of the window determines what it writes. -/
theorem ops2_fresh : ∀ op ∈ (ops2 : List (HloOp τ sig (Elt F))), op.fresh = ∅ := by
  intro _ h; (repeat (cases h with | head => rfl | tail _ h => ?_)); exact nomatch h

end Cert.ReferenceIdeal.Hand

end
-- ==== Proof.RefRun.W3.lean ====
import proofs.«108571_j70514773065745_1_alg».proof.Proof.Gen.ReferenceIdeal
import Idealize.ShloMosaic.Lib.StableHlo.Run

noncomputable section

/-! # The reference's statements 181 … 240 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 4, second stretch: the end of the dense update. -/
abbrev lay4b : List (HloOp τ sig (Elt F)) :=
  [ StableHlo.binary main_v141 main_v144 main_v145 (addf : (⟨S100000x64, .f32⟩ : BufTy).Contents (Elt F) → (⟨S100000x64, .f32⟩ : BufTy).Contents (Elt F) → (⟨S100000x64, .f32⟩ : BufTy).Contents (Elt F)),
    StableHlo.binary main_v145 main_v119 main_v146 (addf : (⟨S100000x64, .f32⟩ : BufTy).Contents (Elt F) → (⟨S100000x64, .f32⟩ : BufTy).Contents (Elt F) → (⟨S100000x64, .f32⟩ : BufTy).Contents (Elt F)),
    StableHlo.nullary main_call4_cst (constant S_ .f32 0x00000000#32),
    StableHlo.unary main_call4_cst main_call4_v0 (broadcastInDim S100000x64 ![] bcast_S_S100000x64 : (⟨S_, .f32⟩ : BufTy).Contents (Elt F) → (⟨S100000x64, .f32⟩ : BufTy).Contents (Elt F)),
    StableHlo.binary main_v146 main_call4_v0 main_v147 (maximumf : (⟨S100000x64, .f32⟩ : BufTy).Contents (Elt F) → (⟨S100000x64, .f32⟩ : BufTy).Contents (Elt F) → (⟨S100000x64, .f32⟩ : BufTy).Contents (Elt F)) ]

/-- The buffers `lay4b` writes. -/
abbrev lay4b_W : List (Ref sig .tc) := [main_v145, main_v146, main_call4_cst, main_call4_v0, main_v147]

/-- Layer 5. -/
abbrev lay5 : List (HloOp τ sig (Elt F)) :=
  [ StableHlo.unary main_arg6 main_v148 ((extractStridedSlice S1x64x64 ![5, 0, 0] · slices_S8x64x64_S1x64x64_5_0_0) : (⟨S8x64x64, .f32⟩ : BufTy).Contents (Elt F) → (⟨S1x64x64, .f32⟩ : BufTy).Contents (Elt F)),
    StableHlo.reshape main_v148 main_v149 rfl shapeCasts_S1x64x64_S64x64,
    StableHlo.unary main_arg2 main_v150 (broadcastInDim S1600000x1 ![0] bcast_S1600000_S1600000x1_0 : (⟨S1600000, .f32⟩ : BufTy).Contents (Elt F) → (⟨S1600000x1, .f32⟩ : BufTy).Contents (Elt F)),
    StableHlo.nullary main_c_33 (constantI S_ 32 0#32),
    StableHlo.unary main_c_33 main_v151 (broadcastInDim S1600000 ![] bcast_S_S1600000 : (⟨S_, .i32⟩ : BufTy).Contents (Elt F) → (⟨S1600000, .i32⟩ : BufTy).Contents (Elt F)),
    StableHlo.binary main_v1 main_v151 main_v152 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v153 (broadcastInDim S1600000 ![] bcast_S_S1600000 : (⟨S_, .i32⟩ : BufTy).Contents (Elt F) → (⟨S1600000, .i32⟩ : BufTy).Contents (Elt F)),
    StableHlo.binary main_v1 main_v153 main_v154 (addi : (⟨S1600000, .i32⟩ : BufTy).Contents (Elt F) → (⟨S1600000, .i32⟩ : BufTy).Contents (Elt F) → (⟨S1600000, .i32⟩ : BufTy).Contents (Elt F)),
    StableHlo.ternary main_v152 main_v154 main_v1 main_v155 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v155 main_v156 (broadcastInDim S1600000x1 ![0] bcast_S1600000_S1600000x1_0 : (⟨S1600000, .i32⟩ : BufTy).Contents (Elt F) → (⟨S1600000x1, .i32⟩ : BufTy).Contents (Elt F)),
    StableHlo.binary main_v147 main_v156 main_v157 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v150 main_v158 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v158 main_v157 main_v159 (mulf : (⟨S1600000x64, .f32⟩ : BufTy).Contents (Elt F) → (⟨S1600000x64, .f32⟩ : BufTy).Contents (Elt F) → (⟨S1600000x64, .f32⟩ : BufTy).Contents (Elt F)),
    StableHlo.nullary main_cst_35 (constant S_ .f32 0x00000000#32),
    StableHlo.unary main_cst_35 main_v160 (broadcastInDim S100000x64 ![] bcast_S_S100000x64 : (⟨S_, .f32⟩ : BufTy).Contents (Elt F) → (⟨S100000x64, .f32⟩ : BufTy).Contents (Elt F)),
    StableHlo.unary main_v3 main_v161 (broadcastInDim S1600000x1 ![0] bcast_S1600000_S1600000x1_0 : (⟨S1600000, .i32⟩ : BufTy).Contents (Elt F) → (⟨S1600000x1, .i32⟩ : BufTy).Contents (Elt F)),
    StableHlo.ternary main_v160 main_v161 main_v159 main_v162 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_36 (constant S_ .f32 0x3F000000#32),
    StableHlo.unary main_cst_36 main_v163 (broadcastInDim S100000x64 ![] bcast_S_S100000x64 : (⟨S_, .f32⟩ : BufTy).Contents (Elt F) → (⟨S100000x64, .f32⟩ : BufTy).Contents (Elt F)),
    StableHlo.binary main_v163 main_v162 main_v164 (mulf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3F000000#32),
    StableHlo.unary main_cst_37 main_v165 (broadcastInDim S100000x64 ![] bcast_S_S100000x64 : (⟨S_, .f32⟩ : BufTy).Contents (Elt F) → (⟨S100000x64, .f32⟩ : BufTy).Contents (Elt F)),
    StableHlo.binary main_v165 main_v7 main_v166 (mulf : (⟨S100000x64, .f32⟩ : BufTy).Contents (Elt F) → (⟨S100000x64, .f32⟩ : BufTy).Contents (Elt F) → (⟨S100000x64, .f32⟩ : BufTy).Contents (Elt F)),
    StableHlo.binary main_v164 main_v166 main_v167 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3F588995#32),
    StableHlo.unary main_cst_38 main_v168 (broadcastInDim S100000x64 ![] bcast_S_S100000x64 : (⟨S_, .f32⟩ : BufTy).Contents (Elt F) → (⟨S100000x64, .f32⟩ : BufTy).Contents (Elt F)),
    StableHlo.binary main_v168 main_v167 main_v169 (mulf : (⟨S100000x64, .f32⟩ : BufTy).Contents (Elt F) → (⟨S100000x64, .f32⟩ : BufTy).Contents (Elt F) → (⟨S100000x64, .f32⟩ : BufTy).Contents (Elt F)),
    StableHlo.binary main_v167 main_v149 main_v170 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_39 (constant S_ .f32 0x3E1DD9AD#32),
    StableHlo.unary main_cst_39 main_v171 (broadcastInDim S100000x64 ![] bcast_S_S100000x64 : (⟨S_, .f32⟩ : BufTy).Contents (Elt F) → (⟨S100000x64, .f32⟩ : BufTy).Contents (Elt F)),
    StableHlo.binary main_v171 main_v170 main_v172 (mulf : (⟨S100000x64, .f32⟩ : BufTy).Contents (Elt F) → (⟨S100000x64, .f32⟩ : BufTy).Contents (Elt F) → (⟨S100000x64, .f32⟩ : BufTy).Contents (Elt F)),
    StableHlo.binary main_v169 main_v172 main_v173 (addf : (⟨S100000x64, .f32⟩ : BufTy).Contents (Elt F) → (⟨S100000x64, .f32⟩ : BufTy).Contents (Elt F) → (⟨S100000x64, .f32⟩ : BufTy).Contents (Elt F)),
    StableHlo.binary main_v173 main_v147 main_v174 (addf : (⟨S100000x64, .f32⟩ : BufTy).Contents (Elt F) → (⟨S100000x64, .f32⟩ : BufTy).Contents (Elt F) → (⟨S100000x64, .f32⟩ : BufTy).Contents (Elt F)),
    StableHlo.nullary main_call5_cst (constant S_ .f32 0x00000000#32),
    StableHlo.unary main_call5_cst main_call5_v0 (broadcastInDim S100000x64 ![] bcast_S_S100000x64 : (⟨S_, .f32⟩ : BufTy).Contents (Elt F) → (⟨S100000x64, .f32⟩ : BufTy).Contents (Elt F)),
    StableHlo.binary main_v174 main_call5_v0 main_v175 (maximumf : (⟨S100000x64, .f32⟩ : BufTy).Contents (Elt F) → (⟨S100000x64, .f32⟩ : BufTy).Contents (Elt F) → (⟨S100000x64, .f32⟩ : BufTy).Contents (Elt F)) ]

/-- The buffers `lay5` writes. -/
abbrev lay5_W : List (Ref sig .tc) := [main_v148, main_v149, main_v150, main_c_33, main_v151, main_v152, main_c_34, main_v153, main_v154, main_v155, main_v156, main_v157, main_v158, main_v159, main_cst_35, main_v160, main_v161, main_v162, main_cst_36, main_v163, main_v164, main_cst_37, main_v165, main_v166, main_v167, main_cst_38, main_v168, main_v169, main_v170, main_cst_39, main_v171, main_v172, main_v173, main_v174, main_call5_cst, main_call5_v0, main_v175]

/-- Layer 6, first stretch: through the sum into the destinations. -/
abbrev lay6a : List (HloOp τ sig (Elt F)) :=
  [ StableHlo.unary main_arg6 main_v176 ((extractStridedSlice S1x64x64 ![6, 0, 0] · slices_S8x64x64_S1x64x64_6_0_0) : (⟨S8x64x64, .f32⟩ : BufTy).Contents (Elt F) → (⟨S1x64x64, .f32⟩ : BufTy).Contents (Elt F)),
    StableHlo.reshape main_v176 main_v177 rfl shapeCasts_S1x64x64_S64x64,
    StableHlo.unary main_arg2 main_v178 (broadcastInDim S1600000x1 ![0] bcast_S1600000_S1600000x1_0 : (⟨S1600000, .f32⟩ : BufTy).Contents (Elt F) → (⟨S1600000x1, .f32⟩ : BufTy).Contents (Elt F)),
    StableHlo.nullary main_c_40 (constantI S_ 32 0#32),
    StableHlo.unary main_c_40 main_v179 (broadcastInDim S1600000 ![] bcast_S_S1600000 : (⟨S_, .i32⟩ : BufTy).Contents (Elt F) → (⟨S1600000, .i32⟩ : BufTy).Contents (Elt F)),
    StableHlo.binary main_v1 main_v179 main_v180 (cmpi .slt : (⟨S1600000, .i32⟩ : BufTy).Contents (Elt F) → (⟨S1600000, .i32⟩ : BufTy).Contents (Elt F) → (⟨S1600000, .i1⟩ : BufTy).Contents (Elt F)),
    StableHlo.nullary main_c_41 (constantI S_ 32 100000#32),
    StableHlo.unary main_c_41 main_v181 (broadcastInDim S1600000 ![] bcast_S_S1600000 : (⟨S_, .i32⟩ : BufTy).Contents (Elt F) → (⟨S1600000, .i32⟩ : BufTy).Contents (Elt F)),
    StableHlo.binary main_v1 main_v181 main_v182 (addi : (⟨S1600000, .i32⟩ : BufTy).Contents (Elt F) → (⟨S1600000, .i32⟩ : BufTy).Contents (Elt F) → (⟨S1600000, .i32⟩ : BufTy).Contents (Elt F)),
    StableHlo.ternary main_v180 main_v182 main_v1 main_v183 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v183 main_v184 (broadcastInDim S1600000x1 ![0] bcast_S1600000_S1600000x1_0 : (⟨S1600000, .i32⟩ : BufTy).Contents (Elt F) → (⟨S1600000x1, .i32⟩ : BufTy).Contents (Elt F)),
    StableHlo.binary main_v175 main_v184 main_v185 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v178 main_v186 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v186 main_v185 main_v187 (mulf : (⟨S1600000x64, .f32⟩ : BufTy).Contents (Elt F) → (⟨S1600000x64, .f32⟩ : BufTy).Contents (Elt F) → (⟨S1600000x64, .f32⟩ : BufTy).Contents (Elt F)),
    StableHlo.nullary main_cst_42 (constant S_ .f32 0x00000000#32),
    StableHlo.unary main_cst_42 main_v188 (broadcastInDim S100000x64 ![] bcast_S_S100000x64 : (⟨S_, .f32⟩ : BufTy).Contents (Elt F) → (⟨S100000x64, .f32⟩ : BufTy).Contents (Elt F)),
    StableHlo.unary main_v3 main_v189 (broadcastInDim S1600000x1 ![0] bcast_S1600000_S1600000x1_0 : (⟨S1600000, .i32⟩ : BufTy).Contents (Elt F) → (⟨S1600000x1, .i32⟩ : BufTy).Contents (Elt F)),
    StableHlo.ternary main_v188 main_v189 main_v187 main_v190 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_43 (constant S_ .f32 0x3F000000#32),
    StableHlo.unary main_cst_43 main_v191 (broadcastInDim S100000x64 ![] bcast_S_S100000x64 : (⟨S_, .f32⟩ : BufTy).Contents (Elt F) → (⟨S100000x64, .f32⟩ : BufTy).Contents (Elt F)),
    StableHlo.binary main_v191 main_v190 main_v192 (mulf : (⟨S100000x64, .f32⟩ : BufTy).Contents (Elt F) → (⟨S100000x64, .f32⟩ : BufTy).Contents (Elt F) → (⟨S100000x64, .f32⟩ : BufTy).Contents (Elt F)),
    StableHlo.nullary main_cst_44 (constant S_ .f32 0x3F000000#32) ]

/-- The buffers `lay6a` writes. -/
abbrev lay6a_W : List (Ref sig .tc) := [main_v176, main_v177, main_v178, main_c_40, main_v179, main_v180, main_c_41, main_v181, main_v182, main_v183, main_v184, main_v185, main_v186, main_v187, main_cst_42, main_v188, main_v189, main_v190, main_cst_43, main_v191, main_v192, main_cst_44]

/-- The window's operations. -/
abbrev ops3 : List (HloOp τ sig (Elt F)) := lay4b ++ lay5 ++ lay6a

set_option maxRecDepth 8192 in
/-- The window is that straight line: the called function's body unfolds at its call, sequencing reassociates by computation. -/
theorem main_part3_eq (c : Dev nD) : main_part3 (F := F) c = seq ops3 := rfl

set_option maxRecDepth 8192 in
theorem lay4b_writes : (lay4b : List (HloOp τ sig (Elt F))).Forall fun op => op.writes ⊆ (lay4b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay4b` does not write keeps its contents through it. -/
theorem lay4b_keep (V : Valuation τ sig (Elt F)) (r : Ref sig .tc) (h : r ∉ lay4b_W) :
    after lay4b V (Proc.devRef .tc r) = V (Proc.devRef .tc r) :=
  after_of_writes_sub lay4b V lay4b_writes h

set_option maxRecDepth 8192 in
theorem lay5_writes : (lay5 : List (HloOp τ sig (Elt F))).Forall fun op => op.writes ⊆ (lay5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay5` does not write keeps its contents through it. -/
theorem lay5_keep (V : Valuation τ sig (Elt F)) (r : Ref sig .tc) (h : r ∉ lay5_W) :
    after lay5 V (Proc.devRef .tc r) = V (Proc.devRef .tc r) :=
  after_of_writes_sub lay5 V lay5_writes h

set_option maxRecDepth 8192 in
theorem lay6a_writes : (lay6a : List (HloOp τ sig (Elt F))).Forall fun op => op.writes ⊆ (lay6a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay6a` does not write keeps its contents through it. -/
theorem lay6a_keep (V : Valuation τ sig (Elt F)) (r : Ref sig .tc) (h : r ∉ lay6a_W) :
    after lay6a V (Proc.devRef .tc r) = V (Proc.devRef .tc r) :=
  after_of_writes_sub lay6a V lay6a_writes h

set_option maxRecDepth 8192 in
/-- Every operation of the window names TensorCore buffers only. -/
theorem ops3_sub : (ops3 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub ..⟩

set_option maxRecDepth 8192 in
/-- Every operation of the window determines what it writes. -/
theorem ops3_fresh : ∀ op ∈ (ops3 : List (HloOp τ sig (Elt F))), op.fresh = ∅ := by
  intro _ h; (repeat (cases h with | head => rfl | tail _ h => ?_)); exact nomatch h

end Cert.ReferenceIdeal.Hand

end
-- ==== Proof.RefRun.W4.lean ====
import proofs.«108571_j70514773065745_1_alg».proof.Proof.Gen.ReferenceIdeal
import Idealize.ShloMosaic.Lib.StableHlo.Run

noncomputable section

/-! # The reference's statements 241 … 300 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 6, second stretch: the dense update. -/
abbrev lay6b : List (HloOp τ sig (Elt F)) :=
  [ StableHlo.unary main_cst_44 main_v193 (broadcastInDim S100000x64 ![] bcast_S_S100000x64 : (⟨S_, .f32⟩ : BufTy).Contents (Elt F) → (⟨S100000x64, .f32⟩ : BufTy).Contents (Elt F)),
    StableHlo.binary main_v193 main_v7 main_v194 (mulf : (⟨S100000x64, .f32⟩ : BufTy).Contents (Elt F) → (⟨S100000x64, .f32⟩ : BufTy).Contents (Elt F) → (⟨S100000x64, .f32⟩ : BufTy).Contents (Elt F)),
    StableHlo.binary main_v192 main_v194 main_v195 (addf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3F5DD0E3#32),
    StableHlo.unary main_cst_45 main_v196 (broadcastInDim S100000x64 ![] bcast_S_S100000x64 : (⟨S_, .f32⟩ : BufTy).Contents (Elt F) → (⟨S100000x64, .f32⟩ : BufTy).Contents (Elt F)),
    StableHlo.binary main_v196 main_v195 main_v197 (mulf : (⟨S100000x64, .f32⟩ : BufTy).Contents (Elt F) → (⟨S100000x64, .f32⟩ : BufTy).Contents (Elt F) → (⟨S100000x64, .f32⟩ : BufTy).Contents (Elt F)),
    StableHlo.binary main_v195 main_v177 main_v198 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_46 (constant S_ .f32 0x3E08BC74#32),
    StableHlo.unary main_cst_46 main_v199 (broadcastInDim S100000x64 ![] bcast_S_S100000x64 : (⟨S_, .f32⟩ : BufTy).Contents (Elt F) → (⟨S100000x64, .f32⟩ : BufTy).Contents (Elt F)),
    StableHlo.binary main_v199 main_v198 main_v200 (mulf : (⟨S100000x64, .f32⟩ : BufTy).Contents (Elt F) → (⟨S100000x64, .f32⟩ : BufTy).Contents (Elt F) → (⟨S100000x64, .f32⟩ : BufTy).Contents (Elt F)),
    StableHlo.binary main_v197 main_v200 main_v201 (addf : (⟨S100000x64, .f32⟩ : BufTy).Contents (Elt F) → (⟨S100000x64, .f32⟩ : BufTy).Contents (Elt F) → (⟨S100000x64, .f32⟩ : BufTy).Contents (Elt F)),
    StableHlo.binary main_v201 main_v175 main_v202 (addf : (⟨S100000x64, .f32⟩ : BufTy).Contents (Elt F) → (⟨S100000x64, .f32⟩ : BufTy).Contents (Elt F) → (⟨S100000x64, .f32⟩ : BufTy).Contents (Elt F)),
    StableHlo.nullary main_call6_cst (constant S_ .f32 0x00000000#32),
    StableHlo.unary main_call6_cst main_call6_v0 (broadcastInDim S100000x64 ![] bcast_S_S100000x64 : (⟨S_, .f32⟩ : BufTy).Contents (Elt F) → (⟨S100000x64, .f32⟩ : BufTy).Contents (Elt F)),
    StableHlo.binary main_v202 main_call6_v0 main_v203 (maximumf : (⟨S100000x64, .f32⟩ : BufTy).Contents (Elt F) → (⟨S100000x64, .f32⟩ : BufTy).Contents (Elt F) → (⟨S100000x64, .f32⟩ : BufTy).Contents (Elt F)) ]

/-- The buffers `lay6b` writes. -/
abbrev lay6b_W : List (Ref sig .tc) := [main_v193, main_v194, main_v195, main_cst_45, main_v196, main_v197, main_v198, main_cst_46, main_v199, main_v200, main_v201, main_v202, main_call6_cst, main_call6_v0, main_v203]

/-- Layer 7. -/
abbrev lay7 : List (HloOp τ sig (Elt F)) :=
  [ StableHlo.unary main_arg6 main_v204 ((extractStridedSlice S1x64x64 ![7, 0, 0] · slices_S8x64x64_S1x64x64_7_0_0) : (⟨S8x64x64, .f32⟩ : BufTy).Contents (Elt F) → (⟨S1x64x64, .f32⟩ : BufTy).Contents (Elt F)),
    StableHlo.reshape main_v204 main_v205 rfl shapeCasts_S1x64x64_S64x64,
    StableHlo.unary main_arg2 main_v206 (broadcastInDim S1600000x1 ![0] bcast_S1600000_S1600000x1_0 : (⟨S1600000, .f32⟩ : BufTy).Contents (Elt F) → (⟨S1600000x1, .f32⟩ : BufTy).Contents (Elt F)),
    StableHlo.nullary main_c_47 (constantI S_ 32 0#32),
    StableHlo.unary main_c_47 main_v207 (broadcastInDim S1600000 ![] bcast_S_S1600000 : (⟨S_, .i32⟩ : BufTy).Contents (Elt F) → (⟨S1600000, .i32⟩ : BufTy).Contents (Elt F)),
    StableHlo.binary main_v1 main_v207 main_v208 (cmpi .slt : (⟨S1600000, .i32⟩ : BufTy).Contents (Elt F) → (⟨S1600000, .i32⟩ : BufTy).Contents (Elt F) → (⟨S1600000, .i1⟩ : BufTy).Contents (Elt F)),
    StableHlo.nullary main_c_48 (constantI S_ 32 100000#32),
    StableHlo.unary main_c_48 main_v209 (broadcastInDim S1600000 ![] bcast_S_S1600000 : (⟨S_, .i32⟩ : BufTy).Contents (Elt F) → (⟨S1600000, .i32⟩ : BufTy).Contents (Elt F)),
    StableHlo.binary main_v1 main_v209 main_v210 (addi : (⟨S1600000, .i32⟩ : BufTy).Contents (Elt F) → (⟨S1600000, .i32⟩ : BufTy).Contents (Elt F) → (⟨S1600000, .i32⟩ : BufTy).Contents (Elt F)),
    StableHlo.ternary main_v208 main_v210 main_v1 main_v211 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v211 main_v212 (broadcastInDim S1600000x1 ![0] bcast_S1600000_S1600000x1_0 : (⟨S1600000, .i32⟩ : BufTy).Contents (Elt F) → (⟨S1600000x1, .i32⟩ : BufTy).Contents (Elt F)),
    StableHlo.binary main_v203 main_v212 main_v213 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v206 main_v214 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v214 main_v213 main_v215 (mulf : (⟨S1600000x64, .f32⟩ : BufTy).Contents (Elt F) → (⟨S1600000x64, .f32⟩ : BufTy).Contents (Elt F) → (⟨S1600000x64, .f32⟩ : BufTy).Contents (Elt F)),
    StableHlo.nullary main_cst_49 (constant S_ .f32 0x00000000#32),
    StableHlo.unary main_cst_49 main_v216 (broadcastInDim S100000x64 ![] bcast_S_S100000x64 : (⟨S_, .f32⟩ : BufTy).Contents (Elt F) → (⟨S100000x64, .f32⟩ : BufTy).Contents (Elt F)),
    StableHlo.unary main_v3 main_v217 (broadcastInDim S1600000x1 ![0] bcast_S1600000_S1600000x1_0 : (⟨S1600000, .i32⟩ : BufTy).Contents (Elt F) → (⟨S1600000x1, .i32⟩ : BufTy).Contents (Elt F)),
    StableHlo.ternary main_v216 main_v217 main_v215 main_v218 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_50 (constant S_ .f32 0x3F000000#32),
    StableHlo.unary main_cst_50 main_v219 (broadcastInDim S100000x64 ![] bcast_S_S100000x64 : (⟨S_, .f32⟩ : BufTy).Contents (Elt F) → (⟨S100000x64, .f32⟩ : BufTy).Contents (Elt F)),
    StableHlo.binary main_v219 main_v218 main_v220 (mulf : (⟨S100000x64, .f32⟩ : BufTy).Contents (Elt F) → (⟨S100000x64, .f32⟩ : BufTy).Contents (Elt F) → (⟨S100000x64, .f32⟩ : BufTy).Contents (Elt F)),
    StableHlo.nullary main_cst_51 (constant S_ .f32 0x3F000000#32),
    StableHlo.unary main_cst_51 main_v221 (broadcastInDim S100000x64 ![] bcast_S_S100000x64 : (⟨S_, .f32⟩ : BufTy).Contents (Elt F) → (⟨S100000x64, .f32⟩ : BufTy).Contents (Elt F)),
    StableHlo.binary main_v221 main_v7 main_v222 (mulf : (⟨S100000x64, .f32⟩ : BufTy).Contents (Elt F) → (⟨S100000x64, .f32⟩ : BufTy).Contents (Elt F) → (⟨S100000x64, .f32⟩ : BufTy).Contents (Elt F)),
    StableHlo.binary main_v220 main_v222 main_v223 (addf : (⟨S100000x64, .f32⟩ : BufTy).Contents (Elt F) → (⟨S100000x64, .f32⟩ : BufTy).Contents (Elt F) → (⟨S100000x64, .f32⟩ : BufTy).Contents (Elt F)),
    StableHlo.nullary main_cst_52 (constant S_ .f32 0x3F61D8F9#32),
    StableHlo.unary main_cst_52 main_v224 (broadcastInDim S100000x64 ![] bcast_S_S100000x64 : (⟨S_, .f32⟩ : BufTy).Contents (Elt F) → (⟨S100000x64, .f32⟩ : BufTy).Contents (Elt F)),
    StableHlo.binary main_v224 main_v223 main_v225 (mulf : (⟨S100000x64, .f32⟩ : BufTy).Contents (Elt F) → (⟨S100000x64, .f32⟩ : BufTy).Contents (Elt F) → (⟨S100000x64, .f32⟩ : BufTy).Contents (Elt F)),
    StableHlo.binary main_v223 main_v205 main_v226 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_53 (constant S_ .f32 0x3DF1383B#32),
    StableHlo.unary main_cst_53 main_v227 (broadcastInDim S100000x64 ![] bcast_S_S100000x64 : (⟨S_, .f32⟩ : BufTy).Contents (Elt F) → (⟨S100000x64, .f32⟩ : BufTy).Contents (Elt F)),
    StableHlo.binary main_v227 main_v226 main_v228 (mulf : (⟨S100000x64, .f32⟩ : BufTy).Contents (Elt F) → (⟨S100000x64, .f32⟩ : BufTy).Contents (Elt F) → (⟨S100000x64, .f32⟩ : BufTy).Contents (Elt F)),
    StableHlo.binary main_v225 main_v228 main_v229 (addf : (⟨S100000x64, .f32⟩ : BufTy).Contents (Elt F) → (⟨S100000x64, .f32⟩ : BufTy).Contents (Elt F) → (⟨S100000x64, .f32⟩ : BufTy).Contents (Elt F)),
    StableHlo.binary main_v229 main_v203 main_v230 (addf : (⟨S100000x64, .f32⟩ : BufTy).Contents (Elt F) → (⟨S100000x64, .f32⟩ : BufTy).Contents (Elt F) → (⟨S100000x64, .f32⟩ : BufTy).Contents (Elt F)),
    StableHlo.nullary main_call7_cst (constant S_ .f32 0x00000000#32),
    StableHlo.unary main_call7_cst main_call7_v0 (broadcastInDim S100000x64 ![] bcast_S_S100000x64 : (⟨S_, .f32⟩ : BufTy).Contents (Elt F) → (⟨S100000x64, .f32⟩ : BufTy).Contents (Elt F)),
    StableHlo.binary main_v230 main_call7_v0 main_v231 (maximumf : (⟨S100000x64, .f32⟩ : BufTy).Contents (Elt F) → (⟨S100000x64, .f32⟩ : BufTy).Contents (Elt F) → (⟨S100000x64, .f32⟩ : BufTy).Contents (Elt F)) ]

/-- The buffers `lay7` writes. -/
abbrev lay7_W : List (Ref sig .tc) := [main_v204, main_v205, main_v206, main_c_47, main_v207, main_v208, main_c_48, main_v209, main_v210, main_v211, main_v212, main_v213, main_v214, main_v215, main_cst_49, main_v216, main_v217, main_v218, main_cst_50, main_v219, main_v220, main_cst_51, main_v221, main_v222, main_v223, main_cst_52, main_v224, main_v225, main_v226, main_cst_53, main_v227, main_v228, main_v229, main_v230, main_call7_cst, main_call7_v0, main_v231]

/-- The per-graph sums and node counts. -/
abbrev poola : List (HloOp τ sig (Elt F)) :=
  [ StableHlo.nullary main_cst_54 (constant S_ .f32 0x00000000#32),
    StableHlo.unary main_cst_54 main_v232 (broadcastInDim S512x64 ![] bcast_S_S512x64 : (⟨S_, .f32⟩ : BufTy).Contents (Elt F) → (⟨S512x64, .f32⟩ : BufTy).Contents (Elt F)),
    StableHlo.unary main_arg3 main_v233 (broadcastInDim S100000x1 ![0] bcast_S100000_S100000x1_0 : (⟨S100000, .i32⟩ : BufTy).Contents (Elt F) → (⟨S100000x1, .i32⟩ : BufTy).Contents (Elt F)),
    StableHlo.ternary main_v232 main_v233 main_v231 main_v234 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_55 (constant S_ .f32 0x3F800000#32),
    StableHlo.unary main_cst_55 main_v235 (broadcastInDim S100000 ![] bcast_S_S100000 : (⟨S_, .f32⟩ : BufTy).Contents (Elt F) → (⟨S100000, .f32⟩ : BufTy).Contents (Elt F)),
    StableHlo.nullary main_cst_56 (constant S_ .f32 0x00000000#32),
    StableHlo.unary main_cst_56 main_v236 (broadcastInDim S512 ![] bcast_S_S512 : (⟨S_, .f32⟩ : BufTy).Contents (Elt F) → (⟨S512, .f32⟩ : BufTy).Contents (Elt F)),
    StableHlo.unary main_arg3 main_v237 (broadcastInDim S100000x1 ![0] bcast_S100000_S100000x1_0 : (⟨S100000, .i32⟩ : BufTy).Contents (Elt F) → (⟨S100000x1, .i32⟩ : BufTy).Contents (Elt F)),
    StableHlo.ternary main_v236 main_v237 main_v235 main_v238 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_57 (constant S_ .f32 0x3F800000#32),
    StableHlo.unary main_cst_57 main_v239 (broadcastInDim S512 ![] bcast_S_S512 : (⟨S_, .f32⟩ : BufTy).Contents (Elt F) → (⟨S512, .f32⟩ : BufTy).Contents (Elt F)) ]

/-- The buffers `poola` writes. -/
abbrev poola_W : List (Ref sig .tc) := [main_cst_54, main_v232, main_v233, main_v234, main_cst_55, main_v235, main_cst_56, main_v236, main_v237, main_v238, main_cst_57, main_v239]

/-- The window's operations. -/
abbrev ops4 : List (HloOp τ sig (Elt F)) := lay6b ++ lay7 ++ poola

set_option maxRecDepth 8192 in
/-- The window is that straight line: the called function's body unfolds at its call, sequencing reassociates by computation. -/
theorem main_part4_eq (c : Dev nD) : main_part4 (F := F) c = seq ops4 := rfl

set_option maxRecDepth 8192 in
theorem lay6b_writes : (lay6b : List (HloOp τ sig (Elt F))).Forall fun op => op.writes ⊆ (lay6b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay6b` does not write keeps its contents through it. -/
theorem lay6b_keep (V : Valuation τ sig (Elt F)) (r : Ref sig .tc) (h : r ∉ lay6b_W) :
    after lay6b V (Proc.devRef .tc r) = V (Proc.devRef .tc r) :=
  after_of_writes_sub lay6b V lay6b_writes h

set_option maxRecDepth 8192 in
theorem lay7_writes : (lay7 : List (HloOp τ sig (Elt F))).Forall fun op => op.writes ⊆ (lay7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `lay7` does not write keeps its contents through it. -/
theorem lay7_keep (V : Valuation τ sig (Elt F)) (r : Ref sig .tc) (h : r ∉ lay7_W) :
    after lay7 V (Proc.devRef .tc r) = V (Proc.devRef .tc r) :=
  after_of_writes_sub lay7 V lay7_writes h

set_option maxRecDepth 8192 in
theorem poola_writes : (poola : List (HloOp τ sig (Elt F))).Forall fun op => op.writes ⊆ (poola_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `poola` does not write keeps its contents through it. -/
theorem poola_keep (V : Valuation τ sig (Elt F)) (r : Ref sig .tc) (h : r ∉ poola_W) :
    after poola V (Proc.devRef .tc r) = V (Proc.devRef .tc r) :=
  after_of_writes_sub poola V poola_writes h

set_option maxRecDepth 8192 in
/-- Every operation of the window names TensorCore buffers only. -/
theorem ops4_sub : (ops4 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub ..⟩

set_option maxRecDepth 8192 in
/-- Every operation of the window determines what it writes. -/
theorem ops4_fresh : ∀ op ∈ (ops4 : List (HloOp τ sig (Elt F))), op.fresh = ∅ := by
  intro _ h; (repeat (cases h with | head => rfl | tail _ h => ?_)); exact nomatch h

end Cert.ReferenceIdeal.Hand

end
-- ==== Proof.RefRun.W5.lean ====
import proofs.«108571_j70514773065745_1_alg».proof.Proof.Gen.ReferenceIdeal
import Idealize.ShloMosaic.Lib.StableHlo.Run

noncomputable section

/-! # The reference's statements 301 … 309 as a list of host operations

The window's statements in order, cut where a layer of the network begins or ends; a called function's three operations
(the zero, its broadcast, the maximum) stand at the call, over the call's own buffers. Each list comes with the buffers it
writes, so that every other buffer is known to keep its contents through it. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The mean and the output projection. -/
abbrev poolb : List (HloOp τ sig (Elt F)) :=
  [ StableHlo.binary main_v238 main_v239 main_v240 (maximumf : (⟨S512, .f32⟩ : BufTy).Contents (Elt F) → (⟨S512, .f32⟩ : BufTy).Contents (Elt F) → (⟨S512, .f32⟩ : BufTy).Contents (Elt F)),
    StableHlo.unary main_v240 main_v241 (broadcastInDim S512x1 ![0] bcast_S512_S512x1_0 : (⟨S512, .f32⟩ : BufTy).Contents (Elt F) → (⟨S512x1, .f32⟩ : BufTy).Contents (Elt F)),
    StableHlo.unary main_v241 main_v242 (broadcastInDim S512x64 ![0, 1] bcast_S512x1_S512x64_0_1 : (⟨S512x1, .f32⟩ : BufTy).Contents (Elt F) → (⟨S512x64, .f32⟩ : BufTy).Contents (Elt F)),
    StableHlo.binary main_v234 main_v242 main_v243 (Host.divf : (⟨S512x64, .f32⟩ : BufTy).Contents (Elt F) → (⟨S512x64, .f32⟩ : BufTy).Contents (Elt F) → (⟨S512x64, .f32⟩ : BufTy).Contents (Elt F)),
    StableHlo.binary main_v243 main_arg7 main_v244 ((fun l r => Host.dotGeneral dot_S512x64_S64x32_S512x32_1_0_0_1_n_n none l r) : (⟨S512x64, .f32⟩ : BufTy).Contents (Elt F) → (⟨S64x32, .f32⟩ : BufTy).Contents (Elt F) → (⟨S512x32, .f32⟩ : BufTy).Contents (Elt F)),
    StableHlo.unary main_arg8 main_v245 (broadcastInDim S1x32 ![1] bcast_S32_S1x32_1 : (⟨S32, .f32⟩ : BufTy).Contents (Elt F) → (⟨S1x32, .f32⟩ : BufTy).Contents (Elt F)),
    StableHlo.unary main_v245 main_v246 (broadcastInDim S512x32 ![0, 1] bcast_S1x32_S512x32_0_1 : (⟨S1x32, .f32⟩ : BufTy).Contents (Elt F) → (⟨S512x32, .f32⟩ : BufTy).Contents (Elt F)),
    StableHlo.binary main_v244 main_v246 main_v247 (addf : (⟨S512x32, .f32⟩ : BufTy).Contents (Elt F) → (⟨S512x32, .f32⟩ : BufTy).Contents (Elt F) → (⟨S512x32, .f32⟩ : BufTy).Contents (Elt F)) ]

/-- The buffers `poolb` writes. -/
abbrev poolb_W : List (Ref sig .tc) := [main_v240, main_v241, main_v242, main_v243, main_v244, main_v245, main_v246, main_v247]

/-- The window's operations. -/
abbrev ops5 : List (HloOp τ sig (Elt F)) := poolb

set_option maxRecDepth 8192 in
/-- The window is that straight line: the called function's body unfolds at its call, sequencing reassociates by computation. -/
theorem main_part5_eq (c : Dev nD) : main_part5 (F := F) c = seq ops5 := rfl

set_option maxRecDepth 8192 in
theorem poolb_writes : (poolb : List (HloOp τ sig (Elt F))).Forall fun op => op.writes ⊆ (poolb_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `poolb` does not write keeps its contents through it. -/
theorem poolb_keep (V : Valuation τ sig (Elt F)) (r : Ref sig .tc) (h : r ∉ poolb_W) :
    after poolb V (Proc.devRef .tc r) = V (Proc.devRef .tc r) :=
  after_of_writes_sub poolb V poolb_writes h

set_option maxRecDepth 8192 in
/-- Every operation of the window names TensorCore buffers only. -/
theorem ops5_sub : (ops5 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩

set_option maxRecDepth 8192 in
/-- Every operation of the window determines what it writes. -/
theorem ops5_fresh : ∀ op ∈ (ops5 : List (HloOp τ sig (Elt F))), op.fresh = ∅ := by
  intro _ h; (repeat (cases h with | head => rfl | tail _ h => ?_)); exact nomatch h

end Cert.ReferenceIdeal.Hand

end
-- ==== Proof.RefRun.Frame.lean ====
import proofs.«108571_j70514773065745_1_alg».proof.Proof.RefRun.W0
import proofs.«108571_j70514773065745_1_alg».proof.Proof.RefRun.W1
import proofs.«108571_j70514773065745_1_alg».proof.Proof.RefRun.W2
import proofs.«108571_j70514773065745_1_alg».proof.Proof.RefRun.W3
import proofs.«108571_j70514773065745_1_alg».proof.Proof.RefRun.W4
import proofs.«108571_j70514773065745_1_alg».proof.Proof.RefRun.W5

noncomputable section

/-! # The reference runs to the end and leaves its arguments alone

The six windows in order are one straight line of host operations; every weakly fair execution of such a line terminates
with each buffer at the fold of the operations' results over what the buffers held at launch. No operation writes an
argument, so the arguments end as they began. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, window after window. -/
def ops : List (HloOp τ sig (Elt F)) := ops0 ++ (ops1 ++ (ops2 ++ (ops3 ++ (ops4 ++ ops5))))

/-- @main is that straight line: its six windows in turn are the six lists run one after the other. -/
theorem main_eq (c : Dev nD) : main (F := F) c = seq ops := by
  unfold ops
  rw [seq_append ops0, seq_append ops1, seq_append ops2, seq_append ops3, seq_append ops4,
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    unfold ops at h
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    rcases List.mem_append.mp h with h | h
    · exact List.forall_iff_forall_mem.mp ops4_sub op h
    · exact List.forall_iff_forall_mem.mp ops5_sub op h

theorem ops_fresh : ∀ op ∈ (ops : List (HloOp τ sig (Elt F))), op.fresh = ∅ := by
  intro op h
  unfold ops at h
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  rcases List.mem_append.mp h with h | h
  · exact ops4_fresh op h
  · exact ops5_fresh op h

/-- The contents after two lines run one after the other: the second line's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line as its fifteen stretches, one after the other. -/
theorem after_ops (V : Valuation τ sig (Elt F)) :
    after ops V = after poolb (after poola (after lay7 (after lay6b (after lay6a (after lay5 (after lay4b (after lay4a (after lay3b (after lay3a (after lay2 (after lay1b (after lay1a (after lay0 (after pre (V))))))))))))))) := by
  simp only [ops, ops0, ops1, ops2, ops3, ops4, ops5, after_app]

/-- A buffer none of the stretches writes keeps its contents to the end. -/
theorem ops_keep (V : Valuation τ sig (Elt F)) (r : Ref sig .tc)
    (h0 : r ∉ pre_W) (h1 : r ∉ lay0_W) (h2 : r ∉ lay1a_W) (h3 : r ∉ lay1b_W) (h4 : r ∉ lay2_W) (h5 : r ∉ lay3a_W) (h6 : r ∉ lay3b_W) (h7 : r ∉ lay4a_W) (h8 : r ∉ lay4b_W) (h9 : r ∉ lay5_W) (h10 : r ∉ lay6a_W) (h11 : r ∉ lay6b_W) (h12 : r ∉ lay7_W) (h13 : r ∉ poola_W) (h14 : r ∉ poolb_W) :
    after ops V (Proc.devRef .tc r) = V (Proc.devRef .tc r) := by
  rw [after_ops, poolb_keep _ r h14, poola_keep _ r h13, lay7_keep _ r h12, lay6b_keep _ r h11, lay6a_keep _ r h10, lay5_keep _ r h9, lay4b_keep _ r h8, lay4a_keep _ r h7, lay3b_keep _ r h6, lay3a_keep _ r h5, lay2_keep _ r h4, lay1b_keep _ r h3, lay1a_keep _ r h2, lay0_keep _ r h1, pre_keep _ r h0]

/-- From any memory with zero counters: every weakly fair execution of @main terminates, each buffer at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The run without the value: termination, and the nine arguments unchanged. -/
theorem run_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0).trans (ops_keep (launchContents m c) main_arg0 (by decide) (by decide) (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide) (by decide) (by decide))⟩)
    (run_after m ρ)

end Cert.ReferenceIdeal.Hand

end
-- ==== Proof.Spec.lean ====
import proofs.«108571_j70514773065745_1_alg».proof.ReferenceIdeal
import proofs.«108571_j70514773065745_1_alg».proof.Proof.Gen.ReferenceIdeal
import Idealize.ShloMosaic.PureOps.Ideal

noncomputable section

/-! # What both programs compute, stage by stage, on the extended reals

The network: an input projection `x·W_in + b_in`; eight layers, each a weighted gather of the current features along the
edges' sources summed into the edges' destinations, then `z = ½·agg + ½·x₀`, `relu((1-β)·z + β·(z·W) + h)`; a mean over
each graph's nodes; an output projection. Every stage is written with the host's own operations, the constants as their
binary words. -/

namespace Cert.Spec

open Idealize.ShloMosaic Cert.ReferenceIdeal Cert.ReferenceIdeal.Facts₀

abbrev C (S : Shape) : Type := FVec Ideal S .f32
abbrev CI (S : Shape) : Type := (⟨S, .i32⟩ : BufTy).Contents (Elt Ideal)

/-- A float word splat over the node features. -/
def splat (b : BitVec 32) : C S100000x64 := broadcastInDim S100000x64 ![] bcast_S_S100000x64 (constant (F := Ideal) S_ .f32 b)

/-- Row 0 of the edge list: the sources. Row 1: the destinations. -/
def srcRow (ei : CI S2x1600000) : CI S1600000 :=
  shapeCast S1600000 (extractStridedSlice S1x1600000 ![0, 0] ei slices_S2x1600000_S1x1600000_0_0) shapeCasts_S1x1600000_S1600000
def dstRow (ei : CI S2x1600000) : CI S1600000 :=
  shapeCast S1600000 (extractStridedSlice S1x1600000 ![1, 0] ei slices_S2x1600000_S1x1600000_1_0) shapeCasts_S1x1600000_S1600000

/-- One round of message passing: the features of every edge's source (a negative index counted from the end), scaled
    by the edge's weight, summed into the edge's destination. -/
def msg (ew : C S1600000) (s d : CI S1600000) (h : C S100000x64) : C S100000x64 :=
  Host.scatterAdd (F := Ideal) scatter_S100000x64_S1600000x1_S1600000x64_1_0_0_1
    (splat 0x00000000#32)
    (broadcastInDim S1600000x1 ![0] bcast_S1600000_S1600000x1_0 d)
    (mulf (broadcastInDim S1600000x64 ![0, 1] bcast_S1600000x1_S1600000x64_0_1 (broadcastInDim S1600000x1 ![0] bcast_S1600000_S1600000x1_0 ew))
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))

/-- Layer 0's weight: slice 0 of the stacked weights as a matrix. -/
def weight0 (Ws : C S8x64x64) : C S64x64 :=
  shapeCast S64x64 (extractStridedSlice S1x64x64 ![0, 0, 0] Ws slices_S8x64x64_S1x64x64_0_0_0) shapeCasts_S1x64x64_S64x64
/-- Layer 1's weight: slice 1 of the stacked weights as a matrix. -/
def weight1 (Ws : C S8x64x64) : C S64x64 :=
  shapeCast S64x64 (extractStridedSlice S1x64x64 ![1, 0, 0] Ws slices_S8x64x64_S1x64x64_1_0_0) shapeCasts_S1x64x64_S64x64
/-- Layer 2's weight: slice 2 of the stacked weights as a matrix. -/
def weight2 (Ws : C S8x64x64) : C S64x64 :=
  shapeCast S64x64 (extractStridedSlice S1x64x64 ![2, 0, 0] Ws slices_S8x64x64_S1x64x64_2_0_0) shapeCasts_S1x64x64_S64x64
/-- Layer 3's weight: slice 3 of the stacked weights as a matrix. -/
def weight3 (Ws : C S8x64x64) : C S64x64 :=
  shapeCast S64x64 (extractStridedSlice S1x64x64 ![3, 0, 0] Ws slices_S8x64x64_S1x64x64_3_0_0) shapeCasts_S1x64x64_S64x64
/-- Layer 4's weight: slice 4 of the stacked weights as a matrix. -/
def weight4 (Ws : C S8x64x64) : C S64x64 :=
  shapeCast S64x64 (extractStridedSlice S1x64x64 ![4, 0, 0] Ws slices_S8x64x64_S1x64x64_4_0_0) shapeCasts_S1x64x64_S64x64
/-- Layer 5's weight: slice 5 of the stacked weights as a matrix. -/
def weight5 (Ws : C S8x64x64) : C S64x64 :=
  shapeCast S64x64 (extractStridedSlice S1x64x64 ![5, 0, 0] Ws slices_S8x64x64_S1x64x64_5_0_0) shapeCasts_S1x64x64_S64x64
/-- Layer 6's weight: slice 6 of the stacked weights as a matrix. -/
def weight6 (Ws : C S8x64x64) : C S64x64 :=
  shapeCast S64x64 (extractStridedSlice S1x64x64 ![6, 0, 0] Ws slices_S8x64x64_S1x64x64_6_0_0) shapeCasts_S1x64x64_S64x64
/-- Layer 7's weight: slice 7 of the stacked weights as a matrix. -/
def weight7 (Ws : C S8x64x64) : C S64x64 :=
  shapeCast S64x64 (extractStridedSlice S1x64x64 ![7, 0, 0] Ws slices_S8x64x64_S1x64x64_7_0_0) shapeCasts_S1x64x64_S64x64

/-- The mixing of the aggregate with the initial features. -/
def mix (agg x0 : C S100000x64) : C S100000x64 :=
  addf (mulf (splat 0x3F000000#32) agg) (mulf (splat 0x3F000000#32) x0)

/-- One layer's dense update: `relu(b₁·z + b₂·(z·W) + h)` with `z` the mixing. -/
def dense (b1 b2 : BitVec 32) (agg x0 h : C S100000x64) (W : C S64x64) : C S100000x64 :=
  maximumf (addf (addf (mulf (splat b1) (mix agg x0))
      (mulf (splat b2) (Host.dotGeneral (F := Ideal) dot_S100000x64_S64x64_S100000x64_1_0_0_1_n_n none (mix agg x0) W))) h)
    (splat 0x00000000#32)

/-- The input projection. -/
def projIn (x : C S100000x64) (Win : C S64x64) (bin : C S64) : C S100000x64 :=
  addf (Host.dotGeneral (F := Ideal) dot_S100000x64_S64x64_S100000x64_1_0_0_1_n_n none x Win)
    (broadcastInDim S100000x64 ![0, 1] bcast_S1x64_S100000x64_0_1 (broadcastInDim S1x64 ![1] bcast_S64_S1x64_1 bin))

/-- The mean of the features over each graph's nodes (an empty graph divides by one). -/
def pool (batch : CI S100000) (h : C S100000x64) : C S512x64 :=
  Host.divf (F := Ideal)
    (Host.scatterAdd (F := Ideal) scatter_S512x64_S100000x1_S100000x64_1_0_0_1
      (broadcastInDim S512x64 ![] bcast_S_S512x64 (constant (F := Ideal) S_ .f32 0x00000000#32))
      (broadcastInDim S100000x1 ![0] bcast_S100000_S100000x1_0 batch) h)
    (broadcastInDim S512x64 ![0, 1] bcast_S512x1_S512x64_0_1 (broadcastInDim S512x1 ![0] bcast_S512_S512x1_0
      (maximumf
        (Host.scatterAdd (F := Ideal) scatter_S512_S100000x1_S100000_n_0_0_1
          (broadcastInDim S512 ![] bcast_S_S512 (constant (F := Ideal) S_ .f32 0x00000000#32))
          (broadcastInDim S100000x1 ![0] bcast_S100000_S100000x1_0 batch)
          (broadcastInDim S100000 ![] bcast_S_S100000 (constant (F := Ideal) S_ .f32 0x3F800000#32)))
        (broadcastInDim S512 ![] bcast_S_S512 (constant (F := Ideal) S_ .f32 0x3F800000#32)))))

/-- The output projection. -/
def projOut (p : C S512x64) (Wout : C S64x32) (bout : C S32) : C S512x32 :=
  addf (Host.dotGeneral (F := Ideal) dot_S512x64_S64x32_S512x32_1_0_0_1_n_n none p Wout)
    (broadcastInDim S512x32 ![0, 1] bcast_S1x32_S512x32_0_1 (broadcastInDim S1x32 ![1] bcast_S32_S1x32_1 bout))

/-- The features after layer `k`, all eight written out. -/
def layer (ew : C S1600000) (s d : CI S1600000) (b1 b2 : BitVec 32) (x0 h : C S100000x64) (W : C S64x64) : C S100000x64 :=
  dense b1 b2 (msg ew s d h) x0 h W

/-- The whole network. -/
def out (x : C S100000x64) (ei : CI S2x1600000) (ew : C S1600000) (batch : CI S100000) (Win : C S64x64) (bin : C S64)
    (Ws : C S8x64x64) (Wout : C S64x32) (bout : C S32) : C S512x32 :=
  let x0 := projIn x Win bin
  let s := srcRow ei
  let d := dstRow ei
  let h1 := layer ew s d 0x3E9D1BD0#32 0x3F317218#32 x0 x0 (weight0 Ws)
  let h2 := layer ew s d 0x3F183370#32 0x3ECF991F#32 x0 h1 (weight1 Ws)
  let h3 := layer ew s d 0x3F365A78#32 0x3E934B11#32 x0 h2 (weight2 Ws)
  let h4 := layer ew s d 0x3F46E010#32 0x3E647FBE#32 x0 h3 (weight3 Ws)
  let h5 := layer ew s d 0x3F515360#32 0x3E3AB281#32 x0 h4 (weight4 Ws)
  let h6 := layer ew s d 0x3F588995#32 0x3E1DD9AD#32 x0 h5 (weight5 Ws)
  let h7 := layer ew s d 0x3F5DD0E3#32 0x3E08BC74#32 x0 h6 (weight6 Ws)
  let h8 := layer ew s d 0x3F61D8F9#32 0x3DF1383B#32 x0 h7 (weight7 Ws)
  projOut (pool batch h8) Wout bout

end Cert.Spec

end
-- ==== Proof.RefRun.Pre.lean ====
import proofs.«108571_j70514773065745_1_alg».proof.Proof.Spec
import proofs.«108571_j70514773065745_1_alg».proof.Proof.RefRun.W0

noncomputable section

/-! # The reference's first operations: the edge list's rows and the input projection

From any contents of the buffers: after the first eight operations the sources and destinations are rows 0 and 1 of the
edge list as vectors, and the initial features are `x·W_in + b_in`, the bias read along every row. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem pre_src (V : Valuation τ sig (Elt Ideal)) :
    after (pre (F := Ideal)) V (Proc.devRef .tc main_v1 : DevRef τ sig) = Cert.Spec.srcRow (V (Proc.devRef .tc main_arg1 : DevRef τ sig)) := by
  simp only [pre]
  after_results_simp
  rfl

theorem pre_dst (V : Valuation τ sig (Elt Ideal)) :
    after (pre (F := Ideal)) V (Proc.devRef .tc main_v3 : DevRef τ sig) = Cert.Spec.dstRow (V (Proc.devRef .tc main_arg1 : DevRef τ sig)) := by
  simp only [pre]
  after_results_simp
  rfl

theorem pre_x0 (V : Valuation τ sig (Elt Ideal)) :
    after (pre (F := Ideal)) V (Proc.devRef .tc main_v7 : DevRef τ sig)
      = Cert.Spec.projIn (V (Proc.devRef .tc main_arg0 : DevRef τ sig)) (V (Proc.devRef .tc main_arg4 : DevRef τ sig)) (V (Proc.devRef .tc main_arg5 : DevRef τ sig)) := by
  simp only [pre]
  after_results_simp
  rfl

end Cert.ReferenceIdeal.Hand

end
-- ==== Proof.RefRun.Lay0.lean ====
import proofs.«108571_j70514773065745_1_alg».proof.Proof.Spec
import proofs.«108571_j70514773065745_1_alg».proof.Proof.RefRun.W0

noncomputable section

/-! # Layer 0 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 0 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay0_val (V : Valuation τ sig (Elt Ideal)) :
    after (lay0 (F := Ideal)) (V) (Proc.devRef .tc main_v35 : DevRef τ sig)
      = Cert.Spec.layer (V (Proc.devRef .tc main_arg2 : DevRef τ sig)) (V (Proc.devRef .tc main_v1 : DevRef τ sig)) (V (Proc.devRef .tc main_v3 : DevRef τ sig))
          0x3E9D1BD0#32 0x3F317218#32 (V (Proc.devRef .tc main_v7 : DevRef τ sig)) (V (Proc.devRef .tc main_v7 : DevRef τ sig))
          (Cert.Spec.weight0 (V (Proc.devRef .tc main_arg6 : DevRef τ sig))) := by
  simp only [lay0]
  after_results_simp
  rfl

/-- A buffer the layer does not write keeps its contents through it. -/
theorem lay0_keeps (V : Valuation τ sig (Elt Ideal)) (r : Ref sig .tc) (h0 : r ∉ lay0_W) :
    after (lay0 (F := Ideal)) (V) (Proc.devRef .tc r) = V (Proc.devRef .tc r) := by
  rw [lay0_keep _ r h0]

end Cert.ReferenceIdeal.Hand

end
-- ==== Proof.RefRun.Lay1.lean ====
import proofs.«108571_j70514773065745_1_alg».proof.Proof.Spec
import proofs.«108571_j70514773065745_1_alg».proof.Proof.RefRun.W0
import proofs.«108571_j70514773065745_1_alg».proof.Proof.RefRun.W1

noncomputable section

/-! # Layer 1 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 1 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay1_val (V : Valuation τ sig (Elt Ideal)) :
    after (lay1b (F := Ideal)) (after (lay1a (F := Ideal)) (V)) (Proc.devRef .tc main_v63 : DevRef τ sig)
      = Cert.Spec.layer (V (Proc.devRef .tc main_arg2 : DevRef τ sig)) (V (Proc.devRef .tc main_v1 : DevRef τ sig)) (V (Proc.devRef .tc main_v3 : DevRef τ sig))
          0x3F183370#32 0x3ECF991F#32 (V (Proc.devRef .tc main_v7 : DevRef τ sig)) (V (Proc.devRef .tc main_v35 : DevRef τ sig))
          (Cert.Spec.weight1 (V (Proc.devRef .tc main_arg6 : DevRef τ sig))) := by
  simp only [lay1a, lay1b]
  after_results_simp
  rfl

/-- A buffer the layer does not write keeps its contents through it. -/
theorem lay1_keeps (V : Valuation τ sig (Elt Ideal)) (r : Ref sig .tc) (h0 : r ∉ lay1a_W) (h1 : r ∉ lay1b_W) :
    after (lay1b (F := Ideal)) (after (lay1a (F := Ideal)) (V)) (Proc.devRef .tc r) = V (Proc.devRef .tc r) := by
  rw [lay1b_keep _ r h1, lay1a_keep _ r h0]

end Cert.ReferenceIdeal.Hand

end
-- ==== Proof.RefRun.Lay2.lean ====
import proofs.«108571_j70514773065745_1_alg».proof.Proof.Spec
import proofs.«108571_j70514773065745_1_alg».proof.Proof.RefRun.W1

noncomputable section

/-! # Layer 2 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 2 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay2_val (V : Valuation τ sig (Elt Ideal)) :
    after (lay2 (F := Ideal)) (V) (Proc.devRef .tc main_v91 : DevRef τ sig)
      = Cert.Spec.layer (V (Proc.devRef .tc main_arg2 : DevRef τ sig)) (V (Proc.devRef .tc main_v1 : DevRef τ sig)) (V (Proc.devRef .tc main_v3 : DevRef τ sig))
          0x3F365A78#32 0x3E934B11#32 (V (Proc.devRef .tc main_v7 : DevRef τ sig)) (V (Proc.devRef .tc main_v63 : DevRef τ sig))
          (Cert.Spec.weight2 (V (Proc.devRef .tc main_arg6 : DevRef τ sig))) := by
  simp only [lay2]
  after_results_simp
  rfl

/-- A buffer the layer does not write keeps its contents through it. -/
theorem lay2_keeps (V : Valuation τ sig (Elt Ideal)) (r : Ref sig .tc) (h0 : r ∉ lay2_W) :
    after (lay2 (F := Ideal)) (V) (Proc.devRef .tc r) = V (Proc.devRef .tc r) := by
  rw [lay2_keep _ r h0]

end Cert.ReferenceIdeal.Hand

end
-- ==== Proof.RefRun.Lay3.lean ====
import proofs.«108571_j70514773065745_1_alg».proof.Proof.Spec
import proofs.«108571_j70514773065745_1_alg».proof.Proof.RefRun.W1
import proofs.«108571_j70514773065745_1_alg».proof.Proof.RefRun.W2

noncomputable section

/-! # Layer 3 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 3 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay3_val (V : Valuation τ sig (Elt Ideal)) :
    after (lay3b (F := Ideal)) (after (lay3a (F := Ideal)) (V)) (Proc.devRef .tc main_v119 : DevRef τ sig)
      = Cert.Spec.layer (V (Proc.devRef .tc main_arg2 : DevRef τ sig)) (V (Proc.devRef .tc main_v1 : DevRef τ sig)) (V (Proc.devRef .tc main_v3 : DevRef τ sig))
          0x3F46E010#32 0x3E647FBE#32 (V (Proc.devRef .tc main_v7 : DevRef τ sig)) (V (Proc.devRef .tc main_v91 : DevRef τ sig))
          (Cert.Spec.weight3 (V (Proc.devRef .tc main_arg6 : DevRef τ sig))) := by
  simp only [lay3a, lay3b]
  after_results_simp
  rfl

/-- A buffer the layer does not write keeps its contents through it. -/
theorem lay3_keeps (V : Valuation τ sig (Elt Ideal)) (r : Ref sig .tc) (h0 : r ∉ lay3a_W) (h1 : r ∉ lay3b_W) :
    after (lay3b (F := Ideal)) (after (lay3a (F := Ideal)) (V)) (Proc.devRef .tc r) = V (Proc.devRef .tc r) := by
  rw [lay3b_keep _ r h1, lay3a_keep _ r h0]

end Cert.ReferenceIdeal.Hand

end
-- ==== Proof.RefRun.Lay4.lean ====
import proofs.«108571_j70514773065745_1_alg».proof.Proof.Spec
import proofs.«108571_j70514773065745_1_alg».proof.Proof.RefRun.W2
import proofs.«108571_j70514773065745_1_alg».proof.Proof.RefRun.W3

noncomputable section

/-! # Layer 4 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 4 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay4_val (V : Valuation τ sig (Elt Ideal)) :
    after (lay4b (F := Ideal)) (after (lay4a (F := Ideal)) (V)) (Proc.devRef .tc main_v147 : DevRef τ sig)
      = Cert.Spec.layer (V (Proc.devRef .tc main_arg2 : DevRef τ sig)) (V (Proc.devRef .tc main_v1 : DevRef τ sig)) (V (Proc.devRef .tc main_v3 : DevRef τ sig))
          0x3F515360#32 0x3E3AB281#32 (V (Proc.devRef .tc main_v7 : DevRef τ sig)) (V (Proc.devRef .tc main_v119 : DevRef τ sig))
          (Cert.Spec.weight4 (V (Proc.devRef .tc main_arg6 : DevRef τ sig))) := by
  simp only [lay4a, lay4b]
  after_results_simp
  rfl

/-- A buffer the layer does not write keeps its contents through it. -/
theorem lay4_keeps (V : Valuation τ sig (Elt Ideal)) (r : Ref sig .tc) (h0 : r ∉ lay4a_W) (h1 : r ∉ lay4b_W) :
    after (lay4b (F := Ideal)) (after (lay4a (F := Ideal)) (V)) (Proc.devRef .tc r) = V (Proc.devRef .tc r) := by
  rw [lay4b_keep _ r h1, lay4a_keep _ r h0]

end Cert.ReferenceIdeal.Hand

end
-- ==== Proof.RefRun.Lay5.lean ====
import proofs.«108571_j70514773065745_1_alg».proof.Proof.Spec
import proofs.«108571_j70514773065745_1_alg».proof.Proof.RefRun.W3

noncomputable section

/-! # Layer 5 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 5 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay5_val (V : Valuation τ sig (Elt Ideal)) :
    after (lay5 (F := Ideal)) (V) (Proc.devRef .tc main_v175 : DevRef τ sig)
      = Cert.Spec.layer (V (Proc.devRef .tc main_arg2 : DevRef τ sig)) (V (Proc.devRef .tc main_v1 : DevRef τ sig)) (V (Proc.devRef .tc main_v3 : DevRef τ sig))
          0x3F588995#32 0x3E1DD9AD#32 (V (Proc.devRef .tc main_v7 : DevRef τ sig)) (V (Proc.devRef .tc main_v147 : DevRef τ sig))
          (Cert.Spec.weight5 (V (Proc.devRef .tc main_arg6 : DevRef τ sig))) := by
  simp only [lay5]
  after_results_simp
  rfl

/-- A buffer the layer does not write keeps its contents through it. -/
theorem lay5_keeps (V : Valuation τ sig (Elt Ideal)) (r : Ref sig .tc) (h0 : r ∉ lay5_W) :
    after (lay5 (F := Ideal)) (V) (Proc.devRef .tc r) = V (Proc.devRef .tc r) := by
  rw [lay5_keep _ r h0]

end Cert.ReferenceIdeal.Hand

end
-- ==== Proof.RefRun.Lay6.lean ====
import proofs.«108571_j70514773065745_1_alg».proof.Proof.Spec
import proofs.«108571_j70514773065745_1_alg».proof.Proof.RefRun.W3
import proofs.«108571_j70514773065745_1_alg».proof.Proof.RefRun.W4

noncomputable section

/-! # Layer 6 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 6 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay6_val (V : Valuation τ sig (Elt Ideal)) :
    after (lay6b (F := Ideal)) (after (lay6a (F := Ideal)) (V)) (Proc.devRef .tc main_v203 : DevRef τ sig)
      = Cert.Spec.layer (V (Proc.devRef .tc main_arg2 : DevRef τ sig)) (V (Proc.devRef .tc main_v1 : DevRef τ sig)) (V (Proc.devRef .tc main_v3 : DevRef τ sig))
          0x3F5DD0E3#32 0x3E08BC74#32 (V (Proc.devRef .tc main_v7 : DevRef τ sig)) (V (Proc.devRef .tc main_v175 : DevRef τ sig))
          (Cert.Spec.weight6 (V (Proc.devRef .tc main_arg6 : DevRef τ sig))) := by
  simp only [lay6a, lay6b]
  after_results_simp
  rfl

/-- A buffer the layer does not write keeps its contents through it. -/
theorem lay6_keeps (V : Valuation τ sig (Elt Ideal)) (r : Ref sig .tc) (h0 : r ∉ lay6a_W) (h1 : r ∉ lay6b_W) :
    after (lay6b (F := Ideal)) (after (lay6a (F := Ideal)) (V)) (Proc.devRef .tc r) = V (Proc.devRef .tc r) := by
  rw [lay6b_keep _ r h1, lay6a_keep _ r h0]

end Cert.ReferenceIdeal.Hand

end
-- ==== Proof.RefRun.Lay7.lean ====
import proofs.«108571_j70514773065745_1_alg».proof.Proof.Spec
import proofs.«108571_j70514773065745_1_alg».proof.Proof.RefRun.W4

noncomputable section

/-! # Layer 7 of the reference is the specification's layer

From any contents of the buffers: after the layer's operations its result holds the dense update of the message-passing
aggregate — `relu(b₁·z + b₂·(z·W) + h)`, `z = ½·agg + ½·x₀` — of the previous features `h`, the initial features `x₀`,
the edge weights, the two rows of the edge list and slice 7 of the stacked weights, as the buffers hold them before. The
specification's layer is these same operations composed, so the two agree by unfolding. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
theorem lay7_val (V : Valuation τ sig (Elt Ideal)) :
    after (lay7 (F := Ideal)) (V) (Proc.devRef .tc main_v231 : DevRef τ sig)
      = Cert.Spec.layer (V (Proc.devRef .tc main_arg2 : DevRef τ sig)) (V (Proc.devRef .tc main_v1 : DevRef τ sig)) (V (Proc.devRef .tc main_v3 : DevRef τ sig))
          0x3F61D8F9#32 0x3DF1383B#32 (V (Proc.devRef .tc main_v7 : DevRef τ sig)) (V (Proc.devRef .tc main_v203 : DevRef τ sig))
          (Cert.Spec.weight7 (V (Proc.devRef .tc main_arg6 : DevRef τ sig))) := by
  simp only [lay7]
  after_results_simp
  rfl

/-- A buffer the layer does not write keeps its contents through it. -/
theorem lay7_keeps (V : Valuation τ sig (Elt Ideal)) (r : Ref sig .tc) (h0 : r ∉ lay7_W) :
    after (lay7 (F := Ideal)) (V) (Proc.devRef .tc r) = V (Proc.devRef .tc r) := by
  rw [lay7_keep _ r h0]

end Cert.ReferenceIdeal.Hand

end
-- ==== Proof.RefRun.Pool.lean ====
import proofs.«108571_j70514773065745_1_alg».proof.Proof.Spec
import proofs.«108571_j70514773065745_1_alg».proof.Proof.RefRun.W4
import proofs.«108571_j70514773065745_1_alg».proof.Proof.RefRun.W5

noncomputable section

/-! # The reference's last operations: the mean over each graph and the output projection

From any contents of the buffers: after the last twenty operations the result is `p·W_out + b_out`, `p` the per-graph sum
of the final features divided by the graph's node count (at least one). -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd in
theorem pool_val (V : Valuation τ sig (Elt Ideal)) :
    after (poolb (F := Ideal)) (after (poola (F := Ideal)) V) (Proc.devRef .tc main_v247 : DevRef τ sig)
      = Cert.Spec.projOut (Cert.Spec.pool (V (Proc.devRef .tc main_arg3 : DevRef τ sig)) (V (Proc.devRef .tc main_v231 : DevRef τ sig)))
          (V (Proc.devRef .tc main_arg7 : DevRef τ sig)) (V (Proc.devRef .tc main_arg8 : DevRef τ sig)) := by
  simp only [poola, poolb]
  after_results_simp
  rfl

/-- A buffer these operations do not write keeps its contents through them. -/
theorem pool_keeps (V : Valuation τ sig (Elt Ideal)) (r : Ref sig .tc) (h0 : r ∉ poola_W) (h1 : r ∉ poolb_W) :
    after (poolb (F := Ideal)) (after (poola (F := Ideal)) V) (Proc.devRef .tc r) = V (Proc.devRef .tc r) := by
  rw [poolb_keep _ r h1, poola_keep _ r h0]

end Cert.ReferenceIdeal.Hand

end
-- ==== Proof.RefRun.Value.lean ====
import proofs.«108571_j70514773065745_1_alg».proof.Proof.RefRun.Frame
import proofs.«108571_j70514773065745_1_alg».proof.Proof.RefRun.Pre
import proofs.«108571_j70514773065745_1_alg».proof.Proof.RefRun.Lay0
import proofs.«108571_j70514773065745_1_alg».proof.Proof.RefRun.Lay1
import proofs.«108571_j70514773065745_1_alg».proof.Proof.RefRun.Lay2
import proofs.«108571_j70514773065745_1_alg».proof.Proof.RefRun.Lay3
import proofs.«108571_j70514773065745_1_alg».proof.Proof.RefRun.Lay4
import proofs.«108571_j70514773065745_1_alg».proof.Proof.RefRun.Lay5
import proofs.«108571_j70514773065745_1_alg».proof.Proof.RefRun.Lay6
import proofs.«108571_j70514773065745_1_alg».proof.Proof.RefRun.Lay7
import proofs.«108571_j70514773065745_1_alg».proof.Proof.RefRun.Pool

noncomputable section

/-! # The reference's run ends at the specification

The pieces in order: the first operations leave the two rows of the edge list and the initial features; no later operation
writes them, nor the arguments, so each layer finds them as they were and turns the previous layer's features into the
specification's next; the last operations pool and project. Chained, the result buffer holds the specification's network
of the nine arguments as launched. -/

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.Spec in
/-- What every layer reads besides the previous features, and what the last operations read: buffers that hold the same
    contents from the first operations to the end. -/
structure Fixed (ew : C S1600000) (batch : CI S100000) (Ws : C S8x64x64) (Wout : C S64x32) (bout : C S32)
    (s d : CI S1600000) (x0 : C S100000x64) (V : Valuation τ sig (Elt Ideal)) : Prop where
  ew : V (Proc.devRef .tc main_arg2 : DevRef τ sig) = ew
  batch : V (Proc.devRef .tc main_arg3 : DevRef τ sig) = batch
  Ws : V (Proc.devRef .tc main_arg6 : DevRef τ sig) = Ws
  Wout : V (Proc.devRef .tc main_arg7 : DevRef τ sig) = Wout
  bout : V (Proc.devRef .tc main_arg8 : DevRef τ sig) = bout
  src : V (Proc.devRef .tc main_v1 : DevRef τ sig) = s
  dst : V (Proc.devRef .tc main_v3 : DevRef τ sig) = d
  x0 : V (Proc.devRef .tc main_v7 : DevRef τ sig) = x0

namespace Fixed

open Cert.Spec

variable {ew : C S1600000} {batch : CI S100000} {Ws : C S8x64x64} {Wout : C S64x32} {bout : C S32}
  {s d : CI S1600000} {x0 : C S100000x64} {V : Valuation τ sig (Elt Ideal)}

/-- Layer 0 writes none of them. -/
theorem thru0 (h : Fixed ew batch Ws Wout bout s d x0 V) : Fixed ew batch Ws Wout bout s d x0 (after (lay0 (F := Ideal)) (V)) :=
  ⟨(lay0_keeps V main_arg2 (by decide)).trans h.ew,
   (lay0_keeps V main_arg3 (by decide)).trans h.batch,
   (lay0_keeps V main_arg6 (by decide)).trans h.Ws,
   (lay0_keeps V main_arg7 (by decide)).trans h.Wout,
   (lay0_keeps V main_arg8 (by decide)).trans h.bout,
   (lay0_keeps V main_v1 (by decide)).trans h.src,
   (lay0_keeps V main_v3 (by decide)).trans h.dst,
   (lay0_keeps V main_v7 (by decide)).trans h.x0⟩

/-- Layer 0 starts from the initial features themselves. -/
theorem feat0 (h : Fixed ew batch Ws Wout bout s d x0 V) :
    after (lay0 (F := Ideal)) (V) (Proc.devRef .tc main_v35 : DevRef τ sig) = layer ew s d 0x3E9D1BD0#32 0x3F317218#32 x0 x0 (weight0 Ws) := by
  rw [Hand.lay0_val V, h.ew, h.src, h.dst, h.x0, h.Ws]

/-- Layer 1 writes none of them. -/
theorem thru1 (h : Fixed ew batch Ws Wout bout s d x0 V) : Fixed ew batch Ws Wout bout s d x0 (after (lay1b (F := Ideal)) (after (lay1a (F := Ideal)) (V))) :=
  ⟨(lay1_keeps V main_arg2 (by decide) (by decide)).trans h.ew,
   (lay1_keeps V main_arg3 (by decide) (by decide)).trans h.batch,
   (lay1_keeps V main_arg6 (by decide) (by decide)).trans h.Ws,
   (lay1_keeps V main_arg7 (by decide) (by decide)).trans h.Wout,
   (lay1_keeps V main_arg8 (by decide) (by decide)).trans h.bout,
   (lay1_keeps V main_v1 (by decide) (by decide)).trans h.src,
   (lay1_keeps V main_v3 (by decide) (by decide)).trans h.dst,
   (lay1_keeps V main_v7 (by decide) (by decide)).trans h.x0⟩

/-- Layer 1 from the features layer 0 left. -/
theorem feat1 (h : Fixed ew batch Ws Wout bout s d x0 V) {H : C S100000x64} (hp : V (Proc.devRef .tc main_v35 : DevRef τ sig) = H) :
    after (lay1b (F := Ideal)) (after (lay1a (F := Ideal)) (V)) (Proc.devRef .tc main_v63 : DevRef τ sig) = layer ew s d 0x3F183370#32 0x3ECF991F#32 x0 H (weight1 Ws) := by
  rw [Hand.lay1_val V, h.ew, h.src, h.dst, h.x0, hp, h.Ws]

/-- Layer 2 writes none of them. -/
theorem thru2 (h : Fixed ew batch Ws Wout bout s d x0 V) : Fixed ew batch Ws Wout bout s d x0 (after (lay2 (F := Ideal)) (V)) :=
  ⟨(lay2_keeps V main_arg2 (by decide)).trans h.ew,
   (lay2_keeps V main_arg3 (by decide)).trans h.batch,
   (lay2_keeps V main_arg6 (by decide)).trans h.Ws,
   (lay2_keeps V main_arg7 (by decide)).trans h.Wout,
   (lay2_keeps V main_arg8 (by decide)).trans h.bout,
   (lay2_keeps V main_v1 (by decide)).trans h.src,
   (lay2_keeps V main_v3 (by decide)).trans h.dst,
   (lay2_keeps V main_v7 (by decide)).trans h.x0⟩

/-- Layer 2 from the features layer 1 left. -/
theorem feat2 (h : Fixed ew batch Ws Wout bout s d x0 V) {H : C S100000x64} (hp : V (Proc.devRef .tc main_v63 : DevRef τ sig) = H) :
    after (lay2 (F := Ideal)) (V) (Proc.devRef .tc main_v91 : DevRef τ sig) = layer ew s d 0x3F365A78#32 0x3E934B11#32 x0 H (weight2 Ws) := by
  rw [Hand.lay2_val V, h.ew, h.src, h.dst, h.x0, hp, h.Ws]

/-- Layer 3 writes none of them. -/
theorem thru3 (h : Fixed ew batch Ws Wout bout s d x0 V) : Fixed ew batch Ws Wout bout s d x0 (after (lay3b (F := Ideal)) (after (lay3a (F := Ideal)) (V))) :=
  ⟨(lay3_keeps V main_arg2 (by decide) (by decide)).trans h.ew,
   (lay3_keeps V main_arg3 (by decide) (by decide)).trans h.batch,
   (lay3_keeps V main_arg6 (by decide) (by decide)).trans h.Ws,
   (lay3_keeps V main_arg7 (by decide) (by decide)).trans h.Wout,
   (lay3_keeps V main_arg8 (by decide) (by decide)).trans h.bout,
   (lay3_keeps V main_v1 (by decide) (by decide)).trans h.src,
   (lay3_keeps V main_v3 (by decide) (by decide)).trans h.dst,
   (lay3_keeps V main_v7 (by decide) (by decide)).trans h.x0⟩

/-- Layer 3 from the features layer 2 left. -/
theorem feat3 (h : Fixed ew batch Ws Wout bout s d x0 V) {H : C S100000x64} (hp : V (Proc.devRef .tc main_v91 : DevRef τ sig) = H) :
    after (lay3b (F := Ideal)) (after (lay3a (F := Ideal)) (V)) (Proc.devRef .tc main_v119 : DevRef τ sig) = layer ew s d 0x3F46E010#32 0x3E647FBE#32 x0 H (weight3 Ws) := by
  rw [Hand.lay3_val V, h.ew, h.src, h.dst, h.x0, hp, h.Ws]

/-- Layer 4 writes none of them. -/
theorem thru4 (h : Fixed ew batch Ws Wout bout s d x0 V) : Fixed ew batch Ws Wout bout s d x0 (after (lay4b (F := Ideal)) (after (lay4a (F := Ideal)) (V))) :=
  ⟨(lay4_keeps V main_arg2 (by decide) (by decide)).trans h.ew,
   (lay4_keeps V main_arg3 (by decide) (by decide)).trans h.batch,
   (lay4_keeps V main_arg6 (by decide) (by decide)).trans h.Ws,
   (lay4_keeps V main_arg7 (by decide) (by decide)).trans h.Wout,
   (lay4_keeps V main_arg8 (by decide) (by decide)).trans h.bout,
   (lay4_keeps V main_v1 (by decide) (by decide)).trans h.src,
   (lay4_keeps V main_v3 (by decide) (by decide)).trans h.dst,
   (lay4_keeps V main_v7 (by decide) (by decide)).trans h.x0⟩

/-- Layer 4 from the features layer 3 left. -/
theorem feat4 (h : Fixed ew batch Ws Wout bout s d x0 V) {H : C S100000x64} (hp : V (Proc.devRef .tc main_v119 : DevRef τ sig) = H) :
    after (lay4b (F := Ideal)) (after (lay4a (F := Ideal)) (V)) (Proc.devRef .tc main_v147 : DevRef τ sig) = layer ew s d 0x3F515360#32 0x3E3AB281#32 x0 H (weight4 Ws) := by
  rw [Hand.lay4_val V, h.ew, h.src, h.dst, h.x0, hp, h.Ws]

/-- Layer 5 writes none of them. -/
theorem thru5 (h : Fixed ew batch Ws Wout bout s d x0 V) : Fixed ew batch Ws Wout bout s d x0 (after (lay5 (F := Ideal)) (V)) :=
  ⟨(lay5_keeps V main_arg2 (by decide)).trans h.ew,
   (lay5_keeps V main_arg3 (by decide)).trans h.batch,
   (lay5_keeps V main_arg6 (by decide)).trans h.Ws,
   (lay5_keeps V main_arg7 (by decide)).trans h.Wout,
   (lay5_keeps V main_arg8 (by decide)).trans h.bout,
   (lay5_keeps V main_v1 (by decide)).trans h.src,
   (lay5_keeps V main_v3 (by decide)).trans h.dst,
   (lay5_keeps V main_v7 (by decide)).trans h.x0⟩

/-- Layer 5 from the features layer 4 left. -/
theorem feat5 (h : Fixed ew batch Ws Wout bout s d x0 V) {H : C S100000x64} (hp : V (Proc.devRef .tc main_v147 : DevRef τ sig) = H) :
    after (lay5 (F := Ideal)) (V) (Proc.devRef .tc main_v175 : DevRef τ sig) = layer ew s d 0x3F588995#32 0x3E1DD9AD#32 x0 H (weight5 Ws) := by
  rw [Hand.lay5_val V, h.ew, h.src, h.dst, h.x0, hp, h.Ws]

/-- Layer 6 writes none of them. -/
theorem thru6 (h : Fixed ew batch Ws Wout bout s d x0 V) : Fixed ew batch Ws Wout bout s d x0 (after (lay6b (F := Ideal)) (after (lay6a (F := Ideal)) (V))) :=
  ⟨(lay6_keeps V main_arg2 (by decide) (by decide)).trans h.ew,
   (lay6_keeps V main_arg3 (by decide) (by decide)).trans h.batch,
   (lay6_keeps V main_arg6 (by decide) (by decide)).trans h.Ws,
   (lay6_keeps V main_arg7 (by decide) (by decide)).trans h.Wout,
   (lay6_keeps V main_arg8 (by decide) (by decide)).trans h.bout,
   (lay6_keeps V main_v1 (by decide) (by decide)).trans h.src,
   (lay6_keeps V main_v3 (by decide) (by decide)).trans h.dst,
   (lay6_keeps V main_v7 (by decide) (by decide)).trans h.x0⟩

/-- Layer 6 from the features layer 5 left. -/
theorem feat6 (h : Fixed ew batch Ws Wout bout s d x0 V) {H : C S100000x64} (hp : V (Proc.devRef .tc main_v175 : DevRef τ sig) = H) :
    after (lay6b (F := Ideal)) (after (lay6a (F := Ideal)) (V)) (Proc.devRef .tc main_v203 : DevRef τ sig) = layer ew s d 0x3F5DD0E3#32 0x3E08BC74#32 x0 H (weight6 Ws) := by
  rw [Hand.lay6_val V, h.ew, h.src, h.dst, h.x0, hp, h.Ws]

/-- Layer 7 writes none of them. -/
theorem thru7 (h : Fixed ew batch Ws Wout bout s d x0 V) : Fixed ew batch Ws Wout bout s d x0 (after (lay7 (F := Ideal)) (V)) :=
  ⟨(lay7_keeps V main_arg2 (by decide)).trans h.ew,
   (lay7_keeps V main_arg3 (by decide)).trans h.batch,
   (lay7_keeps V main_arg6 (by decide)).trans h.Ws,
   (lay7_keeps V main_arg7 (by decide)).trans h.Wout,
   (lay7_keeps V main_arg8 (by decide)).trans h.bout,
   (lay7_keeps V main_v1 (by decide)).trans h.src,
   (lay7_keeps V main_v3 (by decide)).trans h.dst,
   (lay7_keeps V main_v7 (by decide)).trans h.x0⟩

/-- Layer 7 from the features layer 6 left. -/
theorem feat7 (h : Fixed ew batch Ws Wout bout s d x0 V) {H : C S100000x64} (hp : V (Proc.devRef .tc main_v203 : DevRef τ sig) = H) :
    after (lay7 (F := Ideal)) (V) (Proc.devRef .tc main_v231 : DevRef τ sig) = layer ew s d 0x3F61D8F9#32 0x3DF1383B#32 x0 H (weight7 Ws) := by
  rw [Hand.lay7_val V, h.ew, h.src, h.dst, h.x0, hp, h.Ws]

end Fixed

set_option maxRecDepth 8192 in
/-- From any contents of the buffers: after all of @main's operations the result buffer holds the specification's
    network of the nine arguments. -/
theorem ops_val (V : Valuation τ sig (Elt Ideal)) :
    after (ops (F := Ideal)) V (Proc.devRef .tc main_v247 : DevRef τ sig)
      = Cert.Spec.out (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) := by
  rw [after_ops]
  have f0 : Fixed (V (Proc.devRef .tc main_arg2 : DevRef τ sig)) (V (Proc.devRef .tc main_arg3 : DevRef τ sig)) (V (Proc.devRef .tc main_arg6 : DevRef τ sig)) (V (Proc.devRef .tc main_arg7 : DevRef τ sig)) (V (Proc.devRef .tc main_arg8 : DevRef τ sig))
      (Cert.Spec.srcRow (V (Proc.devRef .tc main_arg1 : DevRef τ sig))) (Cert.Spec.dstRow (V (Proc.devRef .tc main_arg1 : DevRef τ sig)))
      (Cert.Spec.projIn (V (Proc.devRef .tc main_arg0 : DevRef τ sig)) (V (Proc.devRef .tc main_arg4 : DevRef τ sig)) (V (Proc.devRef .tc main_arg5 : DevRef τ sig))) (after (pre (F := Ideal)) V) :=
    ⟨pre_keep V main_arg2 (by decide), pre_keep V main_arg3 (by decide), pre_keep V main_arg6 (by decide),
     pre_keep V main_arg7 (by decide), pre_keep V main_arg8 (by decide), pre_src V, pre_dst V, pre_x0 V⟩
  have h1 := f0.feat0
  have f1 := f0.thru0
  have h2 := f1.feat1 h1
  have f2 := f1.thru1
  have h3 := f2.feat2 h2
  have f3 := f2.thru2
  have h4 := f3.feat3 h3
  have f4 := f3.thru3
  have h5 := f4.feat4 h4
  have f5 := f4.thru4
  have h6 := f5.feat5 h5
  have f6 := f5.thru5
  have h7 := f6.feat6 h6
  have f7 := f6.thru6
  have h8 := f7.feat7 h7
  have f8 := f7.thru7
  rw [pool_val, f8.batch, h8, f8.Wout, f8.bout]
  rfl

/-- From any memory with zero counters: every weakly fair execution of the reference terminates, its result the
    specification's network of the arguments as launched, the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v247)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun _ h c => ⟨(h c main_v247).trans (ops_val (launchContents m c)),
      (h c main_arg0).trans (ops_keep (launchContents m c) main_arg0 (by decide) (by decide) (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide) (by decide) (by decide))⟩)
    (run_after m ρ)

end Cert.ReferenceIdeal.Hand

end
-- ==== Proof.ValueIdeal.Host.lean ====
import proofs.«108571_j70514773065745_1_alg».proof.Proof.Spec
import proofs.«108571_j70514773065745_1_alg».proof.Proof.Gen.KernelIdeal.Launch
import Idealize.ShloMosaic.Lib.StableHlo.Run

set_option maxRecDepth 16384

noncomputable section

namespace Cert.KernelIdeal.Hand.HostRead

open Cert.KernelIdeal Cert.KernelIdeal.Gen
open Idealize.ShloMosaic Idealize.ShloMosaic.TcCoe

/-! # The host stretches of the kernel's program read back as the specification's stages

Each stretch is a list of host operations; what it leaves in a buffer is those operations applied, in order, to the
contents before it. Stated over arbitrary contents `V` before the stretch, so that nothing is ever evaluated: the
stretch's result at a reference is the specification's stage of `V` at the references the stretch reads. -/

/-- Stretch 0: the sources are row 0 of the edge list as a vector. -/
theorem src0 (V : Valuation τ sig (Elt Ideal)) :
    StableHlo.after (hostOps0 (F := Ideal)) V (Proc.devRef .tc main_v1)
      = Cert.Spec.srcRow (V (Proc.devRef .tc main_arg1)) := by
  after_results_simp
  rfl

/-- Stretch 0: the destinations are row 1 of the edge list as a vector. -/
theorem dst0 (V : Valuation τ sig (Elt Ideal)) :
    StableHlo.after (hostOps0 (F := Ideal)) V (Proc.devRef .tc main_v3)
      = Cert.Spec.dstRow (V (Proc.devRef .tc main_arg1)) := by
  after_results_simp
  rfl

/-- Stretch 0: the input projection's bias as one row. -/
theorem bias0 (V : Valuation τ sig (Elt Ideal)) :
    StableHlo.after (hostOps0 (F := Ideal)) V (Proc.devRef .tc main_v4)
      = shapeCast S1x64 (V (Proc.devRef .tc main_arg5)) shapeCasts_S64_S1x64 := by
  after_results_simp
  rfl

set_option maxHeartbeats 4000000 in
/-- Stretch 1: the aggregate is one round of message passing over the features before it. -/
theorem agg1 (V : Valuation τ sig (Elt Ideal)) :
    StableHlo.after (hostOps1 (F := Ideal)) V (Proc.devRef .tc main_v18)
      = Cert.Spec.msg (V (Proc.devRef .tc main_arg2)) (V (Proc.devRef .tc main_v1)) (V (Proc.devRef .tc main_v3))
          (V (Proc.devRef .tc main_v5)) := by
  after_results_simp
  rfl

/-- Stretch 1: the layer's weight is slice 0 of the stacked weights as a matrix. -/
theorem weight1 (V : Valuation τ sig (Elt Ideal)) :
    StableHlo.after (hostOps1 (F := Ideal)) V (Proc.devRef .tc main_v20)
      = Cert.Spec.weight0 (V (Proc.devRef .tc main_arg6)) := by
  after_results_simp
  rfl

set_option maxHeartbeats 4000000 in
/-- Stretch 2: the aggregate is one round of message passing over the features before it. -/
theorem agg2 (V : Valuation τ sig (Elt Ideal)) :
    StableHlo.after (hostOps2 (F := Ideal)) V (Proc.devRef .tc main_v34)
      = Cert.Spec.msg (V (Proc.devRef .tc main_arg2)) (V (Proc.devRef .tc main_v1)) (V (Proc.devRef .tc main_v3))
          (V (Proc.devRef .tc main_v21)) := by
  after_results_simp
  rfl

/-- Stretch 2: the layer's weight is slice 1 of the stacked weights as a matrix. -/
theorem weight2 (V : Valuation τ sig (Elt Ideal)) :
    StableHlo.after (hostOps2 (F := Ideal)) V (Proc.devRef .tc main_v36)
      = Cert.Spec.weight1 (V (Proc.devRef .tc main_arg6)) := by
  after_results_simp
  rfl

set_option maxHeartbeats 4000000 in
/-- Stretch 3: the aggregate is one round of message passing over the features before it. -/
theorem agg3 (V : Valuation τ sig (Elt Ideal)) :
    StableHlo.after (hostOps3 (F := Ideal)) V (Proc.devRef .tc main_v50)
      = Cert.Spec.msg (V (Proc.devRef .tc main_arg2)) (V (Proc.devRef .tc main_v1)) (V (Proc.devRef .tc main_v3))
          (V (Proc.devRef .tc main_v37)) := by
  after_results_simp
  rfl

/-- Stretch 3: the layer's weight is slice 2 of the stacked weights as a matrix. -/
theorem weight3 (V : Valuation τ sig (Elt Ideal)) :
    StableHlo.after (hostOps3 (F := Ideal)) V (Proc.devRef .tc main_v52)
      = Cert.Spec.weight2 (V (Proc.devRef .tc main_arg6)) := by
  after_results_simp
  rfl

set_option maxHeartbeats 4000000 in
/-- Stretch 4: the aggregate is one round of message passing over the features before it. -/
theorem agg4 (V : Valuation τ sig (Elt Ideal)) :
    StableHlo.after (hostOps4 (F := Ideal)) V (Proc.devRef .tc main_v66)
      = Cert.Spec.msg (V (Proc.devRef .tc main_arg2)) (V (Proc.devRef .tc main_v1)) (V (Proc.devRef .tc main_v3))
          (V (Proc.devRef .tc main_v53)) := by
  after_results_simp
  rfl

/-- Stretch 4: the layer's weight is slice 3 of the stacked weights as a matrix. -/
theorem weight4 (V : Valuation τ sig (Elt Ideal)) :
    StableHlo.after (hostOps4 (F := Ideal)) V (Proc.devRef .tc main_v68)
      = Cert.Spec.weight3 (V (Proc.devRef .tc main_arg6)) := by
  after_results_simp
  rfl

set_option maxHeartbeats 4000000 in
/-- Stretch 5: the aggregate is one round of message passing over the features before it. -/
theorem agg5 (V : Valuation τ sig (Elt Ideal)) :
    StableHlo.after (hostOps5 (F := Ideal)) V (Proc.devRef .tc main_v82)
      = Cert.Spec.msg (V (Proc.devRef .tc main_arg2)) (V (Proc.devRef .tc main_v1)) (V (Proc.devRef .tc main_v3))
          (V (Proc.devRef .tc main_v69)) := by
  after_results_simp
  rfl

/-- Stretch 5: the layer's weight is slice 4 of the stacked weights as a matrix. -/
theorem weight5 (V : Valuation τ sig (Elt Ideal)) :
    StableHlo.after (hostOps5 (F := Ideal)) V (Proc.devRef .tc main_v84)
      = Cert.Spec.weight4 (V (Proc.devRef .tc main_arg6)) := by
  after_results_simp
  rfl

set_option maxHeartbeats 4000000 in
/-- Stretch 6: the aggregate is one round of message passing over the features before it. -/
theorem agg6 (V : Valuation τ sig (Elt Ideal)) :
    StableHlo.after (hostOps6 (F := Ideal)) V (Proc.devRef .tc main_v98)
      = Cert.Spec.msg (V (Proc.devRef .tc main_arg2)) (V (Proc.devRef .tc main_v1)) (V (Proc.devRef .tc main_v3))
          (V (Proc.devRef .tc main_v85)) := by
  after_results_simp
  rfl

/-- Stretch 6: the layer's weight is slice 5 of the stacked weights as a matrix. -/
theorem weight6 (V : Valuation τ sig (Elt Ideal)) :
    StableHlo.after (hostOps6 (F := Ideal)) V (Proc.devRef .tc main_v100)
      = Cert.Spec.weight5 (V (Proc.devRef .tc main_arg6)) := by
  after_results_simp
  rfl

set_option maxHeartbeats 4000000 in
/-- Stretch 7: the aggregate is one round of message passing over the features before it. -/
theorem agg7 (V : Valuation τ sig (Elt Ideal)) :
    StableHlo.after (hostOps7 (F := Ideal)) V (Proc.devRef .tc main_v114)
      = Cert.Spec.msg (V (Proc.devRef .tc main_arg2)) (V (Proc.devRef .tc main_v1)) (V (Proc.devRef .tc main_v3))
          (V (Proc.devRef .tc main_v101)) := by
  after_results_simp
  rfl

/-- Stretch 7: the layer's weight is slice 6 of the stacked weights as a matrix. -/
theorem weight7 (V : Valuation τ sig (Elt Ideal)) :
    StableHlo.after (hostOps7 (F := Ideal)) V (Proc.devRef .tc main_v116)
      = Cert.Spec.weight6 (V (Proc.devRef .tc main_arg6)) := by
  after_results_simp
  rfl

set_option maxHeartbeats 4000000 in
/-- Stretch 8: the aggregate is one round of message passing over the features before it. -/
theorem agg8 (V : Valuation τ sig (Elt Ideal)) :
    StableHlo.after (hostOps8 (F := Ideal)) V (Proc.devRef .tc main_v130)
      = Cert.Spec.msg (V (Proc.devRef .tc main_arg2)) (V (Proc.devRef .tc main_v1)) (V (Proc.devRef .tc main_v3))
          (V (Proc.devRef .tc main_v117)) := by
  after_results_simp
  rfl

/-- Stretch 8: the layer's weight is slice 7 of the stacked weights as a matrix. -/
theorem weight8 (V : Valuation τ sig (Elt Ideal)) :
    StableHlo.after (hostOps8 (F := Ideal)) V (Proc.devRef .tc main_v132)
      = Cert.Spec.weight7 (V (Proc.devRef .tc main_arg6)) := by
  after_results_simp
  rfl

set_option maxHeartbeats 4000000 in
/-- Stretch 9: the pooled features are the mean over each graph's nodes of the features before it. -/
theorem pool9 (V : Valuation τ sig (Elt Ideal)) :
    StableHlo.after (hostOps9 (F := Ideal)) V (Proc.devRef .tc main_v145)
      = Cert.Spec.pool (V (Proc.devRef .tc main_arg3)) (V (Proc.devRef .tc main_v133)) := by
  after_results_simp
  rfl

/-- Stretch 9: the output projection's bias as one row. -/
theorem bias9 (V : Valuation τ sig (Elt Ideal)) :
    StableHlo.after (hostOps9 (F := Ideal)) V (Proc.devRef .tc main_v146)
      = shapeCast S1x32 (V (Proc.devRef .tc main_arg8)) shapeCasts_S32_S1x32 := by
  after_results_simp
  rfl

end Cert.KernelIdeal.Hand.HostRead

end
-- ==== Proof.ValueIdeal.Proj0.lean ====
import proofs.«108571_j70514773065745_1_alg».proof.Proof.FrameIdeal.Reg0
import proofs.«108571_j70514773065745_1_alg».proof.Proof.Spec
import Idealize.ShloMosaic.Lib.Pipeline.Value
import Idealize.ShloMosaic.Lib.ValueIdx
import Idealize.ShloMosaic.Lib.KernelVsHost
import Idealize.ShloMosaic.Lib.StackMember

noncomputable section

/-! # Region 0 leaves the input projection of the whole arrays

The grid has 20 points; point `t` reads rows `5000·t … 5000·t + 4999` of the node features, the whole weight and the
bias laid out as one row, and writes the same rows of the result. Entry `(r, n)` of what the body stores is
`∑ k, block[r,k]·W[k,n] + row[0,n]`: the product accumulated into zero is the plain sum over the contracted coordinate
(changing the float format is the identity on the extended reals), and the bias row broadcast down the rows reads its
entry `n`. Row `r` of the block is row `5000·t + r` of the features, so this is entry `(5000·t + r, n)` of the
specification's projection, which is the same sum plus `b[n]`: a row of a matrix product depends on that row of the
left factor only. The 20 blocks of 5000 rows tile the 100000 rows. No law of arithmetic is used, so nothing needs to be
finite. -/

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

namespace Proj0

/-- The zero offsets of a whole-buffer rectangle. -/
theorem zero_off : (![0, 0] : Fin 2 → Nat) = fun _ => 0 := funext fun a => by fin_cases a <;> rfl

/-- The body's dimension numbers are those of the plain product of a 5000×64 by a 64×64 matrix. -/
theorem dims_plain : dot_S5000x64_S64x64_S5000x64_1_0_0_1_n_n = DotDims.plain 5000 64 64 := rfl

/-- Entry `(r, n)` of what the body stores: the sum over the contracted coordinate plus the bias row's entry `n`. -/
theorem pay_apply (x0 : FVec Ideal S5000x64 .f32) (x1 : FVec Ideal S64x64 .f32) (x2 : FVec Ideal S1x64 .f32)
    (r : Fin 5000) (n : Fin 64) :
    k0_pay1 x0 x1 x2 (ix2 r n) = (∑ k : Fin 64, x0 (ix2 r k) * x1 (ix2 k n)) + x2 (ix2 (0 : Fin 1) n) := by
  unfold k0_pay1
  simp only [shapeCast_self]
  refine (addf_apply _ _ (ix2 r n)).trans ?_
  have e1 : matmul dot_S5000x64_S64x64_S5000x64_1_0_0_1_n_n none (truncf .bf16 x0 bitsLt_bf16_f32) (truncf .bf16 x1 bitsLt_bf16_f32)
      (constant (F := Ideal) S5000x64 .f32 0x00000000#32) (ix2 r n) = ∑ k : Fin 64, x0 (ix2 r k) * x1 (ix2 k n) := by
    rw [matmul_zero_eq_dotGeneral, dims_plain]
    exact StackMember.dotGeneral_plain_apply (m := 5000) (n := 64) (k := 64) none (truncf .bf16 x0 bitsLt_bf16_f32)
      (truncf .bf16 x1 bitsLt_bf16_f32) r n
  have e2 : broadcastTo S5000x64 x2 broadcasts_S1x64_S5000x64 (ix2 r n) = x2 (ix2 (0 : Fin 1) n) :=
    broadcastTo_apply x2 broadcasts_S1x64_S5000x64 (ix2 r n) (ix2 (0 : Fin 1) n) (by
      intro a
      match a with
      | ⟨0, _⟩ => rfl
      | ⟨1, _⟩ => rfl)
  rw [e1, e2]

/-- Entry `(R, n)` of the specification's projection: the same sum along row `R` plus the bias vector's entry `n`. -/
theorem projIn_apply (x : Cert.Spec.C S100000x64) (W : Cert.Spec.C S64x64) (b : Cert.Spec.C S64) (R : Fin 100000) (n : Fin 64) :
    Cert.Spec.projIn x W b (ix2 R n) = (∑ k : Fin 64, x (ix2 R k) * W (ix2 k n)) + b (ix1 n) := by
  unfold Cert.Spec.projIn
  refine (addf_apply _ _ (ix2 R n)).trans ?_
  have e1 : Host.dotGeneral (F := Ideal) Cert.ReferenceIdeal.dot_S100000x64_S64x64_S100000x64_1_0_0_1_n_n none x W (ix2 R n)
      = ∑ k : Fin 64, x (ix2 R k) * W (ix2 k n) :=
    StackMember.dotGeneral_plain_apply (m := 100000) (n := 64) (k := 64) none x W R n
  rw [e1, broadcastInDim_oneRow_apply]
  refine congrArg _ ?_
  exact broadcastInDim_apply ![1] _ b (ix2 (0 : Fin 1) n) (ix1 n) (by
    intro a
    match a with
    | ⟨0, _⟩ => rfl)

/-- The bias vector laid out as one row, read at `(0, n)`, is its entry `n`. -/
theorem row_apply (b : Cert.Spec.C S64) (n : Fin 64) :
    shapeCast S1x64 b shapeCasts_S64_S1x64 (ix2 (0 : Fin 1) n) = b (ix1 n) :=
  shapeCast_apply b shapeCasts_S64_S1x64 (ix2 (0 : Fin 1) n) (ix1 n) (by
    rw [Shape.rowMajor_val_two, Shape.rowMajor_val_one]
    show n.val = 0 * 64 + n.val
    omega)

/-- The index maps over the 20 grid points: the features' and the result's row-block index is the point, every other
    block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Row `r` of the features' block at point `t` is row `5000·t + r` of the features. -/
theorem left_apply (c : Dev nD) (t : Fin cfg0.N) (r : Fin 5000) (k : Fin 64) (R : Fin 100000)
    (hR : R.val = t.val * 5000 + r.val) :
    (iblk0 V c 0 t : FVec Ideal S5000x64 .f32) (ix2 r k) = V c main_arg0 (ix2 R k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * r.val = R.val; omega
  | ⟨1, _⟩ => show win0_0.index t (1 : Fin 2) * 64 + 1 * k.val = k.val; omega

/-- The weight's block is the whole weight. -/
theorem weight_apply (c : Dev nD) (t : Fin cfg0.N) (k : Fin 64) (n : Fin 64) :
    (iblk0 V c 1 t : FVec Ideal S64x64 .f32) (ix2 k n) = V c main_arg4 (ix2 k n) := by
  obtain ⟨-, -, e0, e1, -⟩ := idx_facts t
  unfold iblk0
  rw [View.read_apply]
  show V c main_arg4 _ = V c main_arg4 _
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * n.val = n.val; omega

/-- The bias row's block is the whole row. -/
theorem bias_apply (c : Dev nD) (t : Fin cfg0.N) (n : Fin 64) :
    (iblk0 V c 2 t : FVec Ideal S1x64 .f32) (ix2 (0 : Fin 1) n) = V c main_v4 (ix2 (0 : Fin 1) n) := by
  obtain ⟨-, -, -, -, e0, e1, -⟩ := idx_facts t
  unfold iblk0
  rw [View.read_apply]
  show V c main_v4 _ = V c main_v4 _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * n.val = n.val; omega

variable (q : Fin cfg0.W → PosShare TreeShare)

/-- What point `t` writes back is its block of rows of the specification's projection. -/
theorem flushed_eq (c : Dev nD) (bin : Cert.Spec.C S64) (hb : V c main_v4 = shapeCast S1x64 bin shapeCasts_S64_S1x64)
    (t : Fin cfg0.N) :
    (dat0 (F := Ideal) V q c).flushed 3 t
      = ((cfg0.win 3).blk t).view.read (Elt Ideal) (Cert.Spec.projIn (V c main_arg0) (V c main_arg4) bin) := by
  show (cfg0.win 3).cut (grid0.coords t) ((dat0 (F := Ideal) V q c).after 3 t) = _
  rw [after0_3]
  unfold out0_3
  rw [View.canon_unit_zero zero_off]
  simp only [View.ld_unit_zero (S := S5000x64) zero_off, View.ld_unit_zero (S := S64x64) zero_off,
    View.ld_unit_zero (S := S1x64) zero_off]
  obtain ⟨-, -, -, -, -, -, e0, e1⟩ := idx_facts t
  have hN : grid0.N = 20 := N_0
  have ht : t.val < 20 := hN ▸ t.isLt
  funext j
  obtain ⟨r, n, rfl⟩ : ∃ (r : Fin 5000) (n : Fin 64), j = ix2 r n := ⟨j 0, j 1, eq_ix2 j⟩
  have hr : r.val < 5000 := r.isLt
  have hR : t.val * 5000 + r.val < 100000 := by omega
  rw [View.read_apply]
  have hemb : ((cfg0.win 3).blk t).view.emb (ix2 r n)
      = ix2 (⟨t.val * 5000 + r.val, hR⟩ : Fin 100000) n := by
    funext a; apply Fin.ext
    match a with
    | ⟨0, _⟩ => show win0_3.index t (0 : Fin 2) * 5000 + 1 * r.val = t.val * 5000 + r.val; omega
    | ⟨1, _⟩ => show win0_3.index t (1 : Fin 2) * 64 + 1 * n.val = n.val; omega
  rw [hemb]
  refine (pay_apply (iblk0 V c 0 t) (iblk0 V c 1 t) (iblk0 V c 2 t) r n).trans ?_
  refine ((projIn_apply (V c main_arg0) (V c main_arg4) bin ⟨t.val * 5000 + r.val, hR⟩ n).trans ?_).symm
  rw [← row_apply bin n, ← hb, ← bias_apply V c t n]
  refine congrArg (· + _) (Finset.sum_congr rfl fun k _ => ?_)
  rw [left_apply V c t r k ⟨t.val * 5000 + r.val, hR⟩ rfl, weight_apply V c t k n]

/-- An index of the result is in point `t`'s block iff each coordinate is in the block's range on its axis. -/
theorem mem_blk (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Row `R` of the result is in the block of point `R / 5000`: the 20 blocks tile the 100000 rows. -/
theorem cover (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : grid0.N = 20 := N_0
  let t : Fin cfg0.N := ⟨(i 0).val / 5000, by show _ < grid0.N; rw [hN]; omega⟩
  have htv : t.val = (i 0).val / 5000 := rfl
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end

end Proj0

/-- Region 0 leaves the specification's input projection of the node features, the input weight and the bias vector whose
    one-row layout the region finds. -/
theorem arr0_eq (V : (c : Dev nD) → (b : Ref sig .tc) → Buf (Elt Ideal) ((c : Thread nD τ).loc b))
    (q : Fin cfg0.W → PosShare TreeShare) (c : Dev nD)
    (bin : Cert.Spec.C S64) (hb : V c main_v4 = shapeCast S1x64 bin shapeCasts_S64_S1x64) :
    (dat0 (F := Ideal) V q c).arrAt 3 cfg0.N = Cert.Spec.projIn (V c main_arg0) (V c main_arg4) bin :=
  (dat0 (F := Ideal) V q c).arrAt_eq_of_cover 3 (Cert.Spec.projIn (V c main_arg0) (V c main_arg4) bin)
    (fun t _ => Proj0.flushed_eq V q c bin hb t) Proj0.cover

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«108571_j70514773065745_1_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.ValueIdeal.Layer1.lean ====
/-
  The value of a layer region (region 1): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg1
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer1

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay1_eq (x0 x1 x2 : FVec Ideal S5000x64 .f32) (x3 : FVec Ideal S64x64 .f32) :
    k1_pay1 (F := Ideal) x0 x1 x2 x3
      = maximumf (addf (addf (mulf (broadcast S5000x64 (Scalar.ofBits (F := Ideal) .f32 0x3E9D1BD0#32)) (zmix x0 x1))
          (mulf (broadcast S5000x64 (Scalar.ofBits (F := Ideal) .f32 0x3F317218#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k1_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay1_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k1_pay1 (F := Ideal) x0 x1 x2 x3 j = Cert.Spec.dense 0x3E9D1BD0#32 0x3F317218#32 A X H W (e j) := by
  rw [pay1_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts1 : ∀ t : Fin cfg1.N, win1_4.index t (0 : Fin 2) = t.val ∧ win1_4.index t (1 : Fin 2) = 0
    ∧ win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0 :=
  (by decide +kernel : ∀ t : Fin grid1.N, _)

section
variable (V : (c : Dev nD) → (b : Ref sig .tc) → Buf (Elt Ideal) ((c : Thread nD τ).loc b))

/-- Where element `y` of the output's block at point `t` sits in the array: row `5000·t + y₀`, column `y₁`. -/
theorem emb1_4_row (t : Fin cfg1.N) (y : S5000x64.Idx) :
    ((((cfg1.win 4).blk t).view.emb y) (0 : Fin 2)).val = win1_4.index t (0 : Fin 2) * 5000 + (y 0).val := by
  show win1_4.index t (0 : Fin 2) * 5000 + 1 * (y 0).val = _
  omega

theorem emb1_4_col (t : Fin cfg1.N) (y : S5000x64.Idx) :
    ((((cfg1.win 4).blk t).view.emb y) (1 : Fin 2)).val = (y 1).val := by
  obtain ⟨-, e1, -⟩ := idx_facts1 t
  show win1_4.index t (1 : Fin 2) * 64 + 1 * (y 1).val = _
  omega

/-- Input window 0's block at point `t` holds the rows of its array that the output's block at `t` covers. -/
theorem iblk1_0_apply (c : Dev nD) (t : Fin cfg1.N) (y : S5000x64.Idx) :
    iblk1 V c 0 t y = V c main_v18 (((cfg1.win 4).blk t).view.emb y) := by
  obtain ⟨-, e1, e2, e3, -⟩ := idx_facts1 t
  show V c main_v18 (((cfg1.win 0).blk t).view.emb y) = V c main_v18 (((cfg1.win 4).blk t).view.emb y)
  have h : ((cfg1.win 0).blk t).view.emb y = ((cfg1.win 4).blk t).view.emb y := by
    funext a; apply Fin.ext
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 64 + 1 * (y 1).val = win1_4.index t (1 : Fin 2) * 64 + 1 * (y 1).val; omega
  rw [h]

/-- Input window 1's block at point `t` holds the rows of its array that the output's block at `t` covers. -/
theorem iblk1_1_apply (c : Dev nD) (t : Fin cfg1.N) (y : S5000x64.Idx) :
    iblk1 V c 1 t y = V c main_v5 (((cfg1.win 4).blk t).view.emb y) := by
  obtain ⟨-, e1, -, -, e2, e3, -⟩ := idx_facts1 t
  show V c main_v5 (((cfg1.win 1).blk t).view.emb y) = V c main_v5 (((cfg1.win 4).blk t).view.emb y)
  have h : ((cfg1.win 1).blk t).view.emb y = ((cfg1.win 4).blk t).view.emb y := by
    funext a; apply Fin.ext
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 64 + 1 * (y 1).val = win1_4.index t (1 : Fin 2) * 64 + 1 * (y 1).val; omega
  rw [h]

/-- Input window 2's block at point `t` holds the rows of its array that the output's block at `t` covers. -/
theorem iblk1_2_apply (c : Dev nD) (t : Fin cfg1.N) (y : S5000x64.Idx) :
    iblk1 V c 2 t y = V c main_v5 (((cfg1.win 4).blk t).view.emb y) := by
  obtain ⟨-, e1, -, -, -, -, e2, e3, -⟩ := idx_facts1 t
  show V c main_v5 (((cfg1.win 2).blk t).view.emb y) = V c main_v5 (((cfg1.win 4).blk t).view.emb y)
  have h : ((cfg1.win 2).blk t).view.emb y = ((cfg1.win 4).blk t).view.emb y := by
    funext a; apply Fin.ext
    match a with
    | ⟨0, _⟩ => show win1_2.index t (0 : Fin 2) * 5000 + 1 * (y 0).val = win1_4.index t (0 : Fin 2) * 5000 + 1 * (y 0).val; omega
    | ⟨1, _⟩ => show win1_2.index t (1 : Fin 2) * 64 + 1 * (y 1).val = win1_4.index t (1 : Fin 2) * 64 + 1 * (y 1).val; omega
  rw [h]

/-- Input window 3's block at every point is the whole weight. -/
theorem iblk1_3_apply (c : Dev nD) (t : Fin cfg1.N) (y : S64x64.Idx) :
    iblk1 V c 3 t y = V c main_v20 y := by
  obtain ⟨-, -, -, -, -, -, -, -, e2, e3⟩ := idx_facts1 t
  show V c main_v20 (((cfg1.win 3).blk t).view.emb y) = V c main_v20 y
  have h : ((cfg1.win 3).blk t).view.emb y = y := by
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  rw [h]

variable (q : Fin cfg1.W → PosShare TreeShare)

/-- WHAT POINT `t` WRITES BACK is block `t` of the specification's dense update of the arrays as the region finds them. -/
theorem flushed1_4_eq (c : Dev nD) (t : Fin cfg1.N) :
    (dat1 (F := Ideal) V q c).flushed 4 t = ((cfg1.win 4).blk t).view.read (Elt Ideal)
      (Cert.Spec.dense 0x3E9D1BD0#32 0x3F317218#32 (V c main_v18) (V c main_v5) (V c main_v5) (V c main_v20)) := by
  show (cfg1.win 4).cut (grid1.coords t) ((dat1 (F := Ideal) V q c).after 4 t) = _
  rw [after1_4]
  unfold out1_4
  rw [View.canon_unit_zero hz]
  simp only [View.ld_unit_zero (S := S5000x64) hz, View.ld_unit_zero (S := S64x64) hz]
  funext j
  exact pay1_apply (V c main_v18) (V c main_v5) (V c main_v5) (V c main_v20)
    (iblk1 V c 0 t) (iblk1 V c 1 t) (iblk1 V c 2 t) (iblk1 V c 3 t)
    (((cfg1.win 4).blk t).view.emb) (win1_4.index t (0 : Fin 2) * 5000)
    (emb1_4_row t) (emb1_4_col t) (iblk1_0_apply V c t) (iblk1_1_apply V c t) (iblk1_2_apply V c t) (iblk1_3_apply V c t) j

/-- An index of the array is in point `t`'s block iff each coordinate is in the block's range on its axis. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v21).slice (win1_4.rect t)).set ↔ _
  rw [View.set_slice_whole, Rect.mem_set_unit]
  exact Iff.rfl

/-- Every row of the array is in some point's block: row `r` in that of point `r / 5000`. -/
theorem covered1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, -⟩ := idx_facts1 t
  have e0' : win1_4.index t (0 : Fin 2) = (i 0).val / 5000 := e0
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

end

end Cert.KernelIdeal.Hand.Layer1

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr1_eq (V : (c : Dev nD) → (b : Ref sig .tc) → Buf (Elt Ideal) ((c : Thread nD τ).loc b))
    (q : Fin cfg1.W → PosShare TreeShare) (c : Dev nD) :
    (dat1 (F := Ideal) V q c).arrAt 4 cfg1.N
      = Cert.Spec.dense 0x3E9D1BD0#32 0x3F317218#32 (V c main_v18) (V c main_v5) (V c main_v5) (V c main_v20) :=
  (dat1 (F := Ideal) V q c).arrAt_eq_of_cover 4
    (Cert.Spec.dense 0x3E9D1BD0#32 0x3F317218#32 (V c main_v18) (V c main_v5) (V c main_v5) (V c main_v20))
    (fun t _ => Layer1.flushed1_4_eq V q c t) Layer1.covered1_4

end Cert.KernelIdeal.Hand

end
-- ==== Proof.ValueIdeal.Layer2.lean ====
/-
  The value of a layer region (region 2): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg2
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer2

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay2_eq (x0 x1 x2 : FVec Ideal S5000x64 .f32) (x3 : FVec Ideal S64x64 .f32) :
    k2_pay1 (F := Ideal) x0 x1 x2 x3
      = maximumf (addf (addf (mulf (broadcast S5000x64 (Scalar.ofBits (F := Ideal) .f32 0x3F183370#32)) (zmix x0 x1))
          (mulf (broadcast S5000x64 (Scalar.ofBits (F := Ideal) .f32 0x3ECF991F#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k2_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay2_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k2_pay1 (F := Ideal) x0 x1 x2 x3 j = Cert.Spec.dense 0x3F183370#32 0x3ECF991F#32 A X H W (e j) := by
  rw [pay2_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts2 : ∀ t : Fin cfg2.N, win2_4.index t (0 : Fin 2) = t.val ∧ win2_4.index t (1 : Fin 2) = 0
    ∧ win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0 :=
  (by decide +kernel : ∀ t : Fin grid2.N, _)

section
variable (V : (c : Dev nD) → (b : Ref sig .tc) → Buf (Elt Ideal) ((c : Thread nD τ).loc b))

/-- Where element `y` of the output's block at point `t` sits in the array: row `5000·t + y₀`, column `y₁`. -/
theorem emb2_4_row (t : Fin cfg2.N) (y : S5000x64.Idx) :
    ((((cfg2.win 4).blk t).view.emb y) (0 : Fin 2)).val = win2_4.index t (0 : Fin 2) * 5000 + (y 0).val := by
  show win2_4.index t (0 : Fin 2) * 5000 + 1 * (y 0).val = _
  omega

theorem emb2_4_col (t : Fin cfg2.N) (y : S5000x64.Idx) :
    ((((cfg2.win 4).blk t).view.emb y) (1 : Fin 2)).val = (y 1).val := by
  obtain ⟨-, e1, -⟩ := idx_facts2 t
  show win2_4.index t (1 : Fin 2) * 64 + 1 * (y 1).val = _
  omega

/-- Input window 0's block at point `t` holds the rows of its array that the output's block at `t` covers. -/
theorem iblk2_0_apply (c : Dev nD) (t : Fin cfg2.N) (y : S5000x64.Idx) :
    iblk2 V c 0 t y = V c main_v34 (((cfg2.win 4).blk t).view.emb y) := by
  obtain ⟨-, e1, e2, e3, -⟩ := idx_facts2 t
  show V c main_v34 (((cfg2.win 0).blk t).view.emb y) = V c main_v34 (((cfg2.win 4).blk t).view.emb y)
  have h : ((cfg2.win 0).blk t).view.emb y = ((cfg2.win 4).blk t).view.emb y := by
    funext a; apply Fin.ext
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 64 + 1 * (y 1).val = win2_4.index t (1 : Fin 2) * 64 + 1 * (y 1).val; omega
  rw [h]

/-- Input window 1's block at point `t` holds the rows of its array that the output's block at `t` covers. -/
theorem iblk2_1_apply (c : Dev nD) (t : Fin cfg2.N) (y : S5000x64.Idx) :
    iblk2 V c 1 t y = V c main_v5 (((cfg2.win 4).blk t).view.emb y) := by
  obtain ⟨-, e1, -, -, e2, e3, -⟩ := idx_facts2 t
  show V c main_v5 (((cfg2.win 1).blk t).view.emb y) = V c main_v5 (((cfg2.win 4).blk t).view.emb y)
  have h : ((cfg2.win 1).blk t).view.emb y = ((cfg2.win 4).blk t).view.emb y := by
    funext a; apply Fin.ext
    match a with
    | ⟨0, _⟩ => show win2_1.index t (0 : Fin 2) * 5000 + 1 * (y 0).val = win2_4.index t (0 : Fin 2) * 5000 + 1 * (y 0).val; omega
    | ⟨1, _⟩ => show win2_1.index t (1 : Fin 2) * 64 + 1 * (y 1).val = win2_4.index t (1 : Fin 2) * 64 + 1 * (y 1).val; omega
  rw [h]

/-- Input window 2's block at point `t` holds the rows of its array that the output's block at `t` covers. -/
theorem iblk2_2_apply (c : Dev nD) (t : Fin cfg2.N) (y : S5000x64.Idx) :
    iblk2 V c 2 t y = V c main_v21 (((cfg2.win 4).blk t).view.emb y) := by
  obtain ⟨-, e1, -, -, -, -, e2, e3, -⟩ := idx_facts2 t
  show V c main_v21 (((cfg2.win 2).blk t).view.emb y) = V c main_v21 (((cfg2.win 4).blk t).view.emb y)
  have h : ((cfg2.win 2).blk t).view.emb y = ((cfg2.win 4).blk t).view.emb y := by
    funext a; apply Fin.ext
    match a with
    | ⟨0, _⟩ => show win2_2.index t (0 : Fin 2) * 5000 + 1 * (y 0).val = win2_4.index t (0 : Fin 2) * 5000 + 1 * (y 0).val; omega
    | ⟨1, _⟩ => show win2_2.index t (1 : Fin 2) * 64 + 1 * (y 1).val = win2_4.index t (1 : Fin 2) * 64 + 1 * (y 1).val; omega
  rw [h]

/-- Input window 3's block at every point is the whole weight. -/
theorem iblk2_3_apply (c : Dev nD) (t : Fin cfg2.N) (y : S64x64.Idx) :
    iblk2 V c 3 t y = V c main_v36 y := by
  obtain ⟨-, -, -, -, -, -, -, -, e2, e3⟩ := idx_facts2 t
  show V c main_v36 (((cfg2.win 3).blk t).view.emb y) = V c main_v36 y
  have h : ((cfg2.win 3).blk t).view.emb y = y := by
    funext a; apply Fin.ext
    match a with
    | ⟨0, _⟩ => show win2_3.index t (0 : Fin 2) * 64 + 1 * (y 0).val = (y 0).val; omega
    | ⟨1, _⟩ => show win2_3.index t (1 : Fin 2) * 64 + 1 * (y 1).val = (y 1).val; omega
  rw [h]

variable (q : Fin cfg2.W → PosShare TreeShare)

/-- WHAT POINT `t` WRITES BACK is block `t` of the specification's dense update of the arrays as the region finds them. -/
theorem flushed2_4_eq (c : Dev nD) (t : Fin cfg2.N) :
    (dat2 (F := Ideal) V q c).flushed 4 t = ((cfg2.win 4).blk t).view.read (Elt Ideal)
      (Cert.Spec.dense 0x3F183370#32 0x3ECF991F#32 (V c main_v34) (V c main_v5) (V c main_v21) (V c main_v36)) := by
  show (cfg2.win 4).cut (grid2.coords t) ((dat2 (F := Ideal) V q c).after 4 t) = _
  rw [after2_4]
  unfold out2_4
  rw [View.canon_unit_zero hz]
  simp only [View.ld_unit_zero (S := S5000x64) hz, View.ld_unit_zero (S := S64x64) hz]
  funext j
  exact pay2_apply (V c main_v34) (V c main_v5) (V c main_v21) (V c main_v36)
    (iblk2 V c 0 t) (iblk2 V c 1 t) (iblk2 V c 2 t) (iblk2 V c 3 t)
    (((cfg2.win 4).blk t).view.emb) (win2_4.index t (0 : Fin 2) * 5000)
    (emb2_4_row t) (emb2_4_col t) (iblk2_0_apply V c t) (iblk2_1_apply V c t) (iblk2_2_apply V c t) (iblk2_3_apply V c t) j

/-- An index of the array is in point `t`'s block iff each coordinate is in the block's range on its axis. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v37).slice (win2_4.rect t)).set ↔ _
  rw [View.set_slice_whole, Rect.mem_set_unit]
  exact Iff.rfl

/-- Every row of the array is in some point's block: row `r` in that of point `r / 5000`. -/
theorem covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, -⟩ := idx_facts2 t
  have e0' : win2_4.index t (0 : Fin 2) = (i 0).val / 5000 := e0
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

end

end Cert.KernelIdeal.Hand.Layer2

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr2_eq (V : (c : Dev nD) → (b : Ref sig .tc) → Buf (Elt Ideal) ((c : Thread nD τ).loc b))
    (q : Fin cfg2.W → PosShare TreeShare) (c : Dev nD) :
    (dat2 (F := Ideal) V q c).arrAt 4 cfg2.N
      = Cert.Spec.dense 0x3F183370#32 0x3ECF991F#32 (V c main_v34) (V c main_v5) (V c main_v21) (V c main_v36) :=
  (dat2 (F := Ideal) V q c).arrAt_eq_of_cover 4
    (Cert.Spec.dense 0x3F183370#32 0x3ECF991F#32 (V c main_v34) (V c main_v5) (V c main_v21) (V c main_v36))
    (fun t _ => Layer2.flushed2_4_eq V q c t) Layer2.covered2_4

end Cert.KernelIdeal.Hand

end
-- ==== Proof.ValueIdeal.Layer3.lean ====
/-
  The value of a layer region (region 3): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg3
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer3

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay3_eq (x0 x1 x2 : FVec Ideal S5000x64 .f32) (x3 : FVec Ideal S64x64 .f32) :
    k3_pay1 (F := Ideal) x0 x1 x2 x3
      = maximumf (addf (addf (mulf (broadcast S5000x64 (Scalar.ofBits (F := Ideal) .f32 0x3F365A78#32)) (zmix x0 x1))
          (mulf (broadcast S5000x64 (Scalar.ofBits (F := Ideal) .f32 0x3E934B11#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k3_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay3_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k3_pay1 (F := Ideal) x0 x1 x2 x3 j = Cert.Spec.dense 0x3F365A78#32 0x3E934B11#32 A X H W (e j) := by
  rw [pay3_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts3 : ∀ t : Fin cfg3.N, win3_4.index t (0 : Fin 2) = t.val ∧ win3_4.index t (1 : Fin 2) = 0
    ∧ win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0 :=
  (by decide +kernel : ∀ t : Fin grid3.N, _)

section
variable (V : (c : Dev nD) → (b : Ref sig .tc) → Buf (Elt Ideal) ((c : Thread nD τ).loc b))

/-- Where element `y` of the output's block at point `t` sits in the array: row `5000·t + y₀`, column `y₁`. -/
theorem emb3_4_row (t : Fin cfg3.N) (y : S5000x64.Idx) :
    ((((cfg3.win 4).blk t).view.emb y) (0 : Fin 2)).val = win3_4.index t (0 : Fin 2) * 5000 + (y 0).val := by
  show win3_4.index t (0 : Fin 2) * 5000 + 1 * (y 0).val = _
  omega

theorem emb3_4_col (t : Fin cfg3.N) (y : S5000x64.Idx) :
    ((((cfg3.win 4).blk t).view.emb y) (1 : Fin 2)).val = (y 1).val := by
  obtain ⟨-, e1, -⟩ := idx_facts3 t
  show win3_4.index t (1 : Fin 2) * 64 + 1 * (y 1).val = _
  omega

/-- Input window 0's block at point `t` holds the rows of its array that the output's block at `t` covers. -/
theorem iblk3_0_apply (c : Dev nD) (t : Fin cfg3.N) (y : S5000x64.Idx) :
    iblk3 V c 0 t y = V c main_v50 (((cfg3.win 4).blk t).view.emb y) := by
  obtain ⟨-, e1, e2, e3, -⟩ := idx_facts3 t
  show V c main_v50 (((cfg3.win 0).blk t).view.emb y) = V c main_v50 (((cfg3.win 4).blk t).view.emb y)
  have h : ((cfg3.win 0).blk t).view.emb y = ((cfg3.win 4).blk t).view.emb y := by
    funext a; apply Fin.ext
    match a with
    | ⟨0, _⟩ => show win3_0.index t (0 : Fin 2) * 5000 + 1 * (y 0).val = win3_4.index t (0 : Fin 2) * 5000 + 1 * (y 0).val; omega
    | ⟨1, _⟩ => show win3_0.index t (1 : Fin 2) * 64 + 1 * (y 1).val = win3_4.index t (1 : Fin 2) * 64 + 1 * (y 1).val; omega
  rw [h]

/-- Input window 1's block at point `t` holds the rows of its array that the output's block at `t` covers. -/
theorem iblk3_1_apply (c : Dev nD) (t : Fin cfg3.N) (y : S5000x64.Idx) :
    iblk3 V c 1 t y = V c main_v5 (((cfg3.win 4).blk t).view.emb y) := by
  obtain ⟨-, e1, -, -, e2, e3, -⟩ := idx_facts3 t
  show V c main_v5 (((cfg3.win 1).blk t).view.emb y) = V c main_v5 (((cfg3.win 4).blk t).view.emb y)
  have h : ((cfg3.win 1).blk t).view.emb y = ((cfg3.win 4).blk t).view.emb y := by
    funext a; apply Fin.ext
    match a with
    | ⟨0, _⟩ => show win3_1.index t (0 : Fin 2) * 5000 + 1 * (y 0).val = win3_4.index t (0 : Fin 2) * 5000 + 1 * (y 0).val; omega
    | ⟨1, _⟩ => show win3_1.index t (1 : Fin 2) * 64 + 1 * (y 1).val = win3_4.index t (1 : Fin 2) * 64 + 1 * (y 1).val; omega
  rw [h]

/-- Input window 2's block at point `t` holds the rows of its array that the output's block at `t` covers. -/
theorem iblk3_2_apply (c : Dev nD) (t : Fin cfg3.N) (y : S5000x64.Idx) :
    iblk3 V c 2 t y = V c main_v37 (((cfg3.win 4).blk t).view.emb y) := by
  obtain ⟨-, e1, -, -, -, -, e2, e3, -⟩ := idx_facts3 t
  show V c main_v37 (((cfg3.win 2).blk t).view.emb y) = V c main_v37 (((cfg3.win 4).blk t).view.emb y)
  have h : ((cfg3.win 2).blk t).view.emb y = ((cfg3.win 4).blk t).view.emb y := by
    funext a; apply Fin.ext
    match a with
    | ⟨0, _⟩ => show win3_2.index t (0 : Fin 2) * 5000 + 1 * (y 0).val = win3_4.index t (0 : Fin 2) * 5000 + 1 * (y 0).val; omega
    | ⟨1, _⟩ => show win3_2.index t (1 : Fin 2) * 64 + 1 * (y 1).val = win3_4.index t (1 : Fin 2) * 64 + 1 * (y 1).val; omega
  rw [h]

/-- Input window 3's block at every point is the whole weight. -/
theorem iblk3_3_apply (c : Dev nD) (t : Fin cfg3.N) (y : S64x64.Idx) :
    iblk3 V c 3 t y = V c main_v52 y := by
  obtain ⟨-, -, -, -, -, -, -, -, e2, e3⟩ := idx_facts3 t
  show V c main_v52 (((cfg3.win 3).blk t).view.emb y) = V c main_v52 y
  have h : ((cfg3.win 3).blk t).view.emb y = y := by
    funext a; apply Fin.ext
    match a with
    | ⟨0, _⟩ => show win3_3.index t (0 : Fin 2) * 64 + 1 * (y 0).val = (y 0).val; omega
    | ⟨1, _⟩ => show win3_3.index t (1 : Fin 2) * 64 + 1 * (y 1).val = (y 1).val; omega
  rw [h]

variable (q : Fin cfg3.W → PosShare TreeShare)

/-- WHAT POINT `t` WRITES BACK is block `t` of the specification's dense update of the arrays as the region finds them. -/
theorem flushed3_4_eq (c : Dev nD) (t : Fin cfg3.N) :
    (dat3 (F := Ideal) V q c).flushed 4 t = ((cfg3.win 4).blk t).view.read (Elt Ideal)
      (Cert.Spec.dense 0x3F365A78#32 0x3E934B11#32 (V c main_v50) (V c main_v5) (V c main_v37) (V c main_v52)) := by
  show (cfg3.win 4).cut (grid3.coords t) ((dat3 (F := Ideal) V q c).after 4 t) = _
  rw [after3_4]
  unfold out3_4
  rw [View.canon_unit_zero hz]
  simp only [View.ld_unit_zero (S := S5000x64) hz, View.ld_unit_zero (S := S64x64) hz]
  funext j
  exact pay3_apply (V c main_v50) (V c main_v5) (V c main_v37) (V c main_v52)
    (iblk3 V c 0 t) (iblk3 V c 1 t) (iblk3 V c 2 t) (iblk3 V c 3 t)
    (((cfg3.win 4).blk t).view.emb) (win3_4.index t (0 : Fin 2) * 5000)
    (emb3_4_row t) (emb3_4_col t) (iblk3_0_apply V c t) (iblk3_1_apply V c t) (iblk3_2_apply V c t) (iblk3_3_apply V c t) j

/-- An index of the array is in point `t`'s block iff each coordinate is in the block's range on its axis. -/
theorem mem_blk3_4 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v53).slice (win3_4.rect t)).set ↔ _
  rw [View.set_slice_whole, Rect.mem_set_unit]
  exact Iff.rfl

/-- Every row of the array is in some point's block: row `r` in that of point `r / 5000`. -/
theorem covered3_4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, -⟩ := idx_facts3 t
  have e0' : win3_4.index t (0 : Fin 2) = (i 0).val / 5000 := e0
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

end

end Cert.KernelIdeal.Hand.Layer3

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr3_eq (V : (c : Dev nD) → (b : Ref sig .tc) → Buf (Elt Ideal) ((c : Thread nD τ).loc b))
    (q : Fin cfg3.W → PosShare TreeShare) (c : Dev nD) :
    (dat3 (F := Ideal) V q c).arrAt 4 cfg3.N
      = Cert.Spec.dense 0x3F365A78#32 0x3E934B11#32 (V c main_v50) (V c main_v5) (V c main_v37) (V c main_v52) :=
  (dat3 (F := Ideal) V q c).arrAt_eq_of_cover 4
    (Cert.Spec.dense 0x3F365A78#32 0x3E934B11#32 (V c main_v50) (V c main_v5) (V c main_v37) (V c main_v52))
    (fun t _ => Layer3.flushed3_4_eq V q c t) Layer3.covered3_4

end Cert.KernelIdeal.Hand

end
-- ==== Proof.ValueIdeal.Layer4.lean ====
/-
  The value of a layer region (region 4): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg4
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer4

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay4_eq (x0 x1 x2 : FVec Ideal S5000x64 .f32) (x3 : FVec Ideal S64x64 .f32) :
    k4_pay1 (F := Ideal) x0 x1 x2 x3
      = maximumf (addf (addf (mulf (broadcast S5000x64 (Scalar.ofBits (F := Ideal) .f32 0x3F46E010#32)) (zmix x0 x1))
          (mulf (broadcast S5000x64 (Scalar.ofBits (F := Ideal) .f32 0x3E647FBE#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k4_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay4_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k4_pay1 (F := Ideal) x0 x1 x2 x3 j = Cert.Spec.dense 0x3F46E010#32 0x3E647FBE#32 A X H W (e j) := by
  rw [pay4_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts4 : ∀ t : Fin cfg4.N, win4_4.index t (0 : Fin 2) = t.val ∧ win4_4.index t (1 : Fin 2) = 0
    ∧ win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = win4_4.index t (0 : Fin 2) ∧ win4_2.index t (1 : Fin 2) = 0
    ∧ win4_3.index t (0 : Fin 2) = 0 ∧ win4_3.index t (1 : Fin 2) = 0 :=
  (by decide +kernel : ∀ t : Fin grid4.N, _)

section
variable (V : (c : Dev nD) → (b : Ref sig .tc) → Buf (Elt Ideal) ((c : Thread nD τ).loc b))

/-- Where element `y` of the output's block at point `t` sits in the array: row `5000·t + y₀`, column `y₁`. -/
theorem emb4_4_row (t : Fin cfg4.N) (y : S5000x64.Idx) :
    ((((cfg4.win 4).blk t).view.emb y) (0 : Fin 2)).val = win4_4.index t (0 : Fin 2) * 5000 + (y 0).val := by
  show win4_4.index t (0 : Fin 2) * 5000 + 1 * (y 0).val = _
  omega

theorem emb4_4_col (t : Fin cfg4.N) (y : S5000x64.Idx) :
    ((((cfg4.win 4).blk t).view.emb y) (1 : Fin 2)).val = (y 1).val := by
  obtain ⟨-, e1, -⟩ := idx_facts4 t
  show win4_4.index t (1 : Fin 2) * 64 + 1 * (y 1).val = _
  omega

/-- Input window 0's block at point `t` holds the rows of its array that the output's block at `t` covers. -/
theorem iblk4_0_apply (c : Dev nD) (t : Fin cfg4.N) (y : S5000x64.Idx) :
    iblk4 V c 0 t y = V c main_v66 (((cfg4.win 4).blk t).view.emb y) := by
  obtain ⟨-, e1, e2, e3, -⟩ := idx_facts4 t
  show V c main_v66 (((cfg4.win 0).blk t).view.emb y) = V c main_v66 (((cfg4.win 4).blk t).view.emb y)
  have h : ((cfg4.win 0).blk t).view.emb y = ((cfg4.win 4).blk t).view.emb y := by
    funext a; apply Fin.ext
    match a with
    | ⟨0, _⟩ => show win4_0.index t (0 : Fin 2) * 5000 + 1 * (y 0).val = win4_4.index t (0 : Fin 2) * 5000 + 1 * (y 0).val; omega
    | ⟨1, _⟩ => show win4_0.index t (1 : Fin 2) * 64 + 1 * (y 1).val = win4_4.index t (1 : Fin 2) * 64 + 1 * (y 1).val; omega
  rw [h]

/-- Input window 1's block at point `t` holds the rows of its array that the output's block at `t` covers. -/
theorem iblk4_1_apply (c : Dev nD) (t : Fin cfg4.N) (y : S5000x64.Idx) :
    iblk4 V c 1 t y = V c main_v5 (((cfg4.win 4).blk t).view.emb y) := by
  obtain ⟨-, e1, -, -, e2, e3, -⟩ := idx_facts4 t
  show V c main_v5 (((cfg4.win 1).blk t).view.emb y) = V c main_v5 (((cfg4.win 4).blk t).view.emb y)
  have h : ((cfg4.win 1).blk t).view.emb y = ((cfg4.win 4).blk t).view.emb y := by
    funext a; apply Fin.ext
    match a with
    | ⟨0, _⟩ => show win4_1.index t (0 : Fin 2) * 5000 + 1 * (y 0).val = win4_4.index t (0 : Fin 2) * 5000 + 1 * (y 0).val; omega
    | ⟨1, _⟩ => show win4_1.index t (1 : Fin 2) * 64 + 1 * (y 1).val = win4_4.index t (1 : Fin 2) * 64 + 1 * (y 1).val; omega
  rw [h]

/-- Input window 2's block at point `t` holds the rows of its array that the output's block at `t` covers. -/
theorem iblk4_2_apply (c : Dev nD) (t : Fin cfg4.N) (y : S5000x64.Idx) :
    iblk4 V c 2 t y = V c main_v53 (((cfg4.win 4).blk t).view.emb y) := by
  obtain ⟨-, e1, -, -, -, -, e2, e3, -⟩ := idx_facts4 t
  show V c main_v53 (((cfg4.win 2).blk t).view.emb y) = V c main_v53 (((cfg4.win 4).blk t).view.emb y)
  have h : ((cfg4.win 2).blk t).view.emb y = ((cfg4.win 4).blk t).view.emb y := by
    funext a; apply Fin.ext
    match a with
    | ⟨0, _⟩ => show win4_2.index t (0 : Fin 2) * 5000 + 1 * (y 0).val = win4_4.index t (0 : Fin 2) * 5000 + 1 * (y 0).val; omega
    | ⟨1, _⟩ => show win4_2.index t (1 : Fin 2) * 64 + 1 * (y 1).val = win4_4.index t (1 : Fin 2) * 64 + 1 * (y 1).val; omega
  rw [h]

/-- Input window 3's block at every point is the whole weight. -/
theorem iblk4_3_apply (c : Dev nD) (t : Fin cfg4.N) (y : S64x64.Idx) :
    iblk4 V c 3 t y = V c main_v68 y := by
  obtain ⟨-, -, -, -, -, -, -, -, e2, e3⟩ := idx_facts4 t
  show V c main_v68 (((cfg4.win 3).blk t).view.emb y) = V c main_v68 y
  have h : ((cfg4.win 3).blk t).view.emb y = y := by
    funext a; apply Fin.ext
    match a with
    | ⟨0, _⟩ => show win4_3.index t (0 : Fin 2) * 64 + 1 * (y 0).val = (y 0).val; omega
    | ⟨1, _⟩ => show win4_3.index t (1 : Fin 2) * 64 + 1 * (y 1).val = (y 1).val; omega
  rw [h]

variable (q : Fin cfg4.W → PosShare TreeShare)

/-- WHAT POINT `t` WRITES BACK is block `t` of the specification's dense update of the arrays as the region finds them. -/
theorem flushed4_4_eq (c : Dev nD) (t : Fin cfg4.N) :
    (dat4 (F := Ideal) V q c).flushed 4 t = ((cfg4.win 4).blk t).view.read (Elt Ideal)
      (Cert.Spec.dense 0x3F46E010#32 0x3E647FBE#32 (V c main_v66) (V c main_v5) (V c main_v53) (V c main_v68)) := by
  show (cfg4.win 4).cut (grid4.coords t) ((dat4 (F := Ideal) V q c).after 4 t) = _
  rw [after4_4]
  unfold out4_4
  rw [View.canon_unit_zero hz]
  simp only [View.ld_unit_zero (S := S5000x64) hz, View.ld_unit_zero (S := S64x64) hz]
  funext j
  exact pay4_apply (V c main_v66) (V c main_v5) (V c main_v53) (V c main_v68)
    (iblk4 V c 0 t) (iblk4 V c 1 t) (iblk4 V c 2 t) (iblk4 V c 3 t)
    (((cfg4.win 4).blk t).view.emb) (win4_4.index t (0 : Fin 2) * 5000)
    (emb4_4_row t) (emb4_4_col t) (iblk4_0_apply V c t) (iblk4_1_apply V c t) (iblk4_2_apply V c t) (iblk4_3_apply V c t) j

/-- An index of the array is in point `t`'s block iff each coordinate is in the block's range on its axis. -/
theorem mem_blk4_4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v69).slice (win4_4.rect t)).set ↔ _
  rw [View.set_slice_whole, Rect.mem_set_unit]
  exact Iff.rfl

/-- Every row of the array is in some point's block: row `r` in that of point `r / 5000`. -/
theorem covered4_4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨e0, e1, -⟩ := idx_facts4 t
  have e0' : win4_4.index t (0 : Fin 2) = (i 0).val / 5000 := e0
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

end

end Cert.KernelIdeal.Hand.Layer4

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr4_eq (V : (c : Dev nD) → (b : Ref sig .tc) → Buf (Elt Ideal) ((c : Thread nD τ).loc b))
    (q : Fin cfg4.W → PosShare TreeShare) (c : Dev nD) :
    (dat4 (F := Ideal) V q c).arrAt 4 cfg4.N
      = Cert.Spec.dense 0x3F46E010#32 0x3E647FBE#32 (V c main_v66) (V c main_v5) (V c main_v53) (V c main_v68) :=
  (dat4 (F := Ideal) V q c).arrAt_eq_of_cover 4
    (Cert.Spec.dense 0x3F46E010#32 0x3E647FBE#32 (V c main_v66) (V c main_v5) (V c main_v53) (V c main_v68))
    (fun t _ => Layer4.flushed4_4_eq V q c t) Layer4.covered4_4

end Cert.KernelIdeal.Hand

end
-- ==== Proof.ValueIdeal.Layer5.lean ====
/-
  The value of a layer region (region 5): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg5
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer5

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay5_eq (x0 x1 x2 : FVec Ideal S5000x64 .f32) (x3 : FVec Ideal S64x64 .f32) :
    k5_pay1 (F := Ideal) x0 x1 x2 x3
      = maximumf (addf (addf (mulf (broadcast S5000x64 (Scalar.ofBits (F := Ideal) .f32 0x3F515360#32)) (zmix x0 x1))
          (mulf (broadcast S5000x64 (Scalar.ofBits (F := Ideal) .f32 0x3E3AB281#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k5_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay5_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k5_pay1 (F := Ideal) x0 x1 x2 x3 j = Cert.Spec.dense 0x3F515360#32 0x3E3AB281#32 A X H W (e j) := by
  rw [pay5_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts5 : ∀ t : Fin cfg5.N, win5_4.index t (0 : Fin 2) = t.val ∧ win5_4.index t (1 : Fin 2) = 0
    ∧ win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0 :=
  (by decide +kernel : ∀ t : Fin grid5.N, _)

section
variable (V : (c : Dev nD) → (b : Ref sig .tc) → Buf (Elt Ideal) ((c : Thread nD τ).loc b))

/-- Where element `y` of the output's block at point `t` sits in the array: row `5000·t + y₀`, column `y₁`. -/
theorem emb5_4_row (t : Fin cfg5.N) (y : S5000x64.Idx) :
    ((((cfg5.win 4).blk t).view.emb y) (0 : Fin 2)).val = win5_4.index t (0 : Fin 2) * 5000 + (y 0).val := by
  show win5_4.index t (0 : Fin 2) * 5000 + 1 * (y 0).val = _
  omega

theorem emb5_4_col (t : Fin cfg5.N) (y : S5000x64.Idx) :
    ((((cfg5.win 4).blk t).view.emb y) (1 : Fin 2)).val = (y 1).val := by
  obtain ⟨-, e1, -⟩ := idx_facts5 t
  show win5_4.index t (1 : Fin 2) * 64 + 1 * (y 1).val = _
  omega

/-- Input window 0's block at point `t` holds the rows of its array that the output's block at `t` covers. -/
theorem iblk5_0_apply (c : Dev nD) (t : Fin cfg5.N) (y : S5000x64.Idx) :
    iblk5 V c 0 t y = V c main_v82 (((cfg5.win 4).blk t).view.emb y) := by
  obtain ⟨-, e1, e2, e3, -⟩ := idx_facts5 t
  show V c main_v82 (((cfg5.win 0).blk t).view.emb y) = V c main_v82 (((cfg5.win 4).blk t).view.emb y)
  have h : ((cfg5.win 0).blk t).view.emb y = ((cfg5.win 4).blk t).view.emb y := by
    funext a; apply Fin.ext
    match a with
    | ⟨0, _⟩ => show win5_0.index t (0 : Fin 2) * 5000 + 1 * (y 0).val = win5_4.index t (0 : Fin 2) * 5000 + 1 * (y 0).val; omega
    | ⟨1, _⟩ => show win5_0.index t (1 : Fin 2) * 64 + 1 * (y 1).val = win5_4.index t (1 : Fin 2) * 64 + 1 * (y 1).val; omega
  rw [h]

/-- Input window 1's block at point `t` holds the rows of its array that the output's block at `t` covers. -/
theorem iblk5_1_apply (c : Dev nD) (t : Fin cfg5.N) (y : S5000x64.Idx) :
    iblk5 V c 1 t y = V c main_v5 (((cfg5.win 4).blk t).view.emb y) := by
  obtain ⟨-, e1, -, -, e2, e3, -⟩ := idx_facts5 t
  show V c main_v5 (((cfg5.win 1).blk t).view.emb y) = V c main_v5 (((cfg5.win 4).blk t).view.emb y)
  have h : ((cfg5.win 1).blk t).view.emb y = ((cfg5.win 4).blk t).view.emb y := by
    funext a; apply Fin.ext
    match a with
    | ⟨0, _⟩ => show win5_1.index t (0 : Fin 2) * 5000 + 1 * (y 0).val = win5_4.index t (0 : Fin 2) * 5000 + 1 * (y 0).val; omega
    | ⟨1, _⟩ => show win5_1.index t (1 : Fin 2) * 64 + 1 * (y 1).val = win5_4.index t (1 : Fin 2) * 64 + 1 * (y 1).val; omega
  rw [h]

/-- Input window 2's block at point `t` holds the rows of its array that the output's block at `t` covers. -/
theorem iblk5_2_apply (c : Dev nD) (t : Fin cfg5.N) (y : S5000x64.Idx) :
    iblk5 V c 2 t y = V c main_v69 (((cfg5.win 4).blk t).view.emb y) := by
  obtain ⟨-, e1, -, -, -, -, e2, e3, -⟩ := idx_facts5 t
  show V c main_v69 (((cfg5.win 2).blk t).view.emb y) = V c main_v69 (((cfg5.win 4).blk t).view.emb y)
  have h : ((cfg5.win 2).blk t).view.emb y = ((cfg5.win 4).blk t).view.emb y := by
    funext a; apply Fin.ext
    match a with
    | ⟨0, _⟩ => show win5_2.index t (0 : Fin 2) * 5000 + 1 * (y 0).val = win5_4.index t (0 : Fin 2) * 5000 + 1 * (y 0).val; omega
    | ⟨1, _⟩ => show win5_2.index t (1 : Fin 2) * 64 + 1 * (y 1).val = win5_4.index t (1 : Fin 2) * 64 + 1 * (y 1).val; omega
  rw [h]

/-- Input window 3's block at every point is the whole weight. -/
theorem iblk5_3_apply (c : Dev nD) (t : Fin cfg5.N) (y : S64x64.Idx) :
    iblk5 V c 3 t y = V c main_v84 y := by
  obtain ⟨-, -, -, -, -, -, -, -, e2, e3⟩ := idx_facts5 t
  show V c main_v84 (((cfg5.win 3).blk t).view.emb y) = V c main_v84 y
  have h : ((cfg5.win 3).blk t).view.emb y = y := by
    funext a; apply Fin.ext
    match a with
    | ⟨0, _⟩ => show win5_3.index t (0 : Fin 2) * 64 + 1 * (y 0).val = (y 0).val; omega
    | ⟨1, _⟩ => show win5_3.index t (1 : Fin 2) * 64 + 1 * (y 1).val = (y 1).val; omega
  rw [h]

variable (q : Fin cfg5.W → PosShare TreeShare)

/-- WHAT POINT `t` WRITES BACK is block `t` of the specification's dense update of the arrays as the region finds them. -/
theorem flushed5_4_eq (c : Dev nD) (t : Fin cfg5.N) :
    (dat5 (F := Ideal) V q c).flushed 4 t = ((cfg5.win 4).blk t).view.read (Elt Ideal)
      (Cert.Spec.dense 0x3F515360#32 0x3E3AB281#32 (V c main_v82) (V c main_v5) (V c main_v69) (V c main_v84)) := by
  show (cfg5.win 4).cut (grid5.coords t) ((dat5 (F := Ideal) V q c).after 4 t) = _
  rw [after5_4]
  unfold out5_4
  rw [View.canon_unit_zero hz]
  simp only [View.ld_unit_zero (S := S5000x64) hz, View.ld_unit_zero (S := S64x64) hz]
  funext j
  exact pay5_apply (V c main_v82) (V c main_v5) (V c main_v69) (V c main_v84)
    (iblk5 V c 0 t) (iblk5 V c 1 t) (iblk5 V c 2 t) (iblk5 V c 3 t)
    (((cfg5.win 4).blk t).view.emb) (win5_4.index t (0 : Fin 2) * 5000)
    (emb5_4_row t) (emb5_4_col t) (iblk5_0_apply V c t) (iblk5_1_apply V c t) (iblk5_2_apply V c t) (iblk5_3_apply V c t) j

/-- An index of the array is in point `t`'s block iff each coordinate is in the block's range on its axis. -/
theorem mem_blk5_4 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v85).slice (win5_4.rect t)).set ↔ _
  rw [View.set_slice_whole, Rect.mem_set_unit]
  exact Iff.rfl

/-- Every row of the array is in some point's block: row `r` in that of point `r / 5000`. -/
theorem covered5_4 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨e0, e1, -⟩ := idx_facts5 t
  have e0' : win5_4.index t (0 : Fin 2) = (i 0).val / 5000 := e0
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

end

end Cert.KernelIdeal.Hand.Layer5

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr5_eq (V : (c : Dev nD) → (b : Ref sig .tc) → Buf (Elt Ideal) ((c : Thread nD τ).loc b))
    (q : Fin cfg5.W → PosShare TreeShare) (c : Dev nD) :
    (dat5 (F := Ideal) V q c).arrAt 4 cfg5.N
      = Cert.Spec.dense 0x3F515360#32 0x3E3AB281#32 (V c main_v82) (V c main_v5) (V c main_v69) (V c main_v84) :=
  (dat5 (F := Ideal) V q c).arrAt_eq_of_cover 4
    (Cert.Spec.dense 0x3F515360#32 0x3E3AB281#32 (V c main_v82) (V c main_v5) (V c main_v69) (V c main_v84))
    (fun t _ => Layer5.flushed5_4_eq V q c t) Layer5.covered5_4

end Cert.KernelIdeal.Hand

end
-- ==== Proof.ValueIdeal.Layer6.lean ====
/-
  The value of a layer region (region 6): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg6
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer6

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay6_eq (x0 x1 x2 : FVec Ideal S5000x64 .f32) (x3 : FVec Ideal S64x64 .f32) :
    k6_pay1 (F := Ideal) x0 x1 x2 x3
      = maximumf (addf (addf (mulf (broadcast S5000x64 (Scalar.ofBits (F := Ideal) .f32 0x3F588995#32)) (zmix x0 x1))
          (mulf (broadcast S5000x64 (Scalar.ofBits (F := Ideal) .f32 0x3E1DD9AD#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k6_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay6_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k6_pay1 (F := Ideal) x0 x1 x2 x3 j = Cert.Spec.dense 0x3F588995#32 0x3E1DD9AD#32 A X H W (e j) := by
  rw [pay6_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts6 : ∀ t : Fin cfg6.N, win6_4.index t (0 : Fin 2) = t.val ∧ win6_4.index t (1 : Fin 2) = 0
    ∧ win6_0.index t (0 : Fin 2) = win6_4.index t (0 : Fin 2) ∧ win6_0.index t (1 : Fin 2) = 0
    ∧ win6_1.index t (0 : Fin 2) = win6_4.index t (0 : Fin 2) ∧ win6_1.index t (1 : Fin 2) = 0
    ∧ win6_2.index t (0 : Fin 2) = win6_4.index t (0 : Fin 2) ∧ win6_2.index t (1 : Fin 2) = 0
    ∧ win6_3.index t (0 : Fin 2) = 0 ∧ win6_3.index t (1 : Fin 2) = 0 :=
  (by decide +kernel : ∀ t : Fin grid6.N, _)

section
variable (V : (c : Dev nD) → (b : Ref sig .tc) → Buf (Elt Ideal) ((c : Thread nD τ).loc b))

/-- Where element `y` of the output's block at point `t` sits in the array: row `5000·t + y₀`, column `y₁`. -/
theorem emb6_4_row (t : Fin cfg6.N) (y : S5000x64.Idx) :
    ((((cfg6.win 4).blk t).view.emb y) (0 : Fin 2)).val = win6_4.index t (0 : Fin 2) * 5000 + (y 0).val := by
  show win6_4.index t (0 : Fin 2) * 5000 + 1 * (y 0).val = _
  omega

theorem emb6_4_col (t : Fin cfg6.N) (y : S5000x64.Idx) :
    ((((cfg6.win 4).blk t).view.emb y) (1 : Fin 2)).val = (y 1).val := by
  obtain ⟨-, e1, -⟩ := idx_facts6 t
  show win6_4.index t (1 : Fin 2) * 64 + 1 * (y 1).val = _
  omega

/-- Input window 0's block at point `t` holds the rows of its array that the output's block at `t` covers. -/
theorem iblk6_0_apply (c : Dev nD) (t : Fin cfg6.N) (y : S5000x64.Idx) :
    iblk6 V c 0 t y = V c main_v98 (((cfg6.win 4).blk t).view.emb y) := by
  obtain ⟨-, e1, e2, e3, -⟩ := idx_facts6 t
  show V c main_v98 (((cfg6.win 0).blk t).view.emb y) = V c main_v98 (((cfg6.win 4).blk t).view.emb y)
  have h : ((cfg6.win 0).blk t).view.emb y = ((cfg6.win 4).blk t).view.emb y := by
    funext a; apply Fin.ext
    match a with
    | ⟨0, _⟩ => show win6_0.index t (0 : Fin 2) * 5000 + 1 * (y 0).val = win6_4.index t (0 : Fin 2) * 5000 + 1 * (y 0).val; omega
    | ⟨1, _⟩ => show win6_0.index t (1 : Fin 2) * 64 + 1 * (y 1).val = win6_4.index t (1 : Fin 2) * 64 + 1 * (y 1).val; omega
  rw [h]

/-- Input window 1's block at point `t` holds the rows of its array that the output's block at `t` covers. -/
theorem iblk6_1_apply (c : Dev nD) (t : Fin cfg6.N) (y : S5000x64.Idx) :
    iblk6 V c 1 t y = V c main_v5 (((cfg6.win 4).blk t).view.emb y) := by
  obtain ⟨-, e1, -, -, e2, e3, -⟩ := idx_facts6 t
  show V c main_v5 (((cfg6.win 1).blk t).view.emb y) = V c main_v5 (((cfg6.win 4).blk t).view.emb y)
  have h : ((cfg6.win 1).blk t).view.emb y = ((cfg6.win 4).blk t).view.emb y := by
    funext a; apply Fin.ext
    match a with
    | ⟨0, _⟩ => show win6_1.index t (0 : Fin 2) * 5000 + 1 * (y 0).val = win6_4.index t (0 : Fin 2) * 5000 + 1 * (y 0).val; omega
    | ⟨1, _⟩ => show win6_1.index t (1 : Fin 2) * 64 + 1 * (y 1).val = win6_4.index t (1 : Fin 2) * 64 + 1 * (y 1).val; omega
  rw [h]

/-- Input window 2's block at point `t` holds the rows of its array that the output's block at `t` covers. -/
theorem iblk6_2_apply (c : Dev nD) (t : Fin cfg6.N) (y : S5000x64.Idx) :
    iblk6 V c 2 t y = V c main_v85 (((cfg6.win 4).blk t).view.emb y) := by
  obtain ⟨-, e1, -, -, -, -, e2, e3, -⟩ := idx_facts6 t
  show V c main_v85 (((cfg6.win 2).blk t).view.emb y) = V c main_v85 (((cfg6.win 4).blk t).view.emb y)
  have h : ((cfg6.win 2).blk t).view.emb y = ((cfg6.win 4).blk t).view.emb y := by
    funext a; apply Fin.ext
    match a with
    | ⟨0, _⟩ => show win6_2.index t (0 : Fin 2) * 5000 + 1 * (y 0).val = win6_4.index t (0 : Fin 2) * 5000 + 1 * (y 0).val; omega
    | ⟨1, _⟩ => show win6_2.index t (1 : Fin 2) * 64 + 1 * (y 1).val = win6_4.index t (1 : Fin 2) * 64 + 1 * (y 1).val; omega
  rw [h]

/-- Input window 3's block at every point is the whole weight. -/
theorem iblk6_3_apply (c : Dev nD) (t : Fin cfg6.N) (y : S64x64.Idx) :
    iblk6 V c 3 t y = V c main_v100 y := by
  obtain ⟨-, -, -, -, -, -, -, -, e2, e3⟩ := idx_facts6 t
  show V c main_v100 (((cfg6.win 3).blk t).view.emb y) = V c main_v100 y
  have h : ((cfg6.win 3).blk t).view.emb y = y := by
    funext a; apply Fin.ext
    match a with
    | ⟨0, _⟩ => show win6_3.index t (0 : Fin 2) * 64 + 1 * (y 0).val = (y 0).val; omega
    | ⟨1, _⟩ => show win6_3.index t (1 : Fin 2) * 64 + 1 * (y 1).val = (y 1).val; omega
  rw [h]

variable (q : Fin cfg6.W → PosShare TreeShare)

/-- WHAT POINT `t` WRITES BACK is block `t` of the specification's dense update of the arrays as the region finds them. -/
theorem flushed6_4_eq (c : Dev nD) (t : Fin cfg6.N) :
    (dat6 (F := Ideal) V q c).flushed 4 t = ((cfg6.win 4).blk t).view.read (Elt Ideal)
      (Cert.Spec.dense 0x3F588995#32 0x3E1DD9AD#32 (V c main_v98) (V c main_v5) (V c main_v85) (V c main_v100)) := by
  show (cfg6.win 4).cut (grid6.coords t) ((dat6 (F := Ideal) V q c).after 4 t) = _
  rw [after6_4]
  unfold out6_4
  rw [View.canon_unit_zero hz]
  simp only [View.ld_unit_zero (S := S5000x64) hz, View.ld_unit_zero (S := S64x64) hz]
  funext j
  exact pay6_apply (V c main_v98) (V c main_v5) (V c main_v85) (V c main_v100)
    (iblk6 V c 0 t) (iblk6 V c 1 t) (iblk6 V c 2 t) (iblk6 V c 3 t)
    (((cfg6.win 4).blk t).view.emb) (win6_4.index t (0 : Fin 2) * 5000)
    (emb6_4_row t) (emb6_4_col t) (iblk6_0_apply V c t) (iblk6_1_apply V c t) (iblk6_2_apply V c t) (iblk6_3_apply V c t) j

/-- An index of the array is in point `t`'s block iff each coordinate is in the block's range on its axis. -/
theorem mem_blk6_4 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v101).slice (win6_4.rect t)).set ↔ _
  rw [View.set_slice_whole, Rect.mem_set_unit]
  exact Iff.rfl

/-- Every row of the array is in some point's block: row `r` in that of point `r / 5000`. -/
theorem covered6_4 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨e0, e1, -⟩ := idx_facts6 t
  have e0' : win6_4.index t (0 : Fin 2) = (i 0).val / 5000 := e0
  refine ⟨t, flush6_4 t, ?_⟩
  rw [mem_blk6_4]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

end

end Cert.KernelIdeal.Hand.Layer6

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr6_eq (V : (c : Dev nD) → (b : Ref sig .tc) → Buf (Elt Ideal) ((c : Thread nD τ).loc b))
    (q : Fin cfg6.W → PosShare TreeShare) (c : Dev nD) :
    (dat6 (F := Ideal) V q c).arrAt 4 cfg6.N
      = Cert.Spec.dense 0x3F588995#32 0x3E1DD9AD#32 (V c main_v98) (V c main_v5) (V c main_v85) (V c main_v100) :=
  (dat6 (F := Ideal) V q c).arrAt_eq_of_cover 4
    (Cert.Spec.dense 0x3F588995#32 0x3E1DD9AD#32 (V c main_v98) (V c main_v5) (V c main_v85) (V c main_v100))
    (fun t _ => Layer6.flushed6_4_eq V q c t) Layer6.covered6_4

end Cert.KernelIdeal.Hand

end
-- ==== Proof.ValueIdeal.Layer7.lean ====
/-
  The value of a layer region (region 7): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg7
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer7

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay7_eq (x0 x1 x2 : FVec Ideal S5000x64 .f32) (x3 : FVec Ideal S64x64 .f32) :
    k7_pay1 (F := Ideal) x0 x1 x2 x3
      = maximumf (addf (addf (mulf (broadcast S5000x64 (Scalar.ofBits (F := Ideal) .f32 0x3F5DD0E3#32)) (zmix x0 x1))
          (mulf (broadcast S5000x64 (Scalar.ofBits (F := Ideal) .f32 0x3E08BC74#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k7_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay7_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k7_pay1 (F := Ideal) x0 x1 x2 x3 j = Cert.Spec.dense 0x3F5DD0E3#32 0x3E08BC74#32 A X H W (e j) := by
  rw [pay7_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts7 : ∀ t : Fin cfg7.N, win7_4.index t (0 : Fin 2) = t.val ∧ win7_4.index t (1 : Fin 2) = 0
    ∧ win7_0.index t (0 : Fin 2) = win7_4.index t (0 : Fin 2) ∧ win7_0.index t (1 : Fin 2) = 0
    ∧ win7_1.index t (0 : Fin 2) = win7_4.index t (0 : Fin 2) ∧ win7_1.index t (1 : Fin 2) = 0
    ∧ win7_2.index t (0 : Fin 2) = win7_4.index t (0 : Fin 2) ∧ win7_2.index t (1 : Fin 2) = 0
    ∧ win7_3.index t (0 : Fin 2) = 0 ∧ win7_3.index t (1 : Fin 2) = 0 :=
  (by decide +kernel : ∀ t : Fin grid7.N, _)

section
variable (V : (c : Dev nD) → (b : Ref sig .tc) → Buf (Elt Ideal) ((c : Thread nD τ).loc b))

/-- Where element `y` of the output's block at point `t` sits in the array: row `5000·t + y₀`, column `y₁`. -/
theorem emb7_4_row (t : Fin cfg7.N) (y : S5000x64.Idx) :
    ((((cfg7.win 4).blk t).view.emb y) (0 : Fin 2)).val = win7_4.index t (0 : Fin 2) * 5000 + (y 0).val := by
  show win7_4.index t (0 : Fin 2) * 5000 + 1 * (y 0).val = _
  omega

theorem emb7_4_col (t : Fin cfg7.N) (y : S5000x64.Idx) :
    ((((cfg7.win 4).blk t).view.emb y) (1 : Fin 2)).val = (y 1).val := by
  obtain ⟨-, e1, -⟩ := idx_facts7 t
  show win7_4.index t (1 : Fin 2) * 64 + 1 * (y 1).val = _
  omega

/-- Input window 0's block at point `t` holds the rows of its array that the output's block at `t` covers. -/
theorem iblk7_0_apply (c : Dev nD) (t : Fin cfg7.N) (y : S5000x64.Idx) :
    iblk7 V c 0 t y = V c main_v114 (((cfg7.win 4).blk t).view.emb y) := by
  obtain ⟨-, e1, e2, e3, -⟩ := idx_facts7 t
  show V c main_v114 (((cfg7.win 0).blk t).view.emb y) = V c main_v114 (((cfg7.win 4).blk t).view.emb y)
  have h : ((cfg7.win 0).blk t).view.emb y = ((cfg7.win 4).blk t).view.emb y := by
    funext a; apply Fin.ext
    match a with
    | ⟨0, _⟩ => show win7_0.index t (0 : Fin 2) * 5000 + 1 * (y 0).val = win7_4.index t (0 : Fin 2) * 5000 + 1 * (y 0).val; omega
    | ⟨1, _⟩ => show win7_0.index t (1 : Fin 2) * 64 + 1 * (y 1).val = win7_4.index t (1 : Fin 2) * 64 + 1 * (y 1).val; omega
  rw [h]

/-- Input window 1's block at point `t` holds the rows of its array that the output's block at `t` covers. -/
theorem iblk7_1_apply (c : Dev nD) (t : Fin cfg7.N) (y : S5000x64.Idx) :
    iblk7 V c 1 t y = V c main_v5 (((cfg7.win 4).blk t).view.emb y) := by
  obtain ⟨-, e1, -, -, e2, e3, -⟩ := idx_facts7 t
  show V c main_v5 (((cfg7.win 1).blk t).view.emb y) = V c main_v5 (((cfg7.win 4).blk t).view.emb y)
  have h : ((cfg7.win 1).blk t).view.emb y = ((cfg7.win 4).blk t).view.emb y := by
    funext a; apply Fin.ext
    match a with
    | ⟨0, _⟩ => show win7_1.index t (0 : Fin 2) * 5000 + 1 * (y 0).val = win7_4.index t (0 : Fin 2) * 5000 + 1 * (y 0).val; omega
    | ⟨1, _⟩ => show win7_1.index t (1 : Fin 2) * 64 + 1 * (y 1).val = win7_4.index t (1 : Fin 2) * 64 + 1 * (y 1).val; omega
  rw [h]

/-- Input window 2's block at point `t` holds the rows of its array that the output's block at `t` covers. -/
theorem iblk7_2_apply (c : Dev nD) (t : Fin cfg7.N) (y : S5000x64.Idx) :
    iblk7 V c 2 t y = V c main_v101 (((cfg7.win 4).blk t).view.emb y) := by
  obtain ⟨-, e1, -, -, -, -, e2, e3, -⟩ := idx_facts7 t
  show V c main_v101 (((cfg7.win 2).blk t).view.emb y) = V c main_v101 (((cfg7.win 4).blk t).view.emb y)
  have h : ((cfg7.win 2).blk t).view.emb y = ((cfg7.win 4).blk t).view.emb y := by
    funext a; apply Fin.ext
    match a with
    | ⟨0, _⟩ => show win7_2.index t (0 : Fin 2) * 5000 + 1 * (y 0).val = win7_4.index t (0 : Fin 2) * 5000 + 1 * (y 0).val; omega
    | ⟨1, _⟩ => show win7_2.index t (1 : Fin 2) * 64 + 1 * (y 1).val = win7_4.index t (1 : Fin 2) * 64 + 1 * (y 1).val; omega
  rw [h]

/-- Input window 3's block at every point is the whole weight. -/
theorem iblk7_3_apply (c : Dev nD) (t : Fin cfg7.N) (y : S64x64.Idx) :
    iblk7 V c 3 t y = V c main_v116 y := by
  obtain ⟨-, -, -, -, -, -, -, -, e2, e3⟩ := idx_facts7 t
  show V c main_v116 (((cfg7.win 3).blk t).view.emb y) = V c main_v116 y
  have h : ((cfg7.win 3).blk t).view.emb y = y := by
    funext a; apply Fin.ext
    match a with
    | ⟨0, _⟩ => show win7_3.index t (0 : Fin 2) * 64 + 1 * (y 0).val = (y 0).val; omega
    | ⟨1, _⟩ => show win7_3.index t (1 : Fin 2) * 64 + 1 * (y 1).val = (y 1).val; omega
  rw [h]

variable (q : Fin cfg7.W → PosShare TreeShare)

/-- WHAT POINT `t` WRITES BACK is block `t` of the specification's dense update of the arrays as the region finds them. -/
theorem flushed7_4_eq (c : Dev nD) (t : Fin cfg7.N) :
    (dat7 (F := Ideal) V q c).flushed 4 t = ((cfg7.win 4).blk t).view.read (Elt Ideal)
      (Cert.Spec.dense 0x3F5DD0E3#32 0x3E08BC74#32 (V c main_v114) (V c main_v5) (V c main_v101) (V c main_v116)) := by
  show (cfg7.win 4).cut (grid7.coords t) ((dat7 (F := Ideal) V q c).after 4 t) = _
  rw [after7_4]
  unfold out7_4
  rw [View.canon_unit_zero hz]
  simp only [View.ld_unit_zero (S := S5000x64) hz, View.ld_unit_zero (S := S64x64) hz]
  funext j
  exact pay7_apply (V c main_v114) (V c main_v5) (V c main_v101) (V c main_v116)
    (iblk7 V c 0 t) (iblk7 V c 1 t) (iblk7 V c 2 t) (iblk7 V c 3 t)
    (((cfg7.win 4).blk t).view.emb) (win7_4.index t (0 : Fin 2) * 5000)
    (emb7_4_row t) (emb7_4_col t) (iblk7_0_apply V c t) (iblk7_1_apply V c t) (iblk7_2_apply V c t) (iblk7_3_apply V c t) j

/-- An index of the array is in point `t`'s block iff each coordinate is in the block's range on its axis. -/
theorem mem_blk7_4 (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v117).slice (win7_4.rect t)).set ↔ _
  rw [View.set_slice_whole, Rect.mem_set_unit]
  exact Iff.rfl

/-- Every row of the array is in some point's block: row `r` in that of point `r / 5000`. -/
theorem covered7_4 (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have hN : cfg7.N = 20 := N_7
  let t : Fin cfg7.N := ⟨(i 0).val / 5000, by rw [hN]; omega⟩
  obtain ⟨e0, e1, -⟩ := idx_facts7 t
  have e0' : win7_4.index t (0 : Fin 2) = (i 0).val / 5000 := e0
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

end

end Cert.KernelIdeal.Hand.Layer7

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr7_eq (V : (c : Dev nD) → (b : Ref sig .tc) → Buf (Elt Ideal) ((c : Thread nD τ).loc b))
    (q : Fin cfg7.W → PosShare TreeShare) (c : Dev nD) :
    (dat7 (F := Ideal) V q c).arrAt 4 cfg7.N
      = Cert.Spec.dense 0x3F5DD0E3#32 0x3E08BC74#32 (V c main_v114) (V c main_v5) (V c main_v101) (V c main_v116) :=
  (dat7 (F := Ideal) V q c).arrAt_eq_of_cover 4
    (Cert.Spec.dense 0x3F5DD0E3#32 0x3E08BC74#32 (V c main_v114) (V c main_v5) (V c main_v101) (V c main_v116))
    (fun t _ => Layer7.flushed7_4_eq V q c t) Layer7.covered7_4

end Cert.KernelIdeal.Hand

end
-- ==== Proof.ValueIdeal.Layer8.lean ====
/-
  The value of a layer region (region 8): the array it leaves is the specification's dense update of the arrays it finds.

  The body, at a grid point, reads a block of 5000 rows of the aggregated messages `agg`, of the initial features `x₀`
  and of the current features `h`, and the whole 64x64 weight `W`; with `z = ½·agg + ½·x₀` on the block it stores
  `max(b₁·z + b₂·(z·W) + h, 0)`. Every operation but the product `z·W` acts entry by entry, and row `r` of `z·W` is
  `∑ₖ z(r,k)·W(k,·)`: it depends on row `r` of `z` only. So the block's result at (r, c) is the whole arrays' dense
  update at (5000·t + r, c) — a reordering-free identity on the extended reals, which needs no finiteness. Point `t`
  writes its block back to rows `5000·t … 5000·t + 4999`, and the twenty blocks cover the 100000 rows.
-/
import proofs.«108571_j70514773065745_1_alg».proof.Proof.FrameIdeal.Reg8
import proofs.«108571_j70514773065745_1_alg».proof.Proof.Spec
import proofs.«108571_j70514773065745_1_alg».proof.Proof.LibMatmul
import proofs.«108571_j70514773065745_1_alg».proof.Proof.LibMatmulBlock
import Idealize.ShloMosaic.Lib.Pipeline.Value
import Idealize.ShloMosaic.Lib.ValueIdx

noncomputable section

namespace Cert.KernelIdeal.Hand.Layer8

open Cert.KernelIdeal Cert.KernelIdeal.Gen
open Idealize.ShloMosaic Idealize.ShloMosaic.ValueIdx Idealize.ShloMosaic.TcCoe Idealize.SL.Sem
open Idealize.SL Idealize.SL.RA
open Idealize.ShloMosaic.Pipeline (Dat)
open Cert.LibMatmul

/-- The mixing of two row blocks. -/
def zmix (x0 x1 : FVec Ideal S5000x64 .f32) : FVec Ideal S5000x64 .f32 :=
  addf (mulf (broadcast S5000x64 (Scalar.ofBits (F := Ideal) .f32 0x3F000000#32)) x0)
    (mulf (broadcast S5000x64 (Scalar.ofBits (F := Ideal) .f32 0x3F000000#32)) x1)

/-- The body's arithmetic, the identity casts and format changes removed. -/
theorem pay8_eq (x0 x1 x2 : FVec Ideal S5000x64 .f32) (x3 : FVec Ideal S64x64 .f32) :
    k8_pay1 (F := Ideal) x0 x1 x2 x3
      = maximumf (addf (addf (mulf (broadcast S5000x64 (Scalar.ofBits (F := Ideal) .f32 0x3F61D8F9#32)) (zmix x0 x1))
          (mulf (broadcast S5000x64 (Scalar.ofBits (F := Ideal) .f32 0x3DF1383B#32))
            (matmul dot_S5000x64_S64x64_S5000x64_1_0_0_1_n_n none (zmix x0 x1) x3 (constant S5000x64 .f32 0x00000000#32)))) x2)
          (broadcast S5000x64 (Scalar.ofBits (F := Ideal) .f32 0x00000000#32)) := by
  unfold k8_pay1 zmix
  simp only [shapeCast_self]
  rfl

/-- The specification's splat reads its word everywhere. -/
theorem splat_apply (b : BitVec 32) (i : S100000x64.Idx) :
    Cert.Spec.splat b i = Scalar.ofBits (F := Ideal) .f32 b := rfl

/-- The mixing of two row blocks is the mixing of the whole arrays, read where the block sits. -/
theorem mix_blk (A X : FVec Ideal S100000x64 .f32) (x0 x1 : FVec Ideal S5000x64 .f32) (e : S5000x64.Idx → S100000x64.Idx)
    (h0 : ∀ y, x0 y = A (e y)) (h1 : ∀ y, x1 y = X (e y)) (y : S5000x64.Idx) :
    zmix x0 x1 y = Cert.Spec.mix A X (e y) := by
  unfold zmix Cert.Spec.mix
  simp only [addf_apply, mulf_apply, broadcast_apply, splat_apply, h0, h1]

/-- The product of a row block of the mixing with the weight is that block of rows of the whole product: row `r` of
    `z·W` depends on row `r` of `z` only. -/
theorem mm_blk (Z : FVec Ideal S100000x64 .f32) (W : FVec Ideal S64x64 .f32) (z : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (hz : ∀ y, z y = Z (e y)) (h3 : ∀ y, x3 y = W y) (j : S5000x64.Idx) :
    matmul dot_S5000x64_S64x64_S5000x64_1_0_0_1_n_n none z x3 (constant S5000x64 .f32 0x00000000#32) j
      = Host.dotGeneral (F := Ideal) Cert.ReferenceIdeal.dot_S100000x64_S64x64_S100000x64_1_0_0_1_n_n none Z W (e j) := by
  have hz' : z = fun y => Z (e y) := funext hz
  have hw' : x3 = fun y => W (id y) := funext h3
  refine (congrFun (matmul_zero_eq dot_S5000x64_S64x64_S5000x64_1_0_0_1_n_n rfl rfl rfl rfl rfl rfl none z x3) j).trans ?_
  refine Eq.trans ?_ (congrFun (dotGeneral_eq Cert.ReferenceIdeal.dot_S100000x64_S64x64_S100000x64_1_0_0_1_n_n rfl rfl rfl rfl rfl rfl none .single Z W) (e j)).symm
  rw [hz', hw']
  exact MM_block Z W e id e r0 0 he0 he1 (fun _ => rfl) (fun y => (Nat.zero_add _).symm) he0
    (fun j => (he1 j).trans (Nat.zero_add _).symm) j

/-- THE BODY'S RESULT AT AN INDEX: the layer's update of the four blocks at `j` is the specification's update of the
    whole arrays at the index `e j` where the block's element `j` sits — the blocks being those rows of the arrays
    (`h0`–`h2`; rows `r0 …`, every column) and the weight whole (`h3`). -/
theorem pay8_apply (A X H : FVec Ideal S100000x64 .f32) (W : FVec Ideal S64x64 .f32)
    (x0 x1 x2 : FVec Ideal S5000x64 .f32) (x3 : FVec Ideal S64x64 .f32)
    (e : S5000x64.Idx → S100000x64.Idx) (r0 : Nat)
    (he0 : ∀ y, (e y 0).val = r0 + (y 0).val) (he1 : ∀ y, (e y 1).val = (y 1).val)
    (h0 : ∀ y, x0 y = A (e y)) (h1 : ∀ y, x1 y = X (e y)) (h2 : ∀ y, x2 y = H (e y)) (h3 : ∀ y, x3 y = W y)
    (j : S5000x64.Idx) :
    k8_pay1 (F := Ideal) x0 x1 x2 x3 j = Cert.Spec.dense 0x3F61D8F9#32 0x3DF1383B#32 A X H W (e j) := by
  rw [pay8_eq]
  unfold Cert.Spec.dense
  simp only [maximumf_apply, addf_apply, mulf_apply, broadcast_apply, splat_apply]
  rw [mm_blk (Cert.Spec.mix A X) W (zmix x0 x1) x3 e r0 he0 he1 (mix_blk A X x0 x1 e h0 h1) h3 j,
    mix_blk A X x0 x1 e h0 h1 j, h2 j]

/-! ## From the blocks to the array -/

theorem hz : (![0, 0] : Fin 2 → Nat) = fun _ => 0 := funext fun a => by fin_cases a <;> rfl

/-- The printed index maps, decided over the grid: the three row-block inputs move with the output, whose block index is
    the grid point; the weight's block index is zero. -/
theorem idx_facts8 : ∀ t : Fin cfg8.N, win8_4.index t (0 : Fin 2) = t.val ∧ win8_4.index t (1 : Fin 2) = 0
    ∧ win8_0.index t (0 : Fin 2) = win8_4.index t (0 : Fin 2) ∧ win8_0.index t (1 : Fin 2) = 0
    ∧ win8_1.index t (0 : Fin 2) = win8_4.index t (0 : Fin 2) ∧ win8_1.index t (1 : Fin 2) = 0
    ∧ win8_2.index t (0 : Fin 2) = win8_4.index t (0 : Fin 2) ∧ win8_2.index t (1 : Fin 2) = 0
    ∧ win8_3.index t (0 : Fin 2) = 0 ∧ win8_3.index t (1 : Fin 2) = 0 :=
  (by decide +kernel : ∀ t : Fin grid8.N, _)

section
variable (V : (c : Dev nD) → (b : Ref sig .tc) → Buf (Elt Ideal) ((c : Thread nD τ).loc b))

/-- Where element `y` of the output's block at point `t` sits in the array: row `5000·t + y₀`, column `y₁`. -/
theorem emb8_4_row (t : Fin cfg8.N) (y : S5000x64.Idx) :
    ((((cfg8.win 4).blk t).view.emb y) (0 : Fin 2)).val = win8_4.index t (0 : Fin 2) * 5000 + (y 0).val := by
  show win8_4.index t (0 : Fin 2) * 5000 + 1 * (y 0).val = _
  omega

theorem emb8_4_col (t : Fin cfg8.N) (y : S5000x64.Idx) :
    ((((cfg8.win 4).blk t).view.emb y) (1 : Fin 2)).val = (y 1).val := by
  obtain ⟨-, e1, -⟩ := idx_facts8 t
  show win8_4.index t (1 : Fin 2) * 64 + 1 * (y 1).val = _
  omega

/-- Input window 0's block at point `t` holds the rows of its array that the output's block at `t` covers. -/
theorem iblk8_0_apply (c : Dev nD) (t : Fin cfg8.N) (y : S5000x64.Idx) :
    iblk8 V c 0 t y = V c main_v130 (((cfg8.win 4).blk t).view.emb y) := by
  obtain ⟨-, e1, e2, e3, -⟩ := idx_facts8 t
  show V c main_v130 (((cfg8.win 0).blk t).view.emb y) = V c main_v130 (((cfg8.win 4).blk t).view.emb y)
  have h : ((cfg8.win 0).blk t).view.emb y = ((cfg8.win 4).blk t).view.emb y := by
    funext a; apply Fin.ext
    match a with
    | ⟨0, _⟩ => show win8_0.index t (0 : Fin 2) * 5000 + 1 * (y 0).val = win8_4.index t (0 : Fin 2) * 5000 + 1 * (y 0).val; omega
    | ⟨1, _⟩ => show win8_0.index t (1 : Fin 2) * 64 + 1 * (y 1).val = win8_4.index t (1 : Fin 2) * 64 + 1 * (y 1).val; omega
  rw [h]

/-- Input window 1's block at point `t` holds the rows of its array that the output's block at `t` covers. -/
theorem iblk8_1_apply (c : Dev nD) (t : Fin cfg8.N) (y : S5000x64.Idx) :
    iblk8 V c 1 t y = V c main_v5 (((cfg8.win 4).blk t).view.emb y) := by
  obtain ⟨-, e1, -, -, e2, e3, -⟩ := idx_facts8 t
  show V c main_v5 (((cfg8.win 1).blk t).view.emb y) = V c main_v5 (((cfg8.win 4).blk t).view.emb y)
  have h : ((cfg8.win 1).blk t).view.emb y = ((cfg8.win 4).blk t).view.emb y := by
    funext a; apply Fin.ext
    match a with
    | ⟨0, _⟩ => show win8_1.index t (0 : Fin 2) * 5000 + 1 * (y 0).val = win8_4.index t (0 : Fin 2) * 5000 + 1 * (y 0).val; omega
    | ⟨1, _⟩ => show win8_1.index t (1 : Fin 2) * 64 + 1 * (y 1).val = win8_4.index t (1 : Fin 2) * 64 + 1 * (y 1).val; omega
  rw [h]

/-- Input window 2's block at point `t` holds the rows of its array that the output's block at `t` covers. -/
theorem iblk8_2_apply (c : Dev nD) (t : Fin cfg8.N) (y : S5000x64.Idx) :
    iblk8 V c 2 t y = V c main_v117 (((cfg8.win 4).blk t).view.emb y) := by
  obtain ⟨-, e1, -, -, -, -, e2, e3, -⟩ := idx_facts8 t
  show V c main_v117 (((cfg8.win 2).blk t).view.emb y) = V c main_v117 (((cfg8.win 4).blk t).view.emb y)
  have h : ((cfg8.win 2).blk t).view.emb y = ((cfg8.win 4).blk t).view.emb y := by
    funext a; apply Fin.ext
    match a with
    | ⟨0, _⟩ => show win8_2.index t (0 : Fin 2) * 5000 + 1 * (y 0).val = win8_4.index t (0 : Fin 2) * 5000 + 1 * (y 0).val; omega
    | ⟨1, _⟩ => show win8_2.index t (1 : Fin 2) * 64 + 1 * (y 1).val = win8_4.index t (1 : Fin 2) * 64 + 1 * (y 1).val; omega
  rw [h]

/-- Input window 3's block at every point is the whole weight. -/
theorem iblk8_3_apply (c : Dev nD) (t : Fin cfg8.N) (y : S64x64.Idx) :
    iblk8 V c 3 t y = V c main_v132 y := by
  obtain ⟨-, -, -, -, -, -, -, -, e2, e3⟩ := idx_facts8 t
  show V c main_v132 (((cfg8.win 3).blk t).view.emb y) = V c main_v132 y
  have h : ((cfg8.win 3).blk t).view.emb y = y := by
    funext a; apply Fin.ext
    match a with
    | ⟨0, _⟩ => show win8_3.index t (0 : Fin 2) * 64 + 1 * (y 0).val = (y 0).val; omega
    | ⟨1, _⟩ => show win8_3.index t (1 : Fin 2) * 64 + 1 * (y 1).val = (y 1).val; omega
  rw [h]

variable (q : Fin cfg8.W → PosShare TreeShare)

/-- WHAT POINT `t` WRITES BACK is block `t` of the specification's dense update of the arrays as the region finds them. -/
theorem flushed8_4_eq (c : Dev nD) (t : Fin cfg8.N) :
    (dat8 (F := Ideal) V q c).flushed 4 t = ((cfg8.win 4).blk t).view.read (Elt Ideal)
      (Cert.Spec.dense 0x3F61D8F9#32 0x3DF1383B#32 (V c main_v130) (V c main_v5) (V c main_v117) (V c main_v132)) := by
  show (cfg8.win 4).cut (grid8.coords t) ((dat8 (F := Ideal) V q c).after 4 t) = _
  rw [after8_4]
  unfold out8_4
  rw [View.canon_unit_zero hz]
  simp only [View.ld_unit_zero (S := S5000x64) hz, View.ld_unit_zero (S := S64x64) hz]
  funext j
  exact pay8_apply (V c main_v130) (V c main_v5) (V c main_v117) (V c main_v132)
    (iblk8 V c 0 t) (iblk8 V c 1 t) (iblk8 V c 2 t) (iblk8 V c 3 t)
    (((cfg8.win 4).blk t).view.emb) (win8_4.index t (0 : Fin 2) * 5000)
    (emb8_4_row t) (emb8_4_col t) (iblk8_0_apply V c t) (iblk8_1_apply V c t) (iblk8_2_apply V c t) (iblk8_3_apply V c t) j

/-- An index of the array is in point `t`'s block iff each coordinate is in the block's range on its axis. -/
theorem mem_blk8_4 (t : Fin cfg8.N) (i : S100000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v133).slice (win8_4.rect t)).set ↔ _
  rw [View.set_slice_whole, Rect.mem_set_unit]
  exact Iff.rfl

/-- Every row of the array is in some point's block: row `r` in that of point `r / 5000`. -/
theorem covered8_4 (i : S100000x64.Idx) : ∃ t : Fin cfg8.N, (cfg8.win 4).flush t = true ∧ i ∈ ((cfg8.win 4).blk t).view.set := by
  have hi0 : (i 0).val < 100000 := (i 0).isLt
  have hi1 : (i 1).val < 64 := (i 1).isLt
  have hN : cfg8.N = 20 := N_8
  let t : Fin cfg8.N := ⟨(i 0).val / 5000, by rw [hN]; omega⟩
  obtain ⟨e0, e1, -⟩ := idx_facts8 t
  have e0' : win8_4.index t (0 : Fin 2) = (i 0).val / 5000 := e0
  refine ⟨t, flush8_4 t, ?_⟩
  rw [mem_blk8_4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 64 ≤ (i 1).val ∧ (i 1).val < win8_4.index t (1 : Fin 2) * 64 + 64; omega

end

end Cert.KernelIdeal.Hand.Layer8

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)

/-- THE ARRAY the region leaves: the specification's dense update of the arrays as the region finds them — every block
    of 5000 rows written back is that block of the update, and the twenty blocks cover the array. -/
theorem arr8_eq (V : (c : Dev nD) → (b : Ref sig .tc) → Buf (Elt Ideal) ((c : Thread nD τ).loc b))
    (q : Fin cfg8.W → PosShare TreeShare) (c : Dev nD) :
    (dat8 (F := Ideal) V q c).arrAt 4 cfg8.N
      = Cert.Spec.dense 0x3F61D8F9#32 0x3DF1383B#32 (V c main_v130) (V c main_v5) (V c main_v117) (V c main_v132) :=
  (dat8 (F := Ideal) V q c).arrAt_eq_of_cover 4
    (Cert.Spec.dense 0x3F61D8F9#32 0x3DF1383B#32 (V c main_v130) (V c main_v5) (V c main_v117) (V c main_v132))
    (fun t _ => Layer8.flushed8_4_eq V q c t) Layer8.covered8_4

end Cert.KernelIdeal.Hand

end
-- ==== Proof.ValueIdeal.Proj9.lean ====
import proofs.«108571_j70514773065745_1_alg».proof.Proof.FrameIdeal.Reg9
import proofs.«108571_j70514773065745_1_alg».proof.Proof.Spec
import Idealize.ShloMosaic.Lib.Pipeline.Value
import Idealize.ShloMosaic.Lib.ValueIdx
import Idealize.ShloMosaic.Lib.KernelVsHost
import Idealize.ShloMosaic.Lib.StackMember

noncomputable section

/-! # Region 9 leaves the output projection of the whole arrays

The call has one grid point and every window is its whole array, so the one write-back is the whole result. Entry
`(r, n)` of what the body stores is `∑ k, p[r,k]·W[k,n] + row[0,n]`: the product accumulated into zero is the plain
sum over the contracted coordinate (changing the float format is the identity on the extended reals), and the bias row
broadcast down the rows reads its entry `n`. The specification's projection at `(r, n)` is the same sum plus `b[n]`,
and the row is the bias vector laid out as one row. No law of arithmetic is used, so nothing needs to be finite. -/

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

namespace Proj9

/-- The zero offsets of a whole-buffer rectangle. -/
theorem zero_off : (![0, 0] : Fin 2 → Nat) = fun _ => 0 := funext fun a => by fin_cases a <;> rfl

/-- The printed dimension numbers are those of the plain product of a 512×64 by a 64×32 matrix. -/
theorem dims_plain : dot_S512x64_S64x32_S512x32_1_0_0_1_n_n = DotDims.plain 512 64 32 := rfl

/-- Entry `(r, n)` of what the body stores: the sum over the contracted coordinate plus the bias row's entry `n`. -/
theorem pay_apply (x0 : FVec Ideal S512x64 .f32) (x1 : FVec Ideal S64x32 .f32) (x2 : FVec Ideal S1x32 .f32)
    (r : Fin 512) (n : Fin 32) :
    k9_pay1 x0 x1 x2 (ix2 r n) = (∑ k : Fin 64, x0 (ix2 r k) * x1 (ix2 k n)) + x2 (ix2 (0 : Fin 1) n) := by
  unfold k9_pay1
  simp only [shapeCast_self]
  refine (addf_apply _ _ (ix2 r n)).trans ?_
  have e1 : matmul dot_S512x64_S64x32_S512x32_1_0_0_1_n_n none (truncf .bf16 x0 bitsLt_bf16_f32) (truncf .bf16 x1 bitsLt_bf16_f32)
      (constant (F := Ideal) S512x32 .f32 0x00000000#32) (ix2 r n) = ∑ k : Fin 64, x0 (ix2 r k) * x1 (ix2 k n) := by
    rw [matmul_zero_eq_dotGeneral, dims_plain]
    exact StackMember.dotGeneral_plain_apply (m := 512) (n := 32) (k := 64) none (truncf .bf16 x0 bitsLt_bf16_f32)
      (truncf .bf16 x1 bitsLt_bf16_f32) r n
  have e2 : broadcastTo S512x32 x2 broadcasts_S1x32_S512x32 (ix2 r n) = x2 (ix2 (0 : Fin 1) n) :=
    broadcastTo_apply x2 broadcasts_S1x32_S512x32 (ix2 r n) (ix2 (0 : Fin 1) n) (by
      intro a
      match a with
      | ⟨0, _⟩ => rfl
      | ⟨1, _⟩ => rfl)
  rw [e1, e2]

/-- Entry `(r, n)` of the specification's projection: the same sum plus the bias vector's entry `n`. -/
theorem projOut_apply (p : Cert.Spec.C S512x64) (W : Cert.Spec.C S64x32) (b : Cert.Spec.C S32) (r : Fin 512) (n : Fin 32) :
    Cert.Spec.projOut p W b (ix2 r n) = (∑ k : Fin 64, p (ix2 r k) * W (ix2 k n)) + b (ix1 n) := by
  unfold Cert.Spec.projOut
  refine (addf_apply _ _ (ix2 r n)).trans ?_
  have e1 : Host.dotGeneral (F := Ideal) Cert.ReferenceIdeal.dot_S512x64_S64x32_S512x32_1_0_0_1_n_n none p W (ix2 r n)
      = ∑ k : Fin 64, p (ix2 r k) * W (ix2 k n) :=
    StackMember.dotGeneral_plain_apply (m := 512) (n := 32) (k := 64) none p W r n
  rw [e1, broadcastInDim_oneRow_apply]
  refine congrArg _ ?_
  exact broadcastInDim_apply ![1] _ b (ix2 (0 : Fin 1) n) (ix1 n) (by
    intro a
    match a with
    | ⟨0, _⟩ => rfl)

/-- The bias vector laid out as one row, read at `(0, n)`, is its entry `n`. -/
theorem row_apply (b : Cert.Spec.C S32) (n : Fin 32) :
    shapeCast S1x32 b shapeCasts_S32_S1x32 (ix2 (0 : Fin 1) n) = b (ix1 n) :=
  shapeCast_apply b shapeCasts_S32_S1x32 (ix2 (0 : Fin 1) n) (ix1 n) (by
    rw [Shape.rowMajor_val_two, Shape.rowMajor_val_one]
    show n.val = 0 * 32 + n.val
    omega)

/-- The one grid point: every window's block index is 0 on both axes. -/
theorem idx_facts : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

section
variable (V : (c : Dev nD) → (b : Ref sig .tc) → Buf (Elt Ideal) ((c : Thread nD τ).loc b))

/-- The left factor's block is the whole array of pooled rows. -/
theorem left_apply (c : Dev nD) (t : Fin cfg9.N) (r : Fin 512) (k : Fin 64) :
    (iblk9 V c 0 t : FVec Ideal S512x64 .f32) (ix2 r k) = V c main_v145 (ix2 r k) := by
  obtain ⟨e0, e1, -⟩ := idx_facts t
  unfold iblk9
  rw [View.read_apply]
  show V c main_v145 _ = V c main_v145 _
  refine congrArg _ (funext fun a => Fin.ext ?_)
  match a with
  | ⟨0, _⟩ => show win9_0.index t (0 : Fin 2) * 512 + 1 * r.val = r.val; omega
  | ⟨1, _⟩ => show win9_0.index t (1 : Fin 2) * 64 + 1 * k.val = k.val; omega

/-- The weight's block is the whole weight. -/
theorem weight_apply (c : Dev nD) (t : Fin cfg9.N) (k : Fin 64) (n : Fin 32) :
    (iblk9 V c 1 t : FVec Ideal S64x32 .f32) (ix2 k n) = V c main_arg7 (ix2 k n) := by
  obtain ⟨-, -, e0, e1, -⟩ := idx_facts t
  unfold iblk9
  rw [View.read_apply]
  show V c main_arg7 _ = V c main_arg7 _
  refine congrArg _ (funext fun a => Fin.ext ?_)
  match a with
  | ⟨0, _⟩ => show win9_1.index t (0 : Fin 2) * 64 + 1 * k.val = k.val; omega
  | ⟨1, _⟩ => show win9_1.index t (1 : Fin 2) * 32 + 1 * n.val = n.val; omega

/-- The bias row's block is the whole row. -/
theorem bias_apply (c : Dev nD) (t : Fin cfg9.N) (n : Fin 32) :
    (iblk9 V c 2 t : FVec Ideal S1x32 .f32) (ix2 (0 : Fin 1) n) = V c main_v146 (ix2 (0 : Fin 1) n) := by
  obtain ⟨-, -, -, -, e0, e1, -⟩ := idx_facts t
  unfold iblk9
  rw [View.read_apply]
  show V c main_v146 _ = V c main_v146 _
  refine congrArg _ (funext fun a => Fin.ext ?_)
  match a with
  | ⟨0, _⟩ => show win9_2.index t (0 : Fin 2) * 1 + 1 * 0 = 0; omega
  | ⟨1, _⟩ => show win9_2.index t (1 : Fin 2) * 32 + 1 * n.val = n.val; omega

variable (q : Fin cfg9.W → PosShare TreeShare)

/-- What the grid point writes back is its block (the whole array) of the specification's projection. -/
theorem flushed_eq (c : Dev nD) (bout : Cert.Spec.C S32) (hb : V c main_v146 = shapeCast S1x32 bout shapeCasts_S32_S1x32)
    (t : Fin cfg9.N) :
    (dat9 (F := Ideal) V q c).flushed 3 t
      = ((cfg9.win 3).blk t).view.read (Elt Ideal) (Cert.Spec.projOut (V c main_v145) (V c main_arg7) bout) := by
  show (cfg9.win 3).cut (grid9.coords t) ((dat9 (F := Ideal) V q c).after 3 t) = _
  rw [after9_3]
  unfold out9_3
  rw [View.canon_unit_zero zero_off]
  simp only [View.ld_unit_zero (S := S512x64) zero_off, View.ld_unit_zero (S := S64x32) zero_off,
    View.ld_unit_zero (S := S1x32) zero_off]
  obtain ⟨-, -, -, -, -, -, e0, e1⟩ := idx_facts t
  funext j
  obtain ⟨r, n, rfl⟩ : ∃ (r : Fin 512) (n : Fin 32), j = ix2 r n := ⟨j 0, j 1, eq_ix2 j⟩
  rw [View.read_apply]
  have hemb : ((cfg9.win 3).blk t).view.emb (ix2 r n) = ix2 r n := by
    funext a; apply Fin.ext
    match a with
    | ⟨0, _⟩ => show win9_3.index t (0 : Fin 2) * 512 + 1 * r.val = r.val; omega
    | ⟨1, _⟩ => show win9_3.index t (1 : Fin 2) * 32 + 1 * n.val = n.val; omega
  rw [hemb]
  refine (pay_apply (iblk9 V c 0 t) (iblk9 V c 1 t) (iblk9 V c 2 t) r n).trans ?_
  refine ((projOut_apply (V c main_v145) (V c main_arg7) bout r n).trans ?_).symm
  rw [← row_apply bout n, ← hb, ← bias_apply V c t n]
  refine congrArg (· + _) (Finset.sum_congr rfl fun k _ => ?_)
  rw [left_apply V c t r k, weight_apply V c t k n]

/-- An index of the result is in the point's block iff each coordinate is in the block's range on its axis. -/
theorem mem_blk (t : Fin cfg9.N) (i : S512x32.Idx) :
    i ∈ ((cfg9.win 3).blk t).view.set
      ↔ ∀ a : Fin 2, win9_3.index t a * S512x32.size a ≤ (i a).val ∧ (i a).val < win9_3.index t a * S512x32.size a + S512x32.size a := by
  show i ∈ ((View.whole main_v147).slice (win9_3.rect t)).set ↔ _
  rw [View.set_slice_whole, Rect.mem_set_unit]
  exact Iff.rfl

/-- The one point's block covers the whole result. -/
theorem cover (i : S512x32.Idx) : ∃ t : Fin cfg9.N, (cfg9.win 3).flush t = true ∧ i ∈ ((cfg9.win 3).blk t).view.set := by
  have h0 : (i 0).val < 512 := (i 0).isLt
  have h1 : (i 1).val < 32 := (i 1).isLt
  obtain ⟨-, -, -, -, -, -, e0, e1⟩ := idx_facts t9_0
  refine ⟨t9_0, flush9_3 t9_0, ?_⟩
  rw [mem_blk]
  intro a
  match a with
  | ⟨0, _⟩ => show win9_3.index t9_0 (0 : Fin 2) * 512 ≤ (i 0).val ∧ (i 0).val < win9_3.index t9_0 (0 : Fin 2) * 512 + 512; omega
  | ⟨1, _⟩ => show win9_3.index t9_0 (1 : Fin 2) * 32 ≤ (i 1).val ∧ (i 1).val < win9_3.index t9_0 (1 : Fin 2) * 32 + 32; omega

end

end Proj9

/-- Region 9 leaves the specification's output projection of the pooled rows, the output weight and the bias vector whose
    one-row layout the region finds. -/
theorem arr9_eq (V : (c : Dev nD) → (b : Ref sig .tc) → Buf (Elt Ideal) ((c : Thread nD τ).loc b))
    (q : Fin cfg9.W → PosShare TreeShare) (c : Dev nD)
    (bout : Cert.Spec.C S32) (hb : V c main_v146 = shapeCast S1x32 bout shapeCasts_S32_S1x32) :
    (dat9 (F := Ideal) V q c).arrAt 3 cfg9.N = Cert.Spec.projOut (V c main_v145) (V c main_arg7) bout :=
  (dat9 (F := Ideal) V q c).arrAt_eq_of_cover 3 (Cert.Spec.projOut (V c main_v145) (V c main_arg7) bout)
    (fun t _ => Proj9.flushed_eq V q c bout hb t) Proj9.cover

end Cert.KernelIdeal.Hand

end
-- ==== Proof.ValueIdeal.KernelValue.lean ====
import proofs.«108571_j70514773065745_1_alg».proof.Proof.Spec
import proofs.«108571_j70514773065745_1_alg».proof.Proof.FrameIdeal.Chain
import proofs.«108571_j70514773065745_1_alg».proof.Proof.ValueIdeal.Host
import proofs.«108571_j70514773065745_1_alg».proof.Proof.ValueIdeal.Proj0
import proofs.«108571_j70514773065745_1_alg».proof.Proof.ValueIdeal.Layer1
import proofs.«108571_j70514773065745_1_alg».proof.Proof.ValueIdeal.Layer2
import proofs.«108571_j70514773065745_1_alg».proof.Proof.ValueIdeal.Layer3
import proofs.«108571_j70514773065745_1_alg».proof.Proof.ValueIdeal.Layer4
import proofs.«108571_j70514773065745_1_alg».proof.Proof.ValueIdeal.Layer5
import proofs.«108571_j70514773065745_1_alg».proof.Proof.ValueIdeal.Layer6
import proofs.«108571_j70514773065745_1_alg».proof.Proof.ValueIdeal.Layer7
import proofs.«108571_j70514773065745_1_alg».proof.Proof.ValueIdeal.Layer8
import proofs.«108571_j70514773065745_1_alg».proof.Proof.ValueIdeal.Proj9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the kernel's program leaves in its result array

@main is ten kernel regions among host stretches. Each region leaves in its output array the specification's stage of
the arrays it reads (the regions' value lemmas); each host stretch leaves in its results the specification's stages of
the buffers before it (the host lemmas); a buffer that neither a stretch nor a region writes is carried unchanged. Read
from the last region back to the launch, the result array holds the whole network of the launch contents of the nine
arguments. -/

namespace KV

variable (m : (ℓ : Loc nD τ sig) → Buf (Elt Ideal) ℓ) (c : Dev nD)

/-! ## The arguments' launch contents -/

/-- Argument 0 on core `c` at launch. -/
abbrev arg0 : Buf (Elt Ideal) ((c.tc : Thread nD τ).loc main_arg0) := m ((c.tc : Thread nD τ).loc main_arg0)
/-- Argument 1 on core `c` at launch. -/
abbrev arg1 : Buf (Elt Ideal) ((c.tc : Thread nD τ).loc main_arg1) := m ((c.tc : Thread nD τ).loc main_arg1)
/-- Argument 2 on core `c` at launch. -/
abbrev arg2 : Buf (Elt Ideal) ((c.tc : Thread nD τ).loc main_arg2) := m ((c.tc : Thread nD τ).loc main_arg2)
/-- Argument 3 on core `c` at launch. -/
abbrev arg3 : Buf (Elt Ideal) ((c.tc : Thread nD τ).loc main_arg3) := m ((c.tc : Thread nD τ).loc main_arg3)
/-- Argument 4 on core `c` at launch. -/
abbrev arg4 : Buf (Elt Ideal) ((c.tc : Thread nD τ).loc main_arg4) := m ((c.tc : Thread nD τ).loc main_arg4)
/-- Argument 5 on core `c` at launch. -/
abbrev arg5 : Buf (Elt Ideal) ((c.tc : Thread nD τ).loc main_arg5) := m ((c.tc : Thread nD τ).loc main_arg5)
/-- Argument 6 on core `c` at launch. -/
abbrev arg6 : Buf (Elt Ideal) ((c.tc : Thread nD τ).loc main_arg6) := m ((c.tc : Thread nD τ).loc main_arg6)
/-- Argument 7 on core `c` at launch. -/
abbrev arg7 : Buf (Elt Ideal) ((c.tc : Thread nD τ).loc main_arg7) := m ((c.tc : Thread nD τ).loc main_arg7)
/-- Argument 8 on core `c` at launch. -/
abbrev arg8 : Buf (Elt Ideal) ((c.tc : Thread nD τ).loc main_arg8) := m ((c.tc : Thread nD τ).loc main_arg8)

/-! ## The features after each stage, as the specification writes them -/

/-- The sources and the destinations of the edges. -/
abbrev src : Cert.Spec.CI Cert.ReferenceIdeal.S1600000 := Cert.Spec.srcRow (arg1 m c)
abbrev dst : Cert.Spec.CI Cert.ReferenceIdeal.S1600000 := Cert.Spec.dstRow (arg1 m c)

/-- The features after the input projection. -/
def feat0 : Cert.Spec.C Cert.ReferenceIdeal.S100000x64 := Cert.Spec.projIn (arg0 m c) (arg4 m c) (arg5 m c)
/-- The features after layer 1. -/
def feat1 : Cert.Spec.C Cert.ReferenceIdeal.S100000x64 :=
  Cert.Spec.layer (arg2 m c) (src m c) (dst m c) 0x3E9D1BD0#32 0x3F317218#32 (feat0 m c) (feat0 m c) (Cert.Spec.weight0 (arg6 m c))
/-- The features after layer 2. -/
def feat2 : Cert.Spec.C Cert.ReferenceIdeal.S100000x64 :=
  Cert.Spec.layer (arg2 m c) (src m c) (dst m c) 0x3F183370#32 0x3ECF991F#32 (feat0 m c) (feat1 m c) (Cert.Spec.weight1 (arg6 m c))
/-- The features after layer 3. -/
def feat3 : Cert.Spec.C Cert.ReferenceIdeal.S100000x64 :=
  Cert.Spec.layer (arg2 m c) (src m c) (dst m c) 0x3F365A78#32 0x3E934B11#32 (feat0 m c) (feat2 m c) (Cert.Spec.weight2 (arg6 m c))
/-- The features after layer 4. -/
def feat4 : Cert.Spec.C Cert.ReferenceIdeal.S100000x64 :=
  Cert.Spec.layer (arg2 m c) (src m c) (dst m c) 0x3F46E010#32 0x3E647FBE#32 (feat0 m c) (feat3 m c) (Cert.Spec.weight3 (arg6 m c))
/-- The features after layer 5. -/
def feat5 : Cert.Spec.C Cert.ReferenceIdeal.S100000x64 :=
  Cert.Spec.layer (arg2 m c) (src m c) (dst m c) 0x3F515360#32 0x3E3AB281#32 (feat0 m c) (feat4 m c) (Cert.Spec.weight4 (arg6 m c))
/-- The features after layer 6. -/
def feat6 : Cert.Spec.C Cert.ReferenceIdeal.S100000x64 :=
  Cert.Spec.layer (arg2 m c) (src m c) (dst m c) 0x3F588995#32 0x3E1DD9AD#32 (feat0 m c) (feat5 m c) (Cert.Spec.weight5 (arg6 m c))
/-- The features after layer 7. -/
def feat7 : Cert.Spec.C Cert.ReferenceIdeal.S100000x64 :=
  Cert.Spec.layer (arg2 m c) (src m c) (dst m c) 0x3F5DD0E3#32 0x3E08BC74#32 (feat0 m c) (feat6 m c) (Cert.Spec.weight6 (arg6 m c))
/-- The features after layer 8. -/
def feat8 : Cert.Spec.C Cert.ReferenceIdeal.S100000x64 :=
  Cert.Spec.layer (arg2 m c) (src m c) (dst m c) 0x3F61D8F9#32 0x3DF1383B#32 (feat0 m c) (feat7 m c) (Cert.Spec.weight7 (arg6 m c))

/-- Equal stages of equal operands. -/
theorem dense_congr (b1 b2 : BitVec 32) {a a' x x' h h' : Cert.Spec.C Cert.ReferenceIdeal.S100000x64}
    {W W' : Cert.Spec.C Cert.ReferenceIdeal.S64x64} (ha : a = a') (hx : x = x') (hh : h = h') (hW : W = W') :
    Cert.Spec.dense b1 b2 a x h W = Cert.Spec.dense b1 b2 a' x' h' W' := by
  subst ha hx hh hW; rfl

/-! ## Buffers carried unchanged across stretches and regions -/

/-- The edge weights, the stacked weights, the graph ids, the output projection's weight and bias: written by nothing. -/
theorem W1_arg2 : W1 m c main_arg2 = arg2 m c := (W1_of m c main_arg2 (by decide)).trans (rfl)
theorem W2_arg2 : W2 m c main_arg2 = arg2 m c := (W2_of m c main_arg2 (by decide)).trans (W1_arg2 m c)
theorem W3_arg2 : W3 m c main_arg2 = arg2 m c := (W3_of m c main_arg2 (by decide)).trans (W2_arg2 m c)
theorem W4_arg2 : W4 m c main_arg2 = arg2 m c := (W4_of m c main_arg2 (by decide)).trans (W3_arg2 m c)
theorem W5_arg2 : W5 m c main_arg2 = arg2 m c := (W5_of m c main_arg2 (by decide)).trans (W4_arg2 m c)
theorem W6_arg2 : W6 m c main_arg2 = arg2 m c := (W6_of m c main_arg2 (by decide)).trans (W5_arg2 m c)
theorem W7_arg2 : W7 m c main_arg2 = arg2 m c := (W7_of m c main_arg2 (by decide)).trans (W6_arg2 m c)
theorem W8_arg2 : W8 m c main_arg2 = arg2 m c := (W8_of m c main_arg2 (by decide)).trans (W7_arg2 m c)
theorem W9_arg2 : W9 m c main_arg2 = arg2 m c := (W9_of m c main_arg2 (by decide)).trans (W8_arg2 m c)
theorem W10_arg2 : W10 m c main_arg2 = arg2 m c := (W10_of m c main_arg2 (by decide)).trans (W9_arg2 m c)
theorem W11_arg2 : W11 m c main_arg2 = arg2 m c := (W11_of m c main_arg2 (by decide)).trans (W10_arg2 m c)
theorem W12_arg2 : W12 m c main_arg2 = arg2 m c := (W12_of m c main_arg2 (by decide)).trans (W11_arg2 m c)
theorem W13_arg2 : W13 m c main_arg2 = arg2 m c := (W13_of m c main_arg2 (by decide)).trans (W12_arg2 m c)
theorem W14_arg2 : W14 m c main_arg2 = arg2 m c := (W14_of m c main_arg2 (by decide)).trans (W13_arg2 m c)
theorem W15_arg2 : W15 m c main_arg2 = arg2 m c := (W15_of m c main_arg2 (by decide)).trans (W14_arg2 m c)
theorem W16_arg2 : W16 m c main_arg2 = arg2 m c := (W16_of m c main_arg2 (by decide)).trans (W15_arg2 m c)
theorem W1_arg6 : W1 m c main_arg6 = arg6 m c := (W1_of m c main_arg6 (by decide)).trans (rfl)
theorem W2_arg6 : W2 m c main_arg6 = arg6 m c := (W2_of m c main_arg6 (by decide)).trans (W1_arg6 m c)
theorem W3_arg6 : W3 m c main_arg6 = arg6 m c := (W3_of m c main_arg6 (by decide)).trans (W2_arg6 m c)
theorem W4_arg6 : W4 m c main_arg6 = arg6 m c := (W4_of m c main_arg6 (by decide)).trans (W3_arg6 m c)
theorem W5_arg6 : W5 m c main_arg6 = arg6 m c := (W5_of m c main_arg6 (by decide)).trans (W4_arg6 m c)
theorem W6_arg6 : W6 m c main_arg6 = arg6 m c := (W6_of m c main_arg6 (by decide)).trans (W5_arg6 m c)
theorem W7_arg6 : W7 m c main_arg6 = arg6 m c := (W7_of m c main_arg6 (by decide)).trans (W6_arg6 m c)
theorem W8_arg6 : W8 m c main_arg6 = arg6 m c := (W8_of m c main_arg6 (by decide)).trans (W7_arg6 m c)
theorem W9_arg6 : W9 m c main_arg6 = arg6 m c := (W9_of m c main_arg6 (by decide)).trans (W8_arg6 m c)
theorem W10_arg6 : W10 m c main_arg6 = arg6 m c := (W10_of m c main_arg6 (by decide)).trans (W9_arg6 m c)
theorem W11_arg6 : W11 m c main_arg6 = arg6 m c := (W11_of m c main_arg6 (by decide)).trans (W10_arg6 m c)
theorem W12_arg6 : W12 m c main_arg6 = arg6 m c := (W12_of m c main_arg6 (by decide)).trans (W11_arg6 m c)
theorem W13_arg6 : W13 m c main_arg6 = arg6 m c := (W13_of m c main_arg6 (by decide)).trans (W12_arg6 m c)
theorem W14_arg6 : W14 m c main_arg6 = arg6 m c := (W14_of m c main_arg6 (by decide)).trans (W13_arg6 m c)
theorem W15_arg6 : W15 m c main_arg6 = arg6 m c := (W15_of m c main_arg6 (by decide)).trans (W14_arg6 m c)
theorem W16_arg6 : W16 m c main_arg6 = arg6 m c := (W16_of m c main_arg6 (by decide)).trans (W15_arg6 m c)
theorem W1_arg3 : W1 m c main_arg3 = arg3 m c := (W1_of m c main_arg3 (by decide)).trans (rfl)
theorem W2_arg3 : W2 m c main_arg3 = arg3 m c := (W2_of m c main_arg3 (by decide)).trans (W1_arg3 m c)
theorem W3_arg3 : W3 m c main_arg3 = arg3 m c := (W3_of m c main_arg3 (by decide)).trans (W2_arg3 m c)
theorem W4_arg3 : W4 m c main_arg3 = arg3 m c := (W4_of m c main_arg3 (by decide)).trans (W3_arg3 m c)
theorem W5_arg3 : W5 m c main_arg3 = arg3 m c := (W5_of m c main_arg3 (by decide)).trans (W4_arg3 m c)
theorem W6_arg3 : W6 m c main_arg3 = arg3 m c := (W6_of m c main_arg3 (by decide)).trans (W5_arg3 m c)
theorem W7_arg3 : W7 m c main_arg3 = arg3 m c := (W7_of m c main_arg3 (by decide)).trans (W6_arg3 m c)
theorem W8_arg3 : W8 m c main_arg3 = arg3 m c := (W8_of m c main_arg3 (by decide)).trans (W7_arg3 m c)
theorem W9_arg3 : W9 m c main_arg3 = arg3 m c := (W9_of m c main_arg3 (by decide)).trans (W8_arg3 m c)
theorem W10_arg3 : W10 m c main_arg3 = arg3 m c := (W10_of m c main_arg3 (by decide)).trans (W9_arg3 m c)
theorem W11_arg3 : W11 m c main_arg3 = arg3 m c := (W11_of m c main_arg3 (by decide)).trans (W10_arg3 m c)
theorem W12_arg3 : W12 m c main_arg3 = arg3 m c := (W12_of m c main_arg3 (by decide)).trans (W11_arg3 m c)
theorem W13_arg3 : W13 m c main_arg3 = arg3 m c := (W13_of m c main_arg3 (by decide)).trans (W12_arg3 m c)
theorem W14_arg3 : W14 m c main_arg3 = arg3 m c := (W14_of m c main_arg3 (by decide)).trans (W13_arg3 m c)
theorem W15_arg3 : W15 m c main_arg3 = arg3 m c := (W15_of m c main_arg3 (by decide)).trans (W14_arg3 m c)
theorem W16_arg3 : W16 m c main_arg3 = arg3 m c := (W16_of m c main_arg3 (by decide)).trans (W15_arg3 m c)
theorem W17_arg3 : W17 m c main_arg3 = arg3 m c := (W17_of m c main_arg3 (by decide)).trans (W16_arg3 m c)
theorem W18_arg3 : W18 m c main_arg3 = arg3 m c := (W18_of m c main_arg3 (by decide)).trans (W17_arg3 m c)
theorem W1_arg8 : W1 m c main_arg8 = arg8 m c := (W1_of m c main_arg8 (by decide)).trans (rfl)
theorem W2_arg8 : W2 m c main_arg8 = arg8 m c := (W2_of m c main_arg8 (by decide)).trans (W1_arg8 m c)
theorem W3_arg8 : W3 m c main_arg8 = arg8 m c := (W3_of m c main_arg8 (by decide)).trans (W2_arg8 m c)
theorem W4_arg8 : W4 m c main_arg8 = arg8 m c := (W4_of m c main_arg8 (by decide)).trans (W3_arg8 m c)
theorem W5_arg8 : W5 m c main_arg8 = arg8 m c := (W5_of m c main_arg8 (by decide)).trans (W4_arg8 m c)
theorem W6_arg8 : W6 m c main_arg8 = arg8 m c := (W6_of m c main_arg8 (by decide)).trans (W5_arg8 m c)
theorem W7_arg8 : W7 m c main_arg8 = arg8 m c := (W7_of m c main_arg8 (by decide)).trans (W6_arg8 m c)
theorem W8_arg8 : W8 m c main_arg8 = arg8 m c := (W8_of m c main_arg8 (by decide)).trans (W7_arg8 m c)
theorem W9_arg8 : W9 m c main_arg8 = arg8 m c := (W9_of m c main_arg8 (by decide)).trans (W8_arg8 m c)
theorem W10_arg8 : W10 m c main_arg8 = arg8 m c := (W10_of m c main_arg8 (by decide)).trans (W9_arg8 m c)
theorem W11_arg8 : W11 m c main_arg8 = arg8 m c := (W11_of m c main_arg8 (by decide)).trans (W10_arg8 m c)
theorem W12_arg8 : W12 m c main_arg8 = arg8 m c := (W12_of m c main_arg8 (by decide)).trans (W11_arg8 m c)
theorem W13_arg8 : W13 m c main_arg8 = arg8 m c := (W13_of m c main_arg8 (by decide)).trans (W12_arg8 m c)
theorem W14_arg8 : W14 m c main_arg8 = arg8 m c := (W14_of m c main_arg8 (by decide)).trans (W13_arg8 m c)
theorem W15_arg8 : W15 m c main_arg8 = arg8 m c := (W15_of m c main_arg8 (by decide)).trans (W14_arg8 m c)
theorem W16_arg8 : W16 m c main_arg8 = arg8 m c := (W16_of m c main_arg8 (by decide)).trans (W15_arg8 m c)
theorem W17_arg8 : W17 m c main_arg8 = arg8 m c := (W17_of m c main_arg8 (by decide)).trans (W16_arg8 m c)
theorem W18_arg8 : W18 m c main_arg8 = arg8 m c := (W18_of m c main_arg8 (by decide)).trans (W17_arg8 m c)
theorem W1_arg7 : W1 m c main_arg7 = arg7 m c := (W1_of m c main_arg7 (by decide)).trans (rfl)
theorem W2_arg7 : W2 m c main_arg7 = arg7 m c := (W2_of m c main_arg7 (by decide)).trans (W1_arg7 m c)
theorem W3_arg7 : W3 m c main_arg7 = arg7 m c := (W3_of m c main_arg7 (by decide)).trans (W2_arg7 m c)
theorem W4_arg7 : W4 m c main_arg7 = arg7 m c := (W4_of m c main_arg7 (by decide)).trans (W3_arg7 m c)
theorem W5_arg7 : W5 m c main_arg7 = arg7 m c := (W5_of m c main_arg7 (by decide)).trans (W4_arg7 m c)
theorem W6_arg7 : W6 m c main_arg7 = arg7 m c := (W6_of m c main_arg7 (by decide)).trans (W5_arg7 m c)
theorem W7_arg7 : W7 m c main_arg7 = arg7 m c := (W7_of m c main_arg7 (by decide)).trans (W6_arg7 m c)
theorem W8_arg7 : W8 m c main_arg7 = arg7 m c := (W8_of m c main_arg7 (by decide)).trans (W7_arg7 m c)
theorem W9_arg7 : W9 m c main_arg7 = arg7 m c := (W9_of m c main_arg7 (by decide)).trans (W8_arg7 m c)
theorem W10_arg7 : W10 m c main_arg7 = arg7 m c := (W10_of m c main_arg7 (by decide)).trans (W9_arg7 m c)
theorem W11_arg7 : W11 m c main_arg7 = arg7 m c := (W11_of m c main_arg7 (by decide)).trans (W10_arg7 m c)
theorem W12_arg7 : W12 m c main_arg7 = arg7 m c := (W12_of m c main_arg7 (by decide)).trans (W11_arg7 m c)
theorem W13_arg7 : W13 m c main_arg7 = arg7 m c := (W13_of m c main_arg7 (by decide)).trans (W12_arg7 m c)
theorem W14_arg7 : W14 m c main_arg7 = arg7 m c := (W14_of m c main_arg7 (by decide)).trans (W13_arg7 m c)
theorem W15_arg7 : W15 m c main_arg7 = arg7 m c := (W15_of m c main_arg7 (by decide)).trans (W14_arg7 m c)
theorem W16_arg7 : W16 m c main_arg7 = arg7 m c := (W16_of m c main_arg7 (by decide)).trans (W15_arg7 m c)
theorem W17_arg7 : W17 m c main_arg7 = arg7 m c := (W17_of m c main_arg7 (by decide)).trans (W16_arg7 m c)
theorem W18_arg7 : W18 m c main_arg7 = arg7 m c := (W18_of m c main_arg7 (by decide)).trans (W17_arg7 m c)
theorem W19_arg7 : W19 m c main_arg7 = arg7 m c := (W19_of m c main_arg7 (by decide)).trans (W18_arg7 m c)

/-- The input features and the input projection's weight at region 0's entry. -/
theorem W1_arg0 : W1 m c main_arg0 = arg0 m c := (W1_of m c main_arg0 (by decide)).trans rfl
theorem W1_arg4 : W1 m c main_arg4 = arg4 m c := (W1_of m c main_arg4 (by decide)).trans rfl

/-- Stretch 0's results: the sources, the destinations, the input projection's bias as a row. -/
theorem W1_v1 : W1 m c main_v1 = src m c := HostRead.src0 (W0 m c)
theorem W1_v3 : W1 m c main_v3 = dst m c := HostRead.dst0 (W0 m c)
theorem W1_v4 : W1 m c main_v4 = shapeCast S1x64 (arg5 m c) shapeCasts_S64_S1x64 := HostRead.bias0 (W0 m c)
theorem W2_v1 : W2 m c main_v1 = src m c := (W2_of m c main_v1 (by decide)).trans (W1_v1 m c)
theorem W3_v1 : W3 m c main_v1 = src m c := (W3_of m c main_v1 (by decide)).trans (W2_v1 m c)
theorem W4_v1 : W4 m c main_v1 = src m c := (W4_of m c main_v1 (by decide)).trans (W3_v1 m c)
theorem W5_v1 : W5 m c main_v1 = src m c := (W5_of m c main_v1 (by decide)).trans (W4_v1 m c)
theorem W6_v1 : W6 m c main_v1 = src m c := (W6_of m c main_v1 (by decide)).trans (W5_v1 m c)
theorem W7_v1 : W7 m c main_v1 = src m c := (W7_of m c main_v1 (by decide)).trans (W6_v1 m c)
theorem W8_v1 : W8 m c main_v1 = src m c := (W8_of m c main_v1 (by decide)).trans (W7_v1 m c)
theorem W9_v1 : W9 m c main_v1 = src m c := (W9_of m c main_v1 (by decide)).trans (W8_v1 m c)
theorem W10_v1 : W10 m c main_v1 = src m c := (W10_of m c main_v1 (by decide)).trans (W9_v1 m c)
theorem W11_v1 : W11 m c main_v1 = src m c := (W11_of m c main_v1 (by decide)).trans (W10_v1 m c)
theorem W12_v1 : W12 m c main_v1 = src m c := (W12_of m c main_v1 (by decide)).trans (W11_v1 m c)
theorem W13_v1 : W13 m c main_v1 = src m c := (W13_of m c main_v1 (by decide)).trans (W12_v1 m c)
theorem W14_v1 : W14 m c main_v1 = src m c := (W14_of m c main_v1 (by decide)).trans (W13_v1 m c)
theorem W15_v1 : W15 m c main_v1 = src m c := (W15_of m c main_v1 (by decide)).trans (W14_v1 m c)
theorem W16_v1 : W16 m c main_v1 = src m c := (W16_of m c main_v1 (by decide)).trans (W15_v1 m c)
theorem W2_v3 : W2 m c main_v3 = dst m c := (W2_of m c main_v3 (by decide)).trans (W1_v3 m c)
theorem W3_v3 : W3 m c main_v3 = dst m c := (W3_of m c main_v3 (by decide)).trans (W2_v3 m c)
theorem W4_v3 : W4 m c main_v3 = dst m c := (W4_of m c main_v3 (by decide)).trans (W3_v3 m c)
theorem W5_v3 : W5 m c main_v3 = dst m c := (W5_of m c main_v3 (by decide)).trans (W4_v3 m c)
theorem W6_v3 : W6 m c main_v3 = dst m c := (W6_of m c main_v3 (by decide)).trans (W5_v3 m c)
theorem W7_v3 : W7 m c main_v3 = dst m c := (W7_of m c main_v3 (by decide)).trans (W6_v3 m c)
theorem W8_v3 : W8 m c main_v3 = dst m c := (W8_of m c main_v3 (by decide)).trans (W7_v3 m c)
theorem W9_v3 : W9 m c main_v3 = dst m c := (W9_of m c main_v3 (by decide)).trans (W8_v3 m c)
theorem W10_v3 : W10 m c main_v3 = dst m c := (W10_of m c main_v3 (by decide)).trans (W9_v3 m c)
theorem W11_v3 : W11 m c main_v3 = dst m c := (W11_of m c main_v3 (by decide)).trans (W10_v3 m c)
theorem W12_v3 : W12 m c main_v3 = dst m c := (W12_of m c main_v3 (by decide)).trans (W11_v3 m c)
theorem W13_v3 : W13 m c main_v3 = dst m c := (W13_of m c main_v3 (by decide)).trans (W12_v3 m c)
theorem W14_v3 : W14 m c main_v3 = dst m c := (W14_of m c main_v3 (by decide)).trans (W13_v3 m c)
theorem W15_v3 : W15 m c main_v3 = dst m c := (W15_of m c main_v3 (by decide)).trans (W14_v3 m c)
theorem W16_v3 : W16 m c main_v3 = dst m c := (W16_of m c main_v3 (by decide)).trans (W15_v3 m c)

/-! ## Region 0: the input projection -/

theorem X0_eq : X0 m c = feat0 m c := by
  unfold X0 feat0
  rw [arr0_eq (U1 m) qWhole c (arg5 m c) (W1_v4 m c)]
  rw [show U1 m c main_arg0 = arg0 m c from W1_arg0 m c, show U1 m c main_arg4 = arg4 m c from W1_arg4 m c]

/-- The initial features stay in region 0's output array to the last layer. -/
theorem W2_v5 : W2 m c main_v5 = feat0 m c := (W2_out m c).trans (X0_eq m c)
theorem W3_v5 : W3 m c main_v5 = feat0 m c := (W3_of m c main_v5 (by decide)).trans (W2_v5 m c)
theorem W4_v5 : W4 m c main_v5 = feat0 m c := (W4_of m c main_v5 (by decide)).trans (W3_v5 m c)
theorem W5_v5 : W5 m c main_v5 = feat0 m c := (W5_of m c main_v5 (by decide)).trans (W4_v5 m c)
theorem W6_v5 : W6 m c main_v5 = feat0 m c := (W6_of m c main_v5 (by decide)).trans (W5_v5 m c)
theorem W7_v5 : W7 m c main_v5 = feat0 m c := (W7_of m c main_v5 (by decide)).trans (W6_v5 m c)
theorem W8_v5 : W8 m c main_v5 = feat0 m c := (W8_of m c main_v5 (by decide)).trans (W7_v5 m c)
theorem W9_v5 : W9 m c main_v5 = feat0 m c := (W9_of m c main_v5 (by decide)).trans (W8_v5 m c)
theorem W10_v5 : W10 m c main_v5 = feat0 m c := (W10_of m c main_v5 (by decide)).trans (W9_v5 m c)
theorem W11_v5 : W11 m c main_v5 = feat0 m c := (W11_of m c main_v5 (by decide)).trans (W10_v5 m c)
theorem W12_v5 : W12 m c main_v5 = feat0 m c := (W12_of m c main_v5 (by decide)).trans (W11_v5 m c)
theorem W13_v5 : W13 m c main_v5 = feat0 m c := (W13_of m c main_v5 (by decide)).trans (W12_v5 m c)
theorem W14_v5 : W14 m c main_v5 = feat0 m c := (W14_of m c main_v5 (by decide)).trans (W13_v5 m c)
theorem W15_v5 : W15 m c main_v5 = feat0 m c := (W15_of m c main_v5 (by decide)).trans (W14_v5 m c)
theorem W16_v5 : W16 m c main_v5 = feat0 m c := (W16_of m c main_v5 (by decide)).trans (W15_v5 m c)
theorem W17_v5 : W17 m c main_v5 = feat0 m c := (W17_of m c main_v5 (by decide)).trans (W16_v5 m c)

/-! ## Region 1: layer 1 -/

theorem agg1_eq : U3 m c main_v18 = Cert.Spec.msg (arg2 m c) (src m c) (dst m c) (feat0 m c) := by
  show StableHlo.after hostOps1 (W2 m c) (Proc.devRef .tc main_v18) = _
  rw [HostRead.agg1 (W2 m c)]
  rw [show W2 m c (Proc.devRef .tc main_arg2) = arg2 m c from W2_arg2 m c,
    show W2 m c (Proc.devRef .tc main_v1) = src m c from W2_v1 m c,
    show W2 m c (Proc.devRef .tc main_v3) = dst m c from W2_v3 m c,
    show W2 m c (Proc.devRef .tc main_v5) = feat0 m c from W2_v5 m c]

theorem wgt1_eq : U3 m c main_v20 = Cert.Spec.weight0 (arg6 m c) := by
  show StableHlo.after hostOps1 (W2 m c) (Proc.devRef .tc main_v20) = _
  rw [HostRead.weight1 (W2 m c)]
  rw [show W2 m c (Proc.devRef .tc main_arg6) = arg6 m c from W2_arg6 m c]

theorem X1_eq : X1 m c = feat1 m c := by
  unfold X1
  rw [arr1_eq (U3 m) qFirst c]
  exact dense_congr _ _ (agg1_eq m c) (W3_v5 m c) (W3_v5 m c) (wgt1_eq m c)

/-! ## Region 2: layer 2 -/

/-- Layer 1's features in region 1's output array, after the region and across stretch 2. -/
theorem W4_h : W4 m c main_v21 = feat1 m c := (W4_out m c).trans (X1_eq m c)
theorem W5_h : W5 m c main_v21 = feat1 m c := (W5_of m c main_v21 (by decide)).trans (W4_h m c)

theorem agg2_eq : U5 m c main_v34 = Cert.Spec.msg (arg2 m c) (src m c) (dst m c) (feat1 m c) := by
  show StableHlo.after hostOps2 (W4 m c) (Proc.devRef .tc main_v34) = _
  rw [HostRead.agg2 (W4 m c)]
  rw [show W4 m c (Proc.devRef .tc main_arg2) = arg2 m c from W4_arg2 m c,
    show W4 m c (Proc.devRef .tc main_v1) = src m c from W4_v1 m c,
    show W4 m c (Proc.devRef .tc main_v3) = dst m c from W4_v3 m c,
    show W4 m c (Proc.devRef .tc main_v21) = feat1 m c from W4_h m c]

theorem wgt2_eq : U5 m c main_v36 = Cert.Spec.weight1 (arg6 m c) := by
  show StableHlo.after hostOps2 (W4 m c) (Proc.devRef .tc main_v36) = _
  rw [HostRead.weight2 (W4 m c)]
  rw [show W4 m c (Proc.devRef .tc main_arg6) = arg6 m c from W4_arg6 m c]

theorem X2_eq : X2 m c = feat2 m c := by
  unfold X2
  rw [arr2_eq (U5 m) qWhole c]
  exact dense_congr _ _ (agg2_eq m c) (W5_v5 m c) (W5_h m c) (wgt2_eq m c)

/-! ## Region 3: layer 3 -/

/-- Layer 2's features in region 2's output array, after the region and across stretch 3. -/
theorem W6_h : W6 m c main_v37 = feat2 m c := (W6_out m c).trans (X2_eq m c)
theorem W7_h : W7 m c main_v37 = feat2 m c := (W7_of m c main_v37 (by decide)).trans (W6_h m c)

theorem agg3_eq : U7 m c main_v50 = Cert.Spec.msg (arg2 m c) (src m c) (dst m c) (feat2 m c) := by
  show StableHlo.after hostOps3 (W6 m c) (Proc.devRef .tc main_v50) = _
  rw [HostRead.agg3 (W6 m c)]
  rw [show W6 m c (Proc.devRef .tc main_arg2) = arg2 m c from W6_arg2 m c,
    show W6 m c (Proc.devRef .tc main_v1) = src m c from W6_v1 m c,
    show W6 m c (Proc.devRef .tc main_v3) = dst m c from W6_v3 m c,
    show W6 m c (Proc.devRef .tc main_v37) = feat2 m c from W6_h m c]

theorem wgt3_eq : U7 m c main_v52 = Cert.Spec.weight2 (arg6 m c) := by
  show StableHlo.after hostOps3 (W6 m c) (Proc.devRef .tc main_v52) = _
  rw [HostRead.weight3 (W6 m c)]
  rw [show W6 m c (Proc.devRef .tc main_arg6) = arg6 m c from W6_arg6 m c]

theorem X3_eq : X3 m c = feat3 m c := by
  unfold X3
  rw [arr3_eq (U7 m) qWhole c]
  exact dense_congr _ _ (agg3_eq m c) (W7_v5 m c) (W7_h m c) (wgt3_eq m c)

/-! ## Region 4: layer 4 -/

/-- Layer 3's features in region 3's output array, after the region and across stretch 4. -/
theorem W8_h : W8 m c main_v53 = feat3 m c := (W8_out m c).trans (X3_eq m c)
theorem W9_h : W9 m c main_v53 = feat3 m c := (W9_of m c main_v53 (by decide)).trans (W8_h m c)

theorem agg4_eq : U9 m c main_v66 = Cert.Spec.msg (arg2 m c) (src m c) (dst m c) (feat3 m c) := by
  show StableHlo.after hostOps4 (W8 m c) (Proc.devRef .tc main_v66) = _
  rw [HostRead.agg4 (W8 m c)]
  rw [show W8 m c (Proc.devRef .tc main_arg2) = arg2 m c from W8_arg2 m c,
    show W8 m c (Proc.devRef .tc main_v1) = src m c from W8_v1 m c,
    show W8 m c (Proc.devRef .tc main_v3) = dst m c from W8_v3 m c,
    show W8 m c (Proc.devRef .tc main_v53) = feat3 m c from W8_h m c]

theorem wgt4_eq : U9 m c main_v68 = Cert.Spec.weight3 (arg6 m c) := by
  show StableHlo.after hostOps4 (W8 m c) (Proc.devRef .tc main_v68) = _
  rw [HostRead.weight4 (W8 m c)]
  rw [show W8 m c (Proc.devRef .tc main_arg6) = arg6 m c from W8_arg6 m c]

theorem X4_eq : X4 m c = feat4 m c := by
  unfold X4
  rw [arr4_eq (U9 m) qWhole c]
  exact dense_congr _ _ (agg4_eq m c) (W9_v5 m c) (W9_h m c) (wgt4_eq m c)

/-! ## Region 5: layer 5 -/

/-- Layer 4's features in region 4's output array, after the region and across stretch 5. -/
theorem W10_h : W10 m c main_v69 = feat4 m c := (W10_out m c).trans (X4_eq m c)
theorem W11_h : W11 m c main_v69 = feat4 m c := (W11_of m c main_v69 (by decide)).trans (W10_h m c)

theorem agg5_eq : U11 m c main_v82 = Cert.Spec.msg (arg2 m c) (src m c) (dst m c) (feat4 m c) := by
  show StableHlo.after hostOps5 (W10 m c) (Proc.devRef .tc main_v82) = _
  rw [HostRead.agg5 (W10 m c)]
  rw [show W10 m c (Proc.devRef .tc main_arg2) = arg2 m c from W10_arg2 m c,
    show W10 m c (Proc.devRef .tc main_v1) = src m c from W10_v1 m c,
    show W10 m c (Proc.devRef .tc main_v3) = dst m c from W10_v3 m c,
    show W10 m c (Proc.devRef .tc main_v69) = feat4 m c from W10_h m c]

theorem wgt5_eq : U11 m c main_v84 = Cert.Spec.weight4 (arg6 m c) := by
  show StableHlo.after hostOps5 (W10 m c) (Proc.devRef .tc main_v84) = _
  rw [HostRead.weight5 (W10 m c)]
  rw [show W10 m c (Proc.devRef .tc main_arg6) = arg6 m c from W10_arg6 m c]

theorem X5_eq : X5 m c = feat5 m c := by
  unfold X5
  rw [arr5_eq (U11 m) qWhole c]
  exact dense_congr _ _ (agg5_eq m c) (W11_v5 m c) (W11_h m c) (wgt5_eq m c)

/-! ## Region 6: layer 6 -/

/-- Layer 5's features in region 5's output array, after the region and across stretch 6. -/
theorem W12_h : W12 m c main_v85 = feat5 m c := (W12_out m c).trans (X5_eq m c)
theorem W13_h : W13 m c main_v85 = feat5 m c := (W13_of m c main_v85 (by decide)).trans (W12_h m c)

theorem agg6_eq : U13 m c main_v98 = Cert.Spec.msg (arg2 m c) (src m c) (dst m c) (feat5 m c) := by
  show StableHlo.after hostOps6 (W12 m c) (Proc.devRef .tc main_v98) = _
  rw [HostRead.agg6 (W12 m c)]
  rw [show W12 m c (Proc.devRef .tc main_arg2) = arg2 m c from W12_arg2 m c,
    show W12 m c (Proc.devRef .tc main_v1) = src m c from W12_v1 m c,
    show W12 m c (Proc.devRef .tc main_v3) = dst m c from W12_v3 m c,
    show W12 m c (Proc.devRef .tc main_v85) = feat5 m c from W12_h m c]

theorem wgt6_eq : U13 m c main_v100 = Cert.Spec.weight5 (arg6 m c) := by
  show StableHlo.after hostOps6 (W12 m c) (Proc.devRef .tc main_v100) = _
  rw [HostRead.weight6 (W12 m c)]
  rw [show W12 m c (Proc.devRef .tc main_arg6) = arg6 m c from W12_arg6 m c]

theorem X6_eq : X6 m c = feat6 m c := by
  unfold X6
  rw [arr6_eq (U13 m) qWhole c]
  exact dense_congr _ _ (agg6_eq m c) (W13_v5 m c) (W13_h m c) (wgt6_eq m c)

/-! ## Region 7: layer 7 -/

/-- Layer 6's features in region 6's output array, after the region and across stretch 7. -/
theorem W14_h : W14 m c main_v101 = feat6 m c := (W14_out m c).trans (X6_eq m c)
theorem W15_h : W15 m c main_v101 = feat6 m c := (W15_of m c main_v101 (by decide)).trans (W14_h m c)

theorem agg7_eq : U15 m c main_v114 = Cert.Spec.msg (arg2 m c) (src m c) (dst m c) (feat6 m c) := by
  show StableHlo.after hostOps7 (W14 m c) (Proc.devRef .tc main_v114) = _
  rw [HostRead.agg7 (W14 m c)]
  rw [show W14 m c (Proc.devRef .tc main_arg2) = arg2 m c from W14_arg2 m c,
    show W14 m c (Proc.devRef .tc main_v1) = src m c from W14_v1 m c,
    show W14 m c (Proc.devRef .tc main_v3) = dst m c from W14_v3 m c,
    show W14 m c (Proc.devRef .tc main_v101) = feat6 m c from W14_h m c]

theorem wgt7_eq : U15 m c main_v116 = Cert.Spec.weight6 (arg6 m c) := by
  show StableHlo.after hostOps7 (W14 m c) (Proc.devRef .tc main_v116) = _
  rw [HostRead.weight7 (W14 m c)]
  rw [show W14 m c (Proc.devRef .tc main_arg6) = arg6 m c from W14_arg6 m c]

theorem X7_eq : X7 m c = feat7 m c := by
  unfold X7
  rw [arr7_eq (U15 m) qWhole c]
  exact dense_congr _ _ (agg7_eq m c) (W15_v5 m c) (W15_h m c) (wgt7_eq m c)

/-! ## Region 8: layer 8 -/

/-- Layer 7's features in region 7's output array, after the region and across stretch 8. -/
theorem W16_h : W16 m c main_v117 = feat7 m c := (W16_out m c).trans (X7_eq m c)
theorem W17_h : W17 m c main_v117 = feat7 m c := (W17_of m c main_v117 (by decide)).trans (W16_h m c)

theorem agg8_eq : U17 m c main_v130 = Cert.Spec.msg (arg2 m c) (src m c) (dst m c) (feat7 m c) := by
  show StableHlo.after hostOps8 (W16 m c) (Proc.devRef .tc main_v130) = _
  rw [HostRead.agg8 (W16 m c)]
  rw [show W16 m c (Proc.devRef .tc main_arg2) = arg2 m c from W16_arg2 m c,
    show W16 m c (Proc.devRef .tc main_v1) = src m c from W16_v1 m c,
    show W16 m c (Proc.devRef .tc main_v3) = dst m c from W16_v3 m c,
    show W16 m c (Proc.devRef .tc main_v117) = feat7 m c from W16_h m c]

theorem wgt8_eq : U17 m c main_v132 = Cert.Spec.weight7 (arg6 m c) := by
  show StableHlo.after hostOps8 (W16 m c) (Proc.devRef .tc main_v132) = _
  rw [HostRead.weight8 (W16 m c)]
  rw [show W16 m c (Proc.devRef .tc main_arg6) = arg6 m c from W16_arg6 m c]

theorem X8_eq : X8 m c = feat8 m c := by
  unfold X8
  rw [arr8_eq (U17 m) qWhole c]
  exact dense_congr _ _ (agg8_eq m c) (W17_v5 m c) (W17_h m c) (wgt8_eq m c)

/-! ## Region 9: the mean over each graph and the output projection -/

theorem W18_h : W18 m c main_v133 = feat8 m c := (W18_out m c).trans (X8_eq m c)

theorem pool9_eq : U19 m c main_v145 = Cert.Spec.pool (arg3 m c) (feat8 m c) := by
  show StableHlo.after hostOps9 (W18 m c) (Proc.devRef .tc main_v145) = _
  rw [HostRead.pool9 (W18 m c)]
  rw [show W18 m c (Proc.devRef .tc main_arg3) = arg3 m c from W18_arg3 m c,
    show W18 m c (Proc.devRef .tc main_v133) = feat8 m c from W18_h m c]

theorem bias9_eq : U19 m c main_v146 = shapeCast S1x32 (arg8 m c) shapeCasts_S32_S1x32 := by
  show StableHlo.after hostOps9 (W18 m c) (Proc.devRef .tc main_v146) = _
  rw [HostRead.bias9 (W18 m c)]
  rw [show W18 m c (Proc.devRef .tc main_arg8) = arg8 m c from W18_arg8 m c]

theorem X9_eq : X9 m c = Cert.Spec.projOut (Cert.Spec.pool (arg3 m c) (feat8 m c)) (arg7 m c) (arg8 m c) := by
  unfold X9
  rw [arr9_eq (U19 m) qWhole c (arg8 m c) (bias9_eq m c)]
  rw [pool9_eq m c, show U19 m c main_arg7 = arg7 m c from W19_arg7 m c]

end KV

/-! ## The whole program -/

/-- The result array at the end of @main holds the whole network of the arguments' launch contents. -/
theorem kernel_value (m : (ℓ : Loc nD τ sig) → Buf (Elt Ideal) ℓ) (c : Dev nD) :
    W20 (F := Ideal) m c main_v147
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W20_out, KV.X9_eq]
  rfl

end Cert.KernelIdeal.Hand

end
-- ==== Proof.lean ====
/- The two programs are one network: an input projection, eight rounds of message passing each followed by a dense update
   of every node's features, a mean over each graph's nodes, an output projection. The kernel program runs the dense steps
   as ten tiled kernels (blocks of 5000 nodes; a block of rows of a matrix product is the product of that block of rows) and
   the reference runs them as whole-array host operations; on the extended reals the two are the same function of the
   arguments, with no finiteness needed: only sums and products of the same terms in the same order are compared.

   * The frames of the kernel program, word-level and idealized: @main is twenty items — ten host stretches and ten kernel
     regions —, each region entered with every unscoped buffer at a definite array and left with its one output array
     replaced by what its grid points write back (Proof/FrameBits, Proof/FrameIdeal). Region 1 reads the initial
     features through two windows; they share that array's points-to, half each.
   * The idealization rewrote nothing, so `preserves` is `True`.
   * The reference's run, operation by operation (Proof/RefRun), ends at the specification `Cert.Spec.out` of the arguments.
   * The kernel program's result is the same specification (Proof/ValueIdeal): every host stretch is the specification's
     stage of the contents before it, every region's output array is the specification's projection or dense update. -/
import proofs.«108571_j70514773065745_1_alg».proof.Defs
import proofs.«108571_j70514773065745_1_alg».proof.Proof.Gen.Kernel
import proofs.«108571_j70514773065745_1_alg».proof.Proof.Gen.KernelIdeal
import proofs.«108571_j70514773065745_1_alg».proof.Proof.Gen.ReferenceIdeal
import proofs.«108571_j70514773065745_1_alg».proof.Proof.Gen.Pre_finite_inputs
import proofs.«108571_j70514773065745_1_alg».proof.Proof.FrameBits.Frame
import proofs.«108571_j70514773065745_1_alg».proof.Proof.FrameBits.Seg1
import proofs.«108571_j70514773065745_1_alg».proof.Proof.FrameIdeal.Frame
import proofs.«108571_j70514773065745_1_alg».proof.Proof.FrameIdeal.Seg1
import proofs.«108571_j70514773065745_1_alg».proof.Proof.RefRun.Value
import proofs.«108571_j70514773065745_1_alg».proof.Proof.ValueIdeal.KernelValue
import Idealize.ShloMosaic.Adequacy
import Idealize.ShloMosaic.Init

noncomputable section

namespace Cert.Proof

open Idealize.ShloMosaic Idealize.SL.Sem

/-- The word-level program runs to the end, faults nowhere and leaves its arguments as launched. -/
theorem frame_k : @Cert.frame_Kernel Cert.Kernel.Gen.facts Cert.Pre_finite_inputs.Gen.facts := fun m ρ _ =>
  Cert.Kernel.Hand.frame_of m ρ (Cert.Kernel.Hand.reg1 m) (fun _ => .rfl) (fun _ => .rfl)

/-- So does the idealized program. -/
theorem frame_ki : @Cert.frame_KernelIdeal Cert.KernelIdeal.Gen.facts Cert.Pre_finite_inputs.Gen.facts := fun m ρ _ =>
  Cert.KernelIdeal.Hand.frame_of m ρ (Cert.KernelIdeal.Hand.reg1 m) (fun _ => .rfl) (fun _ => .rfl)

/-- And the reference: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Hand.run m ρ)

/-- The ideal pass rewrote no operation. -/
theorem preserves : Cert.preserves_Kernel_KernelIdeal := trivial

/-- From memories agreeing on the arguments both idealized programs end with the result at the network's value of the
    arguments: the kernel program's last region leaves it there, the reference's last operation writes it. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.kernel_value m c), (h c).2⟩)
      (Cert.KernelIdeal.Hand.result_of m ρ (Cert.KernelIdeal.Hand.reg1 m) (fun _ => .rfl) (fun _ => .rfl))
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
